-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8000x300 : Shape := ⟨2, ![8000, 300]⟩
abbrev S8000x1 : Shape := ⟨2, ![8000, 1]⟩
abbrev S2000000x1 : Shape := ⟨2, ![2000000, 1]⟩
abbrev S300 : Shape := ⟨1, ![300]⟩
abbrev S300x54 : Shape := ⟨2, ![300, 54]⟩
abbrev S54 : Shape := ⟨1, ![54]⟩
abbrev S128x300 : Shape := ⟨2, ![128, 300]⟩
abbrev S8000x8000 : Shape := ⟨2, ![8000, 8000]⟩
abbrev S_ : Shape := ⟨0, ![]⟩

class Facts : Prop where
  bcast_S_S8000x300 : S_.BroadcastsInDim S8000x300 (![] : Fin 0 → Fin S8000x300.rank)
  reducesTo_S8000x300_S_d0_1 : S8000x300.ReducesTo [0, 1] S_
  h_S_ : 0 < S_.numel
  bcast_S_S8000x1 : S_.BroadcastsInDim S8000x1 (![] : Fin 0 → Fin S8000x1.rank)
  reducesTo_S8000x1_S_d0_1 : S8000x1.ReducesTo [0, 1] S_
  bcast_S_S2000000x1 : S_.BroadcastsInDim S2000000x1 (![] : Fin 0 → Fin S2000000x1.rank)
  reducesTo_S2000000x1_S_d0_1 : S2000000x1.ReducesTo [0, 1] S_
  bcast_S_S300 : S_.BroadcastsInDim S300 (![] : Fin 0 → Fin S300.rank)
  reducesTo_S300_S_d0 : S300.ReducesTo [0] S_
  bcast_S_S300x54 : S_.BroadcastsInDim S300x54 (![] : Fin 0 → Fin S300x54.rank)
  reducesTo_S300x54_S_d0_1 : S300x54.ReducesTo [0, 1] S_
  bcast_S_S54 : S_.BroadcastsInDim S54 (![] : Fin 0 → Fin S54.rank)
  reducesTo_S54_S_d0 : S54.ReducesTo [0] S_

variable [Facts]

def fn_part1 {F : FTy → Type} [FloatOps F] (main_arg4 : FVec F S300 .f32) (main_arg5 : FVec F S300x54 .f32) (main_arg6 : FVec F S54 .f32) (main_v13 : IVec S_ 1) (main_v16 : IVec S300 1) : IVec S_ 1 :=
  let main_c_5 : IVec S_ 1 := constantI S_ 1 1#1
  let main_v17 : IVec S_ 1 := (fun x v => Host.reduce IntOp.andi x v reducesTo_S300_S_d0 h_S_) main_v16 main_c_5
  let main_v18 : IVec S_ 1 := andi main_v13 main_v17
  let main_v19 : FVec F S300 .f32 := Host.absf main_arg4
  let main_cst_6 : FVec F S_ .f32 := constant S_ .f32 0x7F800000#32
  let main_v20 : FVec F S300 .f32 := broadcastInDim S300 ![] bcast_S_S300 main_cst_6
  let main_v21 : IVec S300 1 := cmpf .olt main_v19 main_v20
  let main_c_7 : IVec S_ 1 := constantI S_ 1 1#1
  let main_v22 : IVec S_ 1 := (fun x v => Host.reduce IntOp.andi x v reducesTo_S300_S_d0 h_S_) main_v21 main_c_7
  let main_v23 : IVec S_ 1 := andi main_v18 main_v22
  let main_v24 : FVec F S300x54 .f32 := Host.absf main_arg5
  let main_cst_8 : FVec F S_ .f32 := constant S_ .f32 0x7F800000#32
  let main_v25 : FVec F S300x54 .f32 := broadcastInDim S300x54 ![] bcast_S_S300x54 main_cst_8
  let main_v26 : IVec S300x54 1 := cmpf .olt main_v24 main_v25
  let main_c_9 : IVec S_ 1 := constantI S_ 1 1#1
  let main_v27 : IVec S_ 1 := (fun x v => Host.reduce IntOp.andi x v reducesTo_S300x54_S_d0_1 h_S_) main_v26 main_c_9
  let main_v28 : IVec S_ 1 := andi main_v23 main_v27
  let main_v29 : FVec F S54 .f32 := Host.absf main_arg6
  let main_cst_10 : FVec F S_ .f32 := constant S_ .f32 0x7F800000#32
  let main_v30 : FVec F S54 .f32 := broadcastInDim S54 ![] bcast_S_S54 main_cst_10
  let main_v31 : IVec S54 1 := cmpf .olt main_v29 main_v30
  let main_c_11 : IVec S_ 1 := constantI S_ 1 1#1
  let main_v32 : IVec S_ 1 := (fun x v => Host.reduce IntOp.andi x v reducesTo_S54_S_d0 h_S_) main_v31 main_c_11
  let main_v33 : IVec S_ 1 := andi main_v28 main_v32
  main_v33

def fn {F : FTy → Type} [FloatOps F] (main_arg0 : FVec F S8000x300 .f32) (main_arg1 : FVec F S8000x1 .f32) (main_arg2 : FVec F S2000000x1 .f32) (main_arg3 : FVec F S300 .f32) (main_arg4 : FVec F S300 .f32) (main_arg5 : FVec F S300x54 .f32) (main_arg6 : FVec F S54 .f32) (main_arg7 : IVec S128x300 32) (main_arg8 : IVec S8000x8000 32) : IVec S_ 1 :=
  let main_v0 : FVec F S8000x300 .f32 := Host.absf main_arg0
  let main_cst : FVec F S_ .f32 := constant S_ .f32 0x7F800000#32
  let main_v1 : FVec F S8000x300 .f32 := broadcastInDim S8000x300 ![] bcast_S_S8000x300 main_cst
  let main_v2 : IVec S8000x300 1 := cmpf .olt main_v0 main_v1
  let main_c : IVec S_ 1 := constantI S_ 1 1#1
  let main_v3 : IVec S_ 1 := (fun x v => Host.reduce IntOp.andi x v reducesTo_S8000x300_S_d0_1 h_S_) main_v2 main_c
  let main_v4 : FVec F S8000x1 .f32 := Host.absf main_arg1
  let main_cst_0 : FVec F S_ .f32 := constant S_ .f32 0x7F800000#32
  let main_v5 : FVec F S8000x1 .f32 := broadcastInDim S8000x1 ![] bcast_S_S8000x1 main_cst_0
  let main_v6 : IVec S8000x1 1 := cmpf .olt main_v4 main_v5
  let main_c_1 : IVec S_ 1 := constantI S_ 1 1#1
  let main_v7 : IVec S_ 1 := (fun x v => Host.reduce IntOp.andi x v reducesTo_S8000x1_S_d0_1 h_S_) main_v6 main_c_1
  let main_v8 : IVec S_ 1 := andi main_v3 main_v7
  let main_v9 : FVec F S2000000x1 .f32 := Host.absf main_arg2
  let main_cst_2 : FVec F S_ .f32 := constant S_ .f32 0x7F800000#32
  let main_v10 : FVec F S2000000x1 .f32 := broadcastInDim S2000000x1 ![] bcast_S_S2000000x1 main_cst_2
  let main_v11 : IVec S2000000x1 1 := cmpf .olt main_v9 main_v10
  let main_c_3 : IVec S_ 1 := constantI S_ 1 1#1
  let main_v12 : IVec S_ 1 := (fun x v => Host.reduce IntOp.andi x v reducesTo_S2000000x1_S_d0_1 h_S_) main_v11 main_c_3
  let main_v13 : IVec S_ 1 := andi main_v8 main_v12
  let main_v14 : FVec F S300 .f32 := Host.absf main_arg3
  let main_cst_4 : FVec F S_ .f32 := constant S_ .f32 0x7F800000#32
  let main_v15 : FVec F S300 .f32 := broadcastInDim S300 ![] bcast_S_S300 main_cst_4
  let main_v16 : IVec S300 1 := cmpf .olt main_v14 main_v15
  fn_part1 (F := F) main_arg4 main_arg5 main_arg6 main_v13 main_v16
-- ==== Kernel.lean ====
abbrev S8000x300 : Shape := ⟨2, ![8000, 300]⟩
abbrev S8000x1 : Shape := ⟨2, ![8000, 1]⟩
abbrev S2000000x1 : Shape := ⟨2, ![2000000, 1]⟩
abbrev S300 : Shape := ⟨1, ![300]⟩
abbrev S300x54 : Shape := ⟨2, ![300, 54]⟩
abbrev S54 : Shape := ⟨1, ![54]⟩
abbrev S128x300 : Shape := ⟨2, ![128, 300]⟩
abbrev S8000x8000 : Shape := ⟨2, ![8000, 8000]⟩
abbrev S7 : Shape := ⟨1, ![7]⟩
abbrev S_ : Shape := ⟨0, ![]⟩
abbrev S300x1 : Shape := ⟨2, ![300, 1]⟩
abbrev S1x7 : Shape := ⟨2, ![1, 7]⟩
abbrev S300x7 : Shape := ⟨2, ![300, 7]⟩
abbrev S300x7x1 : Shape := ⟨3, ![300, 7, 1]⟩
abbrev S128x300x7 : Shape := ⟨3, ![128, 300, 7]⟩
abbrev S128x300x1 : Shape := ⟨3, ![128, 300, 1]⟩
abbrev S128x300x7x1 : Shape := ⟨4, ![128, 300, 7, 1]⟩
abbrev S128x300x7x2 : Shape := ⟨4, ![128, 300, 7, 2]⟩
abbrev S1x300x7 : Shape := ⟨3, ![1, 300, 7]⟩
abbrev S128x300x300 : Shape := ⟨3, ![128, 300, 300]⟩
abbrev S8x300x300 : Shape := ⟨3, ![8, 300, 300]⟩
abbrev S8x300x1 : Shape := ⟨3, ![8, 300, 1]⟩
abbrev S8x300x7 : Shape := ⟨3, ![8, 300, 7]⟩
abbrev S8x300 : Shape := ⟨2, ![8, 300]⟩
abbrev S8x306x300 : Shape := ⟨3, ![8, 306, 300]⟩
abbrev S8x3x300 : Shape := ⟨3, ![8, 3, 300]⟩
abbrev S1x300 : Shape := ⟨2, ![1, 300]⟩
abbrev S128x54 : Shape := ⟨2, ![128, 54]⟩
abbrev S1x54 : Shape := ⟨2, ![1, 54]⟩

abbrev nBuf : Space → Nat
  | .hbm => 161
  | .vmem => 9
  | .smem => 0
  | _ => 0

abbrev hbmTy0_0 (i : Nat) : BufTy := match i % 128 with
  | 0 => ⟨S8000x300, .f32⟩
  | 1 => ⟨S8000x1, .f32⟩
  | 2 => ⟨S2000000x1, .f32⟩
  | 3 => ⟨S300, .f32⟩
  | 4 => ⟨S300, .f32⟩
  | 5 => ⟨S300x54, .f32⟩
  | 6 => ⟨S54, .f32⟩
  | 7 => ⟨S128x300, .i32⟩
  | 8 => ⟨S8000x8000, .i32⟩
  | 9 => ⟨S7, .i32⟩
  | 10 => ⟨S_, .i32⟩
  | 11 => ⟨S7, .i32⟩
  | 12 => ⟨S7, .i32⟩
  | 13 => ⟨S300, .i32⟩
  | 14 => ⟨S300x1, .i32⟩
  | 15 => ⟨S1x7, .i32⟩
  | 16 => ⟨S300x7, .i32⟩
  | 17 => ⟨S300x7, .i32⟩
  | 18 => ⟨S300x7, .i32⟩
  | 19 => ⟨S_, .i32⟩
  | 20 => ⟨S300x7, .i32⟩
  | 21 => ⟨S300x7, .i1⟩
  | 22 => ⟨S_, .i32⟩
  | 23 => ⟨S300x7, .i32⟩
  | 24 => ⟨S300x7, .i1⟩
  | 25 => ⟨S300x7, .i1⟩
  | 26 => ⟨S_, .i32⟩
  | 27 => ⟨S_, .i32⟩
  | 28 => ⟨S_, .i32⟩
  | 29 => ⟨S300x7, .i32⟩
  | 30 => ⟨S300x7, .i32⟩
  | 31 => ⟨S_, .i32⟩
  | 32 => ⟨S300x7, .i32⟩
  | 33 => ⟨S300x7, .i32⟩
  | 34 => ⟨S_, .i32⟩
  | 35 => ⟨S300x7, .i32⟩
  | 36 => ⟨S300x7, .i1⟩
  | 37 => ⟨S_, .i32⟩
  | 38 => ⟨S300x7, .i32⟩
  | 39 => ⟨S300x7, .i32⟩
  | 40 => ⟨S300x7, .i32⟩
  | 41 => ⟨S300x7x1, .i32⟩
  | 42 => ⟨S128x300x7, .i32⟩
  | 43 => ⟨S128x300x1, .i32⟩
  | 44 => ⟨S_, .i32⟩
  | 45 => ⟨S128x300x1, .i32⟩
  | 46 => ⟨S128x300x1, .i1⟩
  | 47 => ⟨S_, .i32⟩
  | 48 => ⟨S128x300x1, .i32⟩
  | 49 => ⟨S128x300x1, .i32⟩
  | 50 => ⟨S128x300x1, .i32⟩
  | 51 => ⟨S_, .i32⟩
  | 52 => ⟨S128x300x7, .i32⟩
  | 53 => ⟨S128x300x7, .i1⟩
  | 54 => ⟨S_, .i32⟩
  | 55 => ⟨S128x300x7, .i32⟩
  | 56 => ⟨S128x300x7, .i32⟩
  | 57 => ⟨S128x300x7, .i32⟩
  | 58 => ⟨S128x300x7, .i32⟩
  | 59 => ⟨S128x300x7x1, .i32⟩
  | 60 => ⟨S128x300x7x1, .i32⟩
  | 61 => ⟨S128x300x7x2, .i32⟩
  | 62 => ⟨S128x300x7, .i32⟩
  | 63 => ⟨S_, .i32⟩
  | 64 => ⟨S128x300x7, .i32⟩
  | 65 => ⟨S128x300x7, .i1⟩
  | 66 => ⟨S_, .i32⟩
  | 67 => ⟨S128x300x7, .i32⟩
  | 68 => ⟨S128x300x7, .i32⟩
  | 69 => ⟨S128x300x7, .i32⟩
  | 70 => ⟨S_, .i32⟩
  | 71 => ⟨S128x300x7, .i32⟩
  | 72 => ⟨S128x300x7, .i32⟩
  | 73 => ⟨S128x300x7x1, .i32⟩
  | 74 => ⟨S128x300x7x1, .i32⟩
  | 75 => ⟨S128x300x7x2, .i32⟩
  | 76 => ⟨S128x300x7, .f32⟩
  | 77 => ⟨S1x300x7, .i1⟩
  | 78 => ⟨S_, .f32⟩
  | 79 => ⟨S_, .f32⟩
  | 80 => ⟨S128x300x7, .i1⟩
  | 81 => ⟨S128x300x7, .f32⟩
  | 82 => ⟨S128x300x7, .f32⟩
  | 83 => ⟨S_, .i32⟩
  | 84 => ⟨S128x300, .i32⟩
  | 85 => ⟨S128x300, .i1⟩
  | 86 => ⟨S_, .i32⟩
  | 87 => ⟨S128x300, .i32⟩
  | 88 => ⟨S128x300, .i32⟩
  | 89 => ⟨S128x300, .i32⟩
  | 90 => ⟨S128x300x1, .i32⟩
  | 91 => ⟨S128x300x300, .f32⟩
  | 92 => ⟨S_, .i32⟩
  | 93 => ⟨S128x300, .i32⟩
  | 94 => ⟨S128x300, .i1⟩
  | 95 => ⟨S_, .i32⟩
  | 96 => ⟨S128x300, .i32⟩
  | 97 => ⟨S128x300, .i32⟩
  | 98 => ⟨S128x300, .i32⟩
  | 99 => ⟨S128x300x1, .i32⟩
  | 100 => ⟨S128x300x1, .f32⟩
  | 101 => ⟨S128x300, .f32⟩
  | 102 => ⟨S_, .f32⟩
  | 103 => ⟨S128x300, .f32⟩
  | 104 => ⟨S128x300, .f32⟩
  | 105 => ⟨S_, .f32⟩
  | 106 => ⟨S300, .f32⟩
  | 107 => ⟨S_, .f32⟩
  | 108 => ⟨S300, .f32⟩
  | 109 => ⟨S300, .f32⟩
  | 110 => ⟨S_, .i32⟩
  | 111 => ⟨S_, .f32⟩
  | 112 => ⟨S300, .f32⟩
  | 113 => ⟨S1x300, .f32⟩
  | 114 => ⟨S_, .f32⟩
  | 115 => ⟨S1x300, .f32⟩
  | 116 => ⟨S1x300, .f32⟩
  | 117 => ⟨S128x300, .f32⟩
  | 118 => ⟨S128x300, .f32⟩
  | 119 => ⟨S128x300, .f32⟩
  | 120 => ⟨S_, .f32⟩
  | 121 => ⟨S_, .f32⟩
  | 122 => ⟨S_, .f32⟩
  | 123 => ⟨S_, .f32⟩
  | 124 => ⟨S300, .f32⟩
  | 125 => ⟨S300, .f32⟩
  | 126 => ⟨S300, .f32⟩
  | 127 => ⟨S_, .f32⟩
  | _ => ⟨S8000x300, .f32⟩

abbrev hbmTy0_1 (i : Nat) : BufTy := match i % 128 with
  | 0 => ⟨S_, .i1⟩
  | 1 => ⟨S_, .f32⟩
  | 2 => ⟨S_, .f32⟩
  | 3 => ⟨S300, .f32⟩
  | 4 => ⟨S300, .f32⟩
  | 5 => ⟨S1x300, .f32⟩
  | 6 => ⟨S128x300, .f32⟩
  | 7 => ⟨S128x300, .f32⟩
  | 8 => ⟨S_, .f32⟩
  | 9 => ⟨S300, .f32⟩
  | 10 => ⟨S300, .f32⟩
  | 11 => ⟨S300, .f32⟩
  | 12 => ⟨S1x300, .f32⟩
  | 13 => ⟨S128x300, .f32⟩
  | 14 => ⟨S128x300, .f32⟩
  | 15 => ⟨S1x300, .f32⟩
  | 16 => ⟨S128x300, .f32⟩
  | 17 => ⟨S128x300, .f32⟩
  | 18 => ⟨S1x300, .f32⟩
  | 19 => ⟨S128x300, .f32⟩
  | 20 => ⟨S128x300, .f32⟩
  | 21 => ⟨S128x54, .f32⟩
  | 22 => ⟨S1x54, .f32⟩
  | 23 => ⟨S128x54, .f32⟩
  | 24 => ⟨S128x54, .f32⟩
  | 25 => ⟨S128x54, .f32⟩
  | 26 => ⟨S128x54, .f32⟩
  | 27 => ⟨S_, .f32⟩
  | 28 => ⟨S128x54, .f32⟩
  | 29 => ⟨S128x54, .f32⟩
  | 30 => ⟨S_, .f32⟩
  | 31 => ⟨S128x54, .f32⟩
  | 32 => ⟨S128x54, .f32⟩
  | _ => ⟨S8000x300, .f32⟩

abbrev hbmTy (i : Nat) : BufTy := match i / 128 with
  | 0 => hbmTy0_0 i
  | 1 => hbmTy0_1 i
  | _ => ⟨S8000x300, .f32⟩

abbrev bufTy : (tb : Table) → Fin (tcTables nBuf tb) → BufTy
  | .hbm, ⟨i, _⟩ => hbmTy i
  | .local _ .vmem, ⟨0, _⟩ => ⟨S8x300x300, .f32⟩
  | .local _ .vmem, ⟨1, _⟩ => ⟨S8x300x300, .f32⟩
  | .local _ .vmem, ⟨2, _⟩ => ⟨S8x300x1, .f32⟩
  | .local _ .vmem, ⟨3, _⟩ => ⟨S8x300x1, .f32⟩
  | .local _ .vmem, ⟨4, _⟩ => ⟨S8x300x7, .f32⟩
  | .local _ .vmem, ⟨5, _⟩ => ⟨S8x300x7, .f32⟩
  | .local _ .vmem, ⟨6, _⟩ => ⟨S8x300, .f32⟩
  | .local _ .vmem, ⟨7, _⟩ => ⟨S8x300, .f32⟩
  | .local _ .vmem, ⟨8, _⟩ => ⟨S8x306x300, .f32⟩
  | _, _ => ⟨S8000x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_c_3 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v14 : Ref sig .tc := ⟨.hbm, 33, rfl⟩
abbrev main_c_4 : Ref sig .tc := ⟨.hbm, 34, rfl⟩
abbrev main_v15 : Ref sig .tc := ⟨.hbm, 35, rfl⟩
abbrev main_v16 : Ref sig .tc := ⟨.hbm, 36, rfl⟩
abbrev main_c_5 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_c_7 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_8 : Ref sig .tc := ⟨.hbm, 51, rfl⟩
abbrev main_v28 : Ref sig .tc := ⟨.hbm, 52, rfl⟩
abbrev main_v29 : Ref sig .tc := ⟨.hbm, 53, rfl⟩
abbrev main_c_9 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_10 : Ref sig .tc := ⟨.hbm, 63, rfl⟩
abbrev main_v38 : Ref sig .tc := ⟨.hbm, 64, rfl⟩
abbrev main_v39 : Ref sig .tc := ⟨.hbm, 65, rfl⟩
abbrev main_c_11 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_12 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_v50 : Ref sig .tc := ⟨.hbm, 82, rfl⟩
abbrev main_c_13 : Ref sig .tc := ⟨.hbm, 83, rfl⟩
abbrev main_v51 : Ref sig .tc := ⟨.hbm, 84, rfl⟩
abbrev main_v52 : Ref sig .tc := ⟨.hbm, 85, rfl⟩
abbrev main_c_14 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_c_15 : Ref sig .tc := ⟨.hbm, 92, rfl⟩
abbrev main_v58 : Ref sig .tc := ⟨.hbm, 93, rfl⟩
abbrev main_v59 : Ref sig .tc := ⟨.hbm, 94, rfl⟩
abbrev main_c_16 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_call2_cst : Ref sig .tc := ⟨.hbm, 102, rfl⟩
abbrev main_call2_v0 : Ref sig .tc := ⟨.hbm, 103, rfl⟩
abbrev main_v66 : Ref sig .tc := ⟨.hbm, 104, rfl⟩
abbrev main_cst_17 : Ref sig .tc := ⟨.hbm, 105, rfl⟩
abbrev main_v67 : Ref sig .tc := ⟨.hbm, 106, rfl⟩
abbrev main_cst_18 : Ref sig .tc := ⟨.hbm, 107, rfl⟩
abbrev main_v68 : Ref sig .tc := ⟨.hbm, 108, rfl⟩
abbrev main_v69 : Ref sig .tc := ⟨.hbm, 109, rfl⟩
abbrev main_c_19 : Ref sig .tc := ⟨.hbm, 110, rfl⟩
abbrev main_call3_cst : Ref sig .tc := ⟨.hbm, 111, rfl⟩
abbrev main_call3_v0 : Ref sig .tc := ⟨.hbm, 112, rfl⟩
abbrev main_call3_v1 : Ref sig .tc := ⟨.hbm, 113, rfl⟩
abbrev main_call3_cst_0 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_call3_v5 : Ref sig .tc := ⟨.hbm, 118, rfl⟩
abbrev main_call3_v6 : Ref sig .tc := ⟨.hbm, 119, rfl⟩
abbrev main_call3_v7 : Ref sig .tc := ⟨.hbm, 120, rfl⟩
abbrev main_call3_cst_1 : Ref sig .tc := ⟨.hbm, 121, rfl⟩
abbrev main_call3_v8 : Ref sig .tc := ⟨.hbm, 122, rfl⟩
abbrev main_call3_cst_2 : Ref sig .tc := ⟨.hbm, 123, rfl⟩
abbrev main_call3_v9 : Ref sig .tc := ⟨.hbm, 124, rfl⟩
abbrev main_call3_v10 : Ref sig .tc := ⟨.hbm, 125, rfl⟩
abbrev main_call3_v11 : Ref sig .tc := ⟨.hbm, 126, rfl⟩
abbrev main_call3_cst_3 : Ref sig .tc := ⟨.hbm, 127, rfl⟩
abbrev main_call3_v12 : Ref sig .tc := ⟨.hbm, 128, rfl⟩
abbrev main_call3_cst_4 : Ref sig .tc := ⟨.hbm, 129, rfl⟩
abbrev main_call3_call0_v0 : Ref sig .tc := ⟨.hbm, 130, rfl⟩
abbrev main_call3_call0_v1 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_cst_20 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_cst_21 : Ref sig .tc := ⟨.hbm, 155, rfl⟩
abbrev main_v92 : Ref sig .tc := ⟨.hbm, 156, rfl⟩
abbrev main_v93 : Ref sig .tc := ⟨.hbm, 157, rfl⟩
abbrev main_cst_22 : Ref sig .tc := ⟨.hbm, 158, rfl⟩
abbrev main_v94 : Ref sig .tc := ⟨.hbm, 159, rfl⟩
abbrev main_v95 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x300x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x300x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x300x7 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x300 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S7 : S_.BroadcastsInDim S7 (![] : Fin 0 → Fin S7.rank)
  bcast_S300_S300x1_0 : S300.BroadcastsInDim S300x1 (![0] : Fin 1 → Fin S300x1.rank)
  bcast_S7_S1x7_1 : S7.BroadcastsInDim S1x7 (![1] : Fin 1 → Fin S1x7.rank)
  bcast_S300x1_S300x7_0_1 : S300x1.BroadcastsInDim S300x7 (![0, 1] : Fin 2 → Fin S300x7.rank)
  bcast_S1x7_S300x7_0_1 : S1x7.BroadcastsInDim S300x7 (![0, 1] : Fin 2 → Fin S300x7.rank)
  bcast_S_S300x7 : S_.BroadcastsInDim S300x7 (![] : Fin 0 → Fin S300x7.rank)
  bcast_S300x7_S300x7x1_0_1 : S300x7.BroadcastsInDim S300x7x1 (![0, 1] : Fin 2 → Fin S300x7x1.rank)
  bcast_S128x300_S128x300x1_0_1 : S128x300.BroadcastsInDim S128x300x1 (![0, 1] : Fin 2 → Fin S128x300x1.rank)
  bcast_S_S128x300x1 : S_.BroadcastsInDim S128x300x1 (![] : Fin 0 → Fin S128x300x1.rank)
  bcast_S_S128x300x7 : S_.BroadcastsInDim S128x300x7 (![] : Fin 0 → Fin S128x300x7.rank)
  bcast_S128x300x1_S128x300x7_0_1_2 : S128x300x1.BroadcastsInDim S128x300x7 (![0, 1, 2] : Fin 3 → Fin S128x300x7.rank)
  bcast_S128x300x7_S128x300x7x1_0_1_2 : S128x300x7.BroadcastsInDim S128x300x7x1 (![0, 1, 2] : Fin 3 → Fin S128x300x7x1.rank)
  concatenates_S128x300x7x1_S128x300x7x1_S128x300x7x2_d3 : Shape.Concatenates [S128x300x7x1, S128x300x7x1] S128x300x7x2 3
  bcast_S300x7_S1x300x7_1_2 : S300x7.BroadcastsInDim S1x300x7 (![1, 2] : Fin 2 → Fin S1x300x7.rank)
  bcast_S1x300x7_S128x300x7_0_1_2 : S1x300x7.BroadcastsInDim S128x300x7 (![0, 1, 2] : Fin 3 → Fin S128x300x7.rank)
  bcast_S_S128x300 : S_.BroadcastsInDim S128x300 (![] : Fin 0 → Fin S128x300.rank)
  inb_S8x306x300_S8x3x300_0_0_0 : ∀ a, (![0, 0, 0] : Fin 3 → Nat) a + S8x3x300.size a ≤ S8x306x300.size a
  h_S8x3x300 : 0 < S8x3x300.numel
  shapeCasts_S8x3x300_S8x3x300 : S8x3x300.ShapeCasts S8x3x300
  inb_S8x306x300_S8x3x300_0_303_0 : ∀ a, (![0, 303, 0] : Fin 3 → Nat) a + S8x3x300.size a ≤ S8x306x300.size a
  inb_S8x300x300_S8x300x300_0_0_0 : ∀ a, (![0, 0, 0] : Fin 3 → Nat) a + S8x300x300.size a ≤ S8x300x300.size a
  h_S8x300x300 : 0 < S8x300x300.numel
  shapeCasts_S8x300x300_S8x300x300 : S8x300x300.ShapeCasts S8x300x300
  inb_S8x300x1_S8x300x1_0_0_0 : ∀ a, (![0, 0, 0] : Fin 3 → Nat) a + S8x300x1.size a ≤ S8x300x1.size a
  h_S8x300x1 : 0 < S8x300x1.numel
  shapeCasts_S8x300x1_S8x300x1 : S8x300x1.ShapeCasts S8x300x1
  inb_S8x300x7_S8x300x7_0_0_0 : ∀ a, (![0, 0, 0] : Fin 3 → Nat) a + S8x300x7.size a ≤ S8x300x7.size a
  h_S8x300x7 : 0 < S8x300x7.numel
  shapeCasts_S8x300x7_S8x300x7 : S8x300x7.ShapeCasts S8x300x7
  inb_S8x306x300_S8x300x300_0_3_0 : ∀ a, (![0, 3, 0] : Fin 3 → Nat) a + S8x300x300.size a ≤ S8x306x300.size a
  inb_S8x306x300_S8x300x300_0_0_0 : ∀ a, (![0, 0, 0] : Fin 3 → Nat) a + S8x300x300.size a ≤ S8x306x300.size a
  slices_S8x300x7_o0_0_0_S8x300x1 : S8x300x7.Slices ![0, 0, 0] S8x300x1
  broadcasts_S8x300x1_S8x300x300 : S8x300x1.Broadcasts S8x300x300
  inb_S8x306x300_S8x300x300_0_1_0 : ∀ a, (![0, 1, 0] : Fin 3 → Nat) a + S8x300x300.size a ≤ S8x306x300.size a
  slices_S8x300x7_o0_0_1_S8x300x1 : S8x300x7.Slices ![0, 0, 1] S8x300x1
  inb_S8x306x300_S8x300x300_0_2_0 : ∀ a, (![0, 2, 0] : Fin 3 → Nat) a + S8x300x300.size a ≤ S8x306x300.size a
  slices_S8x300x7_o0_0_2_S8x300x1 : S8x300x7.Slices ![0, 0, 2] S8x300x1
  slices_S8x300x7_o0_0_3_S8x300x1 : S8x300x7.Slices ![0, 0, 3] S8x300x1
  inb_S8x306x300_S8x300x300_0_4_0 : ∀ a, (![0, 4, 0] : Fin 3 → Nat) a + S8x300x300.size a ≤ S8x306x300.size a
  slices_S8x300x7_o0_0_4_S8x300x1 : S8x300x7.Slices ![0, 0, 4] S8x300x1
  inb_S8x306x300_S8x300x300_0_5_0 : ∀ a, (![0, 5, 0] : Fin 3 → Nat) a + S8x300x300.size a ≤ S8x306x300.size a
  slices_S8x300x7_o0_0_5_S8x300x1 : S8x300x7.Slices ![0, 0, 5] S8x300x1
  inb_S8x306x300_S8x300x300_0_6_0 : ∀ a, (![0, 6, 0] : Fin 3 → Nat) a + S8x300x300.size a ≤ S8x306x300.size a
  slices_S8x300x7_o0_0_6_S8x300x1 : S8x300x7.Slices ![0, 0, 6] S8x300x1
  reduces_S8x300x300_S8x300 : S8x300x300.Reduces [1] S8x300
  inb_S8x300_S8x300_0_0 : ∀ a, (![0, 0] : Fin 2 → Nat) a + S8x300.size a ≤ S8x300.size a
  h_S8x300 : 0 < S8x300.numel
  reducesTo_S128x300_S300_d0 : S128x300.ReducesTo [0] S300
  h_S_ : 0 < S_.numel
  bcast_S_S300 : S_.BroadcastsInDim S300 (![] : Fin 0 → Fin S300.rank)
  bcast_S300_S1x300_1 : S300.BroadcastsInDim S1x300 (![1] : Fin 1 → Fin S1x300.rank)
  bcast_S_S1x300 : S_.BroadcastsInDim S1x300 (![] : Fin 0 → Fin S1x300.rank)
  bcast_S1x300_S128x300_0_1 : S1x300.BroadcastsInDim S128x300 (![0, 1] : Fin 2 → Fin S128x300.rank)
  bcast_S54_S1x54_1 : S54.BroadcastsInDim S1x54 (![1] : Fin 1 → Fin S1x54.rank)
  bcast_S1x54_S128x54_0_1 : S1x54.BroadcastsInDim S128x54 (![0, 1] : Fin 2 → Fin S128x54.rank)
  bcast_S_S128x54 : S_.BroadcastsInDim S128x54 (![] : Fin 0 → Fin S128x54.rank)
  gather_S128x300_S300x7x1_S128x300x7_0_1_n_n_1_2_1281_wf : GatherDims.WF S128x300 S300x7x1 S128x300x7 [0] [1] [] [1] [] 2 ![128, 1]
  gather_S8000x8000_S128x300x7x2_S128x300x7_n_01_n_n_01_3_11_wf : GatherDims.WF S8000x8000 S128x300x7x2 S128x300x7 [] [0, 1] [] [0, 1] [] 3 ![1, 1]
  gather_S2000000x1_S128x300x7x2_S128x300x7_n_01_n_n_01_3_11_wf : GatherDims.WF S2000000x1 S128x300x7x2 S128x300x7 [] [0, 1] [] [0, 1] [] 3 ![1, 1]
  gather_S8000x300_S128x300x1_S128x300x300_2_0_n_n_0_2_1300_wf : GatherDims.WF S8000x300 S128x300x1 S128x300x300 [2] [0] [] [0] [] 2 ![1, 300]
  gather_S8000x1_S128x300x1_S128x300x1_2_0_n_n_0_2_11_wf : GatherDims.WF S8000x1 S128x300x1 S128x300x1 [2] [0] [] [0] [] 2 ![1, 1]
  dot_S128x300_S300x54_S128x54_1_0_0_1_n_n_wf : DotDims.WF S128x300 S300x54 S128x54 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x300x300.size a ≤ S128x300x300.size a
  hwx0_0 : ∀ i : grid0.Coords, EltTy.bits .f32 = 32 ∨ (Rect.block (s := S128x300x300) S8x300x300.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x300x1.size a ≤ S128x300x1.size a
  hwx0_1 : ∀ i : grid0.Coords, EltTy.bits .f32 = 32 ∨ (Rect.block (s := S128x300x1) S8x300x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x300x7.size a ≤ S128x300x7.size a
  hwx0_2 : ∀ i : grid0.Coords, EltTy.bits .f32 = 32 ∨ (Rect.block (s := S128x300x7) S8x300x7.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x300.size a ≤ S128x300.size a
  hwx0_3 : ∀ i : grid0.Coords, EltTy.bits .f32 = 32 ∨ (Rect.block (s := S128x300) S8x300.size (cc0_transform_3 i) (hinb0_3 i)).WholeWords (EltTy.packing .f32)

variable [Facts₀]

def gather_S128x300_S300x7x1_S128x300x7_0_1_n_n_1_2_1281 : GatherDims S128x300 S300x7x1 S128x300x7 where
  offsetDims := [0]
  collapsedSliceDims := [1]
  operandBatchingDims := []
  startIndicesBatchingDims := []
  startIndexMap := [1]
  indexVectorDim := 2
  sliceSizes := ![128, 1]
  wf := gather_S128x300_S300x7x1_S128x300x7_0_1_n_n_1_2_1281_wf
def gather_S8000x8000_S128x300x7x2_S128x300x7_n_01_n_n_01_3_11 : GatherDims S8000x8000 S128x300x7x2 S128x300x7 where
  offsetDims := []
  collapsedSliceDims := [0, 1]
  operandBatchingDims := []
  startIndicesBatchingDims := []
  startIndexMap := [0, 1]
  indexVectorDim := 3
  sliceSizes := ![1, 1]
  wf := gather_S8000x8000_S128x300x7x2_S128x300x7_n_01_n_n_01_3_11_wf
def gather_S2000000x1_S128x300x7x2_S128x300x7_n_01_n_n_01_3_11 : GatherDims S2000000x1 S128x300x7x2 S128x300x7 where
  offsetDims := []
  collapsedSliceDims := [0, 1]
  operandBatchingDims := []
  startIndicesBatchingDims := []
  startIndexMap := [0, 1]
  indexVectorDim := 3
  sliceSizes := ![1, 1]
  wf := gather_S2000000x1_S128x300x7x2_S128x300x7_n_01_n_n_01_3_11_wf
def gather_S8000x300_S128x300x1_S128x300x300_2_0_n_n_0_2_1300 : GatherDims S8000x300 S128x300x1 S128x300x300 where
  offsetDims := [2]
  collapsedSliceDims := [0]
  operandBatchingDims := []
  startIndicesBatchingDims := []
  startIndexMap := [0]
  indexVectorDim := 2
  sliceSizes := ![1, 300]
  wf := gather_S8000x300_S128x300x1_S128x300x300_2_0_n_n_0_2_1300_wf
def gather_S8000x1_S128x300x1_S128x300x1_2_0_n_n_0_2_11 : GatherDims S8000x1 S128x300x1 S128x300x1 where
  offsetDims := [2]
  collapsedSliceDims := [0]
  operandBatchingDims := []
  startIndicesBatchingDims := []
  startIndexMap := [0]
  indexVectorDim := 2
  sliceSizes := ![1, 1]
  wf := gather_S8000x1_S128x300x1_S128x300x1_2_0_n_n_0_2_11_wf
def dot_S128x300_S300x54_S128x54_1_0_0_1_n_n : DotDims S128x300 S300x54 S128x54 where
  lhsContracting := [1]
  rhsContracting := [0]
  lhsNonContracting := [0]
  rhsNonContracting := [1]
  lhsBatch := []
  rhsBatch := []
  wf := dot_S128x300_S300x54_S128x54_1_0_0_1_n_n_wf

abbrev win0_0 : Pipeline.Window sig grid0 :=
  Pipeline.Window.ofSpec (Memref.whole main_v57) S8x300x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v64) S8x300x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v50) S8x300x7.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v65) S8x300.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8000x300 : Shape := ⟨2, ![8000, 300]⟩
abbrev S8000x1 : Shape := ⟨2, ![8000, 1]⟩
abbrev S2000000x1 : Shape := ⟨2, ![2000000, 1]⟩
abbrev S300 : Shape := ⟨1, ![300]⟩
abbrev S300x54 : Shape := ⟨2, ![300, 54]⟩
abbrev S54 : Shape := ⟨1, ![54]⟩
abbrev S128x300 : Shape := ⟨2, ![128, 300]⟩
abbrev S8000x8000 : Shape := ⟨2, ![8000, 8000]⟩
abbrev S7 : Shape := ⟨1, ![7]⟩
abbrev S_ : Shape := ⟨0, ![]⟩
abbrev S300x1 : Shape := ⟨2, ![300, 1]⟩
abbrev S1x7 : Shape := ⟨2, ![1, 7]⟩
abbrev S300x7 : Shape := ⟨2, ![300, 7]⟩
abbrev S300x7x1 : Shape := ⟨3, ![300, 7, 1]⟩
abbrev S128x300x7 : Shape := ⟨3, ![128, 300, 7]⟩
abbrev S128x300x1 : Shape := ⟨3, ![128, 300, 1]⟩
abbrev S128x300x7x1 : Shape := ⟨4, ![128, 300, 7, 1]⟩
abbrev S128x300x7x2 : Shape := ⟨4, ![128, 300, 7, 2]⟩
abbrev S128x300x300 : Shape := ⟨3, ![128, 300, 300]⟩
abbrev S128x300x7x300 : Shape := ⟨4, ![128, 300, 7, 300]⟩
abbrev S1x300x7x1 : Shape := ⟨4, ![1, 300, 7, 1]⟩
abbrev S1x300 : Shape := ⟨2, ![1, 300]⟩
abbrev S128x54 : Shape := ⟨2, ![128, 54]⟩
abbrev S1x54 : Shape := ⟨2, ![1, 54]⟩

abbrev nBuf : Space → Nat
  | .hbm => 210
  | .vmem => 0
  | .smem => 0
  | _ => 0

abbrev hbmTy0_0 (i : Nat) : BufTy := match i % 128 with
  | 0 => ⟨S8000x300, .f32⟩
  | 1 => ⟨S8000x1, .f32⟩
  | 2 => ⟨S2000000x1, .f32⟩
  | 3 => ⟨S300, .f32⟩
  | 4 => ⟨S300, .f32⟩
  | 5 => ⟨S300x54, .f32⟩
  | 6 => ⟨S54, .f32⟩
  | 7 => ⟨S128x300, .i32⟩
  | 8 => ⟨S8000x8000, .i32⟩
  | 9 => ⟨S7, .i32⟩
  | 10 => ⟨S_, .i32⟩
  | 11 => ⟨S7, .i32⟩
  | 12 => ⟨S7, .i32⟩
  | 13 => ⟨S300, .i32⟩
  | 14 => ⟨S300x1, .i32⟩
  | 15 => ⟨S1x7, .i32⟩
  | 16 => ⟨S300x7, .i32⟩
  | 17 => ⟨S300x7, .i32⟩
  | 18 => ⟨S300x7, .i32⟩
  | 19 => ⟨S_, .i32⟩
  | 20 => ⟨S300x7, .i32⟩
  | 21 => ⟨S300x7, .i1⟩
  | 22 => ⟨S_, .i32⟩
  | 23 => ⟨S300x7, .i32⟩
  | 24 => ⟨S300x7, .i1⟩
  | 25 => ⟨S300x7, .i1⟩
  | 26 => ⟨S_, .i32⟩
  | 27 => ⟨S_, .i32⟩
  | 28 => ⟨S_, .i32⟩
  | 29 => ⟨S300x7, .i32⟩
  | 30 => ⟨S300x7, .i32⟩
  | 31 => ⟨S_, .i32⟩
  | 32 => ⟨S300x7, .i32⟩
  | 33 => ⟨S300x7, .i32⟩
  | 34 => ⟨S_, .i32⟩
  | 35 => ⟨S300x7, .i32⟩
  | 36 => ⟨S300x7, .i1⟩
  | 37 => ⟨S_, .i32⟩
  | 38 => ⟨S300x7, .i32⟩
  | 39 => ⟨S300x7, .i32⟩
  | 40 => ⟨S300x7, .i32⟩
  | 41 => ⟨S300x7x1, .i32⟩
  | 42 => ⟨S128x300x7, .i32⟩
  | 43 => ⟨S128x300x1, .i32⟩
  | 44 => ⟨S_, .i32⟩
  | 45 => ⟨S128x300x1, .i32⟩
  | 46 => ⟨S128x300x1, .i1⟩
  | 47 => ⟨S_, .i32⟩
  | 48 => ⟨S128x300x1, .i32⟩
  | 49 => ⟨S128x300x1, .i32⟩
  | 50 => ⟨S128x300x1, .i32⟩
  | 51 => ⟨S_, .i32⟩
  | 52 => ⟨S128x300x7, .i32⟩
  | 53 => ⟨S128x300x7, .i1⟩
  | 54 => ⟨S_, .i32⟩
  | 55 => ⟨S128x300x7, .i32⟩
  | 56 => ⟨S128x300x7, .i32⟩
  | 57 => ⟨S128x300x7, .i32⟩
  | 58 => ⟨S128x300x7, .i32⟩
  | 59 => ⟨S128x300x7x1, .i32⟩
  | 60 => ⟨S128x300x7x1, .i32⟩
  | 61 => ⟨S128x300x7x2, .i32⟩
  | 62 => ⟨S128x300x7, .i32⟩
  | 63 => ⟨S_, .i32⟩
  | 64 => ⟨S128x300x7, .i32⟩
  | 65 => ⟨S128x300x7, .i1⟩
  | 66 => ⟨S_, .i32⟩
  | 67 => ⟨S128x300x7, .i32⟩
  | 68 => ⟨S128x300x7, .i32⟩
  | 69 => ⟨S128x300x7, .i32⟩
  | 70 => ⟨S_, .i32⟩
  | 71 => ⟨S128x300x7, .i32⟩
  | 72 => ⟨S128x300x7, .i32⟩
  | 73 => ⟨S128x300x7x1, .i32⟩
  | 74 => ⟨S128x300x7x1, .i32⟩
  | 75 => ⟨S128x300x7x2, .i32⟩
  | 76 => ⟨S128x300x7, .f32⟩
  | 77 => ⟨S_, .i32⟩
  | 78 => ⟨S128x300, .i32⟩
  | 79 => ⟨S128x300, .i1⟩
  | 80 => ⟨S_, .i32⟩
  | 81 => ⟨S128x300, .i32⟩
  | 82 => ⟨S128x300, .i32⟩
  | 83 => ⟨S128x300, .i32⟩
  | 84 => ⟨S128x300x1, .i32⟩
  | 85 => ⟨S128x300x300, .f32⟩
  | 86 => ⟨S_, .i32⟩
  | 87 => ⟨S128x300, .i32⟩
  | 88 => ⟨S128x300, .i1⟩
  | 89 => ⟨S_, .i32⟩
  | 90 => ⟨S128x300, .i32⟩
  | 91 => ⟨S128x300, .i32⟩
  | 92 => ⟨S128x300, .i32⟩
  | 93 => ⟨S128x300x1, .i32⟩
  | 94 => ⟨S128x300x1, .f32⟩
  | 95 => ⟨S_, .i32⟩
  | 96 => ⟨S300x7, .i32⟩
  | 97 => ⟨S300x7, .i1⟩
  | 98 => ⟨S_, .i32⟩
  | 99 => ⟨S300x7, .i32⟩
  | 100 => ⟨S300x7, .i32⟩
  | 101 => ⟨S300x7, .i32⟩
  | 102 => ⟨S300x7x1, .i32⟩
  | 103 => ⟨S128x300x7x300, .f32⟩
  | 104 => ⟨S1x300x7x1, .i1⟩
  | 105 => ⟨S128x300x7x1, .f32⟩
  | 106 => ⟨S128x300x7x300, .f32⟩
  | 107 => ⟨S128x300x7x300, .f32⟩
  | 108 => ⟨S_, .f32⟩
  | 109 => ⟨S128x300x7x300, .i1⟩
  | 110 => ⟨S128x300x7x300, .f32⟩
  | 111 => ⟨S128x300x7x300, .f32⟩
  | 112 => ⟨S_, .f32⟩
  | 113 => ⟨S128x300x300, .f32⟩
  | 114 => ⟨S128x300x300, .f32⟩
  | 115 => ⟨S128x300x300, .f32⟩
  | 116 => ⟨S_, .f32⟩
  | 117 => ⟨S128x300x1, .f32⟩
  | 118 => ⟨S128x300x1, .f32⟩
  | 119 => ⟨S128x300x300, .f32⟩
  | 120 => ⟨S128x300x300, .f32⟩
  | 121 => ⟨S128x300x300, .f32⟩
  | 122 => ⟨S_, .i32⟩
  | 123 => ⟨S300x7, .i32⟩
  | 124 => ⟨S300x7, .i1⟩
  | 125 => ⟨S_, .i32⟩
  | 126 => ⟨S300x7, .i32⟩
  | 127 => ⟨S300x7, .i32⟩
  | _ => ⟨S8000x300, .f32⟩

abbrev hbmTy0_1 (i : Nat) : BufTy := match i % 128 with
  | 0 => ⟨S300x7, .i32⟩
  | 1 => ⟨S300x7x1, .i32⟩
  | 2 => ⟨S128x300x7x300, .f32⟩
  | 3 => ⟨S1x300x7x1, .i1⟩
  | 4 => ⟨S128x300x7x1, .f32⟩
  | 5 => ⟨S128x300x7x300, .f32⟩
  | 6 => ⟨S128x300x7x300, .f32⟩
  | 7 => ⟨S_, .f32⟩
  | 8 => ⟨S128x300x7x300, .i1⟩
  | 9 => ⟨S128x300x7x300, .f32⟩
  | 10 => ⟨S128x300x7x300, .f32⟩
  | 11 => ⟨S_, .f32⟩
  | 12 => ⟨S128x300x300, .f32⟩
  | 13 => ⟨S128x300x300, .f32⟩
  | 14 => ⟨S128x300x300, .f32⟩
  | 15 => ⟨S_, .f32⟩
  | 16 => ⟨S128x300x1, .f32⟩
  | 17 => ⟨S128x300x1, .f32⟩
  | 18 => ⟨S128x300x300, .f32⟩
  | 19 => ⟨S128x300x300, .f32⟩
  | 20 => ⟨S128x300x300, .f32⟩
  | 21 => ⟨S_, .f32⟩
  | 22 => ⟨S128x300, .f32⟩
  | 23 => ⟨S_, .f32⟩
  | 24 => ⟨S128x300, .f32⟩
  | 25 => ⟨S128x300, .f32⟩
  | 26 => ⟨S_, .f32⟩
  | 27 => ⟨S300, .f32⟩
  | 28 => ⟨S_, .f32⟩
  | 29 => ⟨S300, .f32⟩
  | 30 => ⟨S300, .f32⟩
  | 31 => ⟨S_, .i32⟩
  | 32 => ⟨S_, .f32⟩
  | 33 => ⟨S300, .f32⟩
  | 34 => ⟨S1x300, .f32⟩
  | 35 => ⟨S_, .f32⟩
  | 36 => ⟨S1x300, .f32⟩
  | 37 => ⟨S1x300, .f32⟩
  | 38 => ⟨S128x300, .f32⟩
  | 39 => ⟨S128x300, .f32⟩
  | 40 => ⟨S128x300, .f32⟩
  | 41 => ⟨S_, .f32⟩
  | 42 => ⟨S_, .f32⟩
  | 43 => ⟨S_, .f32⟩
  | 44 => ⟨S_, .f32⟩
  | 45 => ⟨S300, .f32⟩
  | 46 => ⟨S300, .f32⟩
  | 47 => ⟨S300, .f32⟩
  | 48 => ⟨S_, .f32⟩
  | 49 => ⟨S_, .i1⟩
  | 50 => ⟨S_, .f32⟩
  | 51 => ⟨S_, .f32⟩
  | 52 => ⟨S300, .f32⟩
  | 53 => ⟨S300, .f32⟩
  | 54 => ⟨S1x300, .f32⟩
  | 55 => ⟨S128x300, .f32⟩
  | 56 => ⟨S128x300, .f32⟩
  | 57 => ⟨S_, .f32⟩
  | 58 => ⟨S300, .f32⟩
  | 59 => ⟨S300, .f32⟩
  | 60 => ⟨S300, .f32⟩
  | 61 => ⟨S1x300, .f32⟩
  | 62 => ⟨S128x300, .f32⟩
  | 63 => ⟨S128x300, .f32⟩
  | 64 => ⟨S1x300, .f32⟩
  | 65 => ⟨S128x300, .f32⟩
  | 66 => ⟨S128x300, .f32⟩
  | 67 => ⟨S1x300, .f32⟩
  | 68 => ⟨S128x300, .f32⟩
  | 69 => ⟨S128x300, .f32⟩
  | 70 => ⟨S128x54, .f32⟩
  | 71 => ⟨S1x54, .f32⟩
  | 72 => ⟨S128x54, .f32⟩
  | 73 => ⟨S128x54, .f32⟩
  | 74 => ⟨S128x54, .f32⟩
  | 75 => ⟨S128x54, .f32⟩
  | 76 => ⟨S_, .f32⟩
  | 77 => ⟨S128x54, .f32⟩
  | 78 => ⟨S128x54, .f32⟩
  | 79 => ⟨S_, .f32⟩
  | 80 => ⟨S128x54, .f32⟩
  | 81 => ⟨S128x54, .f32⟩
  | _ => ⟨S8000x300, .f32⟩

abbrev hbmTy (i : Nat) : BufTy := match i / 128 with
  | 0 => hbmTy0_0 i
  | 1 => hbmTy0_1 i
  | _ => ⟨S8000x300, .f32⟩

abbrev bufTy : (tb : Table) → Fin (tcTables nBuf tb) → BufTy
  | .hbm, ⟨i, _⟩ => hbmTy i
  | _, _ => ⟨S8000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_c_3 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v14 : Ref sig .tc := ⟨.hbm, 33, rfl⟩
abbrev main_c_4 : Ref sig .tc := ⟨.hbm, 34, rfl⟩
abbrev main_v15 : Ref sig .tc := ⟨.hbm, 35, rfl⟩
abbrev main_v16 : Ref sig .tc := ⟨.hbm, 36, rfl⟩
abbrev main_c_5 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_c_7 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_8 : Ref sig .tc := ⟨.hbm, 51, rfl⟩
abbrev main_v28 : Ref sig .tc := ⟨.hbm, 52, rfl⟩
abbrev main_v29 : Ref sig .tc := ⟨.hbm, 53, rfl⟩
abbrev main_c_9 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_10 : Ref sig .tc := ⟨.hbm, 63, rfl⟩
abbrev main_v38 : Ref sig .tc := ⟨.hbm, 64, rfl⟩
abbrev main_v39 : Ref sig .tc := ⟨.hbm, 65, rfl⟩
abbrev main_c_11 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_12 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c_13 : Ref sig .tc := ⟨.hbm, 77, rfl⟩
abbrev main_v49 : Ref sig .tc := ⟨.hbm, 78, rfl⟩
abbrev main_v50 : Ref sig .tc := ⟨.hbm, 79, rfl⟩
abbrev main_c_14 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_15 : Ref sig .tc := ⟨.hbm, 86, rfl⟩
abbrev main_v56 : Ref sig .tc := ⟨.hbm, 87, rfl⟩
abbrev main_v57 : Ref sig .tc := ⟨.hbm, 88, rfl⟩
abbrev main_c_16 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_c_17 : Ref sig .tc := ⟨.hbm, 95, rfl⟩
abbrev main_v63 : Ref sig .tc := ⟨.hbm, 96, rfl⟩
abbrev main_v64 : Ref sig .tc := ⟨.hbm, 97, rfl⟩
abbrev main_c_18 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst : Ref sig .tc := ⟨.hbm, 108, rfl⟩
abbrev main_call1_v0 : Ref sig .tc := ⟨.hbm, 109, rfl⟩
abbrev main_call1_v1 : Ref sig .tc := ⟨.hbm, 110, rfl⟩
abbrev main_v74 : Ref sig .tc := ⟨.hbm, 111, rfl⟩
abbrev main_cst_19 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_cst_20 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_c_21 : Ref sig .tc := ⟨.hbm, 122, rfl⟩
abbrev main_v83 : Ref sig .tc := ⟨.hbm, 123, rfl⟩
abbrev main_v84 : Ref sig .tc := ⟨.hbm, 124, rfl⟩
abbrev main_c_22 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_23 : Ref sig .tc := ⟨.hbm, 135, rfl⟩
abbrev main_call2_v0 : Ref sig .tc := ⟨.hbm, 136, rfl⟩
abbrev main_call2_v1 : Ref sig .tc := ⟨.hbm, 137, rfl⟩
abbrev main_v94 : Ref sig .tc := ⟨.hbm, 138, rfl⟩
abbrev main_cst_24 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_cst_25 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_26 : Ref sig .tc := ⟨.hbm, 149, rfl⟩
abbrev main_v103 : Ref sig .tc := ⟨.hbm, 150, rfl⟩
abbrev main_call3_cst : Ref sig .tc := ⟨.hbm, 151, rfl⟩
abbrev main_call3_v0 : Ref sig .tc := ⟨.hbm, 152, rfl⟩
abbrev main_v104 : Ref sig .tc := ⟨.hbm, 153, rfl⟩
abbrev main_cst_27 : Ref sig .tc := ⟨.hbm, 154, rfl⟩
abbrev main_v105 : Ref sig .tc := ⟨.hbm, 155, rfl⟩
abbrev main_cst_28 : Ref sig .tc := ⟨.hbm, 156, rfl⟩
abbrev main_v106 : Ref sig .tc := ⟨.hbm, 157, rfl⟩
abbrev main_v107 : Ref sig .tc := ⟨.hbm, 158, rfl⟩
abbrev main_c_29 : Ref sig .tc := ⟨.hbm, 159, rfl⟩
abbrev main_call4_cst : Ref sig .tc := ⟨.hbm, 160, rfl⟩
abbrev main_call4_v0 : Ref sig .tc := ⟨.hbm, 161, rfl⟩
abbrev main_call4_v1 : Ref sig .tc := ⟨.hbm, 162, rfl⟩
abbrev main_call4_cst_0 : Ref sig .tc := ⟨.hbm, 163, rfl⟩
abbrev main_call4_v2 : Ref sig .tc := ⟨.hbm, 164, rfl⟩
abbrev main_call4_v3 : Ref sig .tc := ⟨.hbm, 165, rfl⟩
abbrev main_call4_v4 : Ref sig .tc := ⟨.hbm, 166, rfl⟩
abbrev main_call4_v5 : Ref sig .tc := ⟨.hbm, 167, rfl⟩
abbrev main_call4_v6 : Ref sig .tc := ⟨.hbm, 168, rfl⟩
abbrev main_call4_v7 : Ref sig .tc := ⟨.hbm, 169, rfl⟩
abbrev main_call4_cst_1 : Ref sig .tc := ⟨.hbm, 170, rfl⟩
abbrev main_call4_v8 : Ref sig .tc := ⟨.hbm, 171, rfl⟩
abbrev main_call4_cst_2 : Ref sig .tc := ⟨.hbm, 172, rfl⟩
abbrev main_call4_v9 : Ref sig .tc := ⟨.hbm, 173, rfl⟩
abbrev main_call4_v10 : Ref sig .tc := ⟨.hbm, 174, rfl⟩
abbrev main_call4_v11 : Ref sig .tc := ⟨.hbm, 175, rfl⟩
abbrev main_call4_cst_3 : Ref sig .tc := ⟨.hbm, 176, rfl⟩
abbrev main_call4_v12 : Ref sig .tc := ⟨.hbm, 177, rfl⟩
abbrev main_call4_cst_4 : Ref sig .tc := ⟨.hbm, 178, rfl⟩
abbrev main_call4_call0_v0 : Ref sig .tc := ⟨.hbm, 179, rfl⟩
abbrev main_call4_call0_v1 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_cst_30 : Ref sig .tc := ⟨.hbm, 185, rfl⟩
abbrev main_v112 : Ref sig .tc := ⟨.hbm, 186, rfl⟩
abbrev main_v113 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_cst_31 : Ref sig .tc := ⟨.hbm, 204, rfl⟩
abbrev main_v130 : Ref sig .tc := ⟨.hbm, 205, rfl⟩
abbrev main_v131 : Ref sig .tc := ⟨.hbm, 206, rfl⟩
abbrev main_cst_32 : Ref sig .tc := ⟨.hbm, 207, rfl⟩
abbrev main_v132 : Ref sig .tc := ⟨.hbm, 208, rfl⟩
abbrev main_v133 : Ref sig .tc := ⟨.hbm, 209, rfl⟩

abbrev nD : Nat := 1
abbrev τ : Topo := Topo.v7x

variable {F : FTy → Type} [FloatOps F]

class Facts₀ : Prop where
  bcast_S_S7 : S_.BroadcastsInDim S7 (![] : Fin 0 → Fin S7.rank)
  bcast_S300_S300x1_0 : S300.BroadcastsInDim S300x1 (![0] : Fin 1 → Fin S300x1.rank)
  bcast_S7_S1x7_1 : S7.BroadcastsInDim S1x7 (![1] : Fin 1 → Fin S1x7.rank)
  bcast_S300x1_S300x7_0_1 : S300x1.BroadcastsInDim S300x7 (![0, 1] : Fin 2 → Fin S300x7.rank)
  bcast_S1x7_S300x7_0_1 : S1x7.BroadcastsInDim S300x7 (![0, 1] : Fin 2 → Fin S300x7.rank)
  bcast_S_S300x7 : S_.BroadcastsInDim S300x7 (![] : Fin 0 → Fin S300x7.rank)
  bcast_S300x7_S300x7x1_0_1 : S300x7.BroadcastsInDim S300x7x1 (![0, 1] : Fin 2 → Fin S300x7x1.rank)
  bcast_S128x300_S128x300x1_0_1 : S128x300.BroadcastsInDim S128x300x1 (![0, 1] : Fin 2 → Fin S128x300x1.rank)
  bcast_S_S128x300x1 : S_.BroadcastsInDim S128x300x1 (![] : Fin 0 → Fin S128x300x1.rank)
  bcast_S_S128x300x7 : S_.BroadcastsInDim S128x300x7 (![] : Fin 0 → Fin S128x300x7.rank)
  bcast_S128x300x1_S128x300x7_0_1_2 : S128x300x1.BroadcastsInDim S128x300x7 (![0, 1, 2] : Fin 3 → Fin S128x300x7.rank)
  bcast_S128x300x7_S128x300x7x1_0_1_2 : S128x300x7.BroadcastsInDim S128x300x7x1 (![0, 1, 2] : Fin 3 → Fin S128x300x7x1.rank)
  concatenates_S128x300x7x1_S128x300x7x1_S128x300x7x2_d3 : Shape.Concatenates [S128x300x7x1, S128x300x7x1] S128x300x7x2 3
  bcast_S_S128x300 : S_.BroadcastsInDim S128x300 (![] : Fin 0 → Fin S128x300.rank)
  bcast_S300x7_S1x300x7x1_1_2 : S300x7.BroadcastsInDim S1x300x7x1 (![1, 2] : Fin 2 → Fin S1x300x7x1.rank)
  bcast_S128x300x7x1_S128x300x7x300_0_1_2_3 : S128x300x7x1.BroadcastsInDim S128x300x7x300 (![0, 1, 2, 3] : Fin 4 → Fin S128x300x7x300.rank)
  bcast_S1x300x7x1_S128x300x7x300_0_1_2_3 : S1x300x7x1.BroadcastsInDim S128x300x7x300 (![0, 1, 2, 3] : Fin 4 → Fin S128x300x7x300.rank)
  bcast_S_S128x300x7x300 : S_.BroadcastsInDim S128x300x7x300 (![] : Fin 0 → Fin S128x300x7x300.rank)
  reducesTo_S128x300x7x300_S128x300x300_d2 : S128x300x7x300.ReducesTo [2] S128x300x300
  h_S_ : 0 < S_.numel
  bcast_S128x300x1_S128x300x300_0_1_2 : S128x300x1.BroadcastsInDim S128x300x300 (![0, 1, 2] : Fin 3 → Fin S128x300x300.rank)
  reducesTo_S128x300x300_S128x300_d1 : S128x300x300.ReducesTo [1] S128x300
  reducesTo_S128x300_S300_d0 : S128x300.ReducesTo [0] S300
  bcast_S_S300 : S_.BroadcastsInDim S300 (![] : Fin 0 → Fin S300.rank)
  bcast_S300_S1x300_1 : S300.BroadcastsInDim S1x300 (![1] : Fin 1 → Fin S1x300.rank)
  bcast_S_S1x300 : S_.BroadcastsInDim S1x300 (![] : Fin 0 → Fin S1x300.rank)
  bcast_S1x300_S128x300_0_1 : S1x300.BroadcastsInDim S128x300 (![0, 1] : Fin 2 → Fin S128x300.rank)
  bcast_S54_S1x54_1 : S54.BroadcastsInDim S1x54 (![1] : Fin 1 → Fin S1x54.rank)
  bcast_S1x54_S128x54_0_1 : S1x54.BroadcastsInDim S128x54 (![0, 1] : Fin 2 → Fin S128x54.rank)
  bcast_S_S128x54 : S_.BroadcastsInDim S128x54 (![] : Fin 0 → Fin S128x54.rank)
  gather_S128x300_S300x7x1_S128x300x7_0_1_n_n_1_2_1281_wf : GatherDims.WF S128x300 S300x7x1 S128x300x7 [0] [1] [] [1] [] 2 ![128, 1]
  gather_S8000x8000_S128x300x7x2_S128x300x7_n_01_n_n_01_3_11_wf : GatherDims.WF S8000x8000 S128x300x7x2 S128x300x7 [] [0, 1] [] [0, 1] [] 3 ![1, 1]
  gather_S2000000x1_S128x300x7x2_S128x300x7_n_01_n_n_01_3_11_wf : GatherDims.WF S2000000x1 S128x300x7x2 S128x300x7 [] [0, 1] [] [0, 1] [] 3 ![1, 1]
  gather_S8000x300_S128x300x1_S128x300x300_2_0_n_n_0_2_1300_wf : GatherDims.WF S8000x300 S128x300x1 S128x300x300 [2] [0] [] [0] [] 2 ![1, 300]
  gather_S8000x1_S128x300x1_S128x300x1_2_0_n_n_0_2_11_wf : GatherDims.WF S8000x1 S128x300x1 S128x300x1 [2] [0] [] [0] [] 2 ![1, 1]
  gather_S128x300x300_S300x7x1_S128x300x7x300_03_1_n_n_1_2_1281300_wf : GatherDims.WF S128x300x300 S300x7x1 S128x300x7x300 [0, 3] [1] [] [1] [] 2 ![128, 1, 300]
  dot_S128x300_S300x54_S128x54_1_0_0_1_n_n_wf : DotDims.WF S128x300 S300x54 S128x54 [1] [0] [0] [1] [] []

variable [Facts₀]

def gather_S128x300_S300x7x1_S128x300x7_0_1_n_n_1_2_1281 : GatherDims S128x300 S300x7x1 S128x300x7 where
  offsetDims := [0]
  collapsedSliceDims := [1]
  operandBatchingDims := []
  startIndicesBatchingDims := []
  startIndexMap := [1]
  indexVectorDim := 2
  sliceSizes := ![128, 1]
  wf := gather_S128x300_S300x7x1_S128x300x7_0_1_n_n_1_2_1281_wf
def gather_S8000x8000_S128x300x7x2_S128x300x7_n_01_n_n_01_3_11 : GatherDims S8000x8000 S128x300x7x2 S128x300x7 where
  offsetDims := []
  collapsedSliceDims := [0, 1]
  operandBatchingDims := []
  startIndicesBatchingDims := []
  startIndexMap := [0, 1]
  indexVectorDim := 3
  sliceSizes := ![1, 1]
  wf := gather_S8000x8000_S128x300x7x2_S128x300x7_n_01_n_n_01_3_11_wf
def gather_S2000000x1_S128x300x7x2_S128x300x7_n_01_n_n_01_3_11 : GatherDims S2000000x1 S128x300x7x2 S128x300x7 where
  offsetDims := []
  collapsedSliceDims := [0, 1]
  operandBatchingDims := []
  startIndicesBatchingDims := []
  startIndexMap := [0, 1]
  indexVectorDim := 3
  sliceSizes := ![1, 1]
  wf := gather_S2000000x1_S128x300x7x2_S128x300x7_n_01_n_n_01_3_11_wf
def gather_S8000x300_S128x300x1_S128x300x300_2_0_n_n_0_2_1300 : GatherDims S8000x300 S128x300x1 S128x300x300 where
  offsetDims := [2]
  collapsedSliceDims := [0]
  operandBatchingDims := []
  startIndicesBatchingDims := []
  startIndexMap := [0]
  indexVectorDim := 2
  sliceSizes := ![1, 300]
  wf := gather_S8000x300_S128x300x1_S128x300x300_2_0_n_n_0_2_1300_wf
def gather_S8000x1_S128x300x1_S128x300x1_2_0_n_n_0_2_11 : GatherDims S8000x1 S128x300x1 S128x300x1 where
  offsetDims := [2]
  collapsedSliceDims := [0]
  operandBatchingDims := []
  startIndicesBatchingDims := []
  startIndexMap := [0]
  indexVectorDim := 2
  sliceSizes := ![1, 1]
  wf := gather_S8000x1_S128x300x1_S128x300x1_2_0_n_n_0_2_11_wf
def gather_S128x300x300_S300x7x1_S128x300x7x300_03_1_n_n_1_2_1281300 : GatherDims S128x300x300 S300x7x1 S128x300x7x300 where
  offsetDims := [0, 3]
  collapsedSliceDims := [1]
  operandBatchingDims := []
  startIndicesBatchingDims := []
  startIndexMap := [1]
  indexVectorDim := 2
  sliceSizes := ![128, 1, 300]
  wf := gather_S128x300x300_S300x7x1_S128x300x7x300_03_1_n_n_1_2_1281300_wf
def dot_S128x300_S300x54_S128x54_1_0_0_1_n_n : DotDims S128x300 S300x54 S128x54 where
  lhsContracting := [1]
  rhsContracting := [0]
  lhsNonContracting := [0]
  rhsNonContracting := [1]
  lhsBatch := []
  rhsBatch := []
  wf := dot_S128x300_S300x54_S128x54_1_0_0_1_n_n_wf

class Facts : Prop extends Facts₀ where

variable [Facts]
-- ==== Proof.Spec.lean ====
/-
  One document's message passing, as functions of its positions on the extended reals.
  A document has 300 positions with 300 features each; position l has seven neighbours, the positions l + k - 3 for
  k = 0 … 6, of which those outside 0 … 299 do not exist. Every step replaces the features h by
      eta l · h l d + (1 - eta l) · m l d,   m l d = the maximum over the neighbours k of a candidate c l k d,
  and the readout sums the features of the last step over the positions.
  Two spellings of the candidates are compared.
  * Over the PADDED features (three rows holding the most negative finite number `low` before the document and three
    after it), with weights that are 1 where the neighbour does not exist: c l k d = w' l k · padded (l + k) d, and the
    maximum written as six nested binary maxima.
  * With a case distinction: c l k d = w l k · h (l + k - 3) d where the neighbour exists, `low` where it does not, and
    the maximum as the fold of max from -∞ over the seven neighbours.
  They agree: where the neighbour exists the padded row IS the feature row and the weight is unchanged; where it does
  not, the candidate is 1 · low = low. No step of the comparison needs a finite value: it uses that 1 is neutral for
  the product, that -∞ is neutral for max, and that max is associative.
-/
import Idealize.ShloMosaic.PureOps.Ideal
import Idealize.ShloMosaic.PureOps.Ideal.Laws
import Idealize.ShloMosaic.Lib.IdealHost

noncomputable section

namespace Cert.MsgPass

open Idealize.ShloMosaic

/-- The most negative finite single-precision number: the candidate of a neighbour that does not exist. -/
abbrev low : EReal := Ideal.ofBits .f32 0xFF7FFFFF#32

/-- Neighbour `k` of position `l`, the position `l + k - 3`, exists. -/
def Valid (l : Fin 300) (k : Fin 7) : Prop := 3 ≤ l.val + k.val ∧ l.val + k.val < 303

instance (l : Fin 300) (k : Fin 7) : Decidable (Valid l k) := by unfold Valid; infer_instance

/-- Row `r` of the features with three rows of `low` before them and three after: rows 3 … 302 are the document. -/
def padded (h : Fin 300 → Fin 300 → EReal) (r : ℕ) (d : Fin 300) : EReal :=
  if hr : 3 ≤ r ∧ r < 303 then h ⟨r - 3, by omega⟩ d else low

/-- The weights with 1 where the neighbour does not exist. -/
def weff (w : Fin 300 → Fin 7 → EReal) (l : Fin 300) (k : Fin 7) : EReal := if Valid l k then w l k else 1

/-- A candidate over the padded features. -/
def candP (w : Fin 300 → Fin 7 → EReal) (h : Fin 300 → Fin 300 → EReal) (l : Fin 300) (k : Fin 7) (d : Fin 300) : EReal :=
  w l k * padded h (l.val + k.val) d

/-- The message over the padded features: six nested maxima of the seven candidates. -/
def msgP (w : Fin 300 → Fin 7 → EReal) (h : Fin 300 → Fin 300 → EReal) (l : Fin 300) (d : Fin 300) : EReal :=
  max (max (max (max (max (max (candP w h l 0 d) (candP w h l 1 d)) (candP w h l 2 d)) (candP w h l 3 d)) (candP w h l 4 d))
    (candP w h l 5 d)) (candP w h l 6 d)

/-- One step over the padded features. -/
def stepP (eta : Fin 300 → EReal) (w : Fin 300 → Fin 7 → EReal) (h : Fin 300 → Fin 300 → EReal) : Fin 300 → Fin 300 → EReal :=
  fun l d => eta l * h l d + (1 - eta l) * msgP w h l d

/-- Two steps and the sum over the positions, over the padded features. -/
def pooledP (eta : Fin 300 → EReal) (w : Fin 300 → Fin 7 → EReal) (h : Fin 300 → Fin 300 → EReal) (d : Fin 300) : EReal :=
  ∑ l : Fin 300, stepP eta w (stepP eta w h) l d

/-- A candidate by cases: the weighted neighbour where it exists, `low` where it does not. -/
def candC (w : Fin 300 → Fin 7 → EReal) (h : Fin 300 → Fin 300 → EReal) (l : Fin 300) (k : Fin 7) (d : Fin 300) : EReal :=
  if hv : Valid l k then w l k * h ⟨l.val + k.val - 3, by unfold Valid at hv; omega⟩ d else low

/-- The message by cases: the fold of max from -∞ over the seven neighbours. -/
def msgC (w : Fin 300 → Fin 7 → EReal) (h : Fin 300 → Fin 300 → EReal) (l : Fin 300) (d : Fin 300) : EReal :=
  (Finset.univ : Finset (Fin 7)).fold max ⊥ (fun k => candC w h l k d)

/-- One step by cases. -/
def stepC (eta : Fin 300 → EReal) (w : Fin 300 → Fin 7 → EReal) (h : Fin 300 → Fin 300 → EReal) : Fin 300 → Fin 300 → EReal :=
  fun l d => eta l * h l d + (1 - eta l) * msgC w h l d

/-- Two steps and the sum over the positions, by cases. -/
def pooledC (eta : Fin 300 → EReal) (w : Fin 300 → Fin 7 → EReal) (h : Fin 300 → Fin 300 → EReal) (d : Fin 300) : EReal :=
  ∑ l : Fin 300, stepC eta w (stepC eta w h) l d

/-- The fold of max from -∞ over seven values is their nested maximum. -/
theorem fold_max_seven (f : Fin 7 → EReal) :
    (Finset.univ : Finset (Fin 7)).fold max ⊥ f
      = max (max (max (max (max (max (f 0) (f 1)) (f 2)) (f 3)) (f 4)) (f 5)) (f 6) := by
  have hu : (Finset.univ : Finset (Fin 7)) = {0, 1, 2, 3, 4, 5, 6} := by decide
  rw [hu]
  rw [Finset.fold_insert (by decide), Finset.fold_insert (by decide), Finset.fold_insert (by decide),
    Finset.fold_insert (by decide), Finset.fold_insert (by decide), Finset.fold_insert (by decide), Finset.fold_singleton]
  rw [max_bot_right]
  simp only [max_assoc]

/-- With the weights set to 1 off the document, a candidate over the padded features is the candidate by cases. -/
theorem candP_weff (w : Fin 300 → Fin 7 → EReal) (h : Fin 300 → Fin 300 → EReal) (l : Fin 300) (k : Fin 7) (d : Fin 300) :
    candP (weff w) h l k d = candC w h l k d := by
  unfold candP candC weff padded
  by_cases hv : Valid l k
  · have hv' : 3 ≤ l.val + k.val ∧ l.val + k.val < 303 := hv
    rw [if_pos hv, dif_pos hv', dif_pos hv]
  · have hv' : ¬ (3 ≤ l.val + k.val ∧ l.val + k.val < 303) := hv
    rw [if_neg hv, dif_neg hv', dif_neg hv, one_mul]

theorem msgP_weff (w : Fin 300 → Fin 7 → EReal) (h : Fin 300 → Fin 300 → EReal) (l : Fin 300) (d : Fin 300) :
    msgP (weff w) h l d = msgC w h l d := by
  unfold msgP msgC
  rw [fold_max_seven]
  simp only [candP_weff]

theorem stepP_weff (eta : Fin 300 → EReal) (w : Fin 300 → Fin 7 → EReal) (h : Fin 300 → Fin 300 → EReal) :
    stepP eta (weff w) h = stepC eta w h := by
  funext l d
  unfold stepP stepC
  rw [msgP_weff]

/-- The two spellings of the readout agree. -/
theorem pooledP_weff (eta : Fin 300 → EReal) (w : Fin 300 → Fin 7 → EReal) (h : Fin 300 → Fin 300 → EReal) (d : Fin 300) :
    pooledP eta (weff w) h d = pooledC eta w h d := by
  unfold pooledP pooledC
  rw [stepP_weff, stepP_weff]

end Cert.MsgPass

end
-- ==== Proof.KerScratch.lean ====
/-
  What the kernel's padded scratch buffer holds, read at an index. The buffer has 306 rows per document: the kernel fills rows
  0 … 2 and 303 … 305 with the most negative finite number once, and writes the current features to rows 3 … 302 before each
  step (a later write over the same rows hides the earlier one). So at row r the buffer holds the features' row r - 3 when
  3 ≤ r < 303 and that number otherwise — `MsgPass.padded` of the features last written —, and a load of 300 rows from row k
  reads, at position l, the padded features' row l + k.
-/
import proofs.«112600_j80238579024429_2_alg».proof.Proof.Gen.KernelIdeal.Frame
import proofs.«112600_j80238579024429_2_alg».proof.Proof.Spec
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx Idealize.SL.Sem

/-- The features' rectangle in the scratch buffer: rows 3 … 302. -/
abbrev rMid (inb : ∀ a, (![0, 3, 0] : Fin 3 → ℕ) a + S8x300x300.size a ≤ S8x306x300.size a) : Rect S8x306x300 :=
  Rect.unit (s := S8x306x300) ![0, 3, 0] S8x300x300.size inb
/-- The three rows after the document. -/
abbrev rHi (inb : ∀ a, (![0, 303, 0] : Fin 3 → ℕ) a + S8x3x300.size a ≤ S8x306x300.size a) : Rect S8x306x300 :=
  Rect.unit (s := S8x306x300) ![0, 303, 0] S8x3x300.size inb
/-- The three rows before it. -/
abbrev rLo (inb : ∀ a, (![0, 0, 0] : Fin 3 → ℕ) a + S8x3x300.size a ≤ S8x306x300.size a) : Rect S8x306x300 :=
  Rect.unit (s := S8x306x300) ![0, 0, 0] S8x3x300.size inb

/-- Inside rows 3 … 302 the last write of the features is what the buffer holds. -/
theorem canon_mid (inb) (hc : S8x300x300.Idx → EReal) (M : List (View.Piece (Elt Ideal) S8x306x300 .f32)) (y : S8x306x300.Idx)
    (h3 : 3 ≤ (y 1).val) (h303 : (y 1).val < 303) :
    View.canon ((⟨rMid inb, hc⟩ : View.Piece (Elt Ideal) S8x306x300 .f32) :: M) y
      = hc (ix3 ⟨(y 0).val, (y 0).isLt⟩ ⟨(y 1).val - 3, by omega⟩ ⟨(y 2).val, (y 2).isLt⟩) := by
  have hy : (rMid inb).emb (ix3 ⟨(y 0).val, (y 0).isLt⟩ ⟨(y 1).val - 3, by omega⟩ ⟨(y 2).val, (y 2).isLt⟩) = y := by
    funext a; refine Fin.ext ?_
    match a with
    | ⟨0, _⟩ => show 0 + 1 * (y 0).val = (y 0).val; omega
    | ⟨1, _⟩ => show 3 + 1 * ((y 1).val - 3) = (y 1).val; omega
    | ⟨2, _⟩ => show 0 + 1 * (y 2).val = (y 2).val; omega
  have e := View.canon_cons_emb (Val := Elt Ideal) (rMid inb) hc M
    (ix3 ⟨(y 0).val, (y 0).isLt⟩ ⟨(y 1).val - 3, by omega⟩ ⟨(y 2).val, (y 2).isLt⟩)
  rw [hy] at e
  exact e

/-- Outside them a write of the features changes nothing. -/
theorem canon_mid_off (inb) (hc : S8x300x300.Idx → EReal) (M : List (View.Piece (Elt Ideal) S8x306x300 .f32)) (y : S8x306x300.Idx)
    (h : (y 1).val < 3 ∨ 303 ≤ (y 1).val) :
    View.canon ((⟨rMid inb, hc⟩ : View.Piece (Elt Ideal) S8x306x300 .f32) :: M) y = View.canon M y :=
  View.canon_cons_of_not_mem _ M fun hm => by
    have h1 : 3 ≤ (y 1).val ∧ (y 1).val < 3 + 300 :=
      (Rect.mem_set_unit (s := S8x306x300) (off := ![0, 3, 0]) (size := S8x300x300.size) (inb := inb) (i := y)).mp hm 1
    omega

/-- In rows 303 … 305 the buffer holds the border written there; -/
theorem canon_hi (inb) (w : S8x3x300.Idx → EReal) (M : List (View.Piece (Elt Ideal) S8x306x300 .f32)) (y : S8x306x300.Idx)
    (h : 303 ≤ (y 1).val) :
    View.canon ((⟨rHi inb, w⟩ : View.Piece (Elt Ideal) S8x306x300 .f32) :: M) y
      = w (ix3 ⟨(y 0).val, (y 0).isLt⟩ ⟨(y 1).val - 303, by have hlt : (y 1).val < 306 := (y 1).isLt; omega⟩ ⟨(y 2).val, (y 2).isLt⟩) := by
  have hlt : (y 1).val < 306 := (y 1).isLt
  have hy : (rHi inb).emb (ix3 ⟨(y 0).val, (y 0).isLt⟩ ⟨(y 1).val - 303, by omega⟩ ⟨(y 2).val, (y 2).isLt⟩) = y := by
    funext a; refine Fin.ext ?_
    match a with
    | ⟨0, _⟩ => show 0 + 1 * (y 0).val = (y 0).val; omega
    | ⟨1, _⟩ => show 303 + 1 * ((y 1).val - 303) = (y 1).val; omega
    | ⟨2, _⟩ => show 0 + 1 * (y 2).val = (y 2).val; omega
  have e := View.canon_cons_emb (Val := Elt Ideal) (rHi inb) w M
    (ix3 ⟨(y 0).val, (y 0).isLt⟩ ⟨(y 1).val - 303, by omega⟩ ⟨(y 2).val, (y 2).isLt⟩)
  rw [hy] at e
  exact e

/-- below them that write changes nothing; -/
theorem canon_hi_off (inb) (w : S8x3x300.Idx → EReal) (M : List (View.Piece (Elt Ideal) S8x306x300 .f32)) (y : S8x306x300.Idx)
    (h : (y 1).val < 303) :
    View.canon ((⟨rHi inb, w⟩ : View.Piece (Elt Ideal) S8x306x300 .f32) :: M) y = View.canon M y :=
  View.canon_cons_of_not_mem _ M fun hm => by
    have h1 : 303 ≤ (y 1).val ∧ (y 1).val < 303 + 3 :=
      (Rect.mem_set_unit (s := S8x306x300) (off := ![0, 303, 0]) (size := S8x3x300.size) (inb := inb) (i := y)).mp hm 1
    omega

/-- and in rows 0 … 2 the border written there. -/
theorem canon_lo (inb) (w : S8x3x300.Idx → EReal) (M : List (View.Piece (Elt Ideal) S8x306x300 .f32)) (y : S8x306x300.Idx)
    (h : (y 1).val < 3) :
    View.canon ((⟨rLo inb, w⟩ : View.Piece (Elt Ideal) S8x306x300 .f32) :: M) y
      = w (ix3 ⟨(y 0).val, (y 0).isLt⟩ ⟨(y 1).val, h⟩ ⟨(y 2).val, (y 2).isLt⟩) := by
  have hy : (rLo inb).emb (ix3 ⟨(y 0).val, (y 0).isLt⟩ ⟨(y 1).val, h⟩ ⟨(y 2).val, (y 2).isLt⟩) = y := by
    funext a; refine Fin.ext ?_
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
  have e := View.canon_cons_emb (Val := Elt Ideal) (rLo inb) w M (ix3 ⟨(y 0).val, (y 0).isLt⟩ ⟨(y 1).val, h⟩ ⟨(y 2).val, (y 2).isLt⟩)
  rw [hy] at e
  exact e

/-- Both borders hold the most negative finite number everywhere. -/
theorem pay1_apply (j : S8x3x300.Idx) : k0_pay1 (F := Ideal) j = MsgPass.low := rfl
theorem pay2_apply (j : S8x3x300.Idx) : k0_pay2 (F := Ideal) j = MsgPass.low := rfl

/-- THE BUFFER AFTER THE FIRST WRITE of the features `hc`: at row `r` of document `b`, feature `d`, the padded features. -/
theorem scratch_first (i1 i2 i3) (hc : S8x300x300.Idx → EReal) (y : S8x306x300.Idx) (b : Fin 8) (r : ℕ) (d : Fin 300)
    (hb : (y 0).val = b.val) (hr : (y 1).val = r) (hd : (y 2).val = d.val) :
    View.canon ([⟨rMid i1, hc⟩, ⟨rHi i2, k0_pay2 (F := Ideal)⟩, ⟨rLo i3, k0_pay1 (F := Ideal)⟩] : List (View.Piece (Elt Ideal) S8x306x300 .f32)) y
      = MsgPass.padded (fun l' d' => hc (ix3 b l' d')) r d := by
  unfold MsgPass.padded
  by_cases hm : 3 ≤ r ∧ r < 303
  · rw [dif_pos hm, canon_mid i1 hc _ y (by omega) (by omega)]
    refine congrArg hc ?_
    funext a
    match a with
    | ⟨0, _⟩ => exact Fin.ext hb
    | ⟨1, _⟩ => exact Fin.ext (by show (y 1).val - 3 = r - 3; omega)
    | ⟨2, _⟩ => exact Fin.ext hd
  · rw [dif_neg hm, canon_mid_off i1 hc _ y (by omega)]
    by_cases hh : 303 ≤ r
    · rw [canon_hi i2 _ _ y (by omega), pay2_apply]
    · rw [canon_hi_off i2 _ _ y (by omega), canon_lo i3 _ _ y (by omega), pay1_apply]

/-- THE BUFFER AFTER THE SECOND WRITE, of the features `hc` over the earlier `hc0`: the padded `hc`. -/
theorem scratch_second (i0 i1 i2 i3) (hc hc0 : S8x300x300.Idx → EReal) (y : S8x306x300.Idx) (b : Fin 8) (r : ℕ) (d : Fin 300)
    (hb : (y 0).val = b.val) (hr : (y 1).val = r) (hd : (y 2).val = d.val) :
    View.canon ([⟨rMid i0, hc⟩, ⟨rMid i1, hc0⟩, ⟨rHi i2, k0_pay2 (F := Ideal)⟩, ⟨rLo i3, k0_pay1 (F := Ideal)⟩] : List (View.Piece (Elt Ideal) S8x306x300 .f32)) y
      = MsgPass.padded (fun l' d' => hc (ix3 b l' d')) r d := by
  unfold MsgPass.padded
  by_cases hm : 3 ≤ r ∧ r < 303
  · rw [dif_pos hm, canon_mid i0 hc _ y (by omega) (by omega)]
    refine congrArg hc ?_
    funext a
    match a with
    | ⟨0, _⟩ => exact Fin.ext hb
    | ⟨1, _⟩ => exact Fin.ext (by show (y 1).val - 3 = r - 3; omega)
    | ⟨2, _⟩ => exact Fin.ext hd
  · rw [dif_neg hm, canon_mid_off i0 hc _ y (by omega), canon_mid_off i1 hc0 _ y (by omega)]
    by_cases hh : 303 ≤ r
    · rw [canon_hi i2 _ _ y (by omega), pay2_apply]
    · rw [canon_hi_off i2 _ _ y (by omega), canon_lo i3 _ _ y (by omega), pay1_apply]

end Cert.KernelIdeal.Body

end
-- ==== Proof.KerPay.lean ====
/-
  The kernel body's arithmetic, read at an index on the extended reals. Each store's value is a pointwise expression of the
  body's loads, of columns of the weight block spread along the feature axis (a slice of one weight column, then a broadcast
  along the features) and of the gate column spread the same way; the last one sums over the positions. At position l and
  feature d of document b a slice of column k spread along the features reads the weight at (b, l, k), the spread gate reads
  the gate at (b, l, 0), and the sum over axis 1 at (b, d) is the sum over l of the summand at (b, l, d).
-/
import proofs.«112600_j80238579024429_2_alg».proof.Proof.Gen.KernelIdeal.Skeleton
import Idealize.ShloMosaic.Lib.Pipeline.Value
import Idealize.ShloMosaic.Lib.ValueIdx
import Idealize.ShloMosaic.Lib.IdealHost
import Idealize.ShloMosaic.PureOps.Ideal.Laws

noncomputable section

namespace Cert.KernelIdeal.Body

open Cert.KernelIdeal Cert.KernelIdeal.Gen Idealize.ShloMosaic Idealize.ShloMosaic.ValueIdx Idealize.SL.Sem

/-- Column `o` of the weight block, as a one-column block, at (b, l, 0): the weight at (b, l, o). -/
theorem slice_col {α : Type} (v : S8x300x7.Idx → α) (o : ℕ) (ho : o < 7) (h : S8x300x7.Slices ![0, 0, o] S8x300x1)
    (b : Fin 8) (l : Fin 300) :
    extractStridedSlice S8x300x1 ![0, 0, o] v h (ix3 b l 0) = v (ix3 b l ⟨o, ho⟩) :=
  extractStridedSlice_apply _ v h _ _ fun a => by
    match a with
    | ⟨0, _⟩ => show b.val = 0 + b.val; omega
    | ⟨1, _⟩ => show l.val = 0 + l.val; omega
    | ⟨2, _⟩ => show o = o + 0; omega

/-- A one-column block spread along the features, at (b, l, d): the column at (b, l, 0). -/
theorem spread_col {α : Type} (u : S8x300x1.Idx → α) (h : S8x300x1.Broadcasts S8x300x300) (b : Fin 8) (l d : Fin 300) :
    broadcastTo S8x300x300 u h (ix3 b l d) = u (ix3 b l 0) :=
  broadcastTo_apply u h _ _ fun a => by
    match a with
    | ⟨0, _⟩ => rfl
    | ⟨1, _⟩ => rfl
    | ⟨2, _⟩ => rfl

/-- The sum over the positions at (b, d). -/
theorem sum_rows (v : FVec Ideal S8x300x300 .f32) (h : S8x300x300.Reduces [1] S8x300) (hφ : FKind.Formats .f32)
    (hacc : (0x00000000#32 : BitVec 32) = 0x00000000#32) (b : Fin 8) (d : Fin 300) :
    multiReduction .add [1] S8x300 v 0x00000000#32 h hφ hacc (ix2 b d) = ∑ l : Fin 300, v (ix3 b l d) := by
  refine (Ideal.multiReduction_add_single v 0x00000000#32 h hφ hacc (ix2 b d)).trans ?_
  refine Finset.sum_congr rfl fun l _ => congrArg v ?_
  funext a
  match a with
  | ⟨0, _⟩ => rfl
  | ⟨1, _⟩ => rfl
  | ⟨2, _⟩ => rfl

/-- The first two candidates' maximum. -/
theorem pay7_apply (v12 : Vec Ideal S8x300x7 .f32) (v17 v21 : Vec Ideal S8x300x300 .f32) (b : Fin 8) (l d : Fin 300) :
    k0_pay7 v12 v17 v21 (ix3 b l d)
      = max (v12 (ix3 b l 0) * v17 (ix3 b l d)) (v12 (ix3 b l 1) * v21 (ix3 b l d)) := by
  unfold k0_pay7 k0_pay5
  simp only [shapeCast_self]
  show max (broadcastTo S8x300x300 (extractStridedSlice S8x300x1 ![0, 0, 0] v12 _) _ (ix3 b l d) * v17 (ix3 b l d))
      (broadcastTo S8x300x300 (extractStridedSlice S8x300x1 ![0, 0, 1] v12 _) _ (ix3 b l d) * v21 (ix3 b l d)) = _
  rw [spread_col, spread_col, slice_col v12 0 (by decide), slice_col v12 1 (by decide)]
  rfl

/-- One candidate. -/
theorem pay10_apply (v13 : FVec Ideal S8x300x7 .f32) (v61 : Vec Ideal S8x300x300 .f32) (b : Fin 8) (l d : Fin 300) :
    k0_pay10 v13 v61 (ix3 b l d) = v13 (ix3 b l 0) * v61 (ix3 b l d) := by
  unfold k0_pay10
  show broadcastTo S8x300x300 (extractStridedSlice S8x300x1 ![0, 0, 0] v13 _) _ (ix3 b l d) * v61 (ix3 b l d) = _
  rw [spread_col, slice_col v13 0 (by decide)]
  rfl

/-- The first step's result: the gate's convex combination of the features and the seven candidates' maximum. -/
theorem pay8_apply (v9 : FVec Ideal S8x300x300 .f32) (v11 : FVec Ideal S8x300x1 .f32) (v13 : FVec Ideal S8x300x7 .f32)
    (v25 : FVec Ideal S8x300x300 .f32) (v26 v31 v36 v41 v46 : Vec Ideal S8x300x300 .f32) (b : Fin 8) (l d : Fin 300) :
    k0_pay8 v9 v11 v13 v25 v26 v31 v36 v41 v46 (ix3 b l d)
      = v11 (ix3 b l 0) * v9 (ix3 b l d)
        + (1 - v11 (ix3 b l 0))
          * max (max (max (max (max (v25 (ix3 b l d)) (v13 (ix3 b l 2) * v26 (ix3 b l d))) (v13 (ix3 b l 3) * v31 (ix3 b l d)))
              (v13 (ix3 b l 4) * v36 (ix3 b l d))) (v13 (ix3 b l 5) * v41 (ix3 b l d))) (v13 (ix3 b l 6) * v46 (ix3 b l d)) := by
  unfold k0_pay8
  show broadcastTo S8x300x300 v11 _ (ix3 b l d) * v9 (ix3 b l d)
      + broadcastTo S8x300x300 (subf (broadcast S8x300x1 (Scalar.ofBits (F := Ideal) .f32 0x3F800000#32)) v11) _ (ix3 b l d)
        * max (max (max (max (max (v25 (ix3 b l d))
            (broadcastTo S8x300x300 (extractStridedSlice S8x300x1 ![0, 0, 2] v13 _) _ (ix3 b l d) * v26 (ix3 b l d)))
            (broadcastTo S8x300x300 (extractStridedSlice S8x300x1 ![0, 0, 3] v13 _) _ (ix3 b l d) * v31 (ix3 b l d)))
            (broadcastTo S8x300x300 (extractStridedSlice S8x300x1 ![0, 0, 4] v13 _) _ (ix3 b l d) * v36 (ix3 b l d)))
            (broadcastTo S8x300x300 (extractStridedSlice S8x300x1 ![0, 0, 5] v13 _) _ (ix3 b l d) * v41 (ix3 b l d)))
            (broadcastTo S8x300x300 (extractStridedSlice S8x300x1 ![0, 0, 6] v13 _) _ (ix3 b l d) * v46 (ix3 b l d)) = _
  rw [spread_col, spread_col, spread_col, spread_col, spread_col, spread_col, spread_col,
    slice_col v13 2 (by decide), slice_col v13 3 (by decide), slice_col v13 4 (by decide), slice_col v13 5 (by decide),
    slice_col v13 6 (by decide)]
  show _ + (Ideal.ofBits .f32 0x3F800000#32 - v11 (ix3 b l 0)) * _ = _
  rw [Ideal.ofBits_one_f32]
  rfl

/-- The second step's result summed over the positions. -/
theorem pay11_apply (v11 : FVec Ideal S8x300x1 .f32) (v13 : FVec Ideal S8x300x7 .f32) (v57 v64 : FVec Ideal S8x300x300 .f32)
    (v65 v70 v75 v80 v85 v90 : Vec Ideal S8x300x300 .f32) (b : Fin 8) (d : Fin 300) :
    k0_pay11 v11 v13 v57 v64 v65 v70 v75 v80 v85 v90 (ix2 b d)
      = ∑ l : Fin 300, (v11 (ix3 b l 0) * v57 (ix3 b l d)
        + (1 - v11 (ix3 b l 0))
          * max (max (max (max (max (max (v64 (ix3 b l d)) (v13 (ix3 b l 1) * v65 (ix3 b l d))) (v13 (ix3 b l 2) * v70 (ix3 b l d)))
              (v13 (ix3 b l 3) * v75 (ix3 b l d))) (v13 (ix3 b l 4) * v80 (ix3 b l d))) (v13 (ix3 b l 5) * v85 (ix3 b l d)))
              (v13 (ix3 b l 6) * v90 (ix3 b l d))) := by
  unfold k0_pay11
  refine (sum_rows _ _ _ _ b d).trans ?_
  refine Finset.sum_congr rfl fun l _ => ?_
  show broadcastTo S8x300x300 v11 _ (ix3 b l d) * v57 (ix3 b l d)
      + broadcastTo S8x300x300 (subf (broadcast S8x300x1 (Scalar.ofBits (F := Ideal) .f32 0x3F800000#32)) v11) _ (ix3 b l d)
        * max (max (max (max (max (max (v64 (ix3 b l d))
            (broadcastTo S8x300x300 (extractStridedSlice S8x300x1 ![0, 0, 1] v13 _) _ (ix3 b l d) * v65 (ix3 b l d)))
            (broadcastTo S8x300x300 (extractStridedSlice S8x300x1 ![0, 0, 2] v13 _) _ (ix3 b l d) * v70 (ix3 b l d)))
            (broadcastTo S8x300x300 (extractStridedSlice S8x300x1 ![0, 0, 3] v13 _) _ (ix3 b l d) * v75 (ix3 b l d)))
            (broadcastTo S8x300x300 (extractStridedSlice S8x300x1 ![0, 0, 4] v13 _) _ (ix3 b l d) * v80 (ix3 b l d)))
            (broadcastTo S8x300x300 (extractStridedSlice S8x300x1 ![0, 0, 5] v13 _) _ (ix3 b l d) * v85 (ix3 b l d)))
            (broadcastTo S8x300x300 (extractStridedSlice S8x300x1 ![0, 0, 6] v13 _) _ (ix3 b l d) * v90 (ix3 b l d)) = _
  rw [spread_col, spread_col, spread_col, spread_col, spread_col, spread_col, spread_col, spread_col,
    slice_col v13 1 (by decide), slice_col v13 2 (by decide), slice_col v13 3 (by decide), slice_col v13 4 (by decide),
    slice_col v13 5 (by decide), slice_col v13 6 (by decide)]
  show _ + (Ideal.ofBits .f32 0x3F800000#32 - v11 (ix3 b l 0)) * _ = _
  rw [Ideal.ofBits_one_f32]
  rfl

end Cert.KernelIdeal.Body

end
-- ==== Proof.KerBody.lean ====
/-
  What one grid point's body leaves in its output block, on the extended reals: for document b of the point's eight and
  feature d, two message-passing steps over the PADDED features and the sum over the positions
  (`MsgPass.pooledP` of the document's gates, weights and features). The body keeps the features in the middle rows of
  its padded scratch buffer: each of the seven candidates of a step reads the buffer 300 rows from row k, that is the
  padded features' rows l + k; the first step's features are the input block, the second step's the first step's result.
-/
import proofs.«112600_j80238579024429_2_alg».proof.Proof.Gen.KernelIdeal.Frame
import proofs.«112600_j80238579024429_2_alg».proof.Proof.KerScratch
import proofs.«112600_j80238579024429_2_alg».proof.Proof.KerPay

noncomputable section

namespace Cert.KernelIdeal.Body

open Cert.KernelIdeal Cert.KernelIdeal.Gen Idealize.ShloMosaic Idealize.ShloMosaic.ValueIdx Idealize.SL.Sem Idealize.ShloMosaic.Tactic

theorem pay3_eq (v : Vec Ideal S8x300x300 .f32) : k0_pay3 v = v := by unfold k0_pay3; exact shapeCast_self _ _
theorem pay4_eq (v : Vec Ideal S8x300x1 .f32) : k0_pay4 v = v := by unfold k0_pay4; exact shapeCast_self _ _
theorem pay5_eq (v : Vec Ideal S8x300x7 .f32) : k0_pay5 v = v := by unfold k0_pay5; exact shapeCast_self _ _
theorem pay6_eq (v : Vec Ideal S8x300x300 .f32) : k0_pay6 v = v := by unfold k0_pay6; rw [pay3_eq]; exact shapeCast_self _ _
theorem pay9_eq (v9 : FVec Ideal S8x300x300 .f32) (v11 : FVec Ideal S8x300x1 .f32) (v13 : FVec Ideal S8x300x7 .f32)
    (v25 : FVec Ideal S8x300x300 .f32) (v26 v31 v36 v41 v46 : Vec Ideal S8x300x300 .f32) :
    k0_pay9 v9 v11 v13 v25 v26 v31 v36 v41 v46 = k0_pay8 v9 v11 v13 v25 v26 v31 v36 v41 v46 := by
  unfold k0_pay9; exact shapeCast_self _ _

theorem hz2 : (![0, 0] : Fin 2 → ℕ) = fun _ => 0 := by funext a; match a with | ⟨0, _⟩ => rfl | ⟨1, _⟩ => rfl
theorem hz3 : (![0, 0, 0] : Fin 3 → ℕ) = fun _ => 0 := by
  funext a; match a with | ⟨0, _⟩ => rfl | ⟨1, _⟩ => rfl | ⟨2, _⟩ => rfl

/-- A load of 300 rows from row `k` of the buffer after the first write of the features `hc`: the padded features' rows
    `l + k`. -/
theorem load_first (v : View sig .tc .vmem S8x306x300 .f32) (i1 i2 i3) (hc : S8x300x300.Idx → EReal) (k : ℕ)
    (inb : ∀ a, (![0, k, 0] : Fin 3 → ℕ) a + S8x300x300.size a ≤ S8x306x300.size a) (b : Fin 8) (l d : Fin 300) :
    v.readCov ([⟨rMid i1, hc⟩, ⟨rHi i2, k0_pay2 (F := Ideal)⟩, ⟨rLo i3, k0_pay1 (F := Ideal)⟩] : List (View.Piece (Elt Ideal) S8x306x300 .f32))
        (Rect.unit (s := S8x306x300) ![0, k, 0] S8x300x300.size inb).toLoadRect (ix3 b l d)
      = MsgPass.padded (fun l' d' => hc (ix3 b l' d')) (l.val + k) d := by
  rw [View.readCov_eq_canon']
  exact scratch_first i1 i2 i3 hc _ b (l.val + k) d (by show 0 + 1 * b.val = b.val; omega)
    (by show k + 1 * l.val = l.val + k; omega) (by show 0 + 1 * d.val = d.val; omega)

/-- The same after the second write, of `hc` over `hc0`. -/
theorem load_second (v : View sig .tc .vmem S8x306x300 .f32) (i0 i1 i2 i3) (hc hc0 : S8x300x300.Idx → EReal) (k : ℕ)
    (inb : ∀ a, (![0, k, 0] : Fin 3 → ℕ) a + S8x300x300.size a ≤ S8x306x300.size a) (b : Fin 8) (l d : Fin 300) :
    v.readCov ([⟨rMid i0, hc⟩, ⟨rMid i1, hc0⟩, ⟨rHi i2, k0_pay2 (F := Ideal)⟩, ⟨rLo i3, k0_pay1 (F := Ideal)⟩] : List (View.Piece (Elt Ideal) S8x306x300 .f32))
        (Rect.unit (s := S8x306x300) ![0, k, 0] S8x300x300.size inb).toLoadRect (ix3 b l d)
      = MsgPass.padded (fun l' d' => hc (ix3 b l' d')) (l.val + k) d := by
  rw [View.readCov_eq_canon']
  exact scratch_second i0 i1 i2 i3 hc hc0 _ b (l.val + k) d (by show 0 + 1 * b.val = b.val; omega)
    (by show k + 1 * l.val = l.val + k; omega) (by show 0 + 1 * d.val = d.val; omega)

/-- THE FIRST STEP: from seven loads that read the padded input features' rows `l + k`, the body's first update is one step
    over the padded features. -/
theorem step1_apply (x0 : Vec Ideal S8x300x300 .f32) (x1 : Vec Ideal S8x300x1 .f32) (x2 : Vec Ideal S8x300x7 .f32)
    (R0 R1 R2 R3 R4 R5 R6 : Vec Ideal S8x300x300 .f32) (b : Fin 8)
    (h0 : ∀ l d, R0 (ix3 b l d) = MsgPass.padded (fun l' d' => x0 (ix3 b l' d')) (l.val + 0) d)
    (h1 : ∀ l d, R1 (ix3 b l d) = MsgPass.padded (fun l' d' => x0 (ix3 b l' d')) (l.val + 1) d)
    (h2 : ∀ l d, R2 (ix3 b l d) = MsgPass.padded (fun l' d' => x0 (ix3 b l' d')) (l.val + 2) d)
    (h3 : ∀ l d, R3 (ix3 b l d) = MsgPass.padded (fun l' d' => x0 (ix3 b l' d')) (l.val + 3) d)
    (h4 : ∀ l d, R4 (ix3 b l d) = MsgPass.padded (fun l' d' => x0 (ix3 b l' d')) (l.val + 4) d)
    (h5 : ∀ l d, R5 (ix3 b l d) = MsgPass.padded (fun l' d' => x0 (ix3 b l' d')) (l.val + 5) d)
    (h6 : ∀ l d, R6 (ix3 b l d) = MsgPass.padded (fun l' d' => x0 (ix3 b l' d')) (l.val + 6) d) (l d : Fin 300) :
    k0_pay8 x0 x1 x2 (k0_pay7 x2 R0 R1) R2 R3 R4 R5 R6 (ix3 b l d)
      = MsgPass.stepP (fun l => x1 (ix3 b l 0)) (fun l k => x2 (ix3 b l k)) (fun l d' => x0 (ix3 b l d')) l d := by
  rw [pay8_apply, pay7_apply, h0, h1, h2, h3, h4, h5, h6]
  rfl

/-- THE SECOND STEP AND THE SUM: from seven loads that read the padded rows `l + k` of the features `H`, the body's stored
    value is the sum over the positions of one step over the padded `H`. -/
theorem step2_apply (x1 : Vec Ideal S8x300x1 .f32) (x2 : Vec Ideal S8x300x7 .f32) (H : FVec Ideal S8x300x300 .f32)
    (R0 R1 R2 R3 R4 R5 R6 : Vec Ideal S8x300x300 .f32) (b : Fin 8)
    (h0 : ∀ l d, R0 (ix3 b l d) = MsgPass.padded (fun l' d' => H (ix3 b l' d')) (l.val + 0) d)
    (h1 : ∀ l d, R1 (ix3 b l d) = MsgPass.padded (fun l' d' => H (ix3 b l' d')) (l.val + 1) d)
    (h2 : ∀ l d, R2 (ix3 b l d) = MsgPass.padded (fun l' d' => H (ix3 b l' d')) (l.val + 2) d)
    (h3 : ∀ l d, R3 (ix3 b l d) = MsgPass.padded (fun l' d' => H (ix3 b l' d')) (l.val + 3) d)
    (h4 : ∀ l d, R4 (ix3 b l d) = MsgPass.padded (fun l' d' => H (ix3 b l' d')) (l.val + 4) d)
    (h5 : ∀ l d, R5 (ix3 b l d) = MsgPass.padded (fun l' d' => H (ix3 b l' d')) (l.val + 5) d)
    (h6 : ∀ l d, R6 (ix3 b l d) = MsgPass.padded (fun l' d' => H (ix3 b l' d')) (l.val + 6) d) (d : Fin 300) :
    k0_pay11 x1 x2 H (k0_pay10 x2 R0) R1 R2 R3 R4 R5 R6 (ix2 b d)
      = ∑ l : Fin 300, MsgPass.stepP (fun l => x1 (ix3 b l 0)) (fun l k => x2 (ix3 b l k)) (fun l d' => H (ix3 b l d')) l d := by
  rw [pay11_apply]
  refine Finset.sum_congr rfl fun l _ => ?_
  rw [pay10_apply, h0, h1, h2, h3, h4, h5, h6]
  rfl

/-- WHAT THE BODY LEAVES IN ITS OUTPUT BLOCK, at document `b` and feature `d`. -/
theorem out_apply (c : Dev nD) (i : grid0.Coords) (arg1 : Memref sig .tc .vmem S8x300x300 .f32) (harg1 : arg1.IsWhole) (arg2 : Memref sig .tc .vmem S8x300x1 .f32) (harg2 : arg2.IsWhole) (arg3 : Memref sig .tc .vmem S8x300x7 .f32) (harg3 : arg3.IsWhole) (arg4 : Memref sig .tc .vmem S8x300 .f32) (harg4 : arg4.IsWhole) (arg5 : Memref sig .tc .vmem S8x306x300 .f32) (harg5 : arg5.IsWhole)
    (x0 : Vec Ideal S8x300x300 .f32) (x1 : Vec Ideal S8x300x1 .f32) (x2 : Vec Ideal S8x300x7 .f32) (b : Fin 8) (d : Fin 300) :
    out0_A_3 (F := Ideal) c i arg1 harg1 arg2 harg2 arg3 harg3 arg4 harg4 arg5 harg5 x0 x1 x2 (ix2 b d)
      = MsgPass.pooledP (fun l => x1 (ix3 b l 0)) (fun l k => x2 (ix3 b l k)) (fun l d' => x0 (ix3 b l d')) d := by
  unfold out0_A_3
  rw [View.read_writes_eq_canon _ _ _ (cover0_A_3 c i arg1 harg1 arg2 harg2 arg3 harg3 arg4 harg4 arg5 harg5 x0 x1 x2)]
  unfold kernelRun0_A
  dsimp only
  sl_unfold_words
  rw [View.canon_unit_zero hz2]
  simp only [View.readAt_eq_ld, harg1.read_unread, harg2.read_unread, harg3.read_unread,
    View.ld_unit_zero (S := S8x300x300) hz3, View.ld_unit_zero (S := S8x300x1) hz3, View.ld_unit_zero (S := S8x300x7) hz3,
    pay3_eq, pay4_eq, pay5_eq, pay6_eq, pay9_eq]
  refine (step2_apply x1 x2 _ _ _ _ _ _ _ _ b
    (fun l d => load_second _ _ _ _ _ _ _ 0 _ b l d) (fun l d => load_second _ _ _ _ _ _ _ 1 _ b l d)
    (fun l d => load_second _ _ _ _ _ _ _ 2 _ b l d) (fun l d => load_second _ _ _ _ _ _ _ 3 _ b l d)
    (fun l d => load_second _ _ _ _ _ _ _ 4 _ b l d) (fun l d => load_second _ _ _ _ _ _ _ 5 _ b l d)
    (fun l d => load_second _ _ _ _ _ _ _ 6 _ b l d) d).trans ?_
  unfold MsgPass.pooledP
  refine Finset.sum_congr rfl fun l _ => ?_
  refine congrArg (fun h => MsgPass.stepP (fun l => x1 (ix3 b l 0)) (fun l k => x2 (ix3 b l k)) h l d) ?_
  funext l' d'
  exact step1_apply x0 x1 x2 _ _ _ _ _ _ _ b
    (fun l d => load_first _ _ _ _ _ 0 _ b l d) (fun l d => load_first _ _ _ _ _ 1 _ b l d)
    (fun l d => load_first _ _ _ _ _ 2 _ b l d) (fun l d => load_first _ _ _ _ _ 3 _ b l d)
    (fun l d => load_first _ _ _ _ _ 4 _ b l d) (fun l d => load_first _ _ _ _ _ 5 _ b l d)
    (fun l d => load_first _ _ _ _ _ 6 _ b l d) l' d'

end Cert.KernelIdeal.Body

end
-- ==== Proof.KerValue.lean ====
/-
  The kernel's result array as ONE function of the three arrays its launch reads. Grid point t handles documents 8t … 8t + 7:
  its input blocks are those documents' rows of the features, the gates and the weights, and it writes back their readouts.
  The sixteen points cover the 128 documents, so after the run the result array holds, at (document b, feature d), the
  readout `MsgPass.pooledP` of document b's gates, weights and features.
-/
import proofs.«112600_j80238579024429_2_alg».proof.Proof.Gen.KernelIdeal.Frame
import proofs.«112600_j80238579024429_2_alg».proof.Proof.KerBody
import Idealize.ShloMosaic.Lib.Pipeline.Value

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The readouts of all documents, of the feature array `H`, the gate array `E` and the weight array `W`. -/
def G (H : S128x300x300.Idx → EReal) (E : S128x300x1.Idx → EReal) (W : S128x300x7.Idx → EReal) : S128x300.Idx → EReal :=
  fun i => MsgPass.pooledP (fun l => E (ix3 ⟨(i 0).val, (i 0).isLt⟩ l 0)) (fun l k => W (ix3 ⟨(i 0).val, (i 0).isLt⟩ l k))
    (fun l d => H (ix3 ⟨(i 0).val, (i 0).isLt⟩ l d)) ⟨(i 1).val, (i 1).isLt⟩

/-- The printed index maps over the grid: point t's blocks are block t along the documents and block 0 along the rest. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

/-- The feature block at point t is rows 8t … 8t + 7 of the feature array. -/
theorem iblk0_apply (c : Dev nD) (t : Fin cfg0.N) (x : S8x300x300.Idx) (k : S128x300x300.Idx)
    (h0 : (k 0).val = 8 * t.val + (x 0).val) (h1 : (k 1).val = (x 1).val) (h2 : (k 2).val = (x 2).val) :
    (iblk m c 0 t : Vec Ideal S8x300x300 .f32) x = (V m c main_v57 : S128x300x300.Idx → EReal) k := by
  obtain ⟨e0, e1, e2, -⟩ := idx_facts t
  unfold iblk
  rw [View.read_apply]
  show V m c main_v57 _ = V m c main_v57 _
  refine congrArg (V m c main_v57 : S128x300x300.Idx → EReal) ?_
  funext a; apply Fin.ext
  match a with
  | ⟨0, _⟩ => show win0_0.index t 0 * 8 + 1 * (x 0).val = (k 0).val; rw [e0, h0]; omega
  | ⟨1, _⟩ => show win0_0.index t 1 * 300 + 1 * (x 1).val = (k 1).val; rw [e1, h1]; omega
  | ⟨2, _⟩ => show win0_0.index t 2 * 300 + 1 * (x 2).val = (k 2).val; rw [e2, h2]; omega

/-- The gate block likewise. -/
theorem iblk1_apply (c : Dev nD) (t : Fin cfg0.N) (x : S8x300x1.Idx) (k : S128x300x1.Idx)
    (h0 : (k 0).val = 8 * t.val + (x 0).val) (h1 : (k 1).val = (x 1).val) (h2 : (k 2).val = (x 2).val) :
    (iblk m c 1 t : Vec Ideal S8x300x1 .f32) x = (V m c main_v64 : S128x300x1.Idx → EReal) k := by
  obtain ⟨-, -, -, e0, e1, e2, -⟩ := idx_facts t
  unfold iblk
  rw [View.read_apply]
  show V m c main_v64 _ = V m c main_v64 _
  refine congrArg (V m c main_v64 : S128x300x1.Idx → EReal) ?_
  funext a; apply Fin.ext
  match a with
  | ⟨0, _⟩ => show win0_1.index t 0 * 8 + 1 * (x 0).val = (k 0).val; rw [e0, h0]; omega
  | ⟨1, _⟩ => show win0_1.index t 1 * 300 + 1 * (x 1).val = (k 1).val; rw [e1, h1]; omega
  | ⟨2, _⟩ => show win0_1.index t 2 * 1 + 1 * (x 2).val = (k 2).val; rw [e2, h2]; omega

/-- The weight block likewise. -/
theorem iblk2_apply (c : Dev nD) (t : Fin cfg0.N) (x : S8x300x7.Idx) (k : S128x300x7.Idx)
    (h0 : (k 0).val = 8 * t.val + (x 0).val) (h1 : (k 1).val = (x 1).val) (h2 : (k 2).val = (x 2).val) :
    (iblk m c 2 t : Vec Ideal S8x300x7 .f32) x = (V m c main_v50 : S128x300x7.Idx → EReal) k := by
  obtain ⟨-, -, -, -, -, -, e0, e1, e2, -⟩ := idx_facts t
  unfold iblk
  rw [View.read_apply]
  show V m c main_v50 _ = V m c main_v50 _
  refine congrArg (V m c main_v50 : S128x300x7.Idx → EReal) ?_
  funext a; apply Fin.ext
  match a with
  | ⟨0, _⟩ => show win0_2.index t 0 * 8 + 1 * (x 0).val = (k 0).val; rw [e0, h0]; omega
  | ⟨1, _⟩ => show win0_2.index t 1 * 300 + 1 * (x 1).val = (k 1).val; rw [e1, h1]; omega
  | ⟨2, _⟩ => show win0_2.index t 2 * 7 + 1 * (x 2).val = (k 2).val; rw [e2, h2]; omega

/-- The readout of document b of point t's eight, from the point's blocks, is the readout of document 8t + b from the arrays. -/
theorem block_readout (c : Dev nD) (t : Fin cfg0.N) (b : Fin 8) (d : Fin 300) (y : S128x300.Idx)
    (h0 : (y 0).val = 8 * t.val + b.val) (h1 : (y 1).val = d.val) :
    MsgPass.pooledP (fun l => (iblk m c 1 t : Vec Ideal S8x300x1 .f32) (ix3 b l 0))
        (fun l k => (iblk m c 2 t : Vec Ideal S8x300x7 .f32) (ix3 b l k))
        (fun l d' => (iblk m c 0 t : Vec Ideal S8x300x300 .f32) (ix3 b l d')) d
      = G (V m c main_v57) (V m c main_v64) (V m c main_v50) y := by
  unfold G
  obtain rfl : d = ⟨(y 1).val, (y 1).isLt⟩ := Fin.ext h1.symm
  have e1 : (fun l => (iblk m c 1 t : Vec Ideal S8x300x1 .f32) (ix3 b l 0))
      = fun l => (V m c main_v64 : S128x300x1.Idx → EReal) (ix3 ⟨(y 0).val, (y 0).isLt⟩ l 0) :=
    funext fun l => iblk1_apply m c t _ _ h0 rfl rfl
  have e2 : (fun l k => (iblk m c 2 t : Vec Ideal S8x300x7 .f32) (ix3 b l k))
      = fun l k => (V m c main_v50 : S128x300x7.Idx → EReal) (ix3 ⟨(y 0).val, (y 0).isLt⟩ l k) :=
    funext fun l => funext fun k => iblk2_apply m c t _ _ h0 rfl rfl
  have e0 : (fun l d' => (iblk m c 0 t : Vec Ideal S8x300x300 .f32) (ix3 b l d'))
      = fun l d' => (V m c main_v57 : S128x300x300.Idx → EReal) (ix3 ⟨(y 0).val, (y 0).isLt⟩ l d') :=
    funext fun l => funext fun d' => iblk0_apply m c t _ _ h0 rfl rfl
  rw [e1, e2, e0]

/-- WHAT POINT t WRITES BACK is block t of `G` of the three arrays as the launch finds them. -/
theorem flushed_eq (c : Dev nD) (t : Fin cfg0.N) :
    (dats m 0 c).flushed 3 t
      = ((cfg0.win 3).blk t).view.read (Elt Ideal) (G (V m c main_v57) (V m c main_v64) (V m c main_v50)) := by
  show (cfg0.win 3).cut (grid0.coords t) ((dats m 0 c).after 3 t) = _
  rw [after0_3]
  unfold outsAt0
  obtain ⟨-, -, -, -, -, -, -, -, -, e0, e1⟩ := idx_facts t
  funext j
  obtain ⟨b, d, rfl⟩ : ∃ (b : Fin 8) (d : Fin 300), j = ix2 b d := ⟨j 0, j 1, eq_ix2 j⟩
  show out0_A_3 c (grid0.coords t) (ms0_0 t) (hs0_0 t) (ms0_1 t) (hs0_1 t) (ms0_2 t) (hs0_2 t) (ms0_3 t) (hs0_3 t) scM0_0
      (Memref.isWhole_whole _) (iblk m c 0 t) (iblk m c 1 t) (iblk m c 2 t) (ix2 b d)
    = G (V m c main_v57) (V m c main_v64) (V m c main_v50) (((cfg0.win 3).blk t).view.emb (ix2 b d))
  rw [Body.out_apply]
  exact block_readout m c t b d _ (by show win0_3.index t 0 * 8 + 1 * b.val = 8 * t.val + b.val; rw [e0]; omega)
    (by show win0_3.index t 1 * 300 + 1 * d.val = d.val; rw [e1]; omega)

/-- An index of the result array is in point t's block iff each coordinate is in the block's range on its axis. -/
theorem mem_blk (t : Fin cfg0.N) (i : S128x300.Idx) :
    i ∈ ((cfg0.win 3).blk t).view.set ↔ ∀ a : Fin 2, win0_3.index t a * S8x300.size a ≤ (i a).val
      ∧ (i a).val < win0_3.index t a * S8x300.size a + S8x300.size a := by
  show i ∈ ((View.whole main_v65).slice (win0_3.rect t)).set ↔ _
  rw [View.set_slice_whole, Rect.mem_set_unit]
  exact Iff.rfl

/-- Every index of the result array is in the block of the point its document belongs to. -/
theorem cover (i : S128x300.Idx) :
    ∃ t : Fin cfg0.N, (cfg0.win 3).flush t = true ∧ i ∈ ((cfg0.win 3).blk t).view.set := by
  have hi0 : (i 0).val < 128 := (i 0).isLt
  have hi1 : (i 1).val < 300 := (i 1).isLt
  have hN : cfg0.N = 16 := N_0
  obtain ⟨t, ht⟩ : ∃ t : Fin cfg0.N, t.val = (i 0).val / 8 := ⟨⟨(i 0).val / 8, by rw [hN]; omega⟩, rfl⟩
  obtain ⟨-, -, -, -, -, -, -, -, -, e0, e1⟩ := idx_facts t
  refine ⟨t, flush0_3 t, ?_⟩
  rw [mem_blk]
  intro a
  match a with
  | ⟨0, _⟩ =>
    show win0_3.index t 0 * 8 ≤ (i 0).val ∧ (i 0).val < win0_3.index t 0 * 8 + 8
    rw [e0, ht]; omega
  | ⟨1, _⟩ =>
    show win0_3.index t 1 * 300 ≤ (i 1).val ∧ (i 1).val < win0_3.index t 1 * 300 + 300
    rw [e1]; omega

/-- THE RESULT ARRAY after the run. -/
theorem final (c : Dev nD) :
    (dats m 0 c).arrAt 3 cfg0.N = G (V m c main_v57) (V m c main_v64) (V m c main_v50) :=
  (dats m 0 c).arrAt_eq_of_cover 3 (G (V m c main_v57) (V m c main_v64) (V m c main_v50)) (fun t _ => flushed_eq m c t) cover

end Cert.KernelIdeal.Blocks

end
-- ==== Proof.KerTerm.lean ====
/- The host operations of the kernel's program, one definition each (the operation's function applied to the definitions of its
   operands, in the program's order): those before the launch as functions of the argument arrays, those after it as
   functions of the launch's result P and the argument arrays. -/
import proofs.«112600_j80238579024429_2_alg».proof.Proof.Gen.KernelIdeal

noncomputable section

namespace Cert.KernelIdeal.KerTerm

open Cert.KernelIdeal Cert.KernelIdeal.Gen Idealize.ShloMosaic Idealize.SL.Sem

variable {F : FTy → Type} [FloatOps F]

/-! ### Before the launch: the window tables and the gathers — the edge weights with 1 where the neighbour falls outside the document, the node features, the gates -/

def t_v0 :
    (⟨S7, .i32⟩ : BufTy).Contents (Elt F) :=
  (((iotaInDim S7 32 0)) : (⟨S7, .i32⟩ : BufTy).Contents (Elt F))
def t_c :
    (⟨S_, .i32⟩ : BufTy).Contents (Elt F) :=
  (((constantI S_ 32 4294967293#32)) : (⟨S_, .i32⟩ : BufTy).Contents (Elt F))
def t_v1 :
    (⟨S7, .i32⟩ : BufTy).Contents (Elt F) :=
  (broadcastInDim S7 ![] bcast_S_S7 : (⟨S_, .i32⟩ : BufTy).Contents (Elt F) → (⟨S7, .i32⟩ : BufTy).Contents (Elt F)) (t_c (F := F))
def t_v2 :
    (⟨S7, .i32⟩ : BufTy).Contents (Elt F) :=
  (addi : (⟨S7, .i32⟩ : BufTy).Contents (Elt F) → (⟨S7, .i32⟩ : BufTy).Contents (Elt F) → (⟨S7, .i32⟩ : BufTy).Contents (Elt F)) (t_v1 (F := F)) (t_v0 (F := F))
def t_v3 :
    (⟨S300, .i32⟩ : BufTy).Contents (Elt F) :=
  (((iotaInDim S300 32 0)) : (⟨S300, .i32⟩ : BufTy).Contents (Elt F))
def t_v4 :
    (⟨S300x1, .i32⟩ : BufTy).Contents (Elt F) :=
  (broadcastInDim S300x1 ![0] bcast_S300_S300x1_0 : (⟨S300, .i32⟩ : BufTy).Contents (Elt F) → (⟨S300x1, .i32⟩ : BufTy).Contents (Elt F)) (t_v3 (F := F))
def t_v5 :
    (⟨S1x7, .i32⟩ : BufTy).Contents (Elt F) :=
  (broadcastInDim S1x7 ![1] bcast_S7_S1x7_1 : (⟨S7, .i32⟩ : BufTy).Contents (Elt F) → (⟨S1x7, .i32⟩ : BufTy).Contents (Elt F)) (t_v2 (F := F))
def t_v6 :
    (⟨S300x7, .i32⟩ : BufTy).Contents (Elt F) :=
  (broadcastInDim S300x7 ![0, 1] bcast_S300x1_S300x7_0_1 : (⟨S300x1, .i32⟩ : BufTy).Contents (Elt F) → (⟨S300x7, .i32⟩ : BufTy).Contents (Elt F)) (t_v4 (F := F))
def t_v7 :
    (⟨S300x7, .i32⟩ : BufTy).Contents (Elt F) :=
  (broadcastInDim S300x7 ![0, 1] bcast_S1x7_S300x7_0_1 : (⟨S1x7, .i32⟩ : BufTy).Contents (Elt F) → (⟨S300x7, .i32⟩ : BufTy).Contents (Elt F)) (t_v5 (F := F))
def t_v8 :
    (⟨S300x7, .i32⟩ : BufTy).Contents (Elt F) :=
  (addi : (⟨S300x7, .i32⟩ : BufTy).Contents (Elt F) → (⟨S300x7, .i32⟩ : BufTy).Contents (Elt F) → (⟨S300x7, .i32⟩ : BufTy).Contents (Elt F)) (t_v6 (F := F)) (t_v7 (F := F))
def t_c_0 :
    (⟨S_, .i32⟩ : BufTy).Contents (Elt F) :=
  (((constantI S_ 32 0#32)) : (⟨S_, .i32⟩ : BufTy).Contents (Elt F))
def t_v9 :
    (⟨S300x7, .i32⟩ : BufTy).Contents (Elt F) :=
  (broadcastInDim S300x7 ![] bcast_S_S300x7 : (⟨S_, .i32⟩ : BufTy).Contents (Elt F) → (⟨S300x7, .i32⟩ : BufTy).Contents (Elt F)) (t_c_0 (F := F))
def t_v10 :
    (⟨S300x7, .i1⟩ : BufTy).Contents (Elt F) :=
  (cmpi .sge : (⟨S300x7, .i32⟩ : BufTy).Contents (Elt F) → (⟨S300x7, .i32⟩ : BufTy).Contents (Elt F) → (⟨S300x7, .i1⟩ : BufTy).Contents (Elt F)) (t_v8 (F := F)) (t_v9 (F := F))
def t_c_1 :
    (⟨S_, .i32⟩ : BufTy).Contents (Elt F) :=
  (((constantI S_ 32 300#32)) : (⟨S_, .i32⟩ : BufTy).Contents (Elt F))
def t_v11 :
    (⟨S300x7, .i32⟩ : BufTy).Contents (Elt F) :=
  (broadcastInDim S300x7 ![] bcast_S_S300x7 : (⟨S_, .i32⟩ : BufTy).Contents (Elt F) → (⟨S300x7, .i32⟩ : BufTy).Contents (Elt F)) (t_c_1 (F := F))
def t_v12 :
    (⟨S300x7, .i1⟩ : BufTy).Contents (Elt F) :=
  (cmpi .slt : (⟨S300x7, .i32⟩ : BufTy).Contents (Elt F) → (⟨S300x7, .i32⟩ : BufTy).Contents (Elt F) → (⟨S300x7, .i1⟩ : BufTy).Contents (Elt F)) (t_v8 (F := F)) (t_v11 (F := F))
def t_v13 :
    (⟨S300x7, .i1⟩ : BufTy).Contents (Elt F) :=
  (andi : (⟨S300x7, .i1⟩ : BufTy).Contents (Elt F) → (⟨S300x7, .i1⟩ : BufTy).Contents (Elt F) → (⟨S300x7, .i1⟩ : BufTy).Contents (Elt F)) (t_v10 (F := F)) (t_v12 (F := F))
def t_c_2 :
    (⟨S_, .i32⟩ : BufTy).Contents (Elt F) :=
  (((constantI S_ 32 0#32)) : (⟨S_, .i32⟩ : BufTy).Contents (Elt F))
def t_c_3 :
    (⟨S_, .i32⟩ : BufTy).Contents (Elt F) :=
  (((constantI S_ 32 299#32)) : (⟨S_, .i32⟩ : BufTy).Contents (Elt F))
def t_call0_v0 :
    (⟨S_, .i32⟩ : BufTy).Contents (Elt F) :=
  ((id) : (⟨S_, .i32⟩ : BufTy).Contents (Elt F) → (⟨S_, .i32⟩ : BufTy).Contents (Elt F)) (t_c_2 (F := F))
def t_call0_v1 :
    (⟨S300x7, .i32⟩ : BufTy).Contents (Elt F) :=
  (((broadcastInDim S300x7 ![] bcast_S_S300x7)) : (⟨S_, .i32⟩ : BufTy).Contents (Elt F) → (⟨S300x7, .i32⟩ : BufTy).Contents (Elt F)) (t_call0_v0 (F := F))
def t_call0_v2 :
    (⟨S300x7, .i32⟩ : BufTy).Contents (Elt F) :=
  ((maxsi) : (⟨S300x7, .i32⟩ : BufTy).Contents (Elt F) → (⟨S300x7, .i32⟩ : BufTy).Contents (Elt F) → (⟨S300x7, .i32⟩ : BufTy).Contents (Elt F)) (t_call0_v1 (F := F)) (t_v8 (F := F))
def t_call0_v3 :
    (⟨S_, .i32⟩ : BufTy).Contents (Elt F) :=
  ((id) : (⟨S_, .i32⟩ : BufTy).Contents (Elt F) → (⟨S_, .i32⟩ : BufTy).Contents (Elt F)) (t_c_3 (F := F))
def t_call0_v4 :
    (⟨S300x7, .i32⟩ : BufTy).Contents (Elt F) :=
  (((broadcastInDim S300x7 ![] bcast_S_S300x7)) : (⟨S_, .i32⟩ : BufTy).Contents (Elt F) → (⟨S300x7, .i32⟩ : BufTy).Contents (Elt F)) (t_call0_v3 (F := F))
def t_v14 :
    (⟨S300x7, .i32⟩ : BufTy).Contents (Elt F) :=
  ((minsi) : (⟨S300x7, .i32⟩ : BufTy).Contents (Elt F) → (⟨S300x7, .i32⟩ : BufTy).Contents (Elt F) → (⟨S300x7, .i32⟩ : BufTy).Contents (Elt F)) (t_call0_v4 (F := F)) (t_call0_v2 (F := F))
def t_c_4 :
    (⟨S_, .i32⟩ : BufTy).Contents (Elt F) :=
  (((constantI S_ 32 0#32)) : (⟨S_, .i32⟩ : BufTy).Contents (Elt F))
def t_v15 :
    (⟨S300x7, .i32⟩ : BufTy).Contents (Elt F) :=
  (broadcastInDim S300x7 ![] bcast_S_S300x7 : (⟨S_, .i32⟩ : BufTy).Contents (Elt F) → (⟨S300x7, .i32⟩ : BufTy).Contents (Elt F)) (t_c_4 (F := F))
def t_v16 :
    (⟨S300x7, .i1⟩ : BufTy).Contents (Elt F) :=
  (cmpi .slt : (⟨S300x7, .i32⟩ : BufTy).Contents (Elt F) → (⟨S300x7, .i32⟩ : BufTy).Contents (Elt F) → (⟨S300x7, .i1⟩ : BufTy).Contents (Elt F)) (t_v14 (F := F)) (t_v15 (F := F))
def t_c_5 :
    (⟨S_, .i32⟩ : BufTy).Contents (Elt F) :=
  (((constantI S_ 32 300#32)) : (⟨S_, .i32⟩ : BufTy).Contents (Elt F))
def t_v17 :
    (⟨S300x7, .i32⟩ : BufTy).Contents (Elt F) :=
  (broadcastInDim S300x7 ![] bcast_S_S300x7 : (⟨S_, .i32⟩ : BufTy).Contents (Elt F) → (⟨S300x7, .i32⟩ : BufTy).Contents (Elt F)) (t_c_5 (F := F))
def t_v18 :
    (⟨S300x7, .i32⟩ : BufTy).Contents (Elt F) :=
  (addi : (⟨S300x7, .i32⟩ : BufTy).Contents (Elt F) → (⟨S300x7, .i32⟩ : BufTy).Contents (Elt F) → (⟨S300x7, .i32⟩ : BufTy).Contents (Elt F)) (t_v14 (F := F)) (t_v17 (F := F))
def t_v19 :
    (⟨S300x7, .i32⟩ : BufTy).Contents (Elt F) :=
  (select : (⟨S300x7, .i1⟩ : BufTy).Contents (Elt F) → (⟨S300x7, .i32⟩ : BufTy).Contents (Elt F) → (⟨S300x7, .i32⟩ : BufTy).Contents (Elt F) → (⟨S300x7, .i32⟩ : BufTy).Contents (Elt F)) (t_v16 (F := F)) (t_v18 (F := F)) (t_v14 (F := F))
def t_v20 :
    (⟨S300x7x1, .i32⟩ : BufTy).Contents (Elt F) :=
  (broadcastInDim S300x7x1 ![0, 1] bcast_S300x7_S300x7x1_0_1 : (⟨S300x7, .i32⟩ : BufTy).Contents (Elt F) → (⟨S300x7x1, .i32⟩ : BufTy).Contents (Elt F)) (t_v19 (F := F))
def t_v21 (a7 : (⟨S128x300, .i32⟩ : BufTy).Contents (Elt F)) :
    (⟨S128x300x7, .i32⟩ : BufTy).Contents (Elt F) :=
  ((fun x i => Host.gather gather_S128x300_S300x7x1_S128x300x7_0_1_n_n_1_2_1281 x i) : (⟨S128x300, .i32⟩ : BufTy).Contents (Elt F) → (⟨S300x7x1, .i32⟩ : BufTy).Contents (Elt F) → (⟨S128x300x7, .i32⟩ : BufTy).Contents (Elt F)) a7 (t_v20 (F := F))
def t_v22 (a7 : (⟨S128x300, .i32⟩ : BufTy).Contents (Elt F)) :
    (⟨S128x300x1, .i32⟩ : BufTy).Contents (Elt F) :=
  (broadcastInDim S128x300x1 ![0, 1] bcast_S128x300_S128x300x1_0_1 : (⟨S128x300, .i32⟩ : BufTy).Contents (Elt F) → (⟨S128x300x1, .i32⟩ : BufTy).Contents (Elt F)) a7
def t_c_6 :
    (⟨S_, .i32⟩ : BufTy).Contents (Elt F) :=
  (((constantI S_ 32 0#32)) : (⟨S_, .i32⟩ : BufTy).Contents (Elt F))
def t_v23 :
    (⟨S128x300x1, .i32⟩ : BufTy).Contents (Elt F) :=
  (broadcastInDim S128x300x1 ![] bcast_S_S128x300x1 : (⟨S_, .i32⟩ : BufTy).Contents (Elt F) → (⟨S128x300x1, .i32⟩ : BufTy).Contents (Elt F)) (t_c_6 (F := F))
def t_v24 (a7 : (⟨S128x300, .i32⟩ : BufTy).Contents (Elt F)) :
    (⟨S128x300x1, .i1⟩ : BufTy).Contents (Elt F) :=
  (cmpi .slt : (⟨S128x300x1, .i32⟩ : BufTy).Contents (Elt F) → (⟨S128x300x1, .i32⟩ : BufTy).Contents (Elt F) → (⟨S128x300x1, .i1⟩ : BufTy).Contents (Elt F)) (t_v22 (F := F) a7) (t_v23 (F := F))
def t_c_7 :
    (⟨S_, .i32⟩ : BufTy).Contents (Elt F) :=
  (((constantI S_ 32 8000#32)) : (⟨S_, .i32⟩ : BufTy).Contents (Elt F))
def t_v25 :
    (⟨S128x300x1, .i32⟩ : BufTy).Contents (Elt F) :=
  (broadcastInDim S128x300x1 ![] bcast_S_S128x300x1 : (⟨S_, .i32⟩ : BufTy).Contents (Elt F) → (⟨S128x300x1, .i32⟩ : BufTy).Contents (Elt F)) (t_c_7 (F := F))
def t_v26 (a7 : (⟨S128x300, .i32⟩ : BufTy).Contents (Elt F)) :
    (⟨S128x300x1, .i32⟩ : BufTy).Contents (Elt F) :=
  (addi : (⟨S128x300x1, .i32⟩ : BufTy).Contents (Elt F) → (⟨S128x300x1, .i32⟩ : BufTy).Contents (Elt F) → (⟨S128x300x1, .i32⟩ : BufTy).Contents (Elt F)) (t_v22 (F := F) a7) (t_v25 (F := F))
def t_v27 (a7 : (⟨S128x300, .i32⟩ : BufTy).Contents (Elt F)) :
    (⟨S128x300x1, .i32⟩ : BufTy).Contents (Elt F) :=
  (select : (⟨S128x300x1, .i1⟩ : BufTy).Contents (Elt F) → (⟨S128x300x1, .i32⟩ : BufTy).Contents (Elt F) → (⟨S128x300x1, .i32⟩ : BufTy).Contents (Elt F) → (⟨S128x300x1, .i32⟩ : BufTy).Contents (Elt F)) (t_v24 (F := F) a7) (t_v26 (F := F) a7) (t_v22 (F := F) a7)
def t_c_8 :
    (⟨S_, .i32⟩ : BufTy).Contents (Elt F) :=
  (((constantI S_ 32 0#32)) : (⟨S_, .i32⟩ : BufTy).Contents (Elt F))
def t_v28 :
    (⟨S128x300x7, .i32⟩ : BufTy).Contents (Elt F) :=
  (broadcastInDim S128x300x7 ![] bcast_S_S128x300x7 : (⟨S_, .i32⟩ : BufTy).Contents (Elt F) → (⟨S128x300x7, .i32⟩ : BufTy).Contents (Elt F)) (t_c_8 (F := F))
def t_v29 (a7 : (⟨S128x300, .i32⟩ : BufTy).Contents (Elt F)) :
    (⟨S128x300x7, .i1⟩ : BufTy).Contents (Elt F) :=
  (cmpi .slt : (⟨S128x300x7, .i32⟩ : BufTy).Contents (Elt F) → (⟨S128x300x7, .i32⟩ : BufTy).Contents (Elt F) → (⟨S128x300x7, .i1⟩ : BufTy).Contents (Elt F)) (t_v21 (F := F) a7) (t_v28 (F := F))
def t_c_9 :
    (⟨S_, .i32⟩ : BufTy).Contents (Elt F) :=
  (((constantI S_ 32 8000#32)) : (⟨S_, .i32⟩ : BufTy).Contents (Elt F))
def t_v30 :
    (⟨S128x300x7, .i32⟩ : BufTy).Contents (Elt F) :=
  (broadcastInDim S128x300x7 ![] bcast_S_S128x300x7 : (⟨S_, .i32⟩ : BufTy).Contents (Elt F) → (⟨S128x300x7, .i32⟩ : BufTy).Contents (Elt F)) (t_c_9 (F := F))
def t_v31 (a7 : (⟨S128x300, .i32⟩ : BufTy).Contents (Elt F)) :
    (⟨S128x300x7, .i32⟩ : BufTy).Contents (Elt F) :=
  (addi : (⟨S128x300x7, .i32⟩ : BufTy).Contents (Elt F) → (⟨S128x300x7, .i32⟩ : BufTy).Contents (Elt F) → (⟨S128x300x7, .i32⟩ : BufTy).Contents (Elt F)) (t_v21 (F := F) a7) (t_v30 (F := F))
def t_v32 (a7 : (⟨S128x300, .i32⟩ : BufTy).Contents (Elt F)) :
    (⟨S128x300x7, .i32⟩ : BufTy).Contents (Elt F) :=
  (select : (⟨S128x300x7, .i1⟩ : BufTy).Contents (Elt F) → (⟨S128x300x7, .i32⟩ : BufTy).Contents (Elt F) → (⟨S128x300x7, .i32⟩ : BufTy).Contents (Elt F) → (⟨S128x300x7, .i32⟩ : BufTy).Contents (Elt F)) (t_v29 (F := F) a7) (t_v31 (F := F) a7) (t_v21 (F := F) a7)
def t_v33 (a7 : (⟨S128x300, .i32⟩ : BufTy).Contents (Elt F)) :
    (⟨S128x300x7, .i32⟩ : BufTy).Contents (Elt F) :=
  (broadcastInDim S128x300x7 ![0, 1, 2] bcast_S128x300x1_S128x300x7_0_1_2 : (⟨S128x300x1, .i32⟩ : BufTy).Contents (Elt F) → (⟨S128x300x7, .i32⟩ : BufTy).Contents (Elt F)) (t_v27 (F := F) a7)
def t_v34 (a7 : (⟨S128x300, .i32⟩ : BufTy).Contents (Elt F)) :
    (⟨S128x300x7x1, .i32⟩ : BufTy).Contents (Elt F) :=
  (broadcastInDim S128x300x7x1 ![0, 1, 2] bcast_S128x300x7_S128x300x7x1_0_1_2 : (⟨S128x300x7, .i32⟩ : BufTy).Contents (Elt F) → (⟨S128x300x7x1, .i32⟩ : BufTy).Contents (Elt F)) (t_v33 (F := F) a7)
def t_v35 (a7 : (⟨S128x300, .i32⟩ : BufTy).Contents (Elt F)) :
    (⟨S128x300x7x1, .i32⟩ : BufTy).Contents (Elt F) :=
  (broadcastInDim S128x300x7x1 ![0, 1, 2] bcast_S128x300x7_S128x300x7x1_0_1_2 : (⟨S128x300x7, .i32⟩ : BufTy).Contents (Elt F) → (⟨S128x300x7x1, .i32⟩ : BufTy).Contents (Elt F)) (t_v32 (F := F) a7)
def t_v36 (a7 : (⟨S128x300, .i32⟩ : BufTy).Contents (Elt F)) :
    (⟨S128x300x7x2, .i32⟩ : BufTy).Contents (Elt F) :=
  ((fun a b => concatenate S128x300x7x2 3 [⟨S128x300x7x1, a⟩, ⟨S128x300x7x1, b⟩] concatenates_S128x300x7x1_S128x300x7x1_S128x300x7x2_d3) : (⟨S128x300x7x1, .i32⟩ : BufTy).Contents (Elt F) → (⟨S128x300x7x1, .i32⟩ : BufTy).Contents (Elt F) → (⟨S128x300x7x2, .i32⟩ : BufTy).Contents (Elt F)) (t_v34 (F := F) a7) (t_v35 (F := F) a7)
def t_v37 (a7 : (⟨S128x300, .i32⟩ : BufTy).Contents (Elt F)) (a8 : (⟨S8000x8000, .i32⟩ : BufTy).Contents (Elt F)) :
    (⟨S128x300x7, .i32⟩ : BufTy).Contents (Elt F) :=
  ((fun x i => Host.gather gather_S8000x8000_S128x300x7x2_S128x300x7_n_01_n_n_01_3_11 x i) : (⟨S8000x8000, .i32⟩ : BufTy).Contents (Elt F) → (⟨S128x300x7x2, .i32⟩ : BufTy).Contents (Elt F) → (⟨S128x300x7, .i32⟩ : BufTy).Contents (Elt F)) a8 (t_v36 (F := F) a7)
def t_c_10 :
    (⟨S_, .i32⟩ : BufTy).Contents (Elt F) :=
  (((constantI S_ 32 0#32)) : (⟨S_, .i32⟩ : BufTy).Contents (Elt F))
def t_v38 :
    (⟨S128x300x7, .i32⟩ : BufTy).Contents (Elt F) :=
  (broadcastInDim S128x300x7 ![] bcast_S_S128x300x7 : (⟨S_, .i32⟩ : BufTy).Contents (Elt F) → (⟨S128x300x7, .i32⟩ : BufTy).Contents (Elt F)) (t_c_10 (F := F))
def t_v39 (a7 : (⟨S128x300, .i32⟩ : BufTy).Contents (Elt F)) (a8 : (⟨S8000x8000, .i32⟩ : BufTy).Contents (Elt F)) :
    (⟨S128x300x7, .i1⟩ : BufTy).Contents (Elt F) :=
  (cmpi .slt : (⟨S128x300x7, .i32⟩ : BufTy).Contents (Elt F) → (⟨S128x300x7, .i32⟩ : BufTy).Contents (Elt F) → (⟨S128x300x7, .i1⟩ : BufTy).Contents (Elt F)) (t_v37 (F := F) a7 a8) (t_v38 (F := F))
def t_c_11 :
    (⟨S_, .i32⟩ : BufTy).Contents (Elt F) :=
  (((constantI S_ 32 2000000#32)) : (⟨S_, .i32⟩ : BufTy).Contents (Elt F))
def t_v40 :
    (⟨S128x300x7, .i32⟩ : BufTy).Contents (Elt F) :=
  (broadcastInDim S128x300x7 ![] bcast_S_S128x300x7 : (⟨S_, .i32⟩ : BufTy).Contents (Elt F) → (⟨S128x300x7, .i32⟩ : BufTy).Contents (Elt F)) (t_c_11 (F := F))
def t_v41 (a7 : (⟨S128x300, .i32⟩ : BufTy).Contents (Elt F)) (a8 : (⟨S8000x8000, .i32⟩ : BufTy).Contents (Elt F)) :
    (⟨S128x300x7, .i32⟩ : BufTy).Contents (Elt F) :=
  (addi : (⟨S128x300x7, .i32⟩ : BufTy).Contents (Elt F) → (⟨S128x300x7, .i32⟩ : BufTy).Contents (Elt F) → (⟨S128x300x7, .i32⟩ : BufTy).Contents (Elt F)) (t_v37 (F := F) a7 a8) (t_v40 (F := F))
def t_v42 (a7 : (⟨S128x300, .i32⟩ : BufTy).Contents (Elt F)) (a8 : (⟨S8000x8000, .i32⟩ : BufTy).Contents (Elt F)) :
    (⟨S128x300x7, .i32⟩ : BufTy).Contents (Elt F) :=
  (select : (⟨S128x300x7, .i1⟩ : BufTy).Contents (Elt F) → (⟨S128x300x7, .i32⟩ : BufTy).Contents (Elt F) → (⟨S128x300x7, .i32⟩ : BufTy).Contents (Elt F) → (⟨S128x300x7, .i32⟩ : BufTy).Contents (Elt F)) (t_v39 (F := F) a7 a8) (t_v41 (F := F) a7 a8) (t_v37 (F := F) a7 a8)
def t_c_12 :
    (⟨S_, .i32⟩ : BufTy).Contents (Elt F) :=
  (((constantI S_ 32 0#32)) : (⟨S_, .i32⟩ : BufTy).Contents (Elt F))
def t_v43 :
    (⟨S128x300x7, .i32⟩ : BufTy).Contents (Elt F) :=
  (broadcastInDim S128x300x7 ![] bcast_S_S128x300x7 : (⟨S_, .i32⟩ : BufTy).Contents (Elt F) → (⟨S128x300x7, .i32⟩ : BufTy).Contents (Elt F)) (t_c_12 (F := F))
def t_v44 :
    (⟨S128x300x7, .i32⟩ : BufTy).Contents (Elt F) :=
  (id : (⟨S128x300x7, .i32⟩ : BufTy).Contents (Elt F) → (⟨S128x300x7, .i32⟩ : BufTy).Contents (Elt F)) (t_v43 (F := F))
def t_v45 (a7 : (⟨S128x300, .i32⟩ : BufTy).Contents (Elt F)) (a8 : (⟨S8000x8000, .i32⟩ : BufTy).Contents (Elt F)) :
    (⟨S128x300x7x1, .i32⟩ : BufTy).Contents (Elt F) :=
  (broadcastInDim S128x300x7x1 ![0, 1, 2] bcast_S128x300x7_S128x300x7x1_0_1_2 : (⟨S128x300x7, .i32⟩ : BufTy).Contents (Elt F) → (⟨S128x300x7x1, .i32⟩ : BufTy).Contents (Elt F)) (t_v42 (F := F) a7 a8)
def t_v46 :
    (⟨S128x300x7x1, .i32⟩ : BufTy).Contents (Elt F) :=
  (broadcastInDim S128x300x7x1 ![0, 1, 2] bcast_S128x300x7_S128x300x7x1_0_1_2 : (⟨S128x300x7, .i32⟩ : BufTy).Contents (Elt F) → (⟨S128x300x7x1, .i32⟩ : BufTy).Contents (Elt F)) (t_v44 (F := F))
def t_v47 (a7 : (⟨S128x300, .i32⟩ : BufTy).Contents (Elt F)) (a8 : (⟨S8000x8000, .i32⟩ : BufTy).Contents (Elt F)) :
    (⟨S128x300x7x2, .i32⟩ : BufTy).Contents (Elt F) :=
  ((fun a b => concatenate S128x300x7x2 3 [⟨S128x300x7x1, a⟩, ⟨S128x300x7x1, b⟩] concatenates_S128x300x7x1_S128x300x7x1_S128x300x7x2_d3) : (⟨S128x300x7x1, .i32⟩ : BufTy).Contents (Elt F) → (⟨S128x300x7x1, .i32⟩ : BufTy).Contents (Elt F) → (⟨S128x300x7x2, .i32⟩ : BufTy).Contents (Elt F)) (t_v45 (F := F) a7 a8) (t_v46 (F := F))
def t_v48 (a2 : (⟨S2000000x1, .f32⟩ : BufTy).Contents (Elt F)) (a7 : (⟨S128x300, .i32⟩ : BufTy).Contents (Elt F)) (a8 : (⟨S8000x8000, .i32⟩ : BufTy).Contents (Elt F)) :
    (⟨S128x300x7, .f32⟩ : BufTy).Contents (Elt F) :=
  ((fun x i => Host.gather gather_S2000000x1_S128x300x7x2_S128x300x7_n_01_n_n_01_3_11 x i) : (⟨S2000000x1, .f32⟩ : BufTy).Contents (Elt F) → (⟨S128x300x7x2, .i32⟩ : BufTy).Contents (Elt F) → (⟨S128x300x7, .f32⟩ : BufTy).Contents (Elt F)) a2 (t_v47 (F := F) a7 a8)
def t_v49 :
    (⟨S1x300x7, .i1⟩ : BufTy).Contents (Elt F) :=
  (broadcastInDim S1x300x7 ![1, 2] bcast_S300x7_S1x300x7_1_2 : (⟨S300x7, .i1⟩ : BufTy).Contents (Elt F) → (⟨S1x300x7, .i1⟩ : BufTy).Contents (Elt F)) (t_v13 (F := F))
def t_cst :
    (⟨S_, .f32⟩ : BufTy).Contents (Elt F) :=
  (((constant S_ .f32 0x3F800000#32)) : (⟨S_, .f32⟩ : BufTy).Contents (Elt F))
def t_call1_v0 :
    (⟨S_, .f32⟩ : BufTy).Contents (Elt F) :=
  ((id) : (⟨S_, .f32⟩ : BufTy).Contents (Elt F) → (⟨S_, .f32⟩ : BufTy).Contents (Elt F)) (t_cst (F := F))
def t_call1_v1 :
    (⟨S128x300x7, .i1⟩ : BufTy).Contents (Elt F) :=
  (((broadcastInDim S128x300x7 ![0, 1, 2] bcast_S1x300x7_S128x300x7_0_1_2)) : (⟨S1x300x7, .i1⟩ : BufTy).Contents (Elt F) → (⟨S128x300x7, .i1⟩ : BufTy).Contents (Elt F)) (t_v49 (F := F))
def t_call1_v2 :
    (⟨S128x300x7, .f32⟩ : BufTy).Contents (Elt F) :=
  (((broadcastInDim S128x300x7 ![] bcast_S_S128x300x7)) : (⟨S_, .f32⟩ : BufTy).Contents (Elt F) → (⟨S128x300x7, .f32⟩ : BufTy).Contents (Elt F)) (t_call1_v0 (F := F))
def t_v50 (a2 : (⟨S2000000x1, .f32⟩ : BufTy).Contents (Elt F)) (a7 : (⟨S128x300, .i32⟩ : BufTy).Contents (Elt F)) (a8 : (⟨S8000x8000, .i32⟩ : BufTy).Contents (Elt F)) :
    (⟨S128x300x7, .f32⟩ : BufTy).Contents (Elt F) :=
  ((select) : (⟨S128x300x7, .i1⟩ : BufTy).Contents (Elt F) → (⟨S128x300x7, .f32⟩ : BufTy).Contents (Elt F) → (⟨S128x300x7, .f32⟩ : BufTy).Contents (Elt F) → (⟨S128x300x7, .f32⟩ : BufTy).Contents (Elt F)) (t_call1_v1 (F := F)) (t_v48 (F := F) a2 a7 a8) (t_call1_v2 (F := F))
def t_c_13 :
    (⟨S_, .i32⟩ : BufTy).Contents (Elt F) :=
  (((constantI S_ 32 0#32)) : (⟨S_, .i32⟩ : BufTy).Contents (Elt F))
def t_v51 :
    (⟨S128x300, .i32⟩ : BufTy).Contents (Elt F) :=
  (broadcastInDim S128x300 ![] bcast_S_S128x300 : (⟨S_, .i32⟩ : BufTy).Contents (Elt F) → (⟨S128x300, .i32⟩ : BufTy).Contents (Elt F)) (t_c_13 (F := F))
def t_v52 (a7 : (⟨S128x300, .i32⟩ : BufTy).Contents (Elt F)) :
    (⟨S128x300, .i1⟩ : BufTy).Contents (Elt F) :=
  (cmpi .slt : (⟨S128x300, .i32⟩ : BufTy).Contents (Elt F) → (⟨S128x300, .i32⟩ : BufTy).Contents (Elt F) → (⟨S128x300, .i1⟩ : BufTy).Contents (Elt F)) a7 (t_v51 (F := F))
def t_c_14 :
    (⟨S_, .i32⟩ : BufTy).Contents (Elt F) :=
  (((constantI S_ 32 8000#32)) : (⟨S_, .i32⟩ : BufTy).Contents (Elt F))
def t_v53 :
    (⟨S128x300, .i32⟩ : BufTy).Contents (Elt F) :=
  (broadcastInDim S128x300 ![] bcast_S_S128x300 : (⟨S_, .i32⟩ : BufTy).Contents (Elt F) → (⟨S128x300, .i32⟩ : BufTy).Contents (Elt F)) (t_c_14 (F := F))
def t_v54 (a7 : (⟨S128x300, .i32⟩ : BufTy).Contents (Elt F)) :
    (⟨S128x300, .i32⟩ : BufTy).Contents (Elt F) :=
  (addi : (⟨S128x300, .i32⟩ : BufTy).Contents (Elt F) → (⟨S128x300, .i32⟩ : BufTy).Contents (Elt F) → (⟨S128x300, .i32⟩ : BufTy).Contents (Elt F)) a7 (t_v53 (F := F))
def t_v55 (a7 : (⟨S128x300, .i32⟩ : BufTy).Contents (Elt F)) :
    (⟨S128x300, .i32⟩ : BufTy).Contents (Elt F) :=
  (select : (⟨S128x300, .i1⟩ : BufTy).Contents (Elt F) → (⟨S128x300, .i32⟩ : BufTy).Contents (Elt F) → (⟨S128x300, .i32⟩ : BufTy).Contents (Elt F) → (⟨S128x300, .i32⟩ : BufTy).Contents (Elt F)) (t_v52 (F := F) a7) (t_v54 (F := F) a7) a7
def t_v56 (a7 : (⟨S128x300, .i32⟩ : BufTy).Contents (Elt F)) :
    (⟨S128x300x1, .i32⟩ : BufTy).Contents (Elt F) :=
  (broadcastInDim S128x300x1 ![0, 1] bcast_S128x300_S128x300x1_0_1 : (⟨S128x300, .i32⟩ : BufTy).Contents (Elt F) → (⟨S128x300x1, .i32⟩ : BufTy).Contents (Elt F)) (t_v55 (F := F) a7)
def t_v57 (a0 : (⟨S8000x300, .f32⟩ : BufTy).Contents (Elt F)) (a7 : (⟨S128x300, .i32⟩ : BufTy).Contents (Elt F)) :
    (⟨S128x300x300, .f32⟩ : BufTy).Contents (Elt F) :=
  ((fun x i => Host.gather gather_S8000x300_S128x300x1_S128x300x300_2_0_n_n_0_2_1300 x i) : (⟨S8000x300, .f32⟩ : BufTy).Contents (Elt F) → (⟨S128x300x1, .i32⟩ : BufTy).Contents (Elt F) → (⟨S128x300x300, .f32⟩ : BufTy).Contents (Elt F)) a0 (t_v56 (F := F) a7)
def t_c_15 :
    (⟨S_, .i32⟩ : BufTy).Contents (Elt F) :=
  (((constantI S_ 32 0#32)) : (⟨S_, .i32⟩ : BufTy).Contents (Elt F))
def t_v58 :
    (⟨S128x300, .i32⟩ : BufTy).Contents (Elt F) :=
  (broadcastInDim S128x300 ![] bcast_S_S128x300 : (⟨S_, .i32⟩ : BufTy).Contents (Elt F) → (⟨S128x300, .i32⟩ : BufTy).Contents (Elt F)) (t_c_15 (F := F))
def t_v59 (a7 : (⟨S128x300, .i32⟩ : BufTy).Contents (Elt F)) :
    (⟨S128x300, .i1⟩ : BufTy).Contents (Elt F) :=
  (cmpi .slt : (⟨S128x300, .i32⟩ : BufTy).Contents (Elt F) → (⟨S128x300, .i32⟩ : BufTy).Contents (Elt F) → (⟨S128x300, .i1⟩ : BufTy).Contents (Elt F)) a7 (t_v58 (F := F))
def t_c_16 :
    (⟨S_, .i32⟩ : BufTy).Contents (Elt F) :=
  (((constantI S_ 32 8000#32)) : (⟨S_, .i32⟩ : BufTy).Contents (Elt F))
def t_v60 :
    (⟨S128x300, .i32⟩ : BufTy).Contents (Elt F) :=
  (broadcastInDim S128x300 ![] bcast_S_S128x300 : (⟨S_, .i32⟩ : BufTy).Contents (Elt F) → (⟨S128x300, .i32⟩ : BufTy).Contents (Elt F)) (t_c_16 (F := F))
def t_v61 (a7 : (⟨S128x300, .i32⟩ : BufTy).Contents (Elt F)) :
    (⟨S128x300, .i32⟩ : BufTy).Contents (Elt F) :=
  (addi : (⟨S128x300, .i32⟩ : BufTy).Contents (Elt F) → (⟨S128x300, .i32⟩ : BufTy).Contents (Elt F) → (⟨S128x300, .i32⟩ : BufTy).Contents (Elt F)) a7 (t_v60 (F := F))
def t_v62 (a7 : (⟨S128x300, .i32⟩ : BufTy).Contents (Elt F)) :
    (⟨S128x300, .i32⟩ : BufTy).Contents (Elt F) :=
  (select : (⟨S128x300, .i1⟩ : BufTy).Contents (Elt F) → (⟨S128x300, .i32⟩ : BufTy).Contents (Elt F) → (⟨S128x300, .i32⟩ : BufTy).Contents (Elt F) → (⟨S128x300, .i32⟩ : BufTy).Contents (Elt F)) (t_v59 (F := F) a7) (t_v61 (F := F) a7) a7
def t_v63 (a7 : (⟨S128x300, .i32⟩ : BufTy).Contents (Elt F)) :
    (⟨S128x300x1, .i32⟩ : BufTy).Contents (Elt F) :=
  (broadcastInDim S128x300x1 ![0, 1] bcast_S128x300_S128x300x1_0_1 : (⟨S128x300, .i32⟩ : BufTy).Contents (Elt F) → (⟨S128x300x1, .i32⟩ : BufTy).Contents (Elt F)) (t_v62 (F := F) a7)
def t_v64 (a1 : (⟨S8000x1, .f32⟩ : BufTy).Contents (Elt F)) (a7 : (⟨S128x300, .i32⟩ : BufTy).Contents (Elt F)) :
    (⟨S128x300x1, .f32⟩ : BufTy).Contents (Elt F) :=
  ((fun x i => Host.gather gather_S8000x1_S128x300x1_S128x300x1_2_0_n_n_0_2_11 x i) : (⟨S8000x1, .f32⟩ : BufTy).Contents (Elt F) → (⟨S128x300x1, .i32⟩ : BufTy).Contents (Elt F) → (⟨S128x300x1, .f32⟩ : BufTy).Contents (Elt F)) a1 (t_v63 (F := F) a7)

/-! ### After the launch, of the launch's result P: relu, the batch mean and variance, the normalisation, the linear layer, the sigmoid -/

def tl_call2_cst :
    (⟨S_, .f32⟩ : BufTy).Contents (Elt F) :=
  (((constant S_ .f32 0x00000000#32)) : (⟨S_, .f32⟩ : BufTy).Contents (Elt F))
def tl_call2_v0 :
    (⟨S128x300, .f32⟩ : BufTy).Contents (Elt F) :=
  (((broadcastInDim S128x300 ![] bcast_S_S128x300)) : (⟨S_, .f32⟩ : BufTy).Contents (Elt F) → (⟨S128x300, .f32⟩ : BufTy).Contents (Elt F)) (tl_call2_cst (F := F))
def tl_v66 (P : (⟨S128x300, .f32⟩ : BufTy).Contents (Elt F)) :
    (⟨S128x300, .f32⟩ : BufTy).Contents (Elt F) :=
  ((maximumf) : (⟨S128x300, .f32⟩ : BufTy).Contents (Elt F) → (⟨S128x300, .f32⟩ : BufTy).Contents (Elt F) → (⟨S128x300, .f32⟩ : BufTy).Contents (Elt F)) P (tl_call2_v0 (F := F))
def tl_cst_17 :
    (⟨S_, .f32⟩ : BufTy).Contents (Elt F) :=
  (((constant S_ .f32 0x00000000#32)) : (⟨S_, .f32⟩ : BufTy).Contents (Elt F))
def tl_v67 (P : (⟨S128x300, .f32⟩ : BufTy).Contents (Elt F)) :
    (⟨S300, .f32⟩ : BufTy).Contents (Elt F) :=
  ((fun x v => Host.reduceAdd x v reducesTo_S128x300_S300_d0 h_S_) : (⟨S128x300, .f32⟩ : BufTy).Contents (Elt F) → (⟨S_, .f32⟩ : BufTy).Contents (Elt F) → (⟨S300, .f32⟩ : BufTy).Contents (Elt F)) (tl_v66 (F := F) P) (tl_cst_17 (F := F))
def tl_cst_18 :
    (⟨S_, .f32⟩ : BufTy).Contents (Elt F) :=
  (((constant S_ .f32 0x43000000#32)) : (⟨S_, .f32⟩ : BufTy).Contents (Elt F))
def tl_v68 :
    (⟨S300, .f32⟩ : BufTy).Contents (Elt F) :=
  (broadcastInDim S300 ![] bcast_S_S300 : (⟨S_, .f32⟩ : BufTy).Contents (Elt F) → (⟨S300, .f32⟩ : BufTy).Contents (Elt F)) (tl_cst_18 (F := F))
def tl_v69 (P : (⟨S128x300, .f32⟩ : BufTy).Contents (Elt F)) :
    (⟨S300, .f32⟩ : BufTy).Contents (Elt F) :=
  (Host.divf : (⟨S300, .f32⟩ : BufTy).Contents (Elt F) → (⟨S300, .f32⟩ : BufTy).Contents (Elt F) → (⟨S300, .f32⟩ : BufTy).Contents (Elt F)) (tl_v67 (F := F) P) (tl_v68 (F := F))
def tl_c_19 :
    (⟨S_, .i32⟩ : BufTy).Contents (Elt F) :=
  (((constantI S_ 32 0#32)) : (⟨S_, .i32⟩ : BufTy).Contents (Elt F))
def tl_call3_cst :
    (⟨S_, .f32⟩ : BufTy).Contents (Elt F) :=
  (((constant S_ .f32 0x00000000#32)) : (⟨S_, .f32⟩ : BufTy).Contents (Elt F))
def tl_call3_v0 (P : (⟨S128x300, .f32⟩ : BufTy).Contents (Elt F)) :
    (⟨S300, .f32⟩ : BufTy).Contents (Elt F) :=
  (((fun x v => Host.reduceAdd x v reducesTo_S128x300_S300_d0 h_S_)) : (⟨S128x300, .f32⟩ : BufTy).Contents (Elt F) → (⟨S_, .f32⟩ : BufTy).Contents (Elt F) → (⟨S300, .f32⟩ : BufTy).Contents (Elt F)) (tl_v66 (F := F) P) (tl_call3_cst (F := F))
def tl_call3_v1 (P : (⟨S128x300, .f32⟩ : BufTy).Contents (Elt F)) :
    (⟨S1x300, .f32⟩ : BufTy).Contents (Elt F) :=
  (((broadcastInDim S1x300 ![1] bcast_S300_S1x300_1)) : (⟨S300, .f32⟩ : BufTy).Contents (Elt F) → (⟨S1x300, .f32⟩ : BufTy).Contents (Elt F)) (tl_call3_v0 (F := F) P)
def tl_call3_cst_0 :
    (⟨S_, .f32⟩ : BufTy).Contents (Elt F) :=
  (((constant S_ .f32 0x43000000#32)) : (⟨S_, .f32⟩ : BufTy).Contents (Elt F))
def tl_call3_v2 :
    (⟨S1x300, .f32⟩ : BufTy).Contents (Elt F) :=
  (((broadcastInDim S1x300 ![] bcast_S_S1x300)) : (⟨S_, .f32⟩ : BufTy).Contents (Elt F) → (⟨S1x300, .f32⟩ : BufTy).Contents (Elt F)) (tl_call3_cst_0 (F := F))
def tl_call3_v3 (P : (⟨S128x300, .f32⟩ : BufTy).Contents (Elt F)) :
    (⟨S1x300, .f32⟩ : BufTy).Contents (Elt F) :=
  ((Host.divf) : (⟨S1x300, .f32⟩ : BufTy).Contents (Elt F) → (⟨S1x300, .f32⟩ : BufTy).Contents (Elt F) → (⟨S1x300, .f32⟩ : BufTy).Contents (Elt F)) (tl_call3_v1 (F := F) P) (tl_call3_v2 (F := F))
def tl_call3_v4 (P : (⟨S128x300, .f32⟩ : BufTy).Contents (Elt F)) :
    (⟨S128x300, .f32⟩ : BufTy).Contents (Elt F) :=
  (((broadcastInDim S128x300 ![0, 1] bcast_S1x300_S128x300_0_1)) : (⟨S1x300, .f32⟩ : BufTy).Contents (Elt F) → (⟨S128x300, .f32⟩ : BufTy).Contents (Elt F)) (tl_call3_v3 (F := F) P)
def tl_call3_v5 (P : (⟨S128x300, .f32⟩ : BufTy).Contents (Elt F)) :
    (⟨S128x300, .f32⟩ : BufTy).Contents (Elt F) :=
  ((subf) : (⟨S128x300, .f32⟩ : BufTy).Contents (Elt F) → (⟨S128x300, .f32⟩ : BufTy).Contents (Elt F) → (⟨S128x300, .f32⟩ : BufTy).Contents (Elt F)) (tl_v66 (F := F) P) (tl_call3_v4 (F := F) P)
def tl_call3_v6 (P : (⟨S128x300, .f32⟩ : BufTy).Contents (Elt F)) :
    (⟨S128x300, .f32⟩ : BufTy).Contents (Elt F) :=
  ((mulf) : (⟨S128x300, .f32⟩ : BufTy).Contents (Elt F) → (⟨S128x300, .f32⟩ : BufTy).Contents (Elt F) → (⟨S128x300, .f32⟩ : BufTy).Contents (Elt F)) (tl_call3_v5 (F := F) P) (tl_call3_v5 (F := F) P)
def tl_call3_v7 :
    (⟨S_, .f32⟩ : BufTy).Contents (Elt F) :=
  (((sitofp .f32)) : (⟨S_, .i32⟩ : BufTy).Contents (Elt F) → (⟨S_, .f32⟩ : BufTy).Contents (Elt F)) (tl_c_19 (F := F))
def tl_call3_cst_1 :
    (⟨S_, .f32⟩ : BufTy).Contents (Elt F) :=
  (((constant S_ .f32 0x43000000#32)) : (⟨S_, .f32⟩ : BufTy).Contents (Elt F))
def tl_call3_v8 :
    (⟨S_, .f32⟩ : BufTy).Contents (Elt F) :=
  ((subf) : (⟨S_, .f32⟩ : BufTy).Contents (Elt F) → (⟨S_, .f32⟩ : BufTy).Contents (Elt F) → (⟨S_, .f32⟩ : BufTy).Contents (Elt F)) (tl_call3_cst_1 (F := F)) (tl_call3_v7 (F := F))
def tl_call3_cst_2 :
    (⟨S_, .f32⟩ : BufTy).Contents (Elt F) :=
  (((constant S_ .f32 0x00000000#32)) : (⟨S_, .f32⟩ : BufTy).Contents (Elt F))
def tl_call3_v9 (P : (⟨S128x300, .f32⟩ : BufTy).Contents (Elt F)) :
    (⟨S300, .f32⟩ : BufTy).Contents (Elt F) :=
  (((fun x v => Host.reduceAdd x v reducesTo_S128x300_S300_d0 h_S_)) : (⟨S128x300, .f32⟩ : BufTy).Contents (Elt F) → (⟨S_, .f32⟩ : BufTy).Contents (Elt F) → (⟨S300, .f32⟩ : BufTy).Contents (Elt F)) (tl_call3_v6 (F := F) P) (tl_call3_cst_2 (F := F))
def tl_call3_v10 :
    (⟨S300, .f32⟩ : BufTy).Contents (Elt F) :=
  (((broadcastInDim S300 ![] bcast_S_S300)) : (⟨S_, .f32⟩ : BufTy).Contents (Elt F) → (⟨S300, .f32⟩ : BufTy).Contents (Elt F)) (tl_call3_v8 (F := F))
def tl_call3_v11 (P : (⟨S128x300, .f32⟩ : BufTy).Contents (Elt F)) :
    (⟨S300, .f32⟩ : BufTy).Contents (Elt F) :=
  ((Host.divf) : (⟨S300, .f32⟩ : BufTy).Contents (Elt F) → (⟨S300, .f32⟩ : BufTy).Contents (Elt F) → (⟨S300, .f32⟩ : BufTy).Contents (Elt F)) (tl_call3_v9 (F := F) P) (tl_call3_v10 (F := F))
def tl_call3_cst_3 :
    (⟨S_, .f32⟩ : BufTy).Contents (Elt F) :=
  (((constant S_ .f32 0x00000000#32)) : (⟨S_, .f32⟩ : BufTy).Contents (Elt F))
def tl_call3_v12 :
    (⟨S_, .i1⟩ : BufTy).Contents (Elt F) :=
  (((cmpf .ogt)) : (⟨S_, .f32⟩ : BufTy).Contents (Elt F) → (⟨S_, .f32⟩ : BufTy).Contents (Elt F) → (⟨S_, .i1⟩ : BufTy).Contents (Elt F)) (tl_call3_v8 (F := F)) (tl_call3_cst_3 (F := F))
def tl_call3_cst_4 :
    (⟨S_, .f32⟩ : BufTy).Contents (Elt F) :=
  (((constant S_ .f32 0x7FC00000#32)) : (⟨S_, .f32⟩ : BufTy).Contents (Elt F))
def tl_call3_call0_v0 :
    (⟨S_, .f32⟩ : BufTy).Contents (Elt F) :=
  ((id) : (⟨S_, .f32⟩ : BufTy).Contents (Elt F) → (⟨S_, .f32⟩ : BufTy).Contents (Elt F)) (tl_call3_cst_4 (F := F))
def tl_call3_call0_v1 :
    (⟨S300, .f32⟩ : BufTy).Contents (Elt F) :=
  (((broadcastInDim S300 ![] bcast_S_S300)) : (⟨S_, .f32⟩ : BufTy).Contents (Elt F) → (⟨S300, .f32⟩ : BufTy).Contents (Elt F)) (tl_call3_call0_v0 (F := F))
def tl_v70 (P : (⟨S128x300, .f32⟩ : BufTy).Contents (Elt F)) :
    (⟨S300, .f32⟩ : BufTy).Contents (Elt F) :=
  (((fun p a b => select (broadcastInDim S300 ![] bcast_S_S300 p) a b)) : (⟨S_, .i1⟩ : BufTy).Contents (Elt F) → (⟨S300, .f32⟩ : BufTy).Contents (Elt F) → (⟨S300, .f32⟩ : BufTy).Contents (Elt F) → (⟨S300, .f32⟩ : BufTy).Contents (Elt F)) (tl_call3_v12 (F := F)) (tl_call3_v11 (F := F) P) (tl_call3_call0_v1 (F := F))
def tl_v71 (P : (⟨S128x300, .f32⟩ : BufTy).Contents (Elt F)) :
    (⟨S1x300, .f32⟩ : BufTy).Contents (Elt F) :=
  (broadcastInDim S1x300 ![1] bcast_S300_S1x300_1 : (⟨S300, .f32⟩ : BufTy).Contents (Elt F) → (⟨S1x300, .f32⟩ : BufTy).Contents (Elt F)) (tl_v69 (F := F) P)
def tl_v72 (P : (⟨S128x300, .f32⟩ : BufTy).Contents (Elt F)) :
    (⟨S128x300, .f32⟩ : BufTy).Contents (Elt F) :=
  (broadcastInDim S128x300 ![0, 1] bcast_S1x300_S128x300_0_1 : (⟨S1x300, .f32⟩ : BufTy).Contents (Elt F) → (⟨S128x300, .f32⟩ : BufTy).Contents (Elt F)) (tl_v71 (F := F) P)
def tl_v73 (P : (⟨S128x300, .f32⟩ : BufTy).Contents (Elt F)) :
    (⟨S128x300, .f32⟩ : BufTy).Contents (Elt F) :=
  (subf : (⟨S128x300, .f32⟩ : BufTy).Contents (Elt F) → (⟨S128x300, .f32⟩ : BufTy).Contents (Elt F) → (⟨S128x300, .f32⟩ : BufTy).Contents (Elt F)) (tl_v66 (F := F) P) (tl_v72 (F := F) P)
def tl_cst_20 :
    (⟨S_, .f32⟩ : BufTy).Contents (Elt F) :=
  (((constant S_ .f32 0x3727C5AC#32)) : (⟨S_, .f32⟩ : BufTy).Contents (Elt F))
def tl_v74 :
    (⟨S300, .f32⟩ : BufTy).Contents (Elt F) :=
  (broadcastInDim S300 ![] bcast_S_S300 : (⟨S_, .f32⟩ : BufTy).Contents (Elt F) → (⟨S300, .f32⟩ : BufTy).Contents (Elt F)) (tl_cst_20 (F := F))
def tl_v75 (P : (⟨S128x300, .f32⟩ : BufTy).Contents (Elt F)) :
    (⟨S300, .f32⟩ : BufTy).Contents (Elt F) :=
  (addf : (⟨S300, .f32⟩ : BufTy).Contents (Elt F) → (⟨S300, .f32⟩ : BufTy).Contents (Elt F) → (⟨S300, .f32⟩ : BufTy).Contents (Elt F)) (tl_v70 (F := F) P) (tl_v74 (F := F))
def tl_v76 (P : (⟨S128x300, .f32⟩ : BufTy).Contents (Elt F)) :
    (⟨S300, .f32⟩ : BufTy).Contents (Elt F) :=
  (Host.sqrt : (⟨S300, .f32⟩ : BufTy).Contents (Elt F) → (⟨S300, .f32⟩ : BufTy).Contents (Elt F)) (tl_v75 (F := F) P)
def tl_v77 (P : (⟨S128x300, .f32⟩ : BufTy).Contents (Elt F)) :
    (⟨S1x300, .f32⟩ : BufTy).Contents (Elt F) :=
  (broadcastInDim S1x300 ![1] bcast_S300_S1x300_1 : (⟨S300, .f32⟩ : BufTy).Contents (Elt F) → (⟨S1x300, .f32⟩ : BufTy).Contents (Elt F)) (tl_v76 (F := F) P)
def tl_v78 (P : (⟨S128x300, .f32⟩ : BufTy).Contents (Elt F)) :
    (⟨S128x300, .f32⟩ : BufTy).Contents (Elt F) :=
  (broadcastInDim S128x300 ![0, 1] bcast_S1x300_S128x300_0_1 : (⟨S1x300, .f32⟩ : BufTy).Contents (Elt F) → (⟨S128x300, .f32⟩ : BufTy).Contents (Elt F)) (tl_v77 (F := F) P)
def tl_v79 (P : (⟨S128x300, .f32⟩ : BufTy).Contents (Elt F)) :
    (⟨S128x300, .f32⟩ : BufTy).Contents (Elt F) :=
  (Host.divf : (⟨S128x300, .f32⟩ : BufTy).Contents (Elt F) → (⟨S128x300, .f32⟩ : BufTy).Contents (Elt F) → (⟨S128x300, .f32⟩ : BufTy).Contents (Elt F)) (tl_v73 (F := F) P) (tl_v78 (F := F) P)
def tl_v80 (a3 : (⟨S300, .f32⟩ : BufTy).Contents (Elt F)) :
    (⟨S1x300, .f32⟩ : BufTy).Contents (Elt F) :=
  (broadcastInDim S1x300 ![1] bcast_S300_S1x300_1 : (⟨S300, .f32⟩ : BufTy).Contents (Elt F) → (⟨S1x300, .f32⟩ : BufTy).Contents (Elt F)) a3
def tl_v81 (a3 : (⟨S300, .f32⟩ : BufTy).Contents (Elt F)) :
    (⟨S128x300, .f32⟩ : BufTy).Contents (Elt F) :=
  (broadcastInDim S128x300 ![0, 1] bcast_S1x300_S128x300_0_1 : (⟨S1x300, .f32⟩ : BufTy).Contents (Elt F) → (⟨S128x300, .f32⟩ : BufTy).Contents (Elt F)) (tl_v80 (F := F) a3)
def tl_v82 (P : (⟨S128x300, .f32⟩ : BufTy).Contents (Elt F)) (a3 : (⟨S300, .f32⟩ : BufTy).Contents (Elt F)) :
    (⟨S128x300, .f32⟩ : BufTy).Contents (Elt F) :=
  (mulf : (⟨S128x300, .f32⟩ : BufTy).Contents (Elt F) → (⟨S128x300, .f32⟩ : BufTy).Contents (Elt F) → (⟨S128x300, .f32⟩ : BufTy).Contents (Elt F)) (tl_v79 (F := F) P) (tl_v81 (F := F) a3)
def tl_v83 (a4 : (⟨S300, .f32⟩ : BufTy).Contents (Elt F)) :
    (⟨S1x300, .f32⟩ : BufTy).Contents (Elt F) :=
  (broadcastInDim S1x300 ![1] bcast_S300_S1x300_1 : (⟨S300, .f32⟩ : BufTy).Contents (Elt F) → (⟨S1x300, .f32⟩ : BufTy).Contents (Elt F)) a4
def tl_v84 (a4 : (⟨S300, .f32⟩ : BufTy).Contents (Elt F)) :
    (⟨S128x300, .f32⟩ : BufTy).Contents (Elt F) :=
  (broadcastInDim S128x300 ![0, 1] bcast_S1x300_S128x300_0_1 : (⟨S1x300, .f32⟩ : BufTy).Contents (Elt F) → (⟨S128x300, .f32⟩ : BufTy).Contents (Elt F)) (tl_v83 (F := F) a4)
def tl_v85 (P : (⟨S128x300, .f32⟩ : BufTy).Contents (Elt F)) (a3 : (⟨S300, .f32⟩ : BufTy).Contents (Elt F)) (a4 : (⟨S300, .f32⟩ : BufTy).Contents (Elt F)) :
    (⟨S128x300, .f32⟩ : BufTy).Contents (Elt F) :=
  (addf : (⟨S128x300, .f32⟩ : BufTy).Contents (Elt F) → (⟨S128x300, .f32⟩ : BufTy).Contents (Elt F) → (⟨S128x300, .f32⟩ : BufTy).Contents (Elt F)) (tl_v82 (F := F) P a3) (tl_v84 (F := F) a4)
def tl_v86 (P : (⟨S128x300, .f32⟩ : BufTy).Contents (Elt F)) (a3 : (⟨S300, .f32⟩ : BufTy).Contents (Elt F)) (a4 : (⟨S300, .f32⟩ : BufTy).Contents (Elt F)) (a5 : (⟨S300x54, .f32⟩ : BufTy).Contents (Elt F)) :
    (⟨S128x54, .f32⟩ : BufTy).Contents (Elt F) :=
  ((fun l r => Host.dotGeneral dot_S128x300_S300x54_S128x54_1_0_0_1_n_n none l r) : (⟨S128x300, .f32⟩ : BufTy).Contents (Elt F) → (⟨S300x54, .f32⟩ : BufTy).Contents (Elt F) → (⟨S128x54, .f32⟩ : BufTy).Contents (Elt F)) (tl_v85 (F := F) P a3 a4) a5
def tl_v87 (a6 : (⟨S54, .f32⟩ : BufTy).Contents (Elt F)) :
    (⟨S1x54, .f32⟩ : BufTy).Contents (Elt F) :=
  (broadcastInDim S1x54 ![1] bcast_S54_S1x54_1 : (⟨S54, .f32⟩ : BufTy).Contents (Elt F) → (⟨S1x54, .f32⟩ : BufTy).Contents (Elt F)) a6
def tl_v88 (a6 : (⟨S54, .f32⟩ : BufTy).Contents (Elt F)) :
    (⟨S128x54, .f32⟩ : BufTy).Contents (Elt F) :=
  (broadcastInDim S128x54 ![0, 1] bcast_S1x54_S128x54_0_1 : (⟨S1x54, .f32⟩ : BufTy).Contents (Elt F) → (⟨S128x54, .f32⟩ : BufTy).Contents (Elt F)) (tl_v87 (F := F) a6)
def tl_v89 (P : (⟨S128x300, .f32⟩ : BufTy).Contents (Elt F)) (a3 : (⟨S300, .f32⟩ : BufTy).Contents (Elt F)) (a4 : (⟨S300, .f32⟩ : BufTy).Contents (Elt F)) (a5 : (⟨S300x54, .f32⟩ : BufTy).Contents (Elt F)) (a6 : (⟨S54, .f32⟩ : BufTy).Contents (Elt F)) :
    (⟨S128x54, .f32⟩ : BufTy).Contents (Elt F) :=
  (addf : (⟨S128x54, .f32⟩ : BufTy).Contents (Elt F) → (⟨S128x54, .f32⟩ : BufTy).Contents (Elt F) → (⟨S128x54, .f32⟩ : BufTy).Contents (Elt F)) (tl_v86 (F := F) P a3 a4 a5) (tl_v88 (F := F) a6)
def tl_v90 (P : (⟨S128x300, .f32⟩ : BufTy).Contents (Elt F)) (a3 : (⟨S300, .f32⟩ : BufTy).Contents (Elt F)) (a4 : (⟨S300, .f32⟩ : BufTy).Contents (Elt F)) (a5 : (⟨S300x54, .f32⟩ : BufTy).Contents (Elt F)) (a6 : (⟨S54, .f32⟩ : BufTy).Contents (Elt F)) :
    (⟨S128x54, .f32⟩ : BufTy).Contents (Elt F) :=
  (Host.negf : (⟨S128x54, .f32⟩ : BufTy).Contents (Elt F) → (⟨S128x54, .f32⟩ : BufTy).Contents (Elt F)) (tl_v89 (F := F) P a3 a4 a5 a6)
def tl_v91 (P : (⟨S128x300, .f32⟩ : BufTy).Contents (Elt F)) (a3 : (⟨S300, .f32⟩ : BufTy).Contents (Elt F)) (a4 : (⟨S300, .f32⟩ : BufTy).Contents (Elt F)) (a5 : (⟨S300x54, .f32⟩ : BufTy).Contents (Elt F)) (a6 : (⟨S54, .f32⟩ : BufTy).Contents (Elt F)) :
    (⟨S128x54, .f32⟩ : BufTy).Contents (Elt F) :=
  (Host.exp : (⟨S128x54, .f32⟩ : BufTy).Contents (Elt F) → (⟨S128x54, .f32⟩ : BufTy).Contents (Elt F)) (tl_v90 (F := F) P a3 a4 a5 a6)
def tl_cst_21 :
    (⟨S_, .f32⟩ : BufTy).Contents (Elt F) :=
  (((constant S_ .f32 0x3F800000#32)) : (⟨S_, .f32⟩ : BufTy).Contents (Elt F))
def tl_v92 :
    (⟨S128x54, .f32⟩ : BufTy).Contents (Elt F) :=
  (broadcastInDim S128x54 ![] bcast_S_S128x54 : (⟨S_, .f32⟩ : BufTy).Contents (Elt F) → (⟨S128x54, .f32⟩ : BufTy).Contents (Elt F)) (tl_cst_21 (F := F))
def tl_v93 (P : (⟨S128x300, .f32⟩ : BufTy).Contents (Elt F)) (a3 : (⟨S300, .f32⟩ : BufTy).Contents (Elt F)) (a4 : (⟨S300, .f32⟩ : BufTy).Contents (Elt F)) (a5 : (⟨S300x54, .f32⟩ : BufTy).Contents (Elt F)) (a6 : (⟨S54, .f32⟩ : BufTy).Contents (Elt F)) :
    (⟨S128x54, .f32⟩ : BufTy).Contents (Elt F) :=
  (addf : (⟨S128x54, .f32⟩ : BufTy).Contents (Elt F) → (⟨S128x54, .f32⟩ : BufTy).Contents (Elt F) → (⟨S128x54, .f32⟩ : BufTy).Contents (Elt F)) (tl_v92 (F := F)) (tl_v91 (F := F) P a3 a4 a5 a6)
def tl_cst_22 :
    (⟨S_, .f32⟩ : BufTy).Contents (Elt F) :=
  (((constant S_ .f32 0x3F800000#32)) : (⟨S_, .f32⟩ : BufTy).Contents (Elt F))
def tl_v94 :
    (⟨S128x54, .f32⟩ : BufTy).Contents (Elt F) :=
  (broadcastInDim S128x54 ![] bcast_S_S128x54 : (⟨S_, .f32⟩ : BufTy).Contents (Elt F) → (⟨S128x54, .f32⟩ : BufTy).Contents (Elt F)) (tl_cst_22 (F := F))
def tl_v95 (P : (⟨S128x300, .f32⟩ : BufTy).Contents (Elt F)) (a3 : (⟨S300, .f32⟩ : BufTy).Contents (Elt F)) (a4 : (⟨S300, .f32⟩ : BufTy).Contents (Elt F)) (a5 : (⟨S300x54, .f32⟩ : BufTy).Contents (Elt F)) (a6 : (⟨S54, .f32⟩ : BufTy).Contents (Elt F)) :
    (⟨S128x54, .f32⟩ : BufTy).Contents (Elt F) :=
  (Host.divf : (⟨S128x54, .f32⟩ : BufTy).Contents (Elt F) → (⟨S128x54, .f32⟩ : BufTy).Contents (Elt F) → (⟨S128x54, .f32⟩ : BufTy).Contents (Elt F)) (tl_v94 (F := F)) (tl_v93 (F := F) P a3 a4 a5 a6)

end Cert.KernelIdeal.KerTerm

end
-- ==== Proof.KerHostTail.lean ====
/- The host operations after the launch, read as terms: the fold of the four stretches of operations, stretch by
   stretch, leaves at the result buffer the composed term of the launch's result and the argument arrays. Each
   stretch is read at the buffers a later stretch consumes; a buffer a stretch does not write keeps its contents. -/
import proofs.«112600_j80238579024429_2_alg».proof.Proof.KerTerm
import proofs.«112600_j80238579024429_2_alg».proof.Proof.Gen.KernelIdeal.Frame
import Idealize.ShloMosaic.Lib.StableHlo.Run

noncomputable section

namespace Cert.KernelIdeal.KerHost

open Cert.KernelIdeal Cert.KernelIdeal.Gen Idealize.ShloMosaic Idealize.ShloMosaic.TcCoe Idealize.SL.Sem
open Idealize.ShloMosaic.StableHlo

variable {F : FTy → Type} [FloatOps F]

/-- The buffers' contents after the 1 stretch of the operations. -/
def tail1 (U : Valuation τ sig (Elt F)) : Valuation τ sig (Elt F) := after hostOps1 (U)
/-- The buffers that stretch writes. -/
abbrev tail1_W : List (Ref sig .tc) := [main_call2_cst, main_call2_v0, main_v66]
set_option maxRecDepth 8192 in
theorem tail1_writes : (hostOps1 : List (HloOp τ sig (Elt F))).Forall fun op => op.writes ⊆ (tail1_W.map (Proc.devRef (τ := τ) .tc)).toFinset := by
  simp only [List.Forall]
  repeat' apply And.intro
  all_goals
    simp only [nullary_writes, unary_writes, binary_writes, ternary_writes, quaternary_writes, reshape_writes,
      binaryIndexed_writes, nary_writes, unaryIndexed_writes, Finset.singleton_subset_iff, List.mem_toFinset]
    exact List.mem_map_of_mem (by decide)
/-- A buffer the stretch does not write keeps its contents through it. -/
theorem tail1_keep (U : Valuation τ sig (Elt F)) (r : Ref sig .tc) (h : r ∉ tail1_W) :
    tail1 U (Proc.devRef .tc r) = (U) (Proc.devRef .tc r) :=
  after_of_writes_sub hostOps1 _ tail1_writes h
theorem tail1_arg3 (U : Valuation τ sig (Elt F)) : tail1 U (no_index (Proc.devRef .tc main_arg3)) = U (Proc.devRef .tc main_arg3) :=
  (tail1_keep U main_arg3 (by decide)).trans (rfl)
theorem tail1_arg4 (U : Valuation τ sig (Elt F)) : tail1 U (no_index (Proc.devRef .tc main_arg4)) = U (Proc.devRef .tc main_arg4) :=
  (tail1_keep U main_arg4 (by decide)).trans (rfl)
theorem tail1_arg5 (U : Valuation τ sig (Elt F)) : tail1 U (no_index (Proc.devRef .tc main_arg5)) = U (Proc.devRef .tc main_arg5) :=
  (tail1_keep U main_arg5 (by decide)).trans (rfl)
theorem tail1_arg6 (U : Valuation τ sig (Elt F)) : tail1 U (no_index (Proc.devRef .tc main_arg6)) = U (Proc.devRef .tc main_arg6) :=
  (tail1_keep U main_arg6 (by decide)).trans (rfl)
set_option maxRecDepth 8192 in
theorem tail1_v66 (U : Valuation τ sig (Elt F)) : tail1 U (no_index (Proc.devRef .tc main_v66)) = KerTerm.tl_v66 (U (Proc.devRef .tc main_v65)) := by
  unfold tail1
  simp only [hostOps1]
  after_results_simp
  rfl

/-- The buffers' contents after the 2 stretch of the operations. -/
def tail2 (U : Valuation τ sig (Elt F)) : Valuation τ sig (Elt F) := after hostOps1_1 (tail1 U)
/-- The buffers that stretch writes. -/
abbrev tail2_W : List (Ref sig .tc) := [main_cst_17, main_v67, main_cst_18, main_v68, main_v69, main_c_19]
set_option maxRecDepth 8192 in
theorem tail2_writes : (hostOps1_1 : List (HloOp τ sig (Elt F))).Forall fun op => op.writes ⊆ (tail2_W.map (Proc.devRef (τ := τ) .tc)).toFinset := by
  simp only [List.Forall]
  repeat' apply And.intro
  all_goals
    simp only [nullary_writes, unary_writes, binary_writes, ternary_writes, quaternary_writes, reshape_writes,
      binaryIndexed_writes, nary_writes, unaryIndexed_writes, Finset.singleton_subset_iff, List.mem_toFinset]
    exact List.mem_map_of_mem (by decide)
/-- A buffer the stretch does not write keeps its contents through it. -/
theorem tail2_keep (U : Valuation τ sig (Elt F)) (r : Ref sig .tc) (h : r ∉ tail2_W) :
    tail2 U (Proc.devRef .tc r) = (tail1 U) (Proc.devRef .tc r) :=
  after_of_writes_sub hostOps1_1 _ tail2_writes h
theorem tail2_arg3 (U : Valuation τ sig (Elt F)) : tail2 U (no_index (Proc.devRef .tc main_arg3)) = U (Proc.devRef .tc main_arg3) :=
  (tail2_keep U main_arg3 (by decide)).trans (tail1_arg3 U)
theorem tail2_arg4 (U : Valuation τ sig (Elt F)) : tail2 U (no_index (Proc.devRef .tc main_arg4)) = U (Proc.devRef .tc main_arg4) :=
  (tail2_keep U main_arg4 (by decide)).trans (tail1_arg4 U)
theorem tail2_arg5 (U : Valuation τ sig (Elt F)) : tail2 U (no_index (Proc.devRef .tc main_arg5)) = U (Proc.devRef .tc main_arg5) :=
  (tail2_keep U main_arg5 (by decide)).trans (tail1_arg5 U)
theorem tail2_arg6 (U : Valuation τ sig (Elt F)) : tail2 U (no_index (Proc.devRef .tc main_arg6)) = U (Proc.devRef .tc main_arg6) :=
  (tail2_keep U main_arg6 (by decide)).trans (tail1_arg6 U)
theorem tail2_v66 (U : Valuation τ sig (Elt F)) : tail2 U (no_index (Proc.devRef .tc main_v66)) = KerTerm.tl_v66 (U (Proc.devRef .tc main_v65)) :=
  (tail2_keep U main_v66 (by decide)).trans (tail1_v66 U)
set_option maxRecDepth 8192 in
theorem tail2_v69 (U : Valuation τ sig (Elt F)) : tail2 U (no_index (Proc.devRef .tc main_v69)) = KerTerm.tl_v69 (U (Proc.devRef .tc main_v65)) := by
  unfold tail2
  simp only [hostOps1_1]
  after_results_simp
  simp only [tail1_v66] <;> rfl
set_option maxRecDepth 8192 in
theorem tail2_c_19 (U : Valuation τ sig (Elt F)) : tail2 U (no_index (Proc.devRef .tc main_c_19)) = (KerTerm.tl_c_19 : (⟨S_, .i32⟩ : BufTy).Contents (Elt F)) := by
  unfold tail2
  simp only [hostOps1_1]
  after_results_simp
  rfl

/-- The buffers' contents after the 3 stretch of the operations. -/
def tail3 (U : Valuation τ sig (Elt F)) : Valuation τ sig (Elt F) := after hostOps1_2 (tail2 U)
/-- The buffers that stretch writes. -/
abbrev tail3_W : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v70]
set_option maxRecDepth 8192 in
theorem tail3_writes : (hostOps1_2 : List (HloOp τ sig (Elt F))).Forall fun op => op.writes ⊆ (tail3_W.map (Proc.devRef (τ := τ) .tc)).toFinset := by
  simp only [List.Forall]
  repeat' apply And.intro
  all_goals
    simp only [nullary_writes, unary_writes, binary_writes, ternary_writes, quaternary_writes, reshape_writes,
      binaryIndexed_writes, nary_writes, unaryIndexed_writes, Finset.singleton_subset_iff, List.mem_toFinset]
    exact List.mem_map_of_mem (by decide)
/-- A buffer the stretch does not write keeps its contents through it. -/
theorem tail3_keep (U : Valuation τ sig (Elt F)) (r : Ref sig .tc) (h : r ∉ tail3_W) :
    tail3 U (Proc.devRef .tc r) = (tail2 U) (Proc.devRef .tc r) :=
  after_of_writes_sub hostOps1_2 _ tail3_writes h
theorem tail3_arg3 (U : Valuation τ sig (Elt F)) : tail3 U (no_index (Proc.devRef .tc main_arg3)) = U (Proc.devRef .tc main_arg3) :=
  (tail3_keep U main_arg3 (by decide)).trans (tail2_arg3 U)
theorem tail3_arg4 (U : Valuation τ sig (Elt F)) : tail3 U (no_index (Proc.devRef .tc main_arg4)) = U (Proc.devRef .tc main_arg4) :=
  (tail3_keep U main_arg4 (by decide)).trans (tail2_arg4 U)
theorem tail3_arg5 (U : Valuation τ sig (Elt F)) : tail3 U (no_index (Proc.devRef .tc main_arg5)) = U (Proc.devRef .tc main_arg5) :=
  (tail3_keep U main_arg5 (by decide)).trans (tail2_arg5 U)
theorem tail3_arg6 (U : Valuation τ sig (Elt F)) : tail3 U (no_index (Proc.devRef .tc main_arg6)) = U (Proc.devRef .tc main_arg6) :=
  (tail3_keep U main_arg6 (by decide)).trans (tail2_arg6 U)
theorem tail3_v66 (U : Valuation τ sig (Elt F)) : tail3 U (no_index (Proc.devRef .tc main_v66)) = KerTerm.tl_v66 (U (Proc.devRef .tc main_v65)) :=
  (tail3_keep U main_v66 (by decide)).trans (tail2_v66 U)
theorem tail3_v69 (U : Valuation τ sig (Elt F)) : tail3 U (no_index (Proc.devRef .tc main_v69)) = KerTerm.tl_v69 (U (Proc.devRef .tc main_v65)) :=
  (tail3_keep U main_v69 (by decide)).trans (tail2_v69 U)
set_option maxRecDepth 8192 in
theorem tail3_v70 (U : Valuation τ sig (Elt F)) : tail3 U (no_index (Proc.devRef .tc main_v70)) = KerTerm.tl_v70 (U (Proc.devRef .tc main_v65)) := by
  unfold tail3
  simp only [hostOps1_2]
  after_results_simp
  simp only [tail2_v66, tail2_c_19] <;> rfl

/-- The buffers' contents after the 4 stretch of the operations. -/
def tail4 (U : Valuation τ sig (Elt F)) : Valuation τ sig (Elt F) := after hostOps1_3 (tail3 U)
/-- The buffers that stretch writes. -/
abbrev tail4_W : List (Ref sig .tc) := [main_v71, main_v72, main_v73, main_cst_20, main_v74, main_v75, main_v76, main_v77, main_v78, main_v79, main_v80, main_v81, main_v82, main_v83, main_v84, main_v85, main_v86, main_v87, main_v88, main_v89, main_v90, main_v91, main_cst_21, main_v92, main_v93, main_cst_22, main_v94, main_v95]
set_option maxRecDepth 8192 in
theorem tail4_writes : (hostOps1_3 : List (HloOp τ sig (Elt F))).Forall fun op => op.writes ⊆ (tail4_W.map (Proc.devRef (τ := τ) .tc)).toFinset := by
  simp only [List.Forall]
  repeat' apply And.intro
  all_goals
    simp only [nullary_writes, unary_writes, binary_writes, ternary_writes, quaternary_writes, reshape_writes,
      binaryIndexed_writes, nary_writes, unaryIndexed_writes, Finset.singleton_subset_iff, List.mem_toFinset]
    exact List.mem_map_of_mem (by decide)
/-- A buffer the stretch does not write keeps its contents through it. -/
theorem tail4_keep (U : Valuation τ sig (Elt F)) (r : Ref sig .tc) (h : r ∉ tail4_W) :
    tail4 U (Proc.devRef .tc r) = (tail3 U) (Proc.devRef .tc r) :=
  after_of_writes_sub hostOps1_3 _ tail4_writes h
set_option maxRecDepth 8192 in
theorem tail4_v95 (U : Valuation τ sig (Elt F)) : tail4 U (no_index (Proc.devRef .tc main_v95)) = KerTerm.tl_v95 (U (Proc.devRef .tc main_v65)) (U (Proc.devRef .tc main_arg3)) (U (Proc.devRef .tc main_arg4)) (U (Proc.devRef .tc main_arg5)) (U (Proc.devRef .tc main_arg6)) := by
  unfold tail4
  simp only [hostOps1_3]
  after_results_simp
  simp only [tail3_v66, tail3_v69, tail3_v70, tail3_arg3, tail3_arg4, tail3_arg5, tail3_arg6] <;> rfl

/-- The operations after the launch leave at the result buffer the composed term of the launch's result and the
    argument arrays. -/
theorem tail_after (U : Valuation τ sig (Elt F)) :
    StableHlo.after (List.flatten [hostOps1, hostOps1_1, hostOps1_2, hostOps1_3]) U (Proc.devRef .tc main_v95)
      = KerTerm.tl_v95 (U (Proc.devRef .tc main_v65)) (U (Proc.devRef .tc main_arg3)) (U (Proc.devRef .tc main_arg4))
          (U (Proc.devRef .tc main_arg5)) (U (Proc.devRef .tc main_arg6)) := by
  simp only [List.flatten_cons, List.flatten_nil, List.append_nil, after_append]
  exact tail4_v95 U

end Cert.KernelIdeal.KerHost

end
-- ==== Proof.KerHostPreA.lean ====
/- The host operations before the launch, first part: the two stretches that build the window tables — which neighbour
   offsets fall inside a document of 300 positions, and the neighbour positions clipped to the document. Each stretch
   is read at the buffers a later stretch consumes; a buffer a stretch does not write keeps its contents. -/
import proofs.«112600_j80238579024429_2_alg».proof.Proof.KerTerm
import proofs.«112600_j80238579024429_2_alg».proof.Proof.Gen.KernelIdeal.Frame
import Idealize.ShloMosaic.Lib.StableHlo.Run

noncomputable section

namespace Cert.KernelIdeal.KerHost

open Cert.KernelIdeal Cert.KernelIdeal.Gen Idealize.ShloMosaic Idealize.ShloMosaic.TcCoe Idealize.SL.Sem
open Idealize.ShloMosaic.StableHlo

variable {F : FTy → Type} [FloatOps F]

/-- The buffers' contents after stretch 1 of the operations before the launch. -/
def pre1 (U : Valuation τ sig (Elt F)) : Valuation τ sig (Elt F) := after hostOps0 (U)
/-- The buffers that stretch writes. -/
abbrev pre1_W : List (Ref sig .tc) := [main_v0, main_c, main_v1, main_v2, main_v3, main_v4, main_v5, main_v6, main_v7, main_v8, main_c_0, main_v9, main_v10, main_c_1, main_v11, main_v12, main_v13, main_c_2, main_c_3]
set_option maxRecDepth 8192 in
theorem pre1_writes : (hostOps0 : List (HloOp τ sig (Elt F))).Forall fun op => op.writes ⊆ (pre1_W.map (Proc.devRef (τ := τ) .tc)).toFinset := by
  simp only [List.Forall]
  repeat' apply And.intro
  all_goals
    simp only [nullary_writes, unary_writes, binary_writes, ternary_writes, quaternary_writes, reshape_writes,
      binaryIndexed_writes, nary_writes, unaryIndexed_writes, Finset.singleton_subset_iff, List.mem_toFinset]
    exact List.mem_map_of_mem (by decide)
/-- A buffer the stretch does not write keeps its contents through it. -/
theorem pre1_keep (U : Valuation τ sig (Elt F)) (r : Ref sig .tc) (h : r ∉ pre1_W) :
    pre1 U (Proc.devRef .tc r) = (U) (Proc.devRef .tc r) :=
  after_of_writes_sub hostOps0 _ pre1_writes h
theorem pre1_arg0 (U : Valuation τ sig (Elt F)) : pre1 U (no_index (Proc.devRef .tc main_arg0)) = U (Proc.devRef .tc main_arg0) :=
  (pre1_keep U main_arg0 (by decide)).trans (rfl)
theorem pre1_arg1 (U : Valuation τ sig (Elt F)) : pre1 U (no_index (Proc.devRef .tc main_arg1)) = U (Proc.devRef .tc main_arg1) :=
  (pre1_keep U main_arg1 (by decide)).trans (rfl)
theorem pre1_arg2 (U : Valuation τ sig (Elt F)) : pre1 U (no_index (Proc.devRef .tc main_arg2)) = U (Proc.devRef .tc main_arg2) :=
  (pre1_keep U main_arg2 (by decide)).trans (rfl)
theorem pre1_arg7 (U : Valuation τ sig (Elt F)) : pre1 U (no_index (Proc.devRef .tc main_arg7)) = U (Proc.devRef .tc main_arg7) :=
  (pre1_keep U main_arg7 (by decide)).trans (rfl)
theorem pre1_arg8 (U : Valuation τ sig (Elt F)) : pre1 U (no_index (Proc.devRef .tc main_arg8)) = U (Proc.devRef .tc main_arg8) :=
  (pre1_keep U main_arg8 (by decide)).trans (rfl)
set_option maxRecDepth 8192 in
theorem pre1_v8 (U : Valuation τ sig (Elt F)) : pre1 U (no_index (Proc.devRef .tc main_v8)) = (KerTerm.t_v8 (F := F)) := by
  unfold pre1
  simp only [hostOps0]
  after_results_simp
  rfl
set_option maxRecDepth 8192 in
theorem pre1_c_2 (U : Valuation τ sig (Elt F)) : pre1 U (no_index (Proc.devRef .tc main_c_2)) = (KerTerm.t_c_2 (F := F)) := by
  unfold pre1
  simp only [hostOps0]
  after_results_simp
  rfl
set_option maxRecDepth 8192 in
theorem pre1_c_3 (U : Valuation τ sig (Elt F)) : pre1 U (no_index (Proc.devRef .tc main_c_3)) = (KerTerm.t_c_3 (F := F)) := by
  unfold pre1
  simp only [hostOps0]
  after_results_simp
  rfl
set_option maxRecDepth 8192 in
theorem pre1_v13 (U : Valuation τ sig (Elt F)) : pre1 U (no_index (Proc.devRef .tc main_v13)) = (KerTerm.t_v13 (F := F)) := by
  unfold pre1
  simp only [hostOps0]
  after_results_simp
  rfl

/-- The buffers' contents after stretch 2 of the operations before the launch. -/
def pre2 (U : Valuation τ sig (Elt F)) : Valuation τ sig (Elt F) := after hostOps0_1 (pre1 U)
/-- The buffers that stretch writes. -/
abbrev pre2_W : List (Ref sig .tc) := [main_call0_v0, main_call0_v1, main_call0_v2, main_call0_v3, main_call0_v4, main_v14]
set_option maxRecDepth 8192 in
theorem pre2_writes : (hostOps0_1 : List (HloOp τ sig (Elt F))).Forall fun op => op.writes ⊆ (pre2_W.map (Proc.devRef (τ := τ) .tc)).toFinset := by
  simp only [List.Forall]
  repeat' apply And.intro
  all_goals
    simp only [nullary_writes, unary_writes, binary_writes, ternary_writes, quaternary_writes, reshape_writes,
      binaryIndexed_writes, nary_writes, unaryIndexed_writes, Finset.singleton_subset_iff, List.mem_toFinset]
    exact List.mem_map_of_mem (by decide)
/-- A buffer the stretch does not write keeps its contents through it. -/
theorem pre2_keep (U : Valuation τ sig (Elt F)) (r : Ref sig .tc) (h : r ∉ pre2_W) :
    pre2 U (Proc.devRef .tc r) = (pre1 U) (Proc.devRef .tc r) :=
  after_of_writes_sub hostOps0_1 _ pre2_writes h
theorem pre2_arg0 (U : Valuation τ sig (Elt F)) : pre2 U (no_index (Proc.devRef .tc main_arg0)) = U (Proc.devRef .tc main_arg0) :=
  (pre2_keep U main_arg0 (by decide)).trans (pre1_arg0 U)
theorem pre2_arg1 (U : Valuation τ sig (Elt F)) : pre2 U (no_index (Proc.devRef .tc main_arg1)) = U (Proc.devRef .tc main_arg1) :=
  (pre2_keep U main_arg1 (by decide)).trans (pre1_arg1 U)
theorem pre2_arg2 (U : Valuation τ sig (Elt F)) : pre2 U (no_index (Proc.devRef .tc main_arg2)) = U (Proc.devRef .tc main_arg2) :=
  (pre2_keep U main_arg2 (by decide)).trans (pre1_arg2 U)
theorem pre2_arg7 (U : Valuation τ sig (Elt F)) : pre2 U (no_index (Proc.devRef .tc main_arg7)) = U (Proc.devRef .tc main_arg7) :=
  (pre2_keep U main_arg7 (by decide)).trans (pre1_arg7 U)
theorem pre2_arg8 (U : Valuation τ sig (Elt F)) : pre2 U (no_index (Proc.devRef .tc main_arg8)) = U (Proc.devRef .tc main_arg8) :=
  (pre2_keep U main_arg8 (by decide)).trans (pre1_arg8 U)
theorem pre2_v13 (U : Valuation τ sig (Elt F)) : pre2 U (no_index (Proc.devRef .tc main_v13)) = (KerTerm.t_v13 (F := F)) :=
  (pre2_keep U main_v13 (by decide)).trans (pre1_v13 U)
set_option maxRecDepth 8192 in
theorem pre2_v14 (U : Valuation τ sig (Elt F)) : pre2 U (no_index (Proc.devRef .tc main_v14)) = (KerTerm.t_v14 (F := F)) := by
  unfold pre2
  simp only [hostOps0_1]
  after_results_simp
  simp only [pre1_v8, pre1_c_2, pre1_c_3] <;> rfl

end Cert.KernelIdeal.KerHost

end
-- ==== Proof.KerHostPre.lean ====
/- The host operations before the launch, second part: the fold of the remaining three stretches of operations leaves
   at the three buffers the launch reads — the gathered node features, the gathered gates, the edge weights with 1
   where the neighbour falls outside the document — the composed terms of the argument arrays. Each stretch is read at
   the buffers a later stretch consumes; a buffer a stretch does not write keeps its contents. -/
import proofs.«112600_j80238579024429_2_alg».proof.Proof.KerHostPreA

noncomputable section

namespace Cert.KernelIdeal.KerHost

open Cert.KernelIdeal Cert.KernelIdeal.Gen Idealize.ShloMosaic Idealize.ShloMosaic.TcCoe Idealize.SL.Sem
open Idealize.ShloMosaic.StableHlo

variable {F : FTy → Type} [FloatOps F]

/-- Two index columns set side by side along the last axis: the concatenation of two operands of one shape, as a
    function of the two. -/
def cat2 (a b : (⟨S128x300x7x1, .i32⟩ : BufTy).Contents (Elt F)) : (⟨S128x300x7x2, .i32⟩ : BufTy).Contents (Elt F) :=
  concatenate S128x300x7x2 3 [⟨S128x300x7x1, a⟩, ⟨S128x300x7x1, b⟩] concatenates_S128x300x7x1_S128x300x7x1_S128x300x7x2_d3
theorem cat2_fun :
    ((fun a b => concatenate S128x300x7x2 3 [⟨S128x300x7x1, a⟩, ⟨S128x300x7x1, b⟩] concatenates_S128x300x7x1_S128x300x7x1_S128x300x7x2_d3) :
      (⟨S128x300x7x1, .i32⟩ : BufTy).Contents (Elt F) → (⟨S128x300x7x1, .i32⟩ : BufTy).Contents (Elt F) → (⟨S128x300x7x2, .i32⟩ : BufTy).Contents (Elt F))
      = cat2 := rfl

/-- The buffers' contents after stretch 3 of the operations before the launch. -/
def pre3 (U : Valuation τ sig (Elt F)) : Valuation τ sig (Elt F) := after hostOps0_2 (pre2 U)
/-- The buffers that stretch writes. -/
abbrev pre3_W : List (Ref sig .tc) := [main_c_4, main_v15, main_v16, main_c_5, main_v17, main_v18, main_v19, main_v20, main_v21, main_v22, main_c_6, main_v23, main_v24, main_c_7, main_v25, main_v26, main_v27, main_c_8, main_v28, main_v29, main_c_9, main_v30, main_v31, main_v32, main_v33, main_v34, main_v35, main_v36, main_v37, main_c_10, main_v38, main_v39, main_c_11, main_v40, main_v41, main_v42, main_c_12, main_v43, main_v44, main_v45, main_v46, main_v47, main_v48, main_v49, main_cst]
set_option maxRecDepth 8192 in
theorem pre3_writes : (hostOps0_2 : List (HloOp τ sig (Elt F))).Forall fun op => op.writes ⊆ (pre3_W.map (Proc.devRef (τ := τ) .tc)).toFinset := by
  simp only [List.Forall]
  repeat' apply And.intro
  all_goals
    simp only [nullary_writes, unary_writes, binary_writes, ternary_writes, quaternary_writes, reshape_writes,
      binaryIndexed_writes, nary_writes, unaryIndexed_writes, Finset.singleton_subset_iff, List.mem_toFinset]
    exact List.mem_map_of_mem (by decide)
/-- A buffer the stretch does not write keeps its contents through it. -/
theorem pre3_keep (U : Valuation τ sig (Elt F)) (r : Ref sig .tc) (h : r ∉ pre3_W) :
    pre3 U (Proc.devRef .tc r) = (pre2 U) (Proc.devRef .tc r) :=
  after_of_writes_sub hostOps0_2 _ pre3_writes h
theorem pre3_arg0 (U : Valuation τ sig (Elt F)) : pre3 U (no_index (Proc.devRef .tc main_arg0)) = U (Proc.devRef .tc main_arg0) :=
  (pre3_keep U main_arg0 (by decide)).trans (pre2_arg0 U)
theorem pre3_arg1 (U : Valuation τ sig (Elt F)) : pre3 U (no_index (Proc.devRef .tc main_arg1)) = U (Proc.devRef .tc main_arg1) :=
  (pre3_keep U main_arg1 (by decide)).trans (pre2_arg1 U)
theorem pre3_arg7 (U : Valuation τ sig (Elt F)) : pre3 U (no_index (Proc.devRef .tc main_arg7)) = U (Proc.devRef .tc main_arg7) :=
  (pre3_keep U main_arg7 (by decide)).trans (pre2_arg7 U)
set_option maxRecDepth 8192 in
theorem pre3_v48 (U : Valuation τ sig (Elt F)) : pre3 U (no_index (Proc.devRef .tc main_v48)) = KerTerm.t_v48 (U (Proc.devRef .tc main_arg2)) (U (Proc.devRef .tc main_arg7)) (U (Proc.devRef .tc main_arg8)) := by
  unfold pre3
  simp only [hostOps0_2, cat2_fun]
  after_results_simp
  simp only [pre2_v14, pre2_arg2, pre2_arg7, pre2_arg8] <;> rfl
set_option maxRecDepth 8192 in
theorem pre3_v49 (U : Valuation τ sig (Elt F)) : pre3 U (no_index (Proc.devRef .tc main_v49)) = (KerTerm.t_v49 (F := F)) := by
  unfold pre3
  simp only [hostOps0_2]
  after_results_simp
  simp only [pre2_v13] <;> rfl
set_option maxRecDepth 8192 in
theorem pre3_cst (U : Valuation τ sig (Elt F)) : pre3 U (no_index (Proc.devRef .tc main_cst)) = (KerTerm.t_cst (F := F)) := by
  unfold pre3
  simp only [hostOps0_2]
  after_results_simp
  rfl

/-- The buffers' contents after stretch 4 of the operations before the launch. -/
def pre4 (U : Valuation τ sig (Elt F)) : Valuation τ sig (Elt F) := after hostOps0_3 (pre3 U)
/-- The buffers that stretch writes. -/
abbrev pre4_W : List (Ref sig .tc) := [main_call1_v0, main_call1_v1, main_call1_v2, main_v50]
set_option maxRecDepth 8192 in
theorem pre4_writes : (hostOps0_3 : List (HloOp τ sig (Elt F))).Forall fun op => op.writes ⊆ (pre4_W.map (Proc.devRef (τ := τ) .tc)).toFinset := by
  simp only [List.Forall]
  repeat' apply And.intro
  all_goals
    simp only [nullary_writes, unary_writes, binary_writes, ternary_writes, quaternary_writes, reshape_writes,
      binaryIndexed_writes, nary_writes, unaryIndexed_writes, Finset.singleton_subset_iff, List.mem_toFinset]
    exact List.mem_map_of_mem (by decide)
/-- A buffer the stretch does not write keeps its contents through it. -/
theorem pre4_keep (U : Valuation τ sig (Elt F)) (r : Ref sig .tc) (h : r ∉ pre4_W) :
    pre4 U (Proc.devRef .tc r) = (pre3 U) (Proc.devRef .tc r) :=
  after_of_writes_sub hostOps0_3 _ pre4_writes h
theorem pre4_arg0 (U : Valuation τ sig (Elt F)) : pre4 U (no_index (Proc.devRef .tc main_arg0)) = U (Proc.devRef .tc main_arg0) :=
  (pre4_keep U main_arg0 (by decide)).trans (pre3_arg0 U)
theorem pre4_arg1 (U : Valuation τ sig (Elt F)) : pre4 U (no_index (Proc.devRef .tc main_arg1)) = U (Proc.devRef .tc main_arg1) :=
  (pre4_keep U main_arg1 (by decide)).trans (pre3_arg1 U)
theorem pre4_arg7 (U : Valuation τ sig (Elt F)) : pre4 U (no_index (Proc.devRef .tc main_arg7)) = U (Proc.devRef .tc main_arg7) :=
  (pre4_keep U main_arg7 (by decide)).trans (pre3_arg7 U)
set_option maxRecDepth 8192 in
theorem pre4_v50 (U : Valuation τ sig (Elt F)) : pre4 U (no_index (Proc.devRef .tc main_v50)) = KerTerm.t_v50 (U (Proc.devRef .tc main_arg2)) (U (Proc.devRef .tc main_arg7)) (U (Proc.devRef .tc main_arg8)) := by
  unfold pre4
  simp only [hostOps0_3]
  after_results_simp
  simp only [pre3_v48, pre3_v49, pre3_cst] <;> rfl

/-- The buffers' contents after stretch 5 of the operations before the launch. -/
def pre5 (U : Valuation τ sig (Elt F)) : Valuation τ sig (Elt F) := after hostOps0_4 (pre4 U)
/-- The buffers that stretch writes. -/
abbrev pre5_W : List (Ref sig .tc) := [main_c_13, main_v51, main_v52, main_c_14, main_v53, main_v54, main_v55, main_v56, main_v57, main_c_15, main_v58, main_v59, main_c_16, main_v60, main_v61, main_v62, main_v63, main_v64]
set_option maxRecDepth 8192 in
theorem pre5_writes : (hostOps0_4 : List (HloOp τ sig (Elt F))).Forall fun op => op.writes ⊆ (pre5_W.map (Proc.devRef (τ := τ) .tc)).toFinset := by
  simp only [List.Forall]
  repeat' apply And.intro
  all_goals
    simp only [nullary_writes, unary_writes, binary_writes, ternary_writes, quaternary_writes, reshape_writes,
      binaryIndexed_writes, nary_writes, unaryIndexed_writes, Finset.singleton_subset_iff, List.mem_toFinset]
    exact List.mem_map_of_mem (by decide)
/-- A buffer the stretch does not write keeps its contents through it. -/
theorem pre5_keep (U : Valuation τ sig (Elt F)) (r : Ref sig .tc) (h : r ∉ pre5_W) :
    pre5 U (Proc.devRef .tc r) = (pre4 U) (Proc.devRef .tc r) :=
  after_of_writes_sub hostOps0_4 _ pre5_writes h
theorem pre5_v50 (U : Valuation τ sig (Elt F)) : pre5 U (no_index (Proc.devRef .tc main_v50)) = KerTerm.t_v50 (U (Proc.devRef .tc main_arg2)) (U (Proc.devRef .tc main_arg7)) (U (Proc.devRef .tc main_arg8)) :=
  (pre5_keep U main_v50 (by decide)).trans (pre4_v50 U)
set_option maxRecDepth 8192 in
theorem pre5_v57 (U : Valuation τ sig (Elt F)) : pre5 U (no_index (Proc.devRef .tc main_v57)) = KerTerm.t_v57 (U (Proc.devRef .tc main_arg0)) (U (Proc.devRef .tc main_arg7)) := by
  unfold pre5
  simp only [hostOps0_4]
  after_results_simp
  simp only [pre4_arg0, pre4_arg7] <;> rfl
set_option maxRecDepth 8192 in
theorem pre5_v64 (U : Valuation τ sig (Elt F)) : pre5 U (no_index (Proc.devRef .tc main_v64)) = KerTerm.t_v64 (U (Proc.devRef .tc main_arg1)) (U (Proc.devRef .tc main_arg7)) := by
  unfold pre5
  simp only [hostOps0_4]
  after_results_simp
  simp only [pre4_arg1, pre4_arg7] <;> rfl

/-- The operations before the launch leave the gathered node features: the composed term of the feature table and the document ids. -/
theorem pre_h0 (U : Valuation τ sig (Elt F)) :
    StableHlo.after (List.flatten [hostOps0, hostOps0_1, hostOps0_2, hostOps0_3, hostOps0_4]) U (Proc.devRef .tc main_v57)
      = KerTerm.t_v57 (U (Proc.devRef .tc main_arg0)) (U (Proc.devRef .tc main_arg7)) := by
  simp only [List.flatten_cons, List.flatten_nil, List.append_nil, after_append]
  exact pre5_v57 U

/-- The operations before the launch leave the gathered gates: the composed term of the gate table and the document ids. -/
theorem pre_eta (U : Valuation τ sig (Elt F)) :
    StableHlo.after (List.flatten [hostOps0, hostOps0_1, hostOps0_2, hostOps0_3, hostOps0_4]) U (Proc.devRef .tc main_v64)
      = KerTerm.t_v64 (U (Proc.devRef .tc main_arg1)) (U (Proc.devRef .tc main_arg7)) := by
  simp only [List.flatten_cons, List.flatten_nil, List.append_nil, after_append]
  exact pre5_v64 U

/-- The operations before the launch leave the edge weights, 1 where the neighbour falls outside the document: the composed term of the weight table, the document ids and the edge-index table. -/
theorem pre_weff (U : Valuation τ sig (Elt F)) :
    StableHlo.after (List.flatten [hostOps0, hostOps0_1, hostOps0_2, hostOps0_3, hostOps0_4]) U (Proc.devRef .tc main_v50)
      = KerTerm.t_v50 (U (Proc.devRef .tc main_arg2)) (U (Proc.devRef .tc main_arg7)) (U (Proc.devRef .tc main_arg8)) := by
  simp only [List.flatten_cons, List.flatten_nil, List.append_nil, after_append]
  exact pre5_v50 U

end Cert.KernelIdeal.KerHost

end
-- ==== Proof.KerRun.lean ====
/-
  The kernel's program, run: every weakly fair execution terminates with the result at the host operations after the launch
  applied to the launch's result array, that array being the readouts `Blocks.G` of the three arrays the host operations
  before the launch compute from the arguments; the arguments end unchanged.
-/
import proofs.«112600_j80238579024429_2_alg».proof.Proof.Gen.KernelIdeal.Frame
import proofs.«112600_j80238579024429_2_alg».proof.Proof.KerValue
import proofs.«112600_j80238579024429_2_alg».proof.Proof.KerHostTail
import proofs.«112600_j80238579024429_2_alg».proof.Proof.KerHostPre

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The feature array the launch finds is the gather of the node features by the documents' words. -/
theorem V_h0 (c : Dev nD) : V m c main_v57 = KerTerm.t_v57 (F := Ideal) (m ((c.tc : Thread nD τ).loc main_arg0)) (m ((c.tc : Thread nD τ).loc main_arg7)) :=
  KerHost.pre_h0 (F := Ideal) (fun b => m (c, b))

/-- The gate array likewise. -/
theorem V_eta (c : Dev nD) : V m c main_v64 = KerTerm.t_v64 (F := Ideal) (m ((c.tc : Thread nD τ).loc main_arg1)) (m ((c.tc : Thread nD τ).loc main_arg7)) :=
  KerHost.pre_eta (F := Ideal) (fun b => m (c, b))

/-- The weight array the launch finds: the gathered edge weights with 1 where the neighbour does not exist. -/
theorem V_weff (c : Dev nD) : V m c main_v50 = KerTerm.t_v50 (F := Ideal) (m ((c.tc : Thread nD τ).loc main_arg2)) (m ((c.tc : Thread nD τ).loc main_arg7)) (m ((c.tc : Thread nD τ).loc main_arg8)) :=
  KerHost.pre_weff (F := Ideal) (fun b => m (c, b))

/-- The program's result: the host operations after the launch, of the readouts and the arguments. -/
theorem tail_val (c : Dev nD) :
    Pipeline.afterTail₀ cfgs (dats m) 0 (V0 m) [hostOps1, hostOps1_1, hostOps1_2, hostOps1_3] c main_v95
      = KerTerm.tl_v95 (F := Ideal)
          (G (KerTerm.t_v57 (F := Ideal) (m ((c.tc : Thread nD τ).loc main_arg0)) (m ((c.tc : Thread nD τ).loc main_arg7))) (KerTerm.t_v64 (F := Ideal) (m ((c.tc : Thread nD τ).loc main_arg1)) (m ((c.tc : Thread nD τ).loc main_arg7)))
            (KerTerm.t_v50 (F := Ideal) (m ((c.tc : Thread nD τ).loc main_arg2)) (m ((c.tc : Thread nD τ).loc main_arg7)) (m ((c.tc : Thread nD τ).loc main_arg8))))
          (m ((c.tc : Thread nD τ).loc main_arg3)) (m ((c.tc : Thread nD τ).loc main_arg4)) (m ((c.tc : Thread nD τ).loc main_arg5)) (m ((c.tc : Thread nD τ).loc main_arg6)) := by
  unfold Pipeline.afterTail₀
  rw [KerHost.tail_after]
  have hP : Pipeline.withArrays (cfgs 0).spec c (V0 m c) (fun w => (dats m 0 c).arrAt w (cfgs 0).N) (Proc.devRef .tc main_v65)
      = G (KerTerm.t_v57 (F := Ideal) (m ((c.tc : Thread nD τ).loc main_arg0)) (m ((c.tc : Thread nD τ).loc main_arg7))) (KerTerm.t_v64 (F := Ideal) (m ((c.tc : Thread nD τ).loc main_arg1)) (m ((c.tc : Thread nD τ).loc main_arg7)))
          (KerTerm.t_v50 (F := Ideal) (m ((c.tc : Thread nD τ).loc main_arg2)) (m ((c.tc : Thread nD τ).loc main_arg7)) (m ((c.tc : Thread nD τ).loc main_arg8))) := by
    refine (Pipeline.withArrays_arr spec0 launch0.win.arr_inj c _ _ 3).trans ?_
    refine (final m c).trans ?_
    rw [V_h0, V_eta, V_weff]
  have h3 : Pipeline.withArrays (cfgs 0).spec c (V0 m c) (fun w => (dats m 0 c).arrAt w (cfgs 0).N) (Proc.devRef .tc main_arg3) = (m ((c.tc : Thread nD τ).loc main_arg3)) :=
    (Pipeline.withArrays_of_ne _ c (V0 m c) _ main_arg3 (by exact (by decide : ∀ w, Pipeline.arrRef spec0 w ≠ main_arg3))).trans (V_main_arg3 m c)
  have h4 : Pipeline.withArrays (cfgs 0).spec c (V0 m c) (fun w => (dats m 0 c).arrAt w (cfgs 0).N) (Proc.devRef .tc main_arg4) = (m ((c.tc : Thread nD τ).loc main_arg4)) :=
    (Pipeline.withArrays_of_ne _ c (V0 m c) _ main_arg4 (by exact (by decide : ∀ w, Pipeline.arrRef spec0 w ≠ main_arg4))).trans (V_main_arg4 m c)
  have h5 : Pipeline.withArrays (cfgs 0).spec c (V0 m c) (fun w => (dats m 0 c).arrAt w (cfgs 0).N) (Proc.devRef .tc main_arg5) = (m ((c.tc : Thread nD τ).loc main_arg5)) :=
    (Pipeline.withArrays_of_ne _ c (V0 m c) _ main_arg5 (by exact (by decide : ∀ w, Pipeline.arrRef spec0 w ≠ main_arg5))).trans (V_main_arg5 m c)
  have h6 : Pipeline.withArrays (cfgs 0).spec c (V0 m c) (fun w => (dats m 0 c).arrAt w (cfgs 0).N) (Proc.devRef .tc main_arg6) = (m ((c.tc : Thread nD τ).loc main_arg6)) :=
    (Pipeline.withArrays_of_ne _ c (V0 m c) _ main_arg6 (by exact (by decide : ∀ w, Pipeline.arrRef spec0 w ≠ main_arg6))).trans (V_main_arg6 m c)
  rw [hP, h3, h4, h5, h6]

/-- THE RUN of the kernel's program, read. -/
theorem run : θ_run defs (onTc (τ := τ) (main (F := Ideal))) ⟨m, fun _ => 0, ρ⟩ fun r => ∀ c : Dev nD,
      r.2.mem ((c.tc : Thread nD τ).loc main_v95)
          = KerTerm.tl_v95 (F := Ideal)
              (G (KerTerm.t_v57 (F := Ideal) (m ((c.tc : Thread nD τ).loc main_arg0)) (m ((c.tc : Thread nD τ).loc main_arg7))) (KerTerm.t_v64 (F := Ideal) (m ((c.tc : Thread nD τ).loc main_arg1)) (m ((c.tc : Thread nD τ).loc main_arg7)))
                (KerTerm.t_v50 (F := Ideal) (m ((c.tc : Thread nD τ).loc main_arg2)) (m ((c.tc : Thread nD τ).loc main_arg7)) (m ((c.tc : Thread nD τ).loc main_arg8))))
              (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v95 (Pipeline.mem_restRefs_of main_v95 (by decide) (by decide))).trans (tail_val m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Blocks

end
-- ==== Proof.RefOps.lean ====
/- The reference program's @main as lists of its host operations, window by window: each entry is the printed statement's
   operation (for a call of an outlined function, the callee's operations over that call's buffers, in place). -/
import proofs.«112600_j80238579024429_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window main_part0 (65 of them). -/
abbrev ops_part0 : List (HloOp τ sig (Elt F)) :=
  [ nullary main_v0 (iotaInDim S7 32 0),
    nullary main_c (constantI S_ 32 4294967293#32),
    unary main_c main_v1 (broadcastInDim S7 ![] bcast_S_S7 : (⟨S_, .i32⟩ : BufTy).Contents (Elt F) → (⟨S7, .i32⟩ : BufTy).Contents (Elt F)),
    binary main_v1 main_v0 main_v2 (addi : (⟨S7, .i32⟩ : BufTy).Contents (Elt F) → (⟨S7, .i32⟩ : BufTy).Contents (Elt F) → (⟨S7, .i32⟩ : BufTy).Contents (Elt F)),
    nullary main_v3 (iotaInDim S300 32 0),
    unary main_v3 main_v4 (broadcastInDim S300x1 ![0] bcast_S300_S300x1_0 : (⟨S300, .i32⟩ : BufTy).Contents (Elt F) → (⟨S300x1, .i32⟩ : BufTy).Contents (Elt F)),
    unary main_v2 main_v5 (broadcastInDim S1x7 ![1] bcast_S7_S1x7_1 : (⟨S7, .i32⟩ : BufTy).Contents (Elt F) → (⟨S1x7, .i32⟩ : BufTy).Contents (Elt F)),
    unary main_v4 main_v6 (broadcastInDim S300x7 ![0, 1] bcast_S300x1_S300x7_0_1 : (⟨S300x1, .i32⟩ : BufTy).Contents (Elt F) → (⟨S300x7, .i32⟩ : BufTy).Contents (Elt F)),
    unary main_v5 main_v7 (broadcastInDim S300x7 ![0, 1] bcast_S1x7_S300x7_0_1 : (⟨S1x7, .i32⟩ : BufTy).Contents (Elt F) → (⟨S300x7, .i32⟩ : BufTy).Contents (Elt F)),
    binary main_v6 main_v7 main_v8 (addi : (⟨S300x7, .i32⟩ : BufTy).Contents (Elt F) → (⟨S300x7, .i32⟩ : BufTy).Contents (Elt F) → (⟨S300x7, .i32⟩ : BufTy).Contents (Elt F)),
    nullary main_c_0 (constantI S_ 32 0#32),
    unary main_c_0 main_v9 (broadcastInDim S300x7 ![] bcast_S_S300x7 : (⟨S_, .i32⟩ : BufTy).Contents (Elt F) → (⟨S300x7, .i32⟩ : BufTy).Contents (Elt F)),
    binary main_v8 main_v9 main_v10 (cmpi .sge : (⟨S300x7, .i32⟩ : BufTy).Contents (Elt F) → (⟨S300x7, .i32⟩ : BufTy).Contents (Elt F) → (⟨S300x7, .i1⟩ : BufTy).Contents (Elt F)),
    nullary main_c_1 (constantI S_ 32 300#32),
    unary main_c_1 main_v11 (broadcastInDim S300x7 ![] bcast_S_S300x7 : (⟨S_, .i32⟩ : BufTy).Contents (Elt F) → (⟨S300x7, .i32⟩ : BufTy).Contents (Elt F)),
    binary main_v8 main_v11 main_v12 (cmpi .slt : (⟨S300x7, .i32⟩ : BufTy).Contents (Elt F) → (⟨S300x7, .i32⟩ : BufTy).Contents (Elt F) → (⟨S300x7, .i1⟩ : BufTy).Contents (Elt F)),
    binary main_v10 main_v12 main_v13 (andi : (⟨S300x7, .i1⟩ : BufTy).Contents (Elt F) → (⟨S300x7, .i1⟩ : BufTy).Contents (Elt F) → (⟨S300x7, .i1⟩ : BufTy).Contents (Elt F)),
    nullary main_c_2 (constantI S_ 32 0#32),
    nullary main_c_3 (constantI S_ 32 299#32),
    TRef.unary (.of main_c_2 : TRef sig ⟨S_, .i32⟩) main_call0.v0 ((id) : (⟨S_, .i32⟩ : BufTy).Contents (Elt F) → (⟨S_, .i32⟩ : BufTy).Contents (Elt F)),
    TRef.unary main_call0.v0 main_call0.v1 (((broadcastInDim S300x7 ![] bcast_S_S300x7)) : (⟨S_, .i32⟩ : BufTy).Contents (Elt F) → (⟨S300x7, .i32⟩ : BufTy).Contents (Elt F)),
    TRef.binary main_call0.v1 (.of main_v8 : TRef sig ⟨S300x7, .i32⟩) main_call0.v2 ((maxsi) : (⟨S300x7, .i32⟩ : BufTy).Contents (Elt F) → (⟨S300x7, .i32⟩ : BufTy).Contents (Elt F) → (⟨S300x7, .i32⟩ : BufTy).Contents (Elt F)),
    TRef.unary (.of main_c_3 : TRef sig ⟨S_, .i32⟩) main_call0.v3 ((id) : (⟨S_, .i32⟩ : BufTy).Contents (Elt F) → (⟨S_, .i32⟩ : BufTy).Contents (Elt F)),
    TRef.unary main_call0.v3 main_call0.v4 (((broadcastInDim S300x7 ![] bcast_S_S300x7)) : (⟨S_, .i32⟩ : BufTy).Contents (Elt F) → (⟨S300x7, .i32⟩ : BufTy).Contents (Elt F)),
    TRef.binary main_call0.v4 main_call0.v2 main_call0.v5 ((minsi) : (⟨S300x7, .i32⟩ : BufTy).Contents (Elt F) → (⟨S300x7, .i32⟩ : BufTy).Contents (Elt F) → (⟨S300x7, .i32⟩ : BufTy).Contents (Elt F)),
    nullary main_c_4 (constantI S_ 32 0#32),
    unary main_c_4 main_v15 (broadcastInDim S300x7 ![] bcast_S_S300x7 : (⟨S_, .i32⟩ : BufTy).Contents (Elt F) → (⟨S300x7, .i32⟩ : BufTy).Contents (Elt F)),
    binary main_v14 main_v15 main_v16 (cmpi .slt : (⟨S300x7, .i32⟩ : BufTy).Contents (Elt F) → (⟨S300x7, .i32⟩ : BufTy).Contents (Elt F) → (⟨S300x7, .i1⟩ : BufTy).Contents (Elt F)),
    nullary main_c_5 (constantI S_ 32 300#32),
    unary main_c_5 main_v17 (broadcastInDim S300x7 ![] bcast_S_S300x7 : (⟨S_, .i32⟩ : BufTy).Contents (Elt F) → (⟨S300x7, .i32⟩ : BufTy).Contents (Elt F)),
    binary main_v14 main_v17 main_v18 (addi : (⟨S300x7, .i32⟩ : BufTy).Contents (Elt F) → (⟨S300x7, .i32⟩ : BufTy).Contents (Elt F) → (⟨S300x7, .i32⟩ : BufTy).Contents (Elt F)),
    ternary main_v16 main_v18 main_v14 main_v19 (select : (⟨S300x7, .i1⟩ : BufTy).Contents (Elt F) → (⟨S300x7, .i32⟩ : BufTy).Contents (Elt F) → (⟨S300x7, .i32⟩ : BufTy).Contents (Elt F) → (⟨S300x7, .i32⟩ : BufTy).Contents (Elt F)),
    unary main_v19 main_v20 (broadcastInDim S300x7x1 ![0, 1] bcast_S300x7_S300x7x1_0_1 : (⟨S300x7, .i32⟩ : BufTy).Contents (Elt F) → (⟨S300x7x1, .i32⟩ : BufTy).Contents (Elt F)),
    binary main_arg7 main_v20 main_v21 ((fun x i => Host.gather gather_S128x300_S300x7x1_S128x300x7_0_1_n_n_1_2_1281 x i) : (⟨S128x300, .i32⟩ : BufTy).Contents (Elt F) → (⟨S300x7x1, .i32⟩ : BufTy).Contents (Elt F) → (⟨S128x300x7, .i32⟩ : BufTy).Contents (Elt F)),
    unary main_arg7 main_v22 (broadcastInDim S128x300x1 ![0, 1] bcast_S128x300_S128x300x1_0_1 : (⟨S128x300, .i32⟩ : BufTy).Contents (Elt F) → (⟨S128x300x1, .i32⟩ : BufTy).Contents (Elt F)),
    nullary main_c_6 (constantI S_ 32 0#32),
    unary main_c_6 main_v23 (broadcastInDim S128x300x1 ![] bcast_S_S128x300x1 : (⟨S_, .i32⟩ : BufTy).Contents (Elt F) → (⟨S128x300x1, .i32⟩ : BufTy).Contents (Elt F)),
    binary main_v22 main_v23 main_v24 (cmpi .slt : (⟨S128x300x1, .i32⟩ : BufTy).Contents (Elt F) → (⟨S128x300x1, .i32⟩ : BufTy).Contents (Elt F) → (⟨S128x300x1, .i1⟩ : BufTy).Contents (Elt F)),
    nullary main_c_7 (constantI S_ 32 8000#32),
    unary main_c_7 main_v25 (broadcastInDim S128x300x1 ![] bcast_S_S128x300x1 : (⟨S_, .i32⟩ : BufTy).Contents (Elt F) → (⟨S128x300x1, .i32⟩ : BufTy).Contents (Elt F)),
    binary main_v22 main_v25 main_v26 (addi : (⟨S128x300x1, .i32⟩ : BufTy).Contents (Elt F) → (⟨S128x300x1, .i32⟩ : BufTy).Contents (Elt F) → (⟨S128x300x1, .i32⟩ : BufTy).Contents (Elt F)),
    ternary main_v24 main_v26 main_v22 main_v27 (select : (⟨S128x300x1, .i1⟩ : BufTy).Contents (Elt F) → (⟨S128x300x1, .i32⟩ : BufTy).Contents (Elt F) → (⟨S128x300x1, .i32⟩ : BufTy).Contents (Elt F) → (⟨S128x300x1, .i32⟩ : BufTy).Contents (Elt F)),
    nullary main_c_8 (constantI S_ 32 0#32),
    unary main_c_8 main_v28 (broadcastInDim S128x300x7 ![] bcast_S_S128x300x7 : (⟨S_, .i32⟩ : BufTy).Contents (Elt F) → (⟨S128x300x7, .i32⟩ : BufTy).Contents (Elt F)),
    binary main_v21 main_v28 main_v29 (cmpi .slt : (⟨S128x300x7, .i32⟩ : BufTy).Contents (Elt F) → (⟨S128x300x7, .i32⟩ : BufTy).Contents (Elt F) → (⟨S128x300x7, .i1⟩ : BufTy).Contents (Elt F)),
    nullary main_c_9 (constantI S_ 32 8000#32),
    unary main_c_9 main_v30 (broadcastInDim S128x300x7 ![] bcast_S_S128x300x7 : (⟨S_, .i32⟩ : BufTy).Contents (Elt F) → (⟨S128x300x7, .i32⟩ : BufTy).Contents (Elt F)),
    binary main_v21 main_v30 main_v31 (addi : (⟨S128x300x7, .i32⟩ : BufTy).Contents (Elt F) → (⟨S128x300x7, .i32⟩ : BufTy).Contents (Elt F) → (⟨S128x300x7, .i32⟩ : BufTy).Contents (Elt F)),
    ternary main_v29 main_v31 main_v21 main_v32 (select : (⟨S128x300x7, .i1⟩ : BufTy).Contents (Elt F) → (⟨S128x300x7, .i32⟩ : BufTy).Contents (Elt F) → (⟨S128x300x7, .i32⟩ : BufTy).Contents (Elt F) → (⟨S128x300x7, .i32⟩ : BufTy).Contents (Elt F)),
    unary main_v27 main_v33 (broadcastInDim S128x300x7 ![0, 1, 2] bcast_S128x300x1_S128x300x7_0_1_2 : (⟨S128x300x1, .i32⟩ : BufTy).Contents (Elt F) → (⟨S128x300x7, .i32⟩ : BufTy).Contents (Elt F)),
    unary main_v33 main_v34 (broadcastInDim S128x300x7x1 ![0, 1, 2] bcast_S128x300x7_S128x300x7x1_0_1_2 : (⟨S128x300x7, .i32⟩ : BufTy).Contents (Elt F) → (⟨S128x300x7x1, .i32⟩ : BufTy).Contents (Elt F)),
    unary main_v32 main_v35 (broadcastInDim S128x300x7x1 ![0, 1, 2] bcast_S128x300x7_S128x300x7x1_0_1_2 : (⟨S128x300x7, .i32⟩ : BufTy).Contents (Elt F) → (⟨S128x300x7x1, .i32⟩ : BufTy).Contents (Elt F)),
    binary main_v34 main_v35 main_v36 ((fun a b => concatenate S128x300x7x2 3 [⟨S128x300x7x1, a⟩, ⟨S128x300x7x1, b⟩] concatenates_S128x300x7x1_S128x300x7x1_S128x300x7x2_d3) : (⟨S128x300x7x1, .i32⟩ : BufTy).Contents (Elt F) → (⟨S128x300x7x1, .i32⟩ : BufTy).Contents (Elt F) → (⟨S128x300x7x2, .i32⟩ : BufTy).Contents (Elt F)),
    binary main_arg8 main_v36 main_v37 ((fun x i => Host.gather gather_S8000x8000_S128x300x7x2_S128x300x7_n_01_n_n_01_3_11 x i) : (⟨S8000x8000, .i32⟩ : BufTy).Contents (Elt F) → (⟨S128x300x7x2, .i32⟩ : BufTy).Contents (Elt F) → (⟨S128x300x7, .i32⟩ : BufTy).Contents (Elt F)),
    nullary main_c_10 (constantI S_ 32 0#32),
    unary main_c_10 main_v38 (broadcastInDim S128x300x7 ![] bcast_S_S128x300x7 : (⟨S_, .i32⟩ : BufTy).Contents (Elt F) → (⟨S128x300x7, .i32⟩ : BufTy).Contents (Elt F)),
    binary main_v37 main_v38 main_v39 (cmpi .slt : (⟨S128x300x7, .i32⟩ : BufTy).Contents (Elt F) → (⟨S128x300x7, .i32⟩ : BufTy).Contents (Elt F) → (⟨S128x300x7, .i1⟩ : BufTy).Contents (Elt F)),
    nullary main_c_11 (constantI S_ 32 2000000#32),
    unary main_c_11 main_v40 (broadcastInDim S128x300x7 ![] bcast_S_S128x300x7 : (⟨S_, .i32⟩ : BufTy).Contents (Elt F) → (⟨S128x300x7, .i32⟩ : BufTy).Contents (Elt F)),
    binary main_v37 main_v40 main_v41 (addi : (⟨S128x300x7, .i32⟩ : BufTy).Contents (Elt F) → (⟨S128x300x7, .i32⟩ : BufTy).Contents (Elt F) → (⟨S128x300x7, .i32⟩ : BufTy).Contents (Elt F)),
    ternary main_v39 main_v41 main_v37 main_v42 (select : (⟨S128x300x7, .i1⟩ : BufTy).Contents (Elt F) → (⟨S128x300x7, .i32⟩ : BufTy).Contents (Elt F) → (⟨S128x300x7, .i32⟩ : BufTy).Contents (Elt F) → (⟨S128x300x7, .i32⟩ : BufTy).Contents (Elt F)),
    nullary main_c_12 (constantI S_ 32 0#32),
    unary main_c_12 main_v43 (broadcastInDim S128x300x7 ![] bcast_S_S128x300x7 : (⟨S_, .i32⟩ : BufTy).Contents (Elt F) → (⟨S128x300x7, .i32⟩ : BufTy).Contents (Elt F)),
    unary main_v43 main_v44 (id : (⟨S128x300x7, .i32⟩ : BufTy).Contents (Elt F) → (⟨S128x300x7, .i32⟩ : BufTy).Contents (Elt F)),
    unary main_v42 main_v45 (broadcastInDim S128x300x7x1 ![0, 1, 2] bcast_S128x300x7_S128x300x7x1_0_1_2 : (⟨S128x300x7, .i32⟩ : BufTy).Contents (Elt F) → (⟨S128x300x7x1, .i32⟩ : BufTy).Contents (Elt F)) ]

/-- The operations of window main_part1 (62 of them). -/
abbrev ops_part1 : List (HloOp τ sig (Elt F)) :=
  [ unary main_v44 main_v46 (broadcastInDim S128x300x7x1 ![0, 1, 2] bcast_S128x300x7_S128x300x7x1_0_1_2 : (⟨S128x300x7, .i32⟩ : BufTy).Contents (Elt F) → (⟨S128x300x7x1, .i32⟩ : BufTy).Contents (Elt F)),
    binary main_v45 main_v46 main_v47 ((fun a b => concatenate S128x300x7x2 3 [⟨S128x300x7x1, a⟩, ⟨S128x300x7x1, b⟩] concatenates_S128x300x7x1_S128x300x7x1_S128x300x7x2_d3) : (⟨S128x300x7x1, .i32⟩ : BufTy).Contents (Elt F) → (⟨S128x300x7x1, .i32⟩ : BufTy).Contents (Elt F) → (⟨S128x300x7x2, .i32⟩ : BufTy).Contents (Elt F)),
    binary main_arg2 main_v47 main_v48 ((fun x i => Host.gather gather_S2000000x1_S128x300x7x2_S128x300x7_n_01_n_n_01_3_11 x i) : (⟨S2000000x1, .f32⟩ : BufTy).Contents (Elt F) → (⟨S128x300x7x2, .i32⟩ : BufTy).Contents (Elt F) → (⟨S128x300x7, .f32⟩ : BufTy).Contents (Elt F)),
    nullary main_c_13 (constantI S_ 32 0#32),
    unary main_c_13 main_v49 (broadcastInDim S128x300 ![] bcast_S_S128x300 : (⟨S_, .i32⟩ : BufTy).Contents (Elt F) → (⟨S128x300, .i32⟩ : BufTy).Contents (Elt F)),
    binary main_arg7 main_v49 main_v50 (cmpi .slt : (⟨S128x300, .i32⟩ : BufTy).Contents (Elt F) → (⟨S128x300, .i32⟩ : BufTy).Contents (Elt F) → (⟨S128x300, .i1⟩ : BufTy).Contents (Elt F)),
    nullary main_c_14 (constantI S_ 32 8000#32),
    unary main_c_14 main_v51 (broadcastInDim S128x300 ![] bcast_S_S128x300 : (⟨S_, .i32⟩ : BufTy).Contents (Elt F) → (⟨S128x300, .i32⟩ : BufTy).Contents (Elt F)),
    binary main_arg7 main_v51 main_v52 (addi : (⟨S128x300, .i32⟩ : BufTy).Contents (Elt F) → (⟨S128x300, .i32⟩ : BufTy).Contents (Elt F) → (⟨S128x300, .i32⟩ : BufTy).Contents (Elt F)),
    ternary main_v50 main_v52 main_arg7 main_v53 (select : (⟨S128x300, .i1⟩ : BufTy).Contents (Elt F) → (⟨S128x300, .i32⟩ : BufTy).Contents (Elt F) → (⟨S128x300, .i32⟩ : BufTy).Contents (Elt F) → (⟨S128x300, .i32⟩ : BufTy).Contents (Elt F)),
    unary main_v53 main_v54 (broadcastInDim S128x300x1 ![0, 1] bcast_S128x300_S128x300x1_0_1 : (⟨S128x300, .i32⟩ : BufTy).Contents (Elt F) → (⟨S128x300x1, .i32⟩ : BufTy).Contents (Elt F)),
    binary main_arg0 main_v54 main_v55 ((fun x i => Host.gather gather_S8000x300_S128x300x1_S128x300x300_2_0_n_n_0_2_1300 x i) : (⟨S8000x300, .f32⟩ : BufTy).Contents (Elt F) → (⟨S128x300x1, .i32⟩ : BufTy).Contents (Elt F) → (⟨S128x300x300, .f32⟩ : BufTy).Contents (Elt F)),
    nullary main_c_15 (constantI S_ 32 0#32),
    unary main_c_15 main_v56 (broadcastInDim S128x300 ![] bcast_S_S128x300 : (⟨S_, .i32⟩ : BufTy).Contents (Elt F) → (⟨S128x300, .i32⟩ : BufTy).Contents (Elt F)),
    binary main_arg7 main_v56 main_v57 (cmpi .slt : (⟨S128x300, .i32⟩ : BufTy).Contents (Elt F) → (⟨S128x300, .i32⟩ : BufTy).Contents (Elt F) → (⟨S128x300, .i1⟩ : BufTy).Contents (Elt F)),
    nullary main_c_16 (constantI S_ 32 8000#32),
    unary main_c_16 main_v58 (broadcastInDim S128x300 ![] bcast_S_S128x300 : (⟨S_, .i32⟩ : BufTy).Contents (Elt F) → (⟨S128x300, .i32⟩ : BufTy).Contents (Elt F)),
    binary main_arg7 main_v58 main_v59 (addi : (⟨S128x300, .i32⟩ : BufTy).Contents (Elt F) → (⟨S128x300, .i32⟩ : BufTy).Contents (Elt F) → (⟨S128x300, .i32⟩ : BufTy).Contents (Elt F)),
    ternary main_v57 main_v59 main_arg7 main_v60 (select : (⟨S128x300, .i1⟩ : BufTy).Contents (Elt F) → (⟨S128x300, .i32⟩ : BufTy).Contents (Elt F) → (⟨S128x300, .i32⟩ : BufTy).Contents (Elt F) → (⟨S128x300, .i32⟩ : BufTy).Contents (Elt F)),
    unary main_v60 main_v61 (broadcastInDim S128x300x1 ![0, 1] bcast_S128x300_S128x300x1_0_1 : (⟨S128x300, .i32⟩ : BufTy).Contents (Elt F) → (⟨S128x300x1, .i32⟩ : BufTy).Contents (Elt F)),
    binary main_arg1 main_v61 main_v62 ((fun x i => Host.gather gather_S8000x1_S128x300x1_S128x300x1_2_0_n_n_0_2_11 x i) : (⟨S8000x1, .f32⟩ : BufTy).Contents (Elt F) → (⟨S128x300x1, .i32⟩ : BufTy).Contents (Elt F) → (⟨S128x300x1, .f32⟩ : BufTy).Contents (Elt F)),
    nullary main_c_17 (constantI S_ 32 0#32),
    unary main_c_17 main_v63 (broadcastInDim S300x7 ![] bcast_S_S300x7 : (⟨S_, .i32⟩ : BufTy).Contents (Elt F) → (⟨S300x7, .i32⟩ : BufTy).Contents (Elt F)),
    binary main_v14 main_v63 main_v64 (cmpi .slt : (⟨S300x7, .i32⟩ : BufTy).Contents (Elt F) → (⟨S300x7, .i32⟩ : BufTy).Contents (Elt F) → (⟨S300x7, .i1⟩ : BufTy).Contents (Elt F)),
    nullary main_c_18 (constantI S_ 32 300#32),
    unary main_c_18 main_v65 (broadcastInDim S300x7 ![] bcast_S_S300x7 : (⟨S_, .i32⟩ : BufTy).Contents (Elt F) → (⟨S300x7, .i32⟩ : BufTy).Contents (Elt F)),
    binary main_v14 main_v65 main_v66 (addi : (⟨S300x7, .i32⟩ : BufTy).Contents (Elt F) → (⟨S300x7, .i32⟩ : BufTy).Contents (Elt F) → (⟨S300x7, .i32⟩ : BufTy).Contents (Elt F)),
    ternary main_v64 main_v66 main_v14 main_v67 (select : (⟨S300x7, .i1⟩ : BufTy).Contents (Elt F) → (⟨S300x7, .i32⟩ : BufTy).Contents (Elt F) → (⟨S300x7, .i32⟩ : BufTy).Contents (Elt F) → (⟨S300x7, .i32⟩ : BufTy).Contents (Elt F)),
    unary main_v67 main_v68 (broadcastInDim S300x7x1 ![0, 1] bcast_S300x7_S300x7x1_0_1 : (⟨S300x7, .i32⟩ : BufTy).Contents (Elt F) → (⟨S300x7x1, .i32⟩ : BufTy).Contents (Elt F)),
    binary main_v55 main_v68 main_v69 ((fun x i => Host.gather gather_S128x300x300_S300x7x1_S128x300x7x300_03_1_n_n_1_2_1281300 x i) : (⟨S128x300x300, .f32⟩ : BufTy).Contents (Elt F) → (⟨S300x7x1, .i32⟩ : BufTy).Contents (Elt F) → (⟨S128x300x7x300, .f32⟩ : BufTy).Contents (Elt F)),
    unary main_v13 main_v70 (broadcastInDim S1x300x7x1 ![1, 2] bcast_S300x7_S1x300x7x1_1_2 : (⟨S300x7, .i1⟩ : BufTy).Contents (Elt F) → (⟨S1x300x7x1, .i1⟩ : BufTy).Contents (Elt F)),
    unary main_v48 main_v71 (broadcastInDim S128x300x7x1 ![0, 1, 2] bcast_S128x300x7_S128x300x7x1_0_1_2 : (⟨S128x300x7, .f32⟩ : BufTy).Contents (Elt F) → (⟨S128x300x7x1, .f32⟩ : BufTy).Contents (Elt F)),
    unary main_v71 main_v72 (broadcastInDim S128x300x7x300 ![0, 1, 2, 3] bcast_S128x300x7x1_S128x300x7x300_0_1_2_3 : (⟨S128x300x7x1, .f32⟩ : BufTy).Contents (Elt F) → (⟨S128x300x7x300, .f32⟩ : BufTy).Contents (Elt F)),
    binary main_v72 main_v69 main_v73 (mulf : (⟨S128x300x7x300, .f32⟩ : BufTy).Contents (Elt F) → (⟨S128x300x7x300, .f32⟩ : BufTy).Contents (Elt F) → (⟨S128x300x7x300, .f32⟩ : BufTy).Contents (Elt F)),
    nullary main_cst (constant S_ .f32 0xFF7FFFFF#32),
    TRef.unary (.of main_v70 : TRef sig ⟨S1x300x7x1, .i1⟩) main_call1.v0 (((broadcastInDim S128x300x7x300 ![0, 1, 2, 3] bcast_S1x300x7x1_S128x300x7x300_0_1_2_3)) : (⟨S1x300x7x1, .i1⟩ : BufTy).Contents (Elt F) → (⟨S128x300x7x300, .i1⟩ : BufTy).Contents (Elt F)),
    TRef.unary (.of main_cst : TRef sig ⟨S_, .f32⟩) main_call1.v1 (((broadcastInDim S128x300x7x300 ![] bcast_S_S128x300x7x300)) : (⟨S_, .f32⟩ : BufTy).Contents (Elt F) → (⟨S128x300x7x300, .f32⟩ : BufTy).Contents (Elt F)),
    TRef.ternary main_call1.v0 (.of main_v73 : TRef sig ⟨S128x300x7x300, .f32⟩) main_call1.v1 main_call1.v2 ((select) : (⟨S128x300x7x300, .i1⟩ : BufTy).Contents (Elt F) → (⟨S128x300x7x300, .f32⟩ : BufTy).Contents (Elt F) → (⟨S128x300x7x300, .f32⟩ : BufTy).Contents (Elt F) → (⟨S128x300x7x300, .f32⟩ : BufTy).Contents (Elt F)),
    nullary main_cst_19 (constant S_ .f32 0xFF800000#32),
    binary main_v74 main_cst_19 main_v75 ((fun x v => Host.reduce FloatOps.maximumf x v reducesTo_S128x300x7x300_S128x300x300_d2 h_S_) : (⟨S128x300x7x300, .f32⟩ : BufTy).Contents (Elt F) → (⟨S_, .f32⟩ : BufTy).Contents (Elt F) → (⟨S128x300x300, .f32⟩ : BufTy).Contents (Elt F)),
    unary main_v62 main_v76 (broadcastInDim S128x300x300 ![0, 1, 2] bcast_S128x300x1_S128x300x300_0_1_2 : (⟨S128x300x1, .f32⟩ : BufTy).Contents (Elt F) → (⟨S128x300x300, .f32⟩ : BufTy).Contents (Elt F)),
    binary main_v76 main_v55 main_v77 (mulf : (⟨S128x300x300, .f32⟩ : BufTy).Contents (Elt F) → (⟨S128x300x300, .f32⟩ : BufTy).Contents (Elt F) → (⟨S128x300x300, .f32⟩ : BufTy).Contents (Elt F)),
    nullary main_cst_20 (constant S_ .f32 0x3F800000#32),
    unary main_cst_20 main_v78 (broadcastInDim S128x300x1 ![] bcast_S_S128x300x1 : (⟨S_, .f32⟩ : BufTy).Contents (Elt F) → (⟨S128x300x1, .f32⟩ : BufTy).Contents (Elt F)),
    binary main_v78 main_v62 main_v79 (subf : (⟨S128x300x1, .f32⟩ : BufTy).Contents (Elt F) → (⟨S128x300x1, .f32⟩ : BufTy).Contents (Elt F) → (⟨S128x300x1, .f32⟩ : BufTy).Contents (Elt F)),
    unary main_v79 main_v80 (broadcastInDim S128x300x300 ![0, 1, 2] bcast_S128x300x1_S128x300x300_0_1_2 : (⟨S128x300x1, .f32⟩ : BufTy).Contents (Elt F) → (⟨S128x300x300, .f32⟩ : BufTy).Contents (Elt F)),
    binary main_v80 main_v75 main_v81 (mulf : (⟨S128x300x300, .f32⟩ : BufTy).Contents (Elt F) → (⟨S128x300x300, .f32⟩ : BufTy).Contents (Elt F) → (⟨S128x300x300, .f32⟩ : BufTy).Contents (Elt F)),
    binary main_v77 main_v81 main_v82 (addf : (⟨S128x300x300, .f32⟩ : BufTy).Contents (Elt F) → (⟨S128x300x300, .f32⟩ : BufTy).Contents (Elt F) → (⟨S128x300x300, .f32⟩ : BufTy).Contents (Elt F)),
    nullary main_c_21 (constantI S_ 32 0#32),
    unary main_c_21 main_v83 (broadcastInDim S300x7 ![] bcast_S_S300x7 : (⟨S_, .i32⟩ : BufTy).Contents (Elt F) → (⟨S300x7, .i32⟩ : BufTy).Contents (Elt F)),
    binary main_v14 main_v83 main_v84 (cmpi .slt : (⟨S300x7, .i32⟩ : BufTy).Contents (Elt F) → (⟨S300x7, .i32⟩ : BufTy).Contents (Elt F) → (⟨S300x7, .i1⟩ : BufTy).Contents (Elt F)),
    nullary main_c_22 (constantI S_ 32 300#32),
    unary main_c_22 main_v85 (broadcastInDim S300x7 ![] bcast_S_S300x7 : (⟨S_, .i32⟩ : BufTy).Contents (Elt F) → (⟨S300x7, .i32⟩ : BufTy).Contents (Elt F)),
    binary main_v14 main_v85 main_v86 (addi : (⟨S300x7, .i32⟩ : BufTy).Contents (Elt F) → (⟨S300x7, .i32⟩ : BufTy).Contents (Elt F) → (⟨S300x7, .i32⟩ : BufTy).Contents (Elt F)),
    ternary main_v84 main_v86 main_v14 main_v87 (select : (⟨S300x7, .i1⟩ : BufTy).Contents (Elt F) → (⟨S300x7, .i32⟩ : BufTy).Contents (Elt F) → (⟨S300x7, .i32⟩ : BufTy).Contents (Elt F) → (⟨S300x7, .i32⟩ : BufTy).Contents (Elt F)),
    unary main_v87 main_v88 (broadcastInDim S300x7x1 ![0, 1] bcast_S300x7_S300x7x1_0_1 : (⟨S300x7, .i32⟩ : BufTy).Contents (Elt F) → (⟨S300x7x1, .i32⟩ : BufTy).Contents (Elt F)),
    binary main_v82 main_v88 main_v89 ((fun x i => Host.gather gather_S128x300x300_S300x7x1_S128x300x7x300_03_1_n_n_1_2_1281300 x i) : (⟨S128x300x300, .f32⟩ : BufTy).Contents (Elt F) → (⟨S300x7x1, .i32⟩ : BufTy).Contents (Elt F) → (⟨S128x300x7x300, .f32⟩ : BufTy).Contents (Elt F)),
    unary main_v13 main_v90 (broadcastInDim S1x300x7x1 ![1, 2] bcast_S300x7_S1x300x7x1_1_2 : (⟨S300x7, .i1⟩ : BufTy).Contents (Elt F) → (⟨S1x300x7x1, .i1⟩ : BufTy).Contents (Elt F)),
    unary main_v48 main_v91 (broadcastInDim S128x300x7x1 ![0, 1, 2] bcast_S128x300x7_S128x300x7x1_0_1_2 : (⟨S128x300x7, .f32⟩ : BufTy).Contents (Elt F) → (⟨S128x300x7x1, .f32⟩ : BufTy).Contents (Elt F)),
    unary main_v91 main_v92 (broadcastInDim S128x300x7x300 ![0, 1, 2, 3] bcast_S128x300x7x1_S128x300x7x300_0_1_2_3 : (⟨S128x300x7x1, .f32⟩ : BufTy).Contents (Elt F) → (⟨S128x300x7x300, .f32⟩ : BufTy).Contents (Elt F)),
    binary main_v92 main_v89 main_v93 (mulf : (⟨S128x300x7x300, .f32⟩ : BufTy).Contents (Elt F) → (⟨S128x300x7x300, .f32⟩ : BufTy).Contents (Elt F) → (⟨S128x300x7x300, .f32⟩ : BufTy).Contents (Elt F)),
    nullary main_cst_23 (constant S_ .f32 0xFF7FFFFF#32) ]

/-- The operations of window main_part2 (74 of them). -/
abbrev ops_part2 : List (HloOp τ sig (Elt F)) :=
  [ TRef.unary (.of main_v90 : TRef sig ⟨S1x300x7x1, .i1⟩) main_call2.v0 (((broadcastInDim S128x300x7x300 ![0, 1, 2, 3] bcast_S1x300x7x1_S128x300x7x300_0_1_2_3)) : (⟨S1x300x7x1, .i1⟩ : BufTy).Contents (Elt F) → (⟨S128x300x7x300, .i1⟩ : BufTy).Contents (Elt F)),
    TRef.unary (.of main_cst_23 : TRef sig ⟨S_, .f32⟩) main_call2.v1 (((broadcastInDim S128x300x7x300 ![] bcast_S_S128x300x7x300)) : (⟨S_, .f32⟩ : BufTy).Contents (Elt F) → (⟨S128x300x7x300, .f32⟩ : BufTy).Contents (Elt F)),
    TRef.ternary main_call2.v0 (.of main_v93 : TRef sig ⟨S128x300x7x300, .f32⟩) main_call2.v1 main_call2.v2 ((select) : (⟨S128x300x7x300, .i1⟩ : BufTy).Contents (Elt F) → (⟨S128x300x7x300, .f32⟩ : BufTy).Contents (Elt F) → (⟨S128x300x7x300, .f32⟩ : BufTy).Contents (Elt F) → (⟨S128x300x7x300, .f32⟩ : BufTy).Contents (Elt F)),
    nullary main_cst_24 (constant S_ .f32 0xFF800000#32),
    binary main_v94 main_cst_24 main_v95 ((fun x v => Host.reduce FloatOps.maximumf x v reducesTo_S128x300x7x300_S128x300x300_d2 h_S_) : (⟨S128x300x7x300, .f32⟩ : BufTy).Contents (Elt F) → (⟨S_, .f32⟩ : BufTy).Contents (Elt F) → (⟨S128x300x300, .f32⟩ : BufTy).Contents (Elt F)),
    unary main_v62 main_v96 (broadcastInDim S128x300x300 ![0, 1, 2] bcast_S128x300x1_S128x300x300_0_1_2 : (⟨S128x300x1, .f32⟩ : BufTy).Contents (Elt F) → (⟨S128x300x300, .f32⟩ : BufTy).Contents (Elt F)),
    binary main_v96 main_v82 main_v97 (mulf : (⟨S128x300x300, .f32⟩ : BufTy).Contents (Elt F) → (⟨S128x300x300, .f32⟩ : BufTy).Contents (Elt F) → (⟨S128x300x300, .f32⟩ : BufTy).Contents (Elt F)),
    nullary main_cst_25 (constant S_ .f32 0x3F800000#32),
    unary main_cst_25 main_v98 (broadcastInDim S128x300x1 ![] bcast_S_S128x300x1 : (⟨S_, .f32⟩ : BufTy).Contents (Elt F) → (⟨S128x300x1, .f32⟩ : BufTy).Contents (Elt F)),
    binary main_v98 main_v62 main_v99 (subf : (⟨S128x300x1, .f32⟩ : BufTy).Contents (Elt F) → (⟨S128x300x1, .f32⟩ : BufTy).Contents (Elt F) → (⟨S128x300x1, .f32⟩ : BufTy).Contents (Elt F)),
    unary main_v99 main_v100 (broadcastInDim S128x300x300 ![0, 1, 2] bcast_S128x300x1_S128x300x300_0_1_2 : (⟨S128x300x1, .f32⟩ : BufTy).Contents (Elt F) → (⟨S128x300x300, .f32⟩ : BufTy).Contents (Elt F)),
    binary main_v100 main_v95 main_v101 (mulf : (⟨S128x300x300, .f32⟩ : BufTy).Contents (Elt F) → (⟨S128x300x300, .f32⟩ : BufTy).Contents (Elt F) → (⟨S128x300x300, .f32⟩ : BufTy).Contents (Elt F)),
    binary main_v97 main_v101 main_v102 (addf : (⟨S128x300x300, .f32⟩ : BufTy).Contents (Elt F) → (⟨S128x300x300, .f32⟩ : BufTy).Contents (Elt F) → (⟨S128x300x300, .f32⟩ : BufTy).Contents (Elt F)),
    nullary main_cst_26 (constant S_ .f32 0x00000000#32),
    binary main_v102 main_cst_26 main_v103 ((fun x v => Host.reduceAdd x v reducesTo_S128x300x300_S128x300_d1 h_S_) : (⟨S128x300x300, .f32⟩ : BufTy).Contents (Elt F) → (⟨S_, .f32⟩ : BufTy).Contents (Elt F) → (⟨S128x300, .f32⟩ : BufTy).Contents (Elt F)),
    TRef.nullary main_call3.cst (((constant S_ .f32 0x00000000#32)) : (⟨S_, .f32⟩ : BufTy).Contents (Elt F)),
    TRef.unary main_call3.cst main_call3.v0 (((broadcastInDim S128x300 ![] bcast_S_S128x300)) : (⟨S_, .f32⟩ : BufTy).Contents (Elt F) → (⟨S128x300, .f32⟩ : BufTy).Contents (Elt F)),
    TRef.binary (.of main_v103 : TRef sig ⟨S128x300, .f32⟩) main_call3.v0 main_call3.v1 ((maximumf) : (⟨S128x300, .f32⟩ : BufTy).Contents (Elt F) → (⟨S128x300, .f32⟩ : BufTy).Contents (Elt F) → (⟨S128x300, .f32⟩ : BufTy).Contents (Elt F)),
    nullary main_cst_27 (constant S_ .f32 0x00000000#32),
    binary main_v104 main_cst_27 main_v105 ((fun x v => Host.reduceAdd x v reducesTo_S128x300_S300_d0 h_S_) : (⟨S128x300, .f32⟩ : BufTy).Contents (Elt F) → (⟨S_, .f32⟩ : BufTy).Contents (Elt F) → (⟨S300, .f32⟩ : BufTy).Contents (Elt F)),
    nullary main_cst_28 (constant S_ .f32 0x43000000#32),
    unary main_cst_28 main_v106 (broadcastInDim S300 ![] bcast_S_S300 : (⟨S_, .f32⟩ : BufTy).Contents (Elt F) → (⟨S300, .f32⟩ : BufTy).Contents (Elt F)),
    binary main_v105 main_v106 main_v107 (Host.divf : (⟨S300, .f32⟩ : BufTy).Contents (Elt F) → (⟨S300, .f32⟩ : BufTy).Contents (Elt F) → (⟨S300, .f32⟩ : BufTy).Contents (Elt F)),
    nullary main_c_29 (constantI S_ 32 0#32),
    TRef.nullary main_call4.cst (((constant S_ .f32 0x00000000#32)) : (⟨S_, .f32⟩ : BufTy).Contents (Elt F)),
    TRef.binary (.of main_v104 : TRef sig ⟨S128x300, .f32⟩) main_call4.cst main_call4.v0 (((fun x v => Host.reduceAdd x v reducesTo_S128x300_S300_d0 h_S_)) : (⟨S128x300, .f32⟩ : BufTy).Contents (Elt F) → (⟨S_, .f32⟩ : BufTy).Contents (Elt F) → (⟨S300, .f32⟩ : BufTy).Contents (Elt F)),
    TRef.unary main_call4.v0 main_call4.v1 (((broadcastInDim S1x300 ![1] bcast_S300_S1x300_1)) : (⟨S300, .f32⟩ : BufTy).Contents (Elt F) → (⟨S1x300, .f32⟩ : BufTy).Contents (Elt F)),
    TRef.nullary main_call4.cst_0 (((constant S_ .f32 0x43000000#32)) : (⟨S_, .f32⟩ : BufTy).Contents (Elt F)),
    TRef.unary main_call4.cst_0 main_call4.v2 (((broadcastInDim S1x300 ![] bcast_S_S1x300)) : (⟨S_, .f32⟩ : BufTy).Contents (Elt F) → (⟨S1x300, .f32⟩ : BufTy).Contents (Elt F)),
    TRef.binary main_call4.v1 main_call4.v2 main_call4.v3 ((Host.divf) : (⟨S1x300, .f32⟩ : BufTy).Contents (Elt F) → (⟨S1x300, .f32⟩ : BufTy).Contents (Elt F) → (⟨S1x300, .f32⟩ : BufTy).Contents (Elt F)),
    TRef.unary main_call4.v3 main_call4.v4 (((broadcastInDim S128x300 ![0, 1] bcast_S1x300_S128x300_0_1)) : (⟨S1x300, .f32⟩ : BufTy).Contents (Elt F) → (⟨S128x300, .f32⟩ : BufTy).Contents (Elt F)),
    TRef.binary (.of main_v104 : TRef sig ⟨S128x300, .f32⟩) main_call4.v4 main_call4.v5 ((subf) : (⟨S128x300, .f32⟩ : BufTy).Contents (Elt F) → (⟨S128x300, .f32⟩ : BufTy).Contents (Elt F) → (⟨S128x300, .f32⟩ : BufTy).Contents (Elt F)),
    TRef.binary main_call4.v5 main_call4.v5 main_call4.v6 ((mulf) : (⟨S128x300, .f32⟩ : BufTy).Contents (Elt F) → (⟨S128x300, .f32⟩ : BufTy).Contents (Elt F) → (⟨S128x300, .f32⟩ : BufTy).Contents (Elt F)),
    TRef.unary (.of main_c_29 : TRef sig ⟨S_, .i32⟩) main_call4.v7 (((sitofp .f32)) : (⟨S_, .i32⟩ : BufTy).Contents (Elt F) → (⟨S_, .f32⟩ : BufTy).Contents (Elt F)),
    TRef.nullary main_call4.cst_1 (((constant S_ .f32 0x43000000#32)) : (⟨S_, .f32⟩ : BufTy).Contents (Elt F)),
    TRef.binary main_call4.cst_1 main_call4.v7 main_call4.v8 ((subf) : (⟨S_, .f32⟩ : BufTy).Contents (Elt F) → (⟨S_, .f32⟩ : BufTy).Contents (Elt F) → (⟨S_, .f32⟩ : BufTy).Contents (Elt F)),
    TRef.nullary main_call4.cst_2 (((constant S_ .f32 0x00000000#32)) : (⟨S_, .f32⟩ : BufTy).Contents (Elt F)),
    TRef.binary main_call4.v6 main_call4.cst_2 main_call4.v9 (((fun x v => Host.reduceAdd x v reducesTo_S128x300_S300_d0 h_S_)) : (⟨S128x300, .f32⟩ : BufTy).Contents (Elt F) → (⟨S_, .f32⟩ : BufTy).Contents (Elt F) → (⟨S300, .f32⟩ : BufTy).Contents (Elt F)),
    TRef.unary main_call4.v8 main_call4.v10 (((broadcastInDim S300 ![] bcast_S_S300)) : (⟨S_, .f32⟩ : BufTy).Contents (Elt F) → (⟨S300, .f32⟩ : BufTy).Contents (Elt F)),
    TRef.binary main_call4.v9 main_call4.v10 main_call4.v11 ((Host.divf) : (⟨S300, .f32⟩ : BufTy).Contents (Elt F) → (⟨S300, .f32⟩ : BufTy).Contents (Elt F) → (⟨S300, .f32⟩ : BufTy).Contents (Elt F)),
    TRef.nullary main_call4.cst_3 (((constant S_ .f32 0x00000000#32)) : (⟨S_, .f32⟩ : BufTy).Contents (Elt F)),
    TRef.binary main_call4.v8 main_call4.cst_3 main_call4.v12 (((cmpf .ogt)) : (⟨S_, .f32⟩ : BufTy).Contents (Elt F) → (⟨S_, .f32⟩ : BufTy).Contents (Elt F) → (⟨S_, .i1⟩ : BufTy).Contents (Elt F)),
    TRef.nullary main_call4.cst_4 (((constant S_ .f32 0x7FC00000#32)) : (⟨S_, .f32⟩ : BufTy).Contents (Elt F)),
    TRef.unary main_call4.cst_4 main_call4.call0.v0 ((id) : (⟨S_, .f32⟩ : BufTy).Contents (Elt F) → (⟨S_, .f32⟩ : BufTy).Contents (Elt F)),
    TRef.unary main_call4.call0.v0 main_call4.call0.v1 (((broadcastInDim S300 ![] bcast_S_S300)) : (⟨S_, .f32⟩ : BufTy).Contents (Elt F) → (⟨S300, .f32⟩ : BufTy).Contents (Elt F)),
    TRef.ternary main_call4.v12 main_call4.v11 main_call4.call0.v1 main_call4.call0.v2 (((fun p a b => select (broadcastInDim S300 ![] bcast_S_S300 p) a b)) : (⟨S_, .i1⟩ : BufTy).Contents (Elt F) → (⟨S300, .f32⟩ : BufTy).Contents (Elt F) → (⟨S300, .f32⟩ : BufTy).Contents (Elt F) → (⟨S300, .f32⟩ : BufTy).Contents (Elt F)),
    unary main_v107 main_v109 (broadcastInDim S1x300 ![1] bcast_S300_S1x300_1 : (⟨S300, .f32⟩ : BufTy).Contents (Elt F) → (⟨S1x300, .f32⟩ : BufTy).Contents (Elt F)),
    unary main_v109 main_v110 (broadcastInDim S128x300 ![0, 1] bcast_S1x300_S128x300_0_1 : (⟨S1x300, .f32⟩ : BufTy).Contents (Elt F) → (⟨S128x300, .f32⟩ : BufTy).Contents (Elt F)),
    binary main_v104 main_v110 main_v111 (subf : (⟨S128x300, .f32⟩ : BufTy).Contents (Elt F) → (⟨S128x300, .f32⟩ : BufTy).Contents (Elt F) → (⟨S128x300, .f32⟩ : BufTy).Contents (Elt F)),
    nullary main_cst_30 (constant S_ .f32 0x3727C5AC#32),
    unary main_cst_30 main_v112 (broadcastInDim S300 ![] bcast_S_S300 : (⟨S_, .f32⟩ : BufTy).Contents (Elt F) → (⟨S300, .f32⟩ : BufTy).Contents (Elt F)),
    binary main_v108 main_v112 main_v113 (addf : (⟨S300, .f32⟩ : BufTy).Contents (Elt F) → (⟨S300, .f32⟩ : BufTy).Contents (Elt F) → (⟨S300, .f32⟩ : BufTy).Contents (Elt F)),
    unary main_v113 main_v114 (Host.sqrt : (⟨S300, .f32⟩ : BufTy).Contents (Elt F) → (⟨S300, .f32⟩ : BufTy).Contents (Elt F)),
    unary main_v114 main_v115 (broadcastInDim S1x300 ![1] bcast_S300_S1x300_1 : (⟨S300, .f32⟩ : BufTy).Contents (Elt F) → (⟨S1x300, .f32⟩ : BufTy).Contents (Elt F)),
    unary main_v115 main_v116 (broadcastInDim S128x300 ![0, 1] bcast_S1x300_S128x300_0_1 : (⟨S1x300, .f32⟩ : BufTy).Contents (Elt F) → (⟨S128x300, .f32⟩ : BufTy).Contents (Elt F)),
    binary main_v111 main_v116 main_v117 (Host.divf : (⟨S128x300, .f32⟩ : BufTy).Contents (Elt F) → (⟨S128x300, .f32⟩ : BufTy).Contents (Elt F) → (⟨S128x300, .f32⟩ : BufTy).Contents (Elt F)),
    unary main_arg3 main_v118 (broadcastInDim S1x300 ![1] bcast_S300_S1x300_1 : (⟨S300, .f32⟩ : BufTy).Contents (Elt F) → (⟨S1x300, .f32⟩ : BufTy).Contents (Elt F)),
    unary main_v118 main_v119 (broadcastInDim S128x300 ![0, 1] bcast_S1x300_S128x300_0_1 : (⟨S1x300, .f32⟩ : BufTy).Contents (Elt F) → (⟨S128x300, .f32⟩ : BufTy).Contents (Elt F)),
    binary main_v117 main_v119 main_v120 (mulf : (⟨S128x300, .f32⟩ : BufTy).Contents (Elt F) → (⟨S128x300, .f32⟩ : BufTy).Contents (Elt F) → (⟨S128x300, .f32⟩ : BufTy).Contents (Elt F)),
    unary main_arg4 main_v121 (broadcastInDim S1x300 ![1] bcast_S300_S1x300_1 : (⟨S300, .f32⟩ : BufTy).Contents (Elt F) → (⟨S1x300, .f32⟩ : BufTy).Contents (Elt F)),
    unary main_v121 main_v122 (broadcastInDim S128x300 ![0, 1] bcast_S1x300_S128x300_0_1 : (⟨S1x300, .f32⟩ : BufTy).Contents (Elt F) → (⟨S128x300, .f32⟩ : BufTy).Contents (Elt F)),
    binary main_v120 main_v122 main_v123 (addf : (⟨S128x300, .f32⟩ : BufTy).Contents (Elt F) → (⟨S128x300, .f32⟩ : BufTy).Contents (Elt F) → (⟨S128x300, .f32⟩ : BufTy).Contents (Elt F)),
    binary main_v123 main_arg5 main_v124 ((fun l r => Host.dotGeneral dot_S128x300_S300x54_S128x54_1_0_0_1_n_n none l r) : (⟨S128x300, .f32⟩ : BufTy).Contents (Elt F) → (⟨S300x54, .f32⟩ : BufTy).Contents (Elt F) → (⟨S128x54, .f32⟩ : BufTy).Contents (Elt F)),
    unary main_arg6 main_v125 (broadcastInDim S1x54 ![1] bcast_S54_S1x54_1 : (⟨S54, .f32⟩ : BufTy).Contents (Elt F) → (⟨S1x54, .f32⟩ : BufTy).Contents (Elt F)),
    unary main_v125 main_v126 (broadcastInDim S128x54 ![0, 1] bcast_S1x54_S128x54_0_1 : (⟨S1x54, .f32⟩ : BufTy).Contents (Elt F) → (⟨S128x54, .f32⟩ : BufTy).Contents (Elt F)),
    binary main_v124 main_v126 main_v127 (addf : (⟨S128x54, .f32⟩ : BufTy).Contents (Elt F) → (⟨S128x54, .f32⟩ : BufTy).Contents (Elt F) → (⟨S128x54, .f32⟩ : BufTy).Contents (Elt F)),
    unary main_v127 main_v128 (Host.negf : (⟨S128x54, .f32⟩ : BufTy).Contents (Elt F) → (⟨S128x54, .f32⟩ : BufTy).Contents (Elt F)),
    unary main_v128 main_v129 (Host.exp : (⟨S128x54, .f32⟩ : BufTy).Contents (Elt F) → (⟨S128x54, .f32⟩ : BufTy).Contents (Elt F)),
    nullary main_cst_31 (constant S_ .f32 0x3F800000#32),
    unary main_cst_31 main_v130 (broadcastInDim S128x54 ![] bcast_S_S128x54 : (⟨S_, .f32⟩ : BufTy).Contents (Elt F) → (⟨S128x54, .f32⟩ : BufTy).Contents (Elt F)),
    binary main_v130 main_v129 main_v131 (addf : (⟨S128x54, .f32⟩ : BufTy).Contents (Elt F) → (⟨S128x54, .f32⟩ : BufTy).Contents (Elt F) → (⟨S128x54, .f32⟩ : BufTy).Contents (Elt F)),
    nullary main_cst_32 (constant S_ .f32 0x3F800000#32),
    unary main_cst_32 main_v132 (broadcastInDim S128x54 ![] bcast_S_S128x54 : (⟨S_, .f32⟩ : BufTy).Contents (Elt F) → (⟨S128x54, .f32⟩ : BufTy).Contents (Elt F)),
    binary main_v132 main_v131 main_v133 (Host.divf : (⟨S128x54, .f32⟩ : BufTy).Contents (Elt F) → (⟨S128x54, .f32⟩ : BufTy).Contents (Elt F) → (⟨S128x54, .f32⟩ : BufTy).Contents (Elt F)) ]

/-- @main's 201 operations, in order. -/
abbrev ops : List (HloOp τ sig (Elt F)) :=
  ops_part0 ++ (ops_part1 ++ (ops_part2))

end Cert.ReferenceIdeal.RefRun

end
-- ==== Proof.RefTerm.lean ====
/- The reference program's host operations, one definition each: the operation's function applied to the definitions of its
   operands, in the program's order. A definition's parameters are the argument arrays it depends on (a0 … a8), and, for the
   two message-passing steps, the readout and what follows it, the arrays the stretch starts from (E the gates, H the
   features, W the edge weights, P the readout), so that a stretch is ONE function of those arrays. -/
import proofs.«112600_j80238579024429_2_alg».proof.Proof.Gen.ReferenceIdeal

noncomputable section

namespace Cert.ReferenceIdeal.RefTerm

open Cert.ReferenceIdeal Cert.ReferenceIdeal.Gen Idealize.ShloMosaic Idealize.SL.Sem

variable {F : FTy → Type} [FloatOps F]

/-! ### The window tables and the gathers: the neighbour offsets, which of them fall inside the document, the clipped positions, the edge weights, the node features and the gates -/

def t_v0 :
    (⟨S7, .i32⟩ : BufTy).Contents (Elt F) :=
  (((iotaInDim S7 32 0)) : (⟨S7, .i32⟩ : BufTy).Contents (Elt F))
def t_c :
    (⟨S_, .i32⟩ : BufTy).Contents (Elt F) :=
  (((constantI S_ 32 4294967293#32)) : (⟨S_, .i32⟩ : BufTy).Contents (Elt F))
def t_v1 :
    (⟨S7, .i32⟩ : BufTy).Contents (Elt F) :=
  (broadcastInDim S7 ![] bcast_S_S7 : (⟨S_, .i32⟩ : BufTy).Contents (Elt F) → (⟨S7, .i32⟩ : BufTy).Contents (Elt F)) (t_c (F := F))
def t_v2 :
    (⟨S7, .i32⟩ : BufTy).Contents (Elt F) :=
  (addi : (⟨S7, .i32⟩ : BufTy).Contents (Elt F) → (⟨S7, .i32⟩ : BufTy).Contents (Elt F) → (⟨S7, .i32⟩ : BufTy).Contents (Elt F)) (t_v1 (F := F)) (t_v0 (F := F))
def t_v3 :
    (⟨S300, .i32⟩ : BufTy).Contents (Elt F) :=
  (((iotaInDim S300 32 0)) : (⟨S300, .i32⟩ : BufTy).Contents (Elt F))
def t_v4 :
    (⟨S300x1, .i32⟩ : BufTy).Contents (Elt F) :=
  (broadcastInDim S300x1 ![0] bcast_S300_S300x1_0 : (⟨S300, .i32⟩ : BufTy).Contents (Elt F) → (⟨S300x1, .i32⟩ : BufTy).Contents (Elt F)) (t_v3 (F := F))
def t_v5 :
    (⟨S1x7, .i32⟩ : BufTy).Contents (Elt F) :=
  (broadcastInDim S1x7 ![1] bcast_S7_S1x7_1 : (⟨S7, .i32⟩ : BufTy).Contents (Elt F) → (⟨S1x7, .i32⟩ : BufTy).Contents (Elt F)) (t_v2 (F := F))
def t_v6 :
    (⟨S300x7, .i32⟩ : BufTy).Contents (Elt F) :=
  (broadcastInDim S300x7 ![0, 1] bcast_S300x1_S300x7_0_1 : (⟨S300x1, .i32⟩ : BufTy).Contents (Elt F) → (⟨S300x7, .i32⟩ : BufTy).Contents (Elt F)) (t_v4 (F := F))
def t_v7 :
    (⟨S300x7, .i32⟩ : BufTy).Contents (Elt F) :=
  (broadcastInDim S300x7 ![0, 1] bcast_S1x7_S300x7_0_1 : (⟨S1x7, .i32⟩ : BufTy).Contents (Elt F) → (⟨S300x7, .i32⟩ : BufTy).Contents (Elt F)) (t_v5 (F := F))
def t_v8 :
    (⟨S300x7, .i32⟩ : BufTy).Contents (Elt F) :=
  (addi : (⟨S300x7, .i32⟩ : BufTy).Contents (Elt F) → (⟨S300x7, .i32⟩ : BufTy).Contents (Elt F) → (⟨S300x7, .i32⟩ : BufTy).Contents (Elt F)) (t_v6 (F := F)) (t_v7 (F := F))
def t_c_0 :
    (⟨S_, .i32⟩ : BufTy).Contents (Elt F) :=
  (((constantI S_ 32 0#32)) : (⟨S_, .i32⟩ : BufTy).Contents (Elt F))
def t_v9 :
    (⟨S300x7, .i32⟩ : BufTy).Contents (Elt F) :=
  (broadcastInDim S300x7 ![] bcast_S_S300x7 : (⟨S_, .i32⟩ : BufTy).Contents (Elt F) → (⟨S300x7, .i32⟩ : BufTy).Contents (Elt F)) (t_c_0 (F := F))
def t_v10 :
    (⟨S300x7, .i1⟩ : BufTy).Contents (Elt F) :=
  (cmpi .sge : (⟨S300x7, .i32⟩ : BufTy).Contents (Elt F) → (⟨S300x7, .i32⟩ : BufTy).Contents (Elt F) → (⟨S300x7, .i1⟩ : BufTy).Contents (Elt F)) (t_v8 (F := F)) (t_v9 (F := F))
def t_c_1 :
    (⟨S_, .i32⟩ : BufTy).Contents (Elt F) :=
  (((constantI S_ 32 300#32)) : (⟨S_, .i32⟩ : BufTy).Contents (Elt F))
def t_v11 :
    (⟨S300x7, .i32⟩ : BufTy).Contents (Elt F) :=
  (broadcastInDim S300x7 ![] bcast_S_S300x7 : (⟨S_, .i32⟩ : BufTy).Contents (Elt F) → (⟨S300x7, .i32⟩ : BufTy).Contents (Elt F)) (t_c_1 (F := F))
def t_v12 :
    (⟨S300x7, .i1⟩ : BufTy).Contents (Elt F) :=
  (cmpi .slt : (⟨S300x7, .i32⟩ : BufTy).Contents (Elt F) → (⟨S300x7, .i32⟩ : BufTy).Contents (Elt F) → (⟨S300x7, .i1⟩ : BufTy).Contents (Elt F)) (t_v8 (F := F)) (t_v11 (F := F))
def t_v13 :
    (⟨S300x7, .i1⟩ : BufTy).Contents (Elt F) :=
  (andi : (⟨S300x7, .i1⟩ : BufTy).Contents (Elt F) → (⟨S300x7, .i1⟩ : BufTy).Contents (Elt F) → (⟨S300x7, .i1⟩ : BufTy).Contents (Elt F)) (t_v10 (F := F)) (t_v12 (F := F))
def t_c_2 :
    (⟨S_, .i32⟩ : BufTy).Contents (Elt F) :=
  (((constantI S_ 32 0#32)) : (⟨S_, .i32⟩ : BufTy).Contents (Elt F))
def t_c_3 :
    (⟨S_, .i32⟩ : BufTy).Contents (Elt F) :=
  (((constantI S_ 32 299#32)) : (⟨S_, .i32⟩ : BufTy).Contents (Elt F))
def t_call0_v0 :
    (⟨S_, .i32⟩ : BufTy).Contents (Elt F) :=
  ((id) : (⟨S_, .i32⟩ : BufTy).Contents (Elt F) → (⟨S_, .i32⟩ : BufTy).Contents (Elt F)) (t_c_2 (F := F))
def t_call0_v1 :
    (⟨S300x7, .i32⟩ : BufTy).Contents (Elt F) :=
  (((broadcastInDim S300x7 ![] bcast_S_S300x7)) : (⟨S_, .i32⟩ : BufTy).Contents (Elt F) → (⟨S300x7, .i32⟩ : BufTy).Contents (Elt F)) (t_call0_v0 (F := F))
def t_call0_v2 :
    (⟨S300x7, .i32⟩ : BufTy).Contents (Elt F) :=
  ((maxsi) : (⟨S300x7, .i32⟩ : BufTy).Contents (Elt F) → (⟨S300x7, .i32⟩ : BufTy).Contents (Elt F) → (⟨S300x7, .i32⟩ : BufTy).Contents (Elt F)) (t_call0_v1 (F := F)) (t_v8 (F := F))
def t_call0_v3 :
    (⟨S_, .i32⟩ : BufTy).Contents (Elt F) :=
  ((id) : (⟨S_, .i32⟩ : BufTy).Contents (Elt F) → (⟨S_, .i32⟩ : BufTy).Contents (Elt F)) (t_c_3 (F := F))
def t_call0_v4 :
    (⟨S300x7, .i32⟩ : BufTy).Contents (Elt F) :=
  (((broadcastInDim S300x7 ![] bcast_S_S300x7)) : (⟨S_, .i32⟩ : BufTy).Contents (Elt F) → (⟨S300x7, .i32⟩ : BufTy).Contents (Elt F)) (t_call0_v3 (F := F))
def t_v14 :
    (⟨S300x7, .i32⟩ : BufTy).Contents (Elt F) :=
  ((minsi) : (⟨S300x7, .i32⟩ : BufTy).Contents (Elt F) → (⟨S300x7, .i32⟩ : BufTy).Contents (Elt F) → (⟨S300x7, .i32⟩ : BufTy).Contents (Elt F)) (t_call0_v4 (F := F)) (t_call0_v2 (F := F))
def t_c_4 :
    (⟨S_, .i32⟩ : BufTy).Contents (Elt F) :=
  (((constantI S_ 32 0#32)) : (⟨S_, .i32⟩ : BufTy).Contents (Elt F))
def t_v15 :
    (⟨S300x7, .i32⟩ : BufTy).Contents (Elt F) :=
  (broadcastInDim S300x7 ![] bcast_S_S300x7 : (⟨S_, .i32⟩ : BufTy).Contents (Elt F) → (⟨S300x7, .i32⟩ : BufTy).Contents (Elt F)) (t_c_4 (F := F))
def t_v16 :
    (⟨S300x7, .i1⟩ : BufTy).Contents (Elt F) :=
  (cmpi .slt : (⟨S300x7, .i32⟩ : BufTy).Contents (Elt F) → (⟨S300x7, .i32⟩ : BufTy).Contents (Elt F) → (⟨S300x7, .i1⟩ : BufTy).Contents (Elt F)) (t_v14 (F := F)) (t_v15 (F := F))
def t_c_5 :
    (⟨S_, .i32⟩ : BufTy).Contents (Elt F) :=
  (((constantI S_ 32 300#32)) : (⟨S_, .i32⟩ : BufTy).Contents (Elt F))
def t_v17 :
    (⟨S300x7, .i32⟩ : BufTy).Contents (Elt F) :=
  (broadcastInDim S300x7 ![] bcast_S_S300x7 : (⟨S_, .i32⟩ : BufTy).Contents (Elt F) → (⟨S300x7, .i32⟩ : BufTy).Contents (Elt F)) (t_c_5 (F := F))
def t_v18 :
    (⟨S300x7, .i32⟩ : BufTy).Contents (Elt F) :=
  (addi : (⟨S300x7, .i32⟩ : BufTy).Contents (Elt F) → (⟨S300x7, .i32⟩ : BufTy).Contents (Elt F) → (⟨S300x7, .i32⟩ : BufTy).Contents (Elt F)) (t_v14 (F := F)) (t_v17 (F := F))
def t_v19 :
    (⟨S300x7, .i32⟩ : BufTy).Contents (Elt F) :=
  (select : (⟨S300x7, .i1⟩ : BufTy).Contents (Elt F) → (⟨S300x7, .i32⟩ : BufTy).Contents (Elt F) → (⟨S300x7, .i32⟩ : BufTy).Contents (Elt F) → (⟨S300x7, .i32⟩ : BufTy).Contents (Elt F)) (t_v16 (F := F)) (t_v18 (F := F)) (t_v14 (F := F))
def t_v20 :
    (⟨S300x7x1, .i32⟩ : BufTy).Contents (Elt F) :=
  (broadcastInDim S300x7x1 ![0, 1] bcast_S300x7_S300x7x1_0_1 : (⟨S300x7, .i32⟩ : BufTy).Contents (Elt F) → (⟨S300x7x1, .i32⟩ : BufTy).Contents (Elt F)) (t_v19 (F := F))
def t_v21 (a7 : (⟨S128x300, .i32⟩ : BufTy).Contents (Elt F)) :
    (⟨S128x300x7, .i32⟩ : BufTy).Contents (Elt F) :=
  ((fun x i => Host.gather gather_S128x300_S300x7x1_S128x300x7_0_1_n_n_1_2_1281 x i) : (⟨S128x300, .i32⟩ : BufTy).Contents (Elt F) → (⟨S300x7x1, .i32⟩ : BufTy).Contents (Elt F) → (⟨S128x300x7, .i32⟩ : BufTy).Contents (Elt F)) a7 (t_v20 (F := F))
def t_v22 (a7 : (⟨S128x300, .i32⟩ : BufTy).Contents (Elt F)) :
    (⟨S128x300x1, .i32⟩ : BufTy).Contents (Elt F) :=
  (broadcastInDim S128x300x1 ![0, 1] bcast_S128x300_S128x300x1_0_1 : (⟨S128x300, .i32⟩ : BufTy).Contents (Elt F) → (⟨S128x300x1, .i32⟩ : BufTy).Contents (Elt F)) a7
def t_c_6 :
    (⟨S_, .i32⟩ : BufTy).Contents (Elt F) :=
  (((constantI S_ 32 0#32)) : (⟨S_, .i32⟩ : BufTy).Contents (Elt F))
def t_v23 :
    (⟨S128x300x1, .i32⟩ : BufTy).Contents (Elt F) :=
  (broadcastInDim S128x300x1 ![] bcast_S_S128x300x1 : (⟨S_, .i32⟩ : BufTy).Contents (Elt F) → (⟨S128x300x1, .i32⟩ : BufTy).Contents (Elt F)) (t_c_6 (F := F))
def t_v24 (a7 : (⟨S128x300, .i32⟩ : BufTy).Contents (Elt F)) :
    (⟨S128x300x1, .i1⟩ : BufTy).Contents (Elt F) :=
  (cmpi .slt : (⟨S128x300x1, .i32⟩ : BufTy).Contents (Elt F) → (⟨S128x300x1, .i32⟩ : BufTy).Contents (Elt F) → (⟨S128x300x1, .i1⟩ : BufTy).Contents (Elt F)) (t_v22 (F := F) a7) (t_v23 (F := F))
def t_c_7 :
    (⟨S_, .i32⟩ : BufTy).Contents (Elt F) :=
  (((constantI S_ 32 8000#32)) : (⟨S_, .i32⟩ : BufTy).Contents (Elt F))
def t_v25 :
    (⟨S128x300x1, .i32⟩ : BufTy).Contents (Elt F) :=
  (broadcastInDim S128x300x1 ![] bcast_S_S128x300x1 : (⟨S_, .i32⟩ : BufTy).Contents (Elt F) → (⟨S128x300x1, .i32⟩ : BufTy).Contents (Elt F)) (t_c_7 (F := F))
def t_v26 (a7 : (⟨S128x300, .i32⟩ : BufTy).Contents (Elt F)) :
    (⟨S128x300x1, .i32⟩ : BufTy).Contents (Elt F) :=
  (addi : (⟨S128x300x1, .i32⟩ : BufTy).Contents (Elt F) → (⟨S128x300x1, .i32⟩ : BufTy).Contents (Elt F) → (⟨S128x300x1, .i32⟩ : BufTy).Contents (Elt F)) (t_v22 (F := F) a7) (t_v25 (F := F))
def t_v27 (a7 : (⟨S128x300, .i32⟩ : BufTy).Contents (Elt F)) :
    (⟨S128x300x1, .i32⟩ : BufTy).Contents (Elt F) :=
  (select : (⟨S128x300x1, .i1⟩ : BufTy).Contents (Elt F) → (⟨S128x300x1, .i32⟩ : BufTy).Contents (Elt F) → (⟨S128x300x1, .i32⟩ : BufTy).Contents (Elt F) → (⟨S128x300x1, .i32⟩ : BufTy).Contents (Elt F)) (t_v24 (F := F) a7) (t_v26 (F := F) a7) (t_v22 (F := F) a7)
def t_c_8 :
    (⟨S_, .i32⟩ : BufTy).Contents (Elt F) :=
  (((constantI S_ 32 0#32)) : (⟨S_, .i32⟩ : BufTy).Contents (Elt F))
def t_v28 :
    (⟨S128x300x7, .i32⟩ : BufTy).Contents (Elt F) :=
  (broadcastInDim S128x300x7 ![] bcast_S_S128x300x7 : (⟨S_, .i32⟩ : BufTy).Contents (Elt F) → (⟨S128x300x7, .i32⟩ : BufTy).Contents (Elt F)) (t_c_8 (F := F))
def t_v29 (a7 : (⟨S128x300, .i32⟩ : BufTy).Contents (Elt F)) :
    (⟨S128x300x7, .i1⟩ : BufTy).Contents (Elt F) :=
  (cmpi .slt : (⟨S128x300x7, .i32⟩ : BufTy).Contents (Elt F) → (⟨S128x300x7, .i32⟩ : BufTy).Contents (Elt F) → (⟨S128x300x7, .i1⟩ : BufTy).Contents (Elt F)) (t_v21 (F := F) a7) (t_v28 (F := F))
def t_c_9 :
    (⟨S_, .i32⟩ : BufTy).Contents (Elt F) :=
  (((constantI S_ 32 8000#32)) : (⟨S_, .i32⟩ : BufTy).Contents (Elt F))
def t_v30 :
    (⟨S128x300x7, .i32⟩ : BufTy).Contents (Elt F) :=
  (broadcastInDim S128x300x7 ![] bcast_S_S128x300x7 : (⟨S_, .i32⟩ : BufTy).Contents (Elt F) → (⟨S128x300x7, .i32⟩ : BufTy).Contents (Elt F)) (t_c_9 (F := F))
def t_v31 (a7 : (⟨S128x300, .i32⟩ : BufTy).Contents (Elt F)) :
    (⟨S128x300x7, .i32⟩ : BufTy).Contents (Elt F) :=
  (addi : (⟨S128x300x7, .i32⟩ : BufTy).Contents (Elt F) → (⟨S128x300x7, .i32⟩ : BufTy).Contents (Elt F) → (⟨S128x300x7, .i32⟩ : BufTy).Contents (Elt F)) (t_v21 (F := F) a7) (t_v30 (F := F))
def t_v32 (a7 : (⟨S128x300, .i32⟩ : BufTy).Contents (Elt F)) :
    (⟨S128x300x7, .i32⟩ : BufTy).Contents (Elt F) :=
  (select : (⟨S128x300x7, .i1⟩ : BufTy).Contents (Elt F) → (⟨S128x300x7, .i32⟩ : BufTy).Contents (Elt F) → (⟨S128x300x7, .i32⟩ : BufTy).Contents (Elt F) → (⟨S128x300x7, .i32⟩ : BufTy).Contents (Elt F)) (t_v29 (F := F) a7) (t_v31 (F := F) a7) (t_v21 (F := F) a7)
def t_v33 (a7 : (⟨S128x300, .i32⟩ : BufTy).Contents (Elt F)) :
    (⟨S128x300x7, .i32⟩ : BufTy).Contents (Elt F) :=
  (broadcastInDim S128x300x7 ![0, 1, 2] bcast_S128x300x1_S128x300x7_0_1_2 : (⟨S128x300x1, .i32⟩ : BufTy).Contents (Elt F) → (⟨S128x300x7, .i32⟩ : BufTy).Contents (Elt F)) (t_v27 (F := F) a7)
def t_v34 (a7 : (⟨S128x300, .i32⟩ : BufTy).Contents (Elt F)) :
    (⟨S128x300x7x1, .i32⟩ : BufTy).Contents (Elt F) :=
  (broadcastInDim S128x300x7x1 ![0, 1, 2] bcast_S128x300x7_S128x300x7x1_0_1_2 : (⟨S128x300x7, .i32⟩ : BufTy).Contents (Elt F) → (⟨S128x300x7x1, .i32⟩ : BufTy).Contents (Elt F)) (t_v33 (F := F) a7)
def t_v35 (a7 : (⟨S128x300, .i32⟩ : BufTy).Contents (Elt F)) :
    (⟨S128x300x7x1, .i32⟩ : BufTy).Contents (Elt F) :=
  (broadcastInDim S128x300x7x1 ![0, 1, 2] bcast_S128x300x7_S128x300x7x1_0_1_2 : (⟨S128x300x7, .i32⟩ : BufTy).Contents (Elt F) → (⟨S128x300x7x1, .i32⟩ : BufTy).Contents (Elt F)) (t_v32 (F := F) a7)
def t_v36 (a7 : (⟨S128x300, .i32⟩ : BufTy).Contents (Elt F)) :
    (⟨S128x300x7x2, .i32⟩ : BufTy).Contents (Elt F) :=
  ((fun a b => concatenate S128x300x7x2 3 [⟨S128x300x7x1, a⟩, ⟨S128x300x7x1, b⟩] concatenates_S128x300x7x1_S128x300x7x1_S128x300x7x2_d3) : (⟨S128x300x7x1, .i32⟩ : BufTy).Contents (Elt F) → (⟨S128x300x7x1, .i32⟩ : BufTy).Contents (Elt F) → (⟨S128x300x7x2, .i32⟩ : BufTy).Contents (Elt F)) (t_v34 (F := F) a7) (t_v35 (F := F) a7)
def t_v37 (a7 : (⟨S128x300, .i32⟩ : BufTy).Contents (Elt F)) (a8 : (⟨S8000x8000, .i32⟩ : BufTy).Contents (Elt F)) :
    (⟨S128x300x7, .i32⟩ : BufTy).Contents (Elt F) :=
  ((fun x i => Host.gather gather_S8000x8000_S128x300x7x2_S128x300x7_n_01_n_n_01_3_11 x i) : (⟨S8000x8000, .i32⟩ : BufTy).Contents (Elt F) → (⟨S128x300x7x2, .i32⟩ : BufTy).Contents (Elt F) → (⟨S128x300x7, .i32⟩ : BufTy).Contents (Elt F)) a8 (t_v36 (F := F) a7)
def t_c_10 :
    (⟨S_, .i32⟩ : BufTy).Contents (Elt F) :=
  (((constantI S_ 32 0#32)) : (⟨S_, .i32⟩ : BufTy).Contents (Elt F))
def t_v38 :
    (⟨S128x300x7, .i32⟩ : BufTy).Contents (Elt F) :=
  (broadcastInDim S128x300x7 ![] bcast_S_S128x300x7 : (⟨S_, .i32⟩ : BufTy).Contents (Elt F) → (⟨S128x300x7, .i32⟩ : BufTy).Contents (Elt F)) (t_c_10 (F := F))
def t_v39 (a7 : (⟨S128x300, .i32⟩ : BufTy).Contents (Elt F)) (a8 : (⟨S8000x8000, .i32⟩ : BufTy).Contents (Elt F)) :
    (⟨S128x300x7, .i1⟩ : BufTy).Contents (Elt F) :=
  (cmpi .slt : (⟨S128x300x7, .i32⟩ : BufTy).Contents (Elt F) → (⟨S128x300x7, .i32⟩ : BufTy).Contents (Elt F) → (⟨S128x300x7, .i1⟩ : BufTy).Contents (Elt F)) (t_v37 (F := F) a7 a8) (t_v38 (F := F))
def t_c_11 :
    (⟨S_, .i32⟩ : BufTy).Contents (Elt F) :=
  (((constantI S_ 32 2000000#32)) : (⟨S_, .i32⟩ : BufTy).Contents (Elt F))
def t_v40 :
    (⟨S128x300x7, .i32⟩ : BufTy).Contents (Elt F) :=
  (broadcastInDim S128x300x7 ![] bcast_S_S128x300x7 : (⟨S_, .i32⟩ : BufTy).Contents (Elt F) → (⟨S128x300x7, .i32⟩ : BufTy).Contents (Elt F)) (t_c_11 (F := F))
def t_v41 (a7 : (⟨S128x300, .i32⟩ : BufTy).Contents (Elt F)) (a8 : (⟨S8000x8000, .i32⟩ : BufTy).Contents (Elt F)) :
    (⟨S128x300x7, .i32⟩ : BufTy).Contents (Elt F) :=
  (addi : (⟨S128x300x7, .i32⟩ : BufTy).Contents (Elt F) → (⟨S128x300x7, .i32⟩ : BufTy).Contents (Elt F) → (⟨S128x300x7, .i32⟩ : BufTy).Contents (Elt F)) (t_v37 (F := F) a7 a8) (t_v40 (F := F))
def t_v42 (a7 : (⟨S128x300, .i32⟩ : BufTy).Contents (Elt F)) (a8 : (⟨S8000x8000, .i32⟩ : BufTy).Contents (Elt F)) :
    (⟨S128x300x7, .i32⟩ : BufTy).Contents (Elt F) :=
  (select : (⟨S128x300x7, .i1⟩ : BufTy).Contents (Elt F) → (⟨S128x300x7, .i32⟩ : BufTy).Contents (Elt F) → (⟨S128x300x7, .i32⟩ : BufTy).Contents (Elt F) → (⟨S128x300x7, .i32⟩ : BufTy).Contents (Elt F)) (t_v39 (F := F) a7 a8) (t_v41 (F := F) a7 a8) (t_v37 (F := F) a7 a8)
def t_c_12 :
    (⟨S_, .i32⟩ : BufTy).Contents (Elt F) :=
  (((constantI S_ 32 0#32)) : (⟨S_, .i32⟩ : BufTy).Contents (Elt F))
def t_v43 :
    (⟨S128x300x7, .i32⟩ : BufTy).Contents (Elt F) :=
  (broadcastInDim S128x300x7 ![] bcast_S_S128x300x7 : (⟨S_, .i32⟩ : BufTy).Contents (Elt F) → (⟨S128x300x7, .i32⟩ : BufTy).Contents (Elt F)) (t_c_12 (F := F))
def t_v44 :
    (⟨S128x300x7, .i32⟩ : BufTy).Contents (Elt F) :=
  (id : (⟨S128x300x7, .i32⟩ : BufTy).Contents (Elt F) → (⟨S128x300x7, .i32⟩ : BufTy).Contents (Elt F)) (t_v43 (F := F))
def t_v45 (a7 : (⟨S128x300, .i32⟩ : BufTy).Contents (Elt F)) (a8 : (⟨S8000x8000, .i32⟩ : BufTy).Contents (Elt F)) :
    (⟨S128x300x7x1, .i32⟩ : BufTy).Contents (Elt F) :=
  (broadcastInDim S128x300x7x1 ![0, 1, 2] bcast_S128x300x7_S128x300x7x1_0_1_2 : (⟨S128x300x7, .i32⟩ : BufTy).Contents (Elt F) → (⟨S128x300x7x1, .i32⟩ : BufTy).Contents (Elt F)) (t_v42 (F := F) a7 a8)
def t_v46 :
    (⟨S128x300x7x1, .i32⟩ : BufTy).Contents (Elt F) :=
  (broadcastInDim S128x300x7x1 ![0, 1, 2] bcast_S128x300x7_S128x300x7x1_0_1_2 : (⟨S128x300x7, .i32⟩ : BufTy).Contents (Elt F) → (⟨S128x300x7x1, .i32⟩ : BufTy).Contents (Elt F)) (t_v44 (F := F))
def t_v47 (a7 : (⟨S128x300, .i32⟩ : BufTy).Contents (Elt F)) (a8 : (⟨S8000x8000, .i32⟩ : BufTy).Contents (Elt F)) :
    (⟨S128x300x7x2, .i32⟩ : BufTy).Contents (Elt F) :=
  ((fun a b => concatenate S128x300x7x2 3 [⟨S128x300x7x1, a⟩, ⟨S128x300x7x1, b⟩] concatenates_S128x300x7x1_S128x300x7x1_S128x300x7x2_d3) : (⟨S128x300x7x1, .i32⟩ : BufTy).Contents (Elt F) → (⟨S128x300x7x1, .i32⟩ : BufTy).Contents (Elt F) → (⟨S128x300x7x2, .i32⟩ : BufTy).Contents (Elt F)) (t_v45 (F := F) a7 a8) (t_v46 (F := F))
def t_v48 (a2 : (⟨S2000000x1, .f32⟩ : BufTy).Contents (Elt F)) (a7 : (⟨S128x300, .i32⟩ : BufTy).Contents (Elt F)) (a8 : (⟨S8000x8000, .i32⟩ : BufTy).Contents (Elt F)) :
    (⟨S128x300x7, .f32⟩ : BufTy).Contents (Elt F) :=
  ((fun x i => Host.gather gather_S2000000x1_S128x300x7x2_S128x300x7_n_01_n_n_01_3_11 x i) : (⟨S2000000x1, .f32⟩ : BufTy).Contents (Elt F) → (⟨S128x300x7x2, .i32⟩ : BufTy).Contents (Elt F) → (⟨S128x300x7, .f32⟩ : BufTy).Contents (Elt F)) a2 (t_v47 (F := F) a7 a8)
def t_c_13 :
    (⟨S_, .i32⟩ : BufTy).Contents (Elt F) :=
  (((constantI S_ 32 0#32)) : (⟨S_, .i32⟩ : BufTy).Contents (Elt F))
def t_v49 :
    (⟨S128x300, .i32⟩ : BufTy).Contents (Elt F) :=
  (broadcastInDim S128x300 ![] bcast_S_S128x300 : (⟨S_, .i32⟩ : BufTy).Contents (Elt F) → (⟨S128x300, .i32⟩ : BufTy).Contents (Elt F)) (t_c_13 (F := F))
def t_v50 (a7 : (⟨S128x300, .i32⟩ : BufTy).Contents (Elt F)) :
    (⟨S128x300, .i1⟩ : BufTy).Contents (Elt F) :=
  (cmpi .slt : (⟨S128x300, .i32⟩ : BufTy).Contents (Elt F) → (⟨S128x300, .i32⟩ : BufTy).Contents (Elt F) → (⟨S128x300, .i1⟩ : BufTy).Contents (Elt F)) a7 (t_v49 (F := F))
def t_c_14 :
    (⟨S_, .i32⟩ : BufTy).Contents (Elt F) :=
  (((constantI S_ 32 8000#32)) : (⟨S_, .i32⟩ : BufTy).Contents (Elt F))
def t_v51 :
    (⟨S128x300, .i32⟩ : BufTy).Contents (Elt F) :=
  (broadcastInDim S128x300 ![] bcast_S_S128x300 : (⟨S_, .i32⟩ : BufTy).Contents (Elt F) → (⟨S128x300, .i32⟩ : BufTy).Contents (Elt F)) (t_c_14 (F := F))
def t_v52 (a7 : (⟨S128x300, .i32⟩ : BufTy).Contents (Elt F)) :
    (⟨S128x300, .i32⟩ : BufTy).Contents (Elt F) :=
  (addi : (⟨S128x300, .i32⟩ : BufTy).Contents (Elt F) → (⟨S128x300, .i32⟩ : BufTy).Contents (Elt F) → (⟨S128x300, .i32⟩ : BufTy).Contents (Elt F)) a7 (t_v51 (F := F))
def t_v53 (a7 : (⟨S128x300, .i32⟩ : BufTy).Contents (Elt F)) :
    (⟨S128x300, .i32⟩ : BufTy).Contents (Elt F) :=
  (select : (⟨S128x300, .i1⟩ : BufTy).Contents (Elt F) → (⟨S128x300, .i32⟩ : BufTy).Contents (Elt F) → (⟨S128x300, .i32⟩ : BufTy).Contents (Elt F) → (⟨S128x300, .i32⟩ : BufTy).Contents (Elt F)) (t_v50 (F := F) a7) (t_v52 (F := F) a7) a7
def t_v54 (a7 : (⟨S128x300, .i32⟩ : BufTy).Contents (Elt F)) :
    (⟨S128x300x1, .i32⟩ : BufTy).Contents (Elt F) :=
  (broadcastInDim S128x300x1 ![0, 1] bcast_S128x300_S128x300x1_0_1 : (⟨S128x300, .i32⟩ : BufTy).Contents (Elt F) → (⟨S128x300x1, .i32⟩ : BufTy).Contents (Elt F)) (t_v53 (F := F) a7)
def t_v55 (a0 : (⟨S8000x300, .f32⟩ : BufTy).Contents (Elt F)) (a7 : (⟨S128x300, .i32⟩ : BufTy).Contents (Elt F)) :
    (⟨S128x300x300, .f32⟩ : BufTy).Contents (Elt F) :=
  ((fun x i => Host.gather gather_S8000x300_S128x300x1_S128x300x300_2_0_n_n_0_2_1300 x i) : (⟨S8000x300, .f32⟩ : BufTy).Contents (Elt F) → (⟨S128x300x1, .i32⟩ : BufTy).Contents (Elt F) → (⟨S128x300x300, .f32⟩ : BufTy).Contents (Elt F)) a0 (t_v54 (F := F) a7)
def t_c_15 :
    (⟨S_, .i32⟩ : BufTy).Contents (Elt F) :=
  (((constantI S_ 32 0#32)) : (⟨S_, .i32⟩ : BufTy).Contents (Elt F))
def t_v56 :
    (⟨S128x300, .i32⟩ : BufTy).Contents (Elt F) :=
  (broadcastInDim S128x300 ![] bcast_S_S128x300 : (⟨S_, .i32⟩ : BufTy).Contents (Elt F) → (⟨S128x300, .i32⟩ : BufTy).Contents (Elt F)) (t_c_15 (F := F))
def t_v57 (a7 : (⟨S128x300, .i32⟩ : BufTy).Contents (Elt F)) :
    (⟨S128x300, .i1⟩ : BufTy).Contents (Elt F) :=
  (cmpi .slt : (⟨S128x300, .i32⟩ : BufTy).Contents (Elt F) → (⟨S128x300, .i32⟩ : BufTy).Contents (Elt F) → (⟨S128x300, .i1⟩ : BufTy).Contents (Elt F)) a7 (t_v56 (F := F))
def t_c_16 :
    (⟨S_, .i32⟩ : BufTy).Contents (Elt F) :=
  (((constantI S_ 32 8000#32)) : (⟨S_, .i32⟩ : BufTy).Contents (Elt F))
def t_v58 :
    (⟨S128x300, .i32⟩ : BufTy).Contents (Elt F) :=
  (broadcastInDim S128x300 ![] bcast_S_S128x300 : (⟨S_, .i32⟩ : BufTy).Contents (Elt F) → (⟨S128x300, .i32⟩ : BufTy).Contents (Elt F)) (t_c_16 (F := F))
def t_v59 (a7 : (⟨S128x300, .i32⟩ : BufTy).Contents (Elt F)) :
    (⟨S128x300, .i32⟩ : BufTy).Contents (Elt F) :=
  (addi : (⟨S128x300, .i32⟩ : BufTy).Contents (Elt F) → (⟨S128x300, .i32⟩ : BufTy).Contents (Elt F) → (⟨S128x300, .i32⟩ : BufTy).Contents (Elt F)) a7 (t_v58 (F := F))
def t_v60 (a7 : (⟨S128x300, .i32⟩ : BufTy).Contents (Elt F)) :
    (⟨S128x300, .i32⟩ : BufTy).Contents (Elt F) :=
  (select : (⟨S128x300, .i1⟩ : BufTy).Contents (Elt F) → (⟨S128x300, .i32⟩ : BufTy).Contents (Elt F) → (⟨S128x300, .i32⟩ : BufTy).Contents (Elt F) → (⟨S128x300, .i32⟩ : BufTy).Contents (Elt F)) (t_v57 (F := F) a7) (t_v59 (F := F) a7) a7
def t_v61 (a7 : (⟨S128x300, .i32⟩ : BufTy).Contents (Elt F)) :
    (⟨S128x300x1, .i32⟩ : BufTy).Contents (Elt F) :=
  (broadcastInDim S128x300x1 ![0, 1] bcast_S128x300_S128x300x1_0_1 : (⟨S128x300, .i32⟩ : BufTy).Contents (Elt F) → (⟨S128x300x1, .i32⟩ : BufTy).Contents (Elt F)) (t_v60 (F := F) a7)
def t_v62 (a1 : (⟨S8000x1, .f32⟩ : BufTy).Contents (Elt F)) (a7 : (⟨S128x300, .i32⟩ : BufTy).Contents (Elt F)) :
    (⟨S128x300x1, .f32⟩ : BufTy).Contents (Elt F) :=
  ((fun x i => Host.gather gather_S8000x1_S128x300x1_S128x300x1_2_0_n_n_0_2_11 x i) : (⟨S8000x1, .f32⟩ : BufTy).Contents (Elt F) → (⟨S128x300x1, .i32⟩ : BufTy).Contents (Elt F) → (⟨S128x300x1, .f32⟩ : BufTy).Contents (Elt F)) a1 (t_v61 (F := F) a7)

/-! ### The first message-passing step, of the gates E, the features H and the weights W -/

def s1_c_17 :
    (⟨S_, .i32⟩ : BufTy).Contents (Elt F) :=
  (((constantI S_ 32 0#32)) : (⟨S_, .i32⟩ : BufTy).Contents (Elt F))
def s1_v63 :
    (⟨S300x7, .i32⟩ : BufTy).Contents (Elt F) :=
  (broadcastInDim S300x7 ![] bcast_S_S300x7 : (⟨S_, .i32⟩ : BufTy).Contents (Elt F) → (⟨S300x7, .i32⟩ : BufTy).Contents (Elt F)) (s1_c_17 (F := F))
def s1_v64 :
    (⟨S300x7, .i1⟩ : BufTy).Contents (Elt F) :=
  (cmpi .slt : (⟨S300x7, .i32⟩ : BufTy).Contents (Elt F) → (⟨S300x7, .i32⟩ : BufTy).Contents (Elt F) → (⟨S300x7, .i1⟩ : BufTy).Contents (Elt F)) (t_v14 (F := F)) (s1_v63 (F := F))
def s1_c_18 :
    (⟨S_, .i32⟩ : BufTy).Contents (Elt F) :=
  (((constantI S_ 32 300#32)) : (⟨S_, .i32⟩ : BufTy).Contents (Elt F))
def s1_v65 :
    (⟨S300x7, .i32⟩ : BufTy).Contents (Elt F) :=
  (broadcastInDim S300x7 ![] bcast_S_S300x7 : (⟨S_, .i32⟩ : BufTy).Contents (Elt F) → (⟨S300x7, .i32⟩ : BufTy).Contents (Elt F)) (s1_c_18 (F := F))
def s1_v66 :
    (⟨S300x7, .i32⟩ : BufTy).Contents (Elt F) :=
  (addi : (⟨S300x7, .i32⟩ : BufTy).Contents (Elt F) → (⟨S300x7, .i32⟩ : BufTy).Contents (Elt F) → (⟨S300x7, .i32⟩ : BufTy).Contents (Elt F)) (t_v14 (F := F)) (s1_v65 (F := F))
def s1_v67 :
    (⟨S300x7, .i32⟩ : BufTy).Contents (Elt F) :=
  (select : (⟨S300x7, .i1⟩ : BufTy).Contents (Elt F) → (⟨S300x7, .i32⟩ : BufTy).Contents (Elt F) → (⟨S300x7, .i32⟩ : BufTy).Contents (Elt F) → (⟨S300x7, .i32⟩ : BufTy).Contents (Elt F)) (s1_v64 (F := F)) (s1_v66 (F := F)) (t_v14 (F := F))
def s1_v68 :
    (⟨S300x7x1, .i32⟩ : BufTy).Contents (Elt F) :=
  (broadcastInDim S300x7x1 ![0, 1] bcast_S300x7_S300x7x1_0_1 : (⟨S300x7, .i32⟩ : BufTy).Contents (Elt F) → (⟨S300x7x1, .i32⟩ : BufTy).Contents (Elt F)) (s1_v67 (F := F))
def s1_v69 (H : (⟨S128x300x300, .f32⟩ : BufTy).Contents (Elt F)) :
    (⟨S128x300x7x300, .f32⟩ : BufTy).Contents (Elt F) :=
  ((fun x i => Host.gather gather_S128x300x300_S300x7x1_S128x300x7x300_03_1_n_n_1_2_1281300 x i) : (⟨S128x300x300, .f32⟩ : BufTy).Contents (Elt F) → (⟨S300x7x1, .i32⟩ : BufTy).Contents (Elt F) → (⟨S128x300x7x300, .f32⟩ : BufTy).Contents (Elt F)) H (s1_v68 (F := F))
def s1_v70 :
    (⟨S1x300x7x1, .i1⟩ : BufTy).Contents (Elt F) :=
  (broadcastInDim S1x300x7x1 ![1, 2] bcast_S300x7_S1x300x7x1_1_2 : (⟨S300x7, .i1⟩ : BufTy).Contents (Elt F) → (⟨S1x300x7x1, .i1⟩ : BufTy).Contents (Elt F)) (t_v13 (F := F))
def s1_v71 (W : (⟨S128x300x7, .f32⟩ : BufTy).Contents (Elt F)) :
    (⟨S128x300x7x1, .f32⟩ : BufTy).Contents (Elt F) :=
  (broadcastInDim S128x300x7x1 ![0, 1, 2] bcast_S128x300x7_S128x300x7x1_0_1_2 : (⟨S128x300x7, .f32⟩ : BufTy).Contents (Elt F) → (⟨S128x300x7x1, .f32⟩ : BufTy).Contents (Elt F)) W
def s1_v72 (W : (⟨S128x300x7, .f32⟩ : BufTy).Contents (Elt F)) :
    (⟨S128x300x7x300, .f32⟩ : BufTy).Contents (Elt F) :=
  (broadcastInDim S128x300x7x300 ![0, 1, 2, 3] bcast_S128x300x7x1_S128x300x7x300_0_1_2_3 : (⟨S128x300x7x1, .f32⟩ : BufTy).Contents (Elt F) → (⟨S128x300x7x300, .f32⟩ : BufTy).Contents (Elt F)) (s1_v71 (F := F) W)
def s1_v73 (H : (⟨S128x300x300, .f32⟩ : BufTy).Contents (Elt F)) (W : (⟨S128x300x7, .f32⟩ : BufTy).Contents (Elt F)) :
    (⟨S128x300x7x300, .f32⟩ : BufTy).Contents (Elt F) :=
  (mulf : (⟨S128x300x7x300, .f32⟩ : BufTy).Contents (Elt F) → (⟨S128x300x7x300, .f32⟩ : BufTy).Contents (Elt F) → (⟨S128x300x7x300, .f32⟩ : BufTy).Contents (Elt F)) (s1_v72 (F := F) W) (s1_v69 (F := F) H)
def s1_cst :
    (⟨S_, .f32⟩ : BufTy).Contents (Elt F) :=
  (((constant S_ .f32 0xFF7FFFFF#32)) : (⟨S_, .f32⟩ : BufTy).Contents (Elt F))
def s1_call1_v0 :
    (⟨S128x300x7x300, .i1⟩ : BufTy).Contents (Elt F) :=
  (((broadcastInDim S128x300x7x300 ![0, 1, 2, 3] bcast_S1x300x7x1_S128x300x7x300_0_1_2_3)) : (⟨S1x300x7x1, .i1⟩ : BufTy).Contents (Elt F) → (⟨S128x300x7x300, .i1⟩ : BufTy).Contents (Elt F)) (s1_v70 (F := F))
def s1_call1_v1 :
    (⟨S128x300x7x300, .f32⟩ : BufTy).Contents (Elt F) :=
  (((broadcastInDim S128x300x7x300 ![] bcast_S_S128x300x7x300)) : (⟨S_, .f32⟩ : BufTy).Contents (Elt F) → (⟨S128x300x7x300, .f32⟩ : BufTy).Contents (Elt F)) (s1_cst (F := F))
def s1_v74 (H : (⟨S128x300x300, .f32⟩ : BufTy).Contents (Elt F)) (W : (⟨S128x300x7, .f32⟩ : BufTy).Contents (Elt F)) :
    (⟨S128x300x7x300, .f32⟩ : BufTy).Contents (Elt F) :=
  ((select) : (⟨S128x300x7x300, .i1⟩ : BufTy).Contents (Elt F) → (⟨S128x300x7x300, .f32⟩ : BufTy).Contents (Elt F) → (⟨S128x300x7x300, .f32⟩ : BufTy).Contents (Elt F) → (⟨S128x300x7x300, .f32⟩ : BufTy).Contents (Elt F)) (s1_call1_v0 (F := F)) (s1_v73 (F := F) H W) (s1_call1_v1 (F := F))
def s1_cst_19 :
    (⟨S_, .f32⟩ : BufTy).Contents (Elt F) :=
  (((constant S_ .f32 0xFF800000#32)) : (⟨S_, .f32⟩ : BufTy).Contents (Elt F))
def s1_v75 (H : (⟨S128x300x300, .f32⟩ : BufTy).Contents (Elt F)) (W : (⟨S128x300x7, .f32⟩ : BufTy).Contents (Elt F)) :
    (⟨S128x300x300, .f32⟩ : BufTy).Contents (Elt F) :=
  ((fun x v => Host.reduce FloatOps.maximumf x v reducesTo_S128x300x7x300_S128x300x300_d2 h_S_) : (⟨S128x300x7x300, .f32⟩ : BufTy).Contents (Elt F) → (⟨S_, .f32⟩ : BufTy).Contents (Elt F) → (⟨S128x300x300, .f32⟩ : BufTy).Contents (Elt F)) (s1_v74 (F := F) H W) (s1_cst_19 (F := F))
def s1_v76 (E : (⟨S128x300x1, .f32⟩ : BufTy).Contents (Elt F)) :
    (⟨S128x300x300, .f32⟩ : BufTy).Contents (Elt F) :=
  (broadcastInDim S128x300x300 ![0, 1, 2] bcast_S128x300x1_S128x300x300_0_1_2 : (⟨S128x300x1, .f32⟩ : BufTy).Contents (Elt F) → (⟨S128x300x300, .f32⟩ : BufTy).Contents (Elt F)) E
def s1_v77 (E : (⟨S128x300x1, .f32⟩ : BufTy).Contents (Elt F)) (H : (⟨S128x300x300, .f32⟩ : BufTy).Contents (Elt F)) :
    (⟨S128x300x300, .f32⟩ : BufTy).Contents (Elt F) :=
  (mulf : (⟨S128x300x300, .f32⟩ : BufTy).Contents (Elt F) → (⟨S128x300x300, .f32⟩ : BufTy).Contents (Elt F) → (⟨S128x300x300, .f32⟩ : BufTy).Contents (Elt F)) (s1_v76 (F := F) E) H
def s1_cst_20 :
    (⟨S_, .f32⟩ : BufTy).Contents (Elt F) :=
  (((constant S_ .f32 0x3F800000#32)) : (⟨S_, .f32⟩ : BufTy).Contents (Elt F))
def s1_v78 :
    (⟨S128x300x1, .f32⟩ : BufTy).Contents (Elt F) :=
  (broadcastInDim S128x300x1 ![] bcast_S_S128x300x1 : (⟨S_, .f32⟩ : BufTy).Contents (Elt F) → (⟨S128x300x1, .f32⟩ : BufTy).Contents (Elt F)) (s1_cst_20 (F := F))
def s1_v79 (E : (⟨S128x300x1, .f32⟩ : BufTy).Contents (Elt F)) :
    (⟨S128x300x1, .f32⟩ : BufTy).Contents (Elt F) :=
  (subf : (⟨S128x300x1, .f32⟩ : BufTy).Contents (Elt F) → (⟨S128x300x1, .f32⟩ : BufTy).Contents (Elt F) → (⟨S128x300x1, .f32⟩ : BufTy).Contents (Elt F)) (s1_v78 (F := F)) E
def s1_v80 (E : (⟨S128x300x1, .f32⟩ : BufTy).Contents (Elt F)) :
    (⟨S128x300x300, .f32⟩ : BufTy).Contents (Elt F) :=
  (broadcastInDim S128x300x300 ![0, 1, 2] bcast_S128x300x1_S128x300x300_0_1_2 : (⟨S128x300x1, .f32⟩ : BufTy).Contents (Elt F) → (⟨S128x300x300, .f32⟩ : BufTy).Contents (Elt F)) (s1_v79 (F := F) E)
def s1_v81 (E : (⟨S128x300x1, .f32⟩ : BufTy).Contents (Elt F)) (H : (⟨S128x300x300, .f32⟩ : BufTy).Contents (Elt F)) (W : (⟨S128x300x7, .f32⟩ : BufTy).Contents (Elt F)) :
    (⟨S128x300x300, .f32⟩ : BufTy).Contents (Elt F) :=
  (mulf : (⟨S128x300x300, .f32⟩ : BufTy).Contents (Elt F) → (⟨S128x300x300, .f32⟩ : BufTy).Contents (Elt F) → (⟨S128x300x300, .f32⟩ : BufTy).Contents (Elt F)) (s1_v80 (F := F) E) (s1_v75 (F := F) H W)
def s1_v82 (E : (⟨S128x300x1, .f32⟩ : BufTy).Contents (Elt F)) (H : (⟨S128x300x300, .f32⟩ : BufTy).Contents (Elt F)) (W : (⟨S128x300x7, .f32⟩ : BufTy).Contents (Elt F)) :
    (⟨S128x300x300, .f32⟩ : BufTy).Contents (Elt F) :=
  (addf : (⟨S128x300x300, .f32⟩ : BufTy).Contents (Elt F) → (⟨S128x300x300, .f32⟩ : BufTy).Contents (Elt F) → (⟨S128x300x300, .f32⟩ : BufTy).Contents (Elt F)) (s1_v77 (F := F) E H) (s1_v81 (F := F) E H W)

/-! ### The second message-passing step: the same operations again -/

def s2_c_21 :
    (⟨S_, .i32⟩ : BufTy).Contents (Elt F) :=
  (((constantI S_ 32 0#32)) : (⟨S_, .i32⟩ : BufTy).Contents (Elt F))
def s2_v83 :
    (⟨S300x7, .i32⟩ : BufTy).Contents (Elt F) :=
  (broadcastInDim S300x7 ![] bcast_S_S300x7 : (⟨S_, .i32⟩ : BufTy).Contents (Elt F) → (⟨S300x7, .i32⟩ : BufTy).Contents (Elt F)) (s2_c_21 (F := F))
def s2_v84 :
    (⟨S300x7, .i1⟩ : BufTy).Contents (Elt F) :=
  (cmpi .slt : (⟨S300x7, .i32⟩ : BufTy).Contents (Elt F) → (⟨S300x7, .i32⟩ : BufTy).Contents (Elt F) → (⟨S300x7, .i1⟩ : BufTy).Contents (Elt F)) (t_v14 (F := F)) (s2_v83 (F := F))
def s2_c_22 :
    (⟨S_, .i32⟩ : BufTy).Contents (Elt F) :=
  (((constantI S_ 32 300#32)) : (⟨S_, .i32⟩ : BufTy).Contents (Elt F))
def s2_v85 :
    (⟨S300x7, .i32⟩ : BufTy).Contents (Elt F) :=
  (broadcastInDim S300x7 ![] bcast_S_S300x7 : (⟨S_, .i32⟩ : BufTy).Contents (Elt F) → (⟨S300x7, .i32⟩ : BufTy).Contents (Elt F)) (s2_c_22 (F := F))
def s2_v86 :
    (⟨S300x7, .i32⟩ : BufTy).Contents (Elt F) :=
  (addi : (⟨S300x7, .i32⟩ : BufTy).Contents (Elt F) → (⟨S300x7, .i32⟩ : BufTy).Contents (Elt F) → (⟨S300x7, .i32⟩ : BufTy).Contents (Elt F)) (t_v14 (F := F)) (s2_v85 (F := F))
def s2_v87 :
    (⟨S300x7, .i32⟩ : BufTy).Contents (Elt F) :=
  (select : (⟨S300x7, .i1⟩ : BufTy).Contents (Elt F) → (⟨S300x7, .i32⟩ : BufTy).Contents (Elt F) → (⟨S300x7, .i32⟩ : BufTy).Contents (Elt F) → (⟨S300x7, .i32⟩ : BufTy).Contents (Elt F)) (s2_v84 (F := F)) (s2_v86 (F := F)) (t_v14 (F := F))
def s2_v88 :
    (⟨S300x7x1, .i32⟩ : BufTy).Contents (Elt F) :=
  (broadcastInDim S300x7x1 ![0, 1] bcast_S300x7_S300x7x1_0_1 : (⟨S300x7, .i32⟩ : BufTy).Contents (Elt F) → (⟨S300x7x1, .i32⟩ : BufTy).Contents (Elt F)) (s2_v87 (F := F))
def s2_v89 (H : (⟨S128x300x300, .f32⟩ : BufTy).Contents (Elt F)) :
    (⟨S128x300x7x300, .f32⟩ : BufTy).Contents (Elt F) :=
  ((fun x i => Host.gather gather_S128x300x300_S300x7x1_S128x300x7x300_03_1_n_n_1_2_1281300 x i) : (⟨S128x300x300, .f32⟩ : BufTy).Contents (Elt F) → (⟨S300x7x1, .i32⟩ : BufTy).Contents (Elt F) → (⟨S128x300x7x300, .f32⟩ : BufTy).Contents (Elt F)) H (s2_v88 (F := F))
def s2_v90 :
    (⟨S1x300x7x1, .i1⟩ : BufTy).Contents (Elt F) :=
  (broadcastInDim S1x300x7x1 ![1, 2] bcast_S300x7_S1x300x7x1_1_2 : (⟨S300x7, .i1⟩ : BufTy).Contents (Elt F) → (⟨S1x300x7x1, .i1⟩ : BufTy).Contents (Elt F)) (t_v13 (F := F))
def s2_v91 (W : (⟨S128x300x7, .f32⟩ : BufTy).Contents (Elt F)) :
    (⟨S128x300x7x1, .f32⟩ : BufTy).Contents (Elt F) :=
  (broadcastInDim S128x300x7x1 ![0, 1, 2] bcast_S128x300x7_S128x300x7x1_0_1_2 : (⟨S128x300x7, .f32⟩ : BufTy).Contents (Elt F) → (⟨S128x300x7x1, .f32⟩ : BufTy).Contents (Elt F)) W
def s2_v92 (W : (⟨S128x300x7, .f32⟩ : BufTy).Contents (Elt F)) :
    (⟨S128x300x7x300, .f32⟩ : BufTy).Contents (Elt F) :=
  (broadcastInDim S128x300x7x300 ![0, 1, 2, 3] bcast_S128x300x7x1_S128x300x7x300_0_1_2_3 : (⟨S128x300x7x1, .f32⟩ : BufTy).Contents (Elt F) → (⟨S128x300x7x300, .f32⟩ : BufTy).Contents (Elt F)) (s2_v91 (F := F) W)
def s2_v93 (H : (⟨S128x300x300, .f32⟩ : BufTy).Contents (Elt F)) (W : (⟨S128x300x7, .f32⟩ : BufTy).Contents (Elt F)) :
    (⟨S128x300x7x300, .f32⟩ : BufTy).Contents (Elt F) :=
  (mulf : (⟨S128x300x7x300, .f32⟩ : BufTy).Contents (Elt F) → (⟨S128x300x7x300, .f32⟩ : BufTy).Contents (Elt F) → (⟨S128x300x7x300, .f32⟩ : BufTy).Contents (Elt F)) (s2_v92 (F := F) W) (s2_v89 (F := F) H)
def s2_cst_23 :
    (⟨S_, .f32⟩ : BufTy).Contents (Elt F) :=
  (((constant S_ .f32 0xFF7FFFFF#32)) : (⟨S_, .f32⟩ : BufTy).Contents (Elt F))
def s2_call2_v0 :
    (⟨S128x300x7x300, .i1⟩ : BufTy).Contents (Elt F) :=
  (((broadcastInDim S128x300x7x300 ![0, 1, 2, 3] bcast_S1x300x7x1_S128x300x7x300_0_1_2_3)) : (⟨S1x300x7x1, .i1⟩ : BufTy).Contents (Elt F) → (⟨S128x300x7x300, .i1⟩ : BufTy).Contents (Elt F)) (s2_v90 (F := F))
def s2_call2_v1 :
    (⟨S128x300x7x300, .f32⟩ : BufTy).Contents (Elt F) :=
  (((broadcastInDim S128x300x7x300 ![] bcast_S_S128x300x7x300)) : (⟨S_, .f32⟩ : BufTy).Contents (Elt F) → (⟨S128x300x7x300, .f32⟩ : BufTy).Contents (Elt F)) (s2_cst_23 (F := F))
def s2_v94 (H : (⟨S128x300x300, .f32⟩ : BufTy).Contents (Elt F)) (W : (⟨S128x300x7, .f32⟩ : BufTy).Contents (Elt F)) :
    (⟨S128x300x7x300, .f32⟩ : BufTy).Contents (Elt F) :=
  ((select) : (⟨S128x300x7x300, .i1⟩ : BufTy).Contents (Elt F) → (⟨S128x300x7x300, .f32⟩ : BufTy).Contents (Elt F) → (⟨S128x300x7x300, .f32⟩ : BufTy).Contents (Elt F) → (⟨S128x300x7x300, .f32⟩ : BufTy).Contents (Elt F)) (s2_call2_v0 (F := F)) (s2_v93 (F := F) H W) (s2_call2_v1 (F := F))
def s2_cst_24 :
    (⟨S_, .f32⟩ : BufTy).Contents (Elt F) :=
  (((constant S_ .f32 0xFF800000#32)) : (⟨S_, .f32⟩ : BufTy).Contents (Elt F))
def s2_v95 (H : (⟨S128x300x300, .f32⟩ : BufTy).Contents (Elt F)) (W : (⟨S128x300x7, .f32⟩ : BufTy).Contents (Elt F)) :
    (⟨S128x300x300, .f32⟩ : BufTy).Contents (Elt F) :=
  ((fun x v => Host.reduce FloatOps.maximumf x v reducesTo_S128x300x7x300_S128x300x300_d2 h_S_) : (⟨S128x300x7x300, .f32⟩ : BufTy).Contents (Elt F) → (⟨S_, .f32⟩ : BufTy).Contents (Elt F) → (⟨S128x300x300, .f32⟩ : BufTy).Contents (Elt F)) (s2_v94 (F := F) H W) (s2_cst_24 (F := F))
def s2_v96 (E : (⟨S128x300x1, .f32⟩ : BufTy).Contents (Elt F)) :
    (⟨S128x300x300, .f32⟩ : BufTy).Contents (Elt F) :=
  (broadcastInDim S128x300x300 ![0, 1, 2] bcast_S128x300x1_S128x300x300_0_1_2 : (⟨S128x300x1, .f32⟩ : BufTy).Contents (Elt F) → (⟨S128x300x300, .f32⟩ : BufTy).Contents (Elt F)) E
def s2_v97 (E : (⟨S128x300x1, .f32⟩ : BufTy).Contents (Elt F)) (H : (⟨S128x300x300, .f32⟩ : BufTy).Contents (Elt F)) :
    (⟨S128x300x300, .f32⟩ : BufTy).Contents (Elt F) :=
  (mulf : (⟨S128x300x300, .f32⟩ : BufTy).Contents (Elt F) → (⟨S128x300x300, .f32⟩ : BufTy).Contents (Elt F) → (⟨S128x300x300, .f32⟩ : BufTy).Contents (Elt F)) (s2_v96 (F := F) E) H
def s2_cst_25 :
    (⟨S_, .f32⟩ : BufTy).Contents (Elt F) :=
  (((constant S_ .f32 0x3F800000#32)) : (⟨S_, .f32⟩ : BufTy).Contents (Elt F))
def s2_v98 :
    (⟨S128x300x1, .f32⟩ : BufTy).Contents (Elt F) :=
  (broadcastInDim S128x300x1 ![] bcast_S_S128x300x1 : (⟨S_, .f32⟩ : BufTy).Contents (Elt F) → (⟨S128x300x1, .f32⟩ : BufTy).Contents (Elt F)) (s2_cst_25 (F := F))
def s2_v99 (E : (⟨S128x300x1, .f32⟩ : BufTy).Contents (Elt F)) :
    (⟨S128x300x1, .f32⟩ : BufTy).Contents (Elt F) :=
  (subf : (⟨S128x300x1, .f32⟩ : BufTy).Contents (Elt F) → (⟨S128x300x1, .f32⟩ : BufTy).Contents (Elt F) → (⟨S128x300x1, .f32⟩ : BufTy).Contents (Elt F)) (s2_v98 (F := F)) E
def s2_v100 (E : (⟨S128x300x1, .f32⟩ : BufTy).Contents (Elt F)) :
    (⟨S128x300x300, .f32⟩ : BufTy).Contents (Elt F) :=
  (broadcastInDim S128x300x300 ![0, 1, 2] bcast_S128x300x1_S128x300x300_0_1_2 : (⟨S128x300x1, .f32⟩ : BufTy).Contents (Elt F) → (⟨S128x300x300, .f32⟩ : BufTy).Contents (Elt F)) (s2_v99 (F := F) E)
def s2_v101 (E : (⟨S128x300x1, .f32⟩ : BufTy).Contents (Elt F)) (H : (⟨S128x300x300, .f32⟩ : BufTy).Contents (Elt F)) (W : (⟨S128x300x7, .f32⟩ : BufTy).Contents (Elt F)) :
    (⟨S128x300x300, .f32⟩ : BufTy).Contents (Elt F) :=
  (mulf : (⟨S128x300x300, .f32⟩ : BufTy).Contents (Elt F) → (⟨S128x300x300, .f32⟩ : BufTy).Contents (Elt F) → (⟨S128x300x300, .f32⟩ : BufTy).Contents (Elt F)) (s2_v100 (F := F) E) (s2_v95 (F := F) H W)
def s2_v102 (E : (⟨S128x300x1, .f32⟩ : BufTy).Contents (Elt F)) (H : (⟨S128x300x300, .f32⟩ : BufTy).Contents (Elt F)) (W : (⟨S128x300x7, .f32⟩ : BufTy).Contents (Elt F)) :
    (⟨S128x300x300, .f32⟩ : BufTy).Contents (Elt F) :=
  (addf : (⟨S128x300x300, .f32⟩ : BufTy).Contents (Elt F) → (⟨S128x300x300, .f32⟩ : BufTy).Contents (Elt F) → (⟨S128x300x300, .f32⟩ : BufTy).Contents (Elt F)) (s2_v97 (F := F) E H) (s2_v101 (F := F) E H W)

/-! ### The readout: the sum over positions -/

def p_cst_26 :
    (⟨S_, .f32⟩ : BufTy).Contents (Elt F) :=
  (((constant S_ .f32 0x00000000#32)) : (⟨S_, .f32⟩ : BufTy).Contents (Elt F))
def p_v103 (H : (⟨S128x300x300, .f32⟩ : BufTy).Contents (Elt F)) :
    (⟨S128x300, .f32⟩ : BufTy).Contents (Elt F) :=
  ((fun x v => Host.reduceAdd x v reducesTo_S128x300x300_S128x300_d1 h_S_) : (⟨S128x300x300, .f32⟩ : BufTy).Contents (Elt F) → (⟨S_, .f32⟩ : BufTy).Contents (Elt F) → (⟨S128x300, .f32⟩ : BufTy).Contents (Elt F)) H (p_cst_26 (F := F))

/-! ### After the readout: relu, the batch mean and variance, the normalisation, the linear layer, the sigmoid -/

def tl_call3_cst :
    (⟨S_, .f32⟩ : BufTy).Contents (Elt F) :=
  (((constant S_ .f32 0x00000000#32)) : (⟨S_, .f32⟩ : BufTy).Contents (Elt F))
def tl_call3_v0 :
    (⟨S128x300, .f32⟩ : BufTy).Contents (Elt F) :=
  (((broadcastInDim S128x300 ![] bcast_S_S128x300)) : (⟨S_, .f32⟩ : BufTy).Contents (Elt F) → (⟨S128x300, .f32⟩ : BufTy).Contents (Elt F)) (tl_call3_cst (F := F))
def tl_v104 (P : (⟨S128x300, .f32⟩ : BufTy).Contents (Elt F)) :
    (⟨S128x300, .f32⟩ : BufTy).Contents (Elt F) :=
  ((maximumf) : (⟨S128x300, .f32⟩ : BufTy).Contents (Elt F) → (⟨S128x300, .f32⟩ : BufTy).Contents (Elt F) → (⟨S128x300, .f32⟩ : BufTy).Contents (Elt F)) P (tl_call3_v0 (F := F))
def tl_cst_27 :
    (⟨S_, .f32⟩ : BufTy).Contents (Elt F) :=
  (((constant S_ .f32 0x00000000#32)) : (⟨S_, .f32⟩ : BufTy).Contents (Elt F))
def tl_v105 (P : (⟨S128x300, .f32⟩ : BufTy).Contents (Elt F)) :
    (⟨S300, .f32⟩ : BufTy).Contents (Elt F) :=
  ((fun x v => Host.reduceAdd x v reducesTo_S128x300_S300_d0 h_S_) : (⟨S128x300, .f32⟩ : BufTy).Contents (Elt F) → (⟨S_, .f32⟩ : BufTy).Contents (Elt F) → (⟨S300, .f32⟩ : BufTy).Contents (Elt F)) (tl_v104 (F := F) P) (tl_cst_27 (F := F))
def tl_cst_28 :
    (⟨S_, .f32⟩ : BufTy).Contents (Elt F) :=
  (((constant S_ .f32 0x43000000#32)) : (⟨S_, .f32⟩ : BufTy).Contents (Elt F))
def tl_v106 :
    (⟨S300, .f32⟩ : BufTy).Contents (Elt F) :=
  (broadcastInDim S300 ![] bcast_S_S300 : (⟨S_, .f32⟩ : BufTy).Contents (Elt F) → (⟨S300, .f32⟩ : BufTy).Contents (Elt F)) (tl_cst_28 (F := F))
def tl_v107 (P : (⟨S128x300, .f32⟩ : BufTy).Contents (Elt F)) :
    (⟨S300, .f32⟩ : BufTy).Contents (Elt F) :=
  (Host.divf : (⟨S300, .f32⟩ : BufTy).Contents (Elt F) → (⟨S300, .f32⟩ : BufTy).Contents (Elt F) → (⟨S300, .f32⟩ : BufTy).Contents (Elt F)) (tl_v105 (F := F) P) (tl_v106 (F := F))
def tl_c_29 :
    (⟨S_, .i32⟩ : BufTy).Contents (Elt F) :=
  (((constantI S_ 32 0#32)) : (⟨S_, .i32⟩ : BufTy).Contents (Elt F))
def tl_call4_cst :
    (⟨S_, .f32⟩ : BufTy).Contents (Elt F) :=
  (((constant S_ .f32 0x00000000#32)) : (⟨S_, .f32⟩ : BufTy).Contents (Elt F))
def tl_call4_v0 (P : (⟨S128x300, .f32⟩ : BufTy).Contents (Elt F)) :
    (⟨S300, .f32⟩ : BufTy).Contents (Elt F) :=
  (((fun x v => Host.reduceAdd x v reducesTo_S128x300_S300_d0 h_S_)) : (⟨S128x300, .f32⟩ : BufTy).Contents (Elt F) → (⟨S_, .f32⟩ : BufTy).Contents (Elt F) → (⟨S300, .f32⟩ : BufTy).Contents (Elt F)) (tl_v104 (F := F) P) (tl_call4_cst (F := F))
def tl_call4_v1 (P : (⟨S128x300, .f32⟩ : BufTy).Contents (Elt F)) :
    (⟨S1x300, .f32⟩ : BufTy).Contents (Elt F) :=
  (((broadcastInDim S1x300 ![1] bcast_S300_S1x300_1)) : (⟨S300, .f32⟩ : BufTy).Contents (Elt F) → (⟨S1x300, .f32⟩ : BufTy).Contents (Elt F)) (tl_call4_v0 (F := F) P)
def tl_call4_cst_0 :
    (⟨S_, .f32⟩ : BufTy).Contents (Elt F) :=
  (((constant S_ .f32 0x43000000#32)) : (⟨S_, .f32⟩ : BufTy).Contents (Elt F))
def tl_call4_v2 :
    (⟨S1x300, .f32⟩ : BufTy).Contents (Elt F) :=
  (((broadcastInDim S1x300 ![] bcast_S_S1x300)) : (⟨S_, .f32⟩ : BufTy).Contents (Elt F) → (⟨S1x300, .f32⟩ : BufTy).Contents (Elt F)) (tl_call4_cst_0 (F := F))
def tl_call4_v3 (P : (⟨S128x300, .f32⟩ : BufTy).Contents (Elt F)) :
    (⟨S1x300, .f32⟩ : BufTy).Contents (Elt F) :=
  ((Host.divf) : (⟨S1x300, .f32⟩ : BufTy).Contents (Elt F) → (⟨S1x300, .f32⟩ : BufTy).Contents (Elt F) → (⟨S1x300, .f32⟩ : BufTy).Contents (Elt F)) (tl_call4_v1 (F := F) P) (tl_call4_v2 (F := F))
def tl_call4_v4 (P : (⟨S128x300, .f32⟩ : BufTy).Contents (Elt F)) :
    (⟨S128x300, .f32⟩ : BufTy).Contents (Elt F) :=
  (((broadcastInDim S128x300 ![0, 1] bcast_S1x300_S128x300_0_1)) : (⟨S1x300, .f32⟩ : BufTy).Contents (Elt F) → (⟨S128x300, .f32⟩ : BufTy).Contents (Elt F)) (tl_call4_v3 (F := F) P)
def tl_call4_v5 (P : (⟨S128x300, .f32⟩ : BufTy).Contents (Elt F)) :
    (⟨S128x300, .f32⟩ : BufTy).Contents (Elt F) :=
  ((subf) : (⟨S128x300, .f32⟩ : BufTy).Contents (Elt F) → (⟨S128x300, .f32⟩ : BufTy).Contents (Elt F) → (⟨S128x300, .f32⟩ : BufTy).Contents (Elt F)) (tl_v104 (F := F) P) (tl_call4_v4 (F := F) P)
def tl_call4_v6 (P : (⟨S128x300, .f32⟩ : BufTy).Contents (Elt F)) :
    (⟨S128x300, .f32⟩ : BufTy).Contents (Elt F) :=
  ((mulf) : (⟨S128x300, .f32⟩ : BufTy).Contents (Elt F) → (⟨S128x300, .f32⟩ : BufTy).Contents (Elt F) → (⟨S128x300, .f32⟩ : BufTy).Contents (Elt F)) (tl_call4_v5 (F := F) P) (tl_call4_v5 (F := F) P)
def tl_call4_v7 :
    (⟨S_, .f32⟩ : BufTy).Contents (Elt F) :=
  (((sitofp .f32)) : (⟨S_, .i32⟩ : BufTy).Contents (Elt F) → (⟨S_, .f32⟩ : BufTy).Contents (Elt F)) (tl_c_29 (F := F))
def tl_call4_cst_1 :
    (⟨S_, .f32⟩ : BufTy).Contents (Elt F) :=
  (((constant S_ .f32 0x43000000#32)) : (⟨S_, .f32⟩ : BufTy).Contents (Elt F))
def tl_call4_v8 :
    (⟨S_, .f32⟩ : BufTy).Contents (Elt F) :=
  ((subf) : (⟨S_, .f32⟩ : BufTy).Contents (Elt F) → (⟨S_, .f32⟩ : BufTy).Contents (Elt F) → (⟨S_, .f32⟩ : BufTy).Contents (Elt F)) (tl_call4_cst_1 (F := F)) (tl_call4_v7 (F := F))
def tl_call4_cst_2 :
    (⟨S_, .f32⟩ : BufTy).Contents (Elt F) :=
  (((constant S_ .f32 0x00000000#32)) : (⟨S_, .f32⟩ : BufTy).Contents (Elt F))
def tl_call4_v9 (P : (⟨S128x300, .f32⟩ : BufTy).Contents (Elt F)) :
    (⟨S300, .f32⟩ : BufTy).Contents (Elt F) :=
  (((fun x v => Host.reduceAdd x v reducesTo_S128x300_S300_d0 h_S_)) : (⟨S128x300, .f32⟩ : BufTy).Contents (Elt F) → (⟨S_, .f32⟩ : BufTy).Contents (Elt F) → (⟨S300, .f32⟩ : BufTy).Contents (Elt F)) (tl_call4_v6 (F := F) P) (tl_call4_cst_2 (F := F))
def tl_call4_v10 :
    (⟨S300, .f32⟩ : BufTy).Contents (Elt F) :=
  (((broadcastInDim S300 ![] bcast_S_S300)) : (⟨S_, .f32⟩ : BufTy).Contents (Elt F) → (⟨S300, .f32⟩ : BufTy).Contents (Elt F)) (tl_call4_v8 (F := F))
def tl_call4_v11 (P : (⟨S128x300, .f32⟩ : BufTy).Contents (Elt F)) :
    (⟨S300, .f32⟩ : BufTy).Contents (Elt F) :=
  ((Host.divf) : (⟨S300, .f32⟩ : BufTy).Contents (Elt F) → (⟨S300, .f32⟩ : BufTy).Contents (Elt F) → (⟨S300, .f32⟩ : BufTy).Contents (Elt F)) (tl_call4_v9 (F := F) P) (tl_call4_v10 (F := F))
def tl_call4_cst_3 :
    (⟨S_, .f32⟩ : BufTy).Contents (Elt F) :=
  (((constant S_ .f32 0x00000000#32)) : (⟨S_, .f32⟩ : BufTy).Contents (Elt F))
def tl_call4_v12 :
    (⟨S_, .i1⟩ : BufTy).Contents (Elt F) :=
  (((cmpf .ogt)) : (⟨S_, .f32⟩ : BufTy).Contents (Elt F) → (⟨S_, .f32⟩ : BufTy).Contents (Elt F) → (⟨S_, .i1⟩ : BufTy).Contents (Elt F)) (tl_call4_v8 (F := F)) (tl_call4_cst_3 (F := F))
def tl_call4_cst_4 :
    (⟨S_, .f32⟩ : BufTy).Contents (Elt F) :=
  (((constant S_ .f32 0x7FC00000#32)) : (⟨S_, .f32⟩ : BufTy).Contents (Elt F))
def tl_call4_call0_v0 :
    (⟨S_, .f32⟩ : BufTy).Contents (Elt F) :=
  ((id) : (⟨S_, .f32⟩ : BufTy).Contents (Elt F) → (⟨S_, .f32⟩ : BufTy).Contents (Elt F)) (tl_call4_cst_4 (F := F))
def tl_call4_call0_v1 :
    (⟨S300, .f32⟩ : BufTy).Contents (Elt F) :=
  (((broadcastInDim S300 ![] bcast_S_S300)) : (⟨S_, .f32⟩ : BufTy).Contents (Elt F) → (⟨S300, .f32⟩ : BufTy).Contents (Elt F)) (tl_call4_call0_v0 (F := F))
def tl_v108 (P : (⟨S128x300, .f32⟩ : BufTy).Contents (Elt F)) :
    (⟨S300, .f32⟩ : BufTy).Contents (Elt F) :=
  (((fun p a b => select (broadcastInDim S300 ![] bcast_S_S300 p) a b)) : (⟨S_, .i1⟩ : BufTy).Contents (Elt F) → (⟨S300, .f32⟩ : BufTy).Contents (Elt F) → (⟨S300, .f32⟩ : BufTy).Contents (Elt F) → (⟨S300, .f32⟩ : BufTy).Contents (Elt F)) (tl_call4_v12 (F := F)) (tl_call4_v11 (F := F) P) (tl_call4_call0_v1 (F := F))
def tl_v109 (P : (⟨S128x300, .f32⟩ : BufTy).Contents (Elt F)) :
    (⟨S1x300, .f32⟩ : BufTy).Contents (Elt F) :=
  (broadcastInDim S1x300 ![1] bcast_S300_S1x300_1 : (⟨S300, .f32⟩ : BufTy).Contents (Elt F) → (⟨S1x300, .f32⟩ : BufTy).Contents (Elt F)) (tl_v107 (F := F) P)
def tl_v110 (P : (⟨S128x300, .f32⟩ : BufTy).Contents (Elt F)) :
    (⟨S128x300, .f32⟩ : BufTy).Contents (Elt F) :=
  (broadcastInDim S128x300 ![0, 1] bcast_S1x300_S128x300_0_1 : (⟨S1x300, .f32⟩ : BufTy).Contents (Elt F) → (⟨S128x300, .f32⟩ : BufTy).Contents (Elt F)) (tl_v109 (F := F) P)
def tl_v111 (P : (⟨S128x300, .f32⟩ : BufTy).Contents (Elt F)) :
    (⟨S128x300, .f32⟩ : BufTy).Contents (Elt F) :=
  (subf : (⟨S128x300, .f32⟩ : BufTy).Contents (Elt F) → (⟨S128x300, .f32⟩ : BufTy).Contents (Elt F) → (⟨S128x300, .f32⟩ : BufTy).Contents (Elt F)) (tl_v104 (F := F) P) (tl_v110 (F := F) P)
def tl_cst_30 :
    (⟨S_, .f32⟩ : BufTy).Contents (Elt F) :=
  (((constant S_ .f32 0x3727C5AC#32)) : (⟨S_, .f32⟩ : BufTy).Contents (Elt F))
def tl_v112 :
    (⟨S300, .f32⟩ : BufTy).Contents (Elt F) :=
  (broadcastInDim S300 ![] bcast_S_S300 : (⟨S_, .f32⟩ : BufTy).Contents (Elt F) → (⟨S300, .f32⟩ : BufTy).Contents (Elt F)) (tl_cst_30 (F := F))
def tl_v113 (P : (⟨S128x300, .f32⟩ : BufTy).Contents (Elt F)) :
    (⟨S300, .f32⟩ : BufTy).Contents (Elt F) :=
  (addf : (⟨S300, .f32⟩ : BufTy).Contents (Elt F) → (⟨S300, .f32⟩ : BufTy).Contents (Elt F) → (⟨S300, .f32⟩ : BufTy).Contents (Elt F)) (tl_v108 (F := F) P) (tl_v112 (F := F))
def tl_v114 (P : (⟨S128x300, .f32⟩ : BufTy).Contents (Elt F)) :
    (⟨S300, .f32⟩ : BufTy).Contents (Elt F) :=
  (Host.sqrt : (⟨S300, .f32⟩ : BufTy).Contents (Elt F) → (⟨S300, .f32⟩ : BufTy).Contents (Elt F)) (tl_v113 (F := F) P)
def tl_v115 (P : (⟨S128x300, .f32⟩ : BufTy).Contents (Elt F)) :
    (⟨S1x300, .f32⟩ : BufTy).Contents (Elt F) :=
  (broadcastInDim S1x300 ![1] bcast_S300_S1x300_1 : (⟨S300, .f32⟩ : BufTy).Contents (Elt F) → (⟨S1x300, .f32⟩ : BufTy).Contents (Elt F)) (tl_v114 (F := F) P)
def tl_v116 (P : (⟨S128x300, .f32⟩ : BufTy).Contents (Elt F)) :
    (⟨S128x300, .f32⟩ : BufTy).Contents (Elt F) :=
  (broadcastInDim S128x300 ![0, 1] bcast_S1x300_S128x300_0_1 : (⟨S1x300, .f32⟩ : BufTy).Contents (Elt F) → (⟨S128x300, .f32⟩ : BufTy).Contents (Elt F)) (tl_v115 (F := F) P)
def tl_v117 (P : (⟨S128x300, .f32⟩ : BufTy).Contents (Elt F)) :
    (⟨S128x300, .f32⟩ : BufTy).Contents (Elt F) :=
  (Host.divf : (⟨S128x300, .f32⟩ : BufTy).Contents (Elt F) → (⟨S128x300, .f32⟩ : BufTy).Contents (Elt F) → (⟨S128x300, .f32⟩ : BufTy).Contents (Elt F)) (tl_v111 (F := F) P) (tl_v116 (F := F) P)
def tl_v118 (a3 : (⟨S300, .f32⟩ : BufTy).Contents (Elt F)) :
    (⟨S1x300, .f32⟩ : BufTy).Contents (Elt F) :=
  (broadcastInDim S1x300 ![1] bcast_S300_S1x300_1 : (⟨S300, .f32⟩ : BufTy).Contents (Elt F) → (⟨S1x300, .f32⟩ : BufTy).Contents (Elt F)) a3
def tl_v119 (a3 : (⟨S300, .f32⟩ : BufTy).Contents (Elt F)) :
    (⟨S128x300, .f32⟩ : BufTy).Contents (Elt F) :=
  (broadcastInDim S128x300 ![0, 1] bcast_S1x300_S128x300_0_1 : (⟨S1x300, .f32⟩ : BufTy).Contents (Elt F) → (⟨S128x300, .f32⟩ : BufTy).Contents (Elt F)) (tl_v118 (F := F) a3)
def tl_v120 (P : (⟨S128x300, .f32⟩ : BufTy).Contents (Elt F)) (a3 : (⟨S300, .f32⟩ : BufTy).Contents (Elt F)) :
    (⟨S128x300, .f32⟩ : BufTy).Contents (Elt F) :=
  (mulf : (⟨S128x300, .f32⟩ : BufTy).Contents (Elt F) → (⟨S128x300, .f32⟩ : BufTy).Contents (Elt F) → (⟨S128x300, .f32⟩ : BufTy).Contents (Elt F)) (tl_v117 (F := F) P) (tl_v119 (F := F) a3)
def tl_v121 (a4 : (⟨S300, .f32⟩ : BufTy).Contents (Elt F)) :
    (⟨S1x300, .f32⟩ : BufTy).Contents (Elt F) :=
  (broadcastInDim S1x300 ![1] bcast_S300_S1x300_1 : (⟨S300, .f32⟩ : BufTy).Contents (Elt F) → (⟨S1x300, .f32⟩ : BufTy).Contents (Elt F)) a4
def tl_v122 (a4 : (⟨S300, .f32⟩ : BufTy).Contents (Elt F)) :
    (⟨S128x300, .f32⟩ : BufTy).Contents (Elt F) :=
  (broadcastInDim S128x300 ![0, 1] bcast_S1x300_S128x300_0_1 : (⟨S1x300, .f32⟩ : BufTy).Contents (Elt F) → (⟨S128x300, .f32⟩ : BufTy).Contents (Elt F)) (tl_v121 (F := F) a4)
def tl_v123 (P : (⟨S128x300, .f32⟩ : BufTy).Contents (Elt F)) (a3 : (⟨S300, .f32⟩ : BufTy).Contents (Elt F)) (a4 : (⟨S300, .f32⟩ : BufTy).Contents (Elt F)) :
    (⟨S128x300, .f32⟩ : BufTy).Contents (Elt F) :=
  (addf : (⟨S128x300, .f32⟩ : BufTy).Contents (Elt F) → (⟨S128x300, .f32⟩ : BufTy).Contents (Elt F) → (⟨S128x300, .f32⟩ : BufTy).Contents (Elt F)) (tl_v120 (F := F) P a3) (tl_v122 (F := F) a4)
def tl_v124 (P : (⟨S128x300, .f32⟩ : BufTy).Contents (Elt F)) (a3 : (⟨S300, .f32⟩ : BufTy).Contents (Elt F)) (a4 : (⟨S300, .f32⟩ : BufTy).Contents (Elt F)) (a5 : (⟨S300x54, .f32⟩ : BufTy).Contents (Elt F)) :
    (⟨S128x54, .f32⟩ : BufTy).Contents (Elt F) :=
  ((fun l r => Host.dotGeneral dot_S128x300_S300x54_S128x54_1_0_0_1_n_n none l r) : (⟨S128x300, .f32⟩ : BufTy).Contents (Elt F) → (⟨S300x54, .f32⟩ : BufTy).Contents (Elt F) → (⟨S128x54, .f32⟩ : BufTy).Contents (Elt F)) (tl_v123 (F := F) P a3 a4) a5
def tl_v125 (a6 : (⟨S54, .f32⟩ : BufTy).Contents (Elt F)) :
    (⟨S1x54, .f32⟩ : BufTy).Contents (Elt F) :=
  (broadcastInDim S1x54 ![1] bcast_S54_S1x54_1 : (⟨S54, .f32⟩ : BufTy).Contents (Elt F) → (⟨S1x54, .f32⟩ : BufTy).Contents (Elt F)) a6
def tl_v126 (a6 : (⟨S54, .f32⟩ : BufTy).Contents (Elt F)) :
    (⟨S128x54, .f32⟩ : BufTy).Contents (Elt F) :=
  (broadcastInDim S128x54 ![0, 1] bcast_S1x54_S128x54_0_1 : (⟨S1x54, .f32⟩ : BufTy).Contents (Elt F) → (⟨S128x54, .f32⟩ : BufTy).Contents (Elt F)) (tl_v125 (F := F) a6)
def tl_v127 (P : (⟨S128x300, .f32⟩ : BufTy).Contents (Elt F)) (a3 : (⟨S300, .f32⟩ : BufTy).Contents (Elt F)) (a4 : (⟨S300, .f32⟩ : BufTy).Contents (Elt F)) (a5 : (⟨S300x54, .f32⟩ : BufTy).Contents (Elt F)) (a6 : (⟨S54, .f32⟩ : BufTy).Contents (Elt F)) :
    (⟨S128x54, .f32⟩ : BufTy).Contents (Elt F) :=
  (addf : (⟨S128x54, .f32⟩ : BufTy).Contents (Elt F) → (⟨S128x54, .f32⟩ : BufTy).Contents (Elt F) → (⟨S128x54, .f32⟩ : BufTy).Contents (Elt F)) (tl_v124 (F := F) P a3 a4 a5) (tl_v126 (F := F) a6)
def tl_v128 (P : (⟨S128x300, .f32⟩ : BufTy).Contents (Elt F)) (a3 : (⟨S300, .f32⟩ : BufTy).Contents (Elt F)) (a4 : (⟨S300, .f32⟩ : BufTy).Contents (Elt F)) (a5 : (⟨S300x54, .f32⟩ : BufTy).Contents (Elt F)) (a6 : (⟨S54, .f32⟩ : BufTy).Contents (Elt F)) :
    (⟨S128x54, .f32⟩ : BufTy).Contents (Elt F) :=
  (Host.negf : (⟨S128x54, .f32⟩ : BufTy).Contents (Elt F) → (⟨S128x54, .f32⟩ : BufTy).Contents (Elt F)) (tl_v127 (F := F) P a3 a4 a5 a6)
def tl_v129 (P : (⟨S128x300, .f32⟩ : BufTy).Contents (Elt F)) (a3 : (⟨S300, .f32⟩ : BufTy).Contents (Elt F)) (a4 : (⟨S300, .f32⟩ : BufTy).Contents (Elt F)) (a5 : (⟨S300x54, .f32⟩ : BufTy).Contents (Elt F)) (a6 : (⟨S54, .f32⟩ : BufTy).Contents (Elt F)) :
    (⟨S128x54, .f32⟩ : BufTy).Contents (Elt F) :=
  (Host.exp : (⟨S128x54, .f32⟩ : BufTy).Contents (Elt F) → (⟨S128x54, .f32⟩ : BufTy).Contents (Elt F)) (tl_v128 (F := F) P a3 a4 a5 a6)
def tl_cst_31 :
    (⟨S_, .f32⟩ : BufTy).Contents (Elt F) :=
  (((constant S_ .f32 0x3F800000#32)) : (⟨S_, .f32⟩ : BufTy).Contents (Elt F))
def tl_v130 :
    (⟨S128x54, .f32⟩ : BufTy).Contents (Elt F) :=
  (broadcastInDim S128x54 ![] bcast_S_S128x54 : (⟨S_, .f32⟩ : BufTy).Contents (Elt F) → (⟨S128x54, .f32⟩ : BufTy).Contents (Elt F)) (tl_cst_31 (F := F))
def tl_v131 (P : (⟨S128x300, .f32⟩ : BufTy).Contents (Elt F)) (a3 : (⟨S300, .f32⟩ : BufTy).Contents (Elt F)) (a4 : (⟨S300, .f32⟩ : BufTy).Contents (Elt F)) (a5 : (⟨S300x54, .f32⟩ : BufTy).Contents (Elt F)) (a6 : (⟨S54, .f32⟩ : BufTy).Contents (Elt F)) :
    (⟨S128x54, .f32⟩ : BufTy).Contents (Elt F) :=
  (addf : (⟨S128x54, .f32⟩ : BufTy).Contents (Elt F) → (⟨S128x54, .f32⟩ : BufTy).Contents (Elt F) → (⟨S128x54, .f32⟩ : BufTy).Contents (Elt F)) (tl_v130 (F := F)) (tl_v129 (F := F) P a3 a4 a5 a6)
def tl_cst_32 :
    (⟨S_, .f32⟩ : BufTy).Contents (Elt F) :=
  (((constant S_ .f32 0x3F800000#32)) : (⟨S_, .f32⟩ : BufTy).Contents (Elt F))
def tl_v132 :
    (⟨S128x54, .f32⟩ : BufTy).Contents (Elt F) :=
  (broadcastInDim S128x54 ![] bcast_S_S128x54 : (⟨S_, .f32⟩ : BufTy).Contents (Elt F) → (⟨S128x54, .f32⟩ : BufTy).Contents (Elt F)) (tl_cst_32 (F := F))
def tl_v133 (P : (⟨S128x300, .f32⟩ : BufTy).Contents (Elt F)) (a3 : (⟨S300, .f32⟩ : BufTy).Contents (Elt F)) (a4 : (⟨S300, .f32⟩ : BufTy).Contents (Elt F)) (a5 : (⟨S300x54, .f32⟩ : BufTy).Contents (Elt F)) (a6 : (⟨S54, .f32⟩ : BufTy).Contents (Elt F)) :
    (⟨S128x54, .f32⟩ : BufTy).Contents (Elt F) :=
  (Host.divf : (⟨S128x54, .f32⟩ : BufTy).Contents (Elt F) → (⟨S128x54, .f32⟩ : BufTy).Contents (Elt F) → (⟨S128x54, .f32⟩ : BufTy).Contents (Elt F)) (tl_v132 (F := F)) (tl_v131 (F := F) P a3 a4 a5 a6)

/-- The reference's result as a function of its nine argument arrays. -/
def out (a0 : (⟨S8000x300, .f32⟩ : BufTy).Contents (Elt F)) (a1 : (⟨S8000x1, .f32⟩ : BufTy).Contents (Elt F)) (a2 : (⟨S2000000x1, .f32⟩ : BufTy).Contents (Elt F)) (a3 : (⟨S300, .f32⟩ : BufTy).Contents (Elt F)) (a4 : (⟨S300, .f32⟩ : BufTy).Contents (Elt F)) (a5 : (⟨S300x54, .f32⟩ : BufTy).Contents (Elt F)) (a6 : (⟨S54, .f32⟩ : BufTy).Contents (Elt F)) (a7 : (⟨S128x300, .i32⟩ : BufTy).Contents (Elt F)) (a8 : (⟨S8000x8000, .i32⟩ : BufTy).Contents (Elt F)) :
    (⟨S128x54, .f32⟩ : BufTy).Contents (Elt F) :=
  tl_v133 (F := F) (p_v103 (s2_v102 (t_v62 a1 a7) (s1_v82 (t_v62 a1 a7) (t_v55 a0 a7) (t_v48 a2 a7 a8)) (t_v48 a2 a7 a8))) a3 a4 a5 a6

end Cert.ReferenceIdeal.RefTerm

end
-- ==== Proof.RefRunEq.lean ====
/- The reference program's @main is the sequence of the listed host operations (an outlined function's operations stand in
   place of its call, over that call's buffers), and each of them touches TensorCore buffers only. -/
import proofs.«112600_j80238579024429_2_alg».proof.Proof.RefOps
import proofs.«112600_j80238579024429_2_alg».proof.Proof.RefTerm

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ### @main is the sequence of its operations -/

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-! ### Every operation reads and writes TensorCore buffers only -/

set_option maxRecDepth 8192 in
theorem ops_part0_sub : (ops_part0 : List (HloOp τ sig (Elt F))).Forall fun op => op.bufs ⊆ tcRefs τ sig :=
  ⟨nullary_bufs_sub .., nullary_bufs_sub .., unary_bufs_sub .., binary_bufs_sub .., nullary_bufs_sub .., unary_bufs_sub .., unary_bufs_sub .., unary_bufs_sub .., unary_bufs_sub .., binary_bufs_sub .., nullary_bufs_sub .., unary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub ..⟩
set_option maxRecDepth 8192 in
theorem ops_part1_sub : (ops_part1 : List (HloOp τ sig (Elt F))).Forall fun op => op.bufs ⊆ tcRefs τ sig :=
  ⟨unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., binary_bufs_sub .., nullary_bufs_sub .., unary_bufs_sub .., unary_bufs_sub .., ternary_bufs_sub .., nullary_bufs_sub .., binary_bufs_sub .., unary_bufs_sub .., binary_bufs_sub .., nullary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., binary_bufs_sub .., nullary_bufs_sub ..⟩
set_option maxRecDepth 8192 in
theorem ops_part2_sub : (ops_part2 : List (HloOp τ sig (Elt F))).Forall fun op => op.bufs ⊆ tcRefs τ sig :=
  ⟨unary_bufs_sub .., unary_bufs_sub .., ternary_bufs_sub .., nullary_bufs_sub .., binary_bufs_sub .., unary_bufs_sub .., binary_bufs_sub .., nullary_bufs_sub .., unary_bufs_sub .., binary_bufs_sub .., unary_bufs_sub .., binary_bufs_sub .., binary_bufs_sub .., nullary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops_part0_sub op h, List.forall_iff_forall_mem.mp ops_part1_sub op h, List.forall_iff_forall_mem.mp ops_part2_sub op h]

end Cert.ReferenceIdeal.RefRun

end
-- ==== Proof.RefRunW0.lean ====
/- The reference program's run, window 0: what the first 65 operations leave in the four buffers the later ones read, as the named terms of the
   argument arrays. -/
import proofs.«112600_j80238579024429_2_alg».proof.Proof.RefOps
import proofs.«112600_j80238579024429_2_alg».proof.Proof.RefTerm

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers that the operations of window 0 write. -/
abbrev ops_part0_W : List (Ref sig .tc) := [main_v0, main_c, main_v1, main_v2, main_v3, main_v4, main_v5, main_v6, main_v7, main_v8, main_c_0, main_v9, main_v10, main_c_1, main_v11, main_v12, main_v13, main_c_2, main_c_3, main_call0_v0, main_call0_v1, main_call0_v2, main_call0_v3, main_call0_v4, main_v14, main_c_4, main_v15, main_v16, main_c_5, main_v17, main_v18, main_v19, main_v20, main_v21, main_v22, main_c_6, main_v23, main_v24, main_c_7, main_v25, main_v26, main_v27, main_c_8, main_v28, main_v29, main_c_9, main_v30, main_v31, main_v32, main_v33, main_v34, main_v35, main_v36, main_v37, main_c_10, main_v38, main_v39, main_c_11, main_v40, main_v41, main_v42, main_c_12, main_v43, main_v44, main_v45]
set_option maxRecDepth 8192 in
theorem ops_part0_writes : (ops_part0 : List (HloOp τ sig (Elt F))).Forall fun op => op.writes ⊆ (ops_part0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 0 does not write keeps its contents through it. -/
theorem part0_keep (V : Valuation τ sig (Elt F)) (r : Ref sig .tc) (h : r ∉ ops_part0_W) :
    after ops_part0 V (Proc.devRef .tc r) = V (Proc.devRef .tc r) :=
  after_of_writes_sub ops_part0 _ ops_part0_writes h

/-- Two index columns side by side, as a function of the two columns. The operation's own function packs its operands into a
    list of dependent pairs, inside which a rewrite cannot reach; under this name the operands are plain arguments. -/
def cat_v36 (a b : (⟨S128x300x7x1, .i32⟩ : BufTy).Contents (Elt F)) : (⟨S128x300x7x2, .i32⟩ : BufTy).Contents (Elt F) :=
  concatenate S128x300x7x2 3 [⟨S128x300x7x1, a⟩, ⟨S128x300x7x1, b⟩] concatenates_S128x300x7x1_S128x300x7x1_S128x300x7x2_d3
theorem cat_v36_eq : ((fun a b => concatenate S128x300x7x2 3 [⟨S128x300x7x1, a⟩, ⟨S128x300x7x1, b⟩] concatenates_S128x300x7x1_S128x300x7x1_S128x300x7x2_d3) : (⟨S128x300x7x1, .i32⟩ : BufTy).Contents (Elt F) → (⟨S128x300x7x1, .i32⟩ : BufTy).Contents (Elt F) → (⟨S128x300x7x2, .i32⟩ : BufTy).Contents (Elt F)) = cat_v36 (F := F) := rfl

set_option maxRecDepth 8192 in
set_option maxHeartbeats 2000000 in
theorem part0_v13 (V : Valuation τ sig (Elt F))   :
    after ops_part0 V (no_index (Proc.devRef .tc main_v13)) = RefTerm.t_v13 := by
  simp only [ops_part0]
  after_results_simp
  rfl
set_option maxRecDepth 8192 in
set_option maxHeartbeats 2000000 in
theorem part0_v14 (V : Valuation τ sig (Elt F))   :
    after ops_part0 V (no_index (Proc.devRef .tc main_v14)) = RefTerm.t_v14 := by
  simp only [ops_part0]
  after_results_simp
  rfl
set_option maxRecDepth 8192 in
set_option maxHeartbeats 2000000 in
theorem part0_v44 (V : Valuation τ sig (Elt F))   :
    after ops_part0 V (no_index (Proc.devRef .tc main_v44)) = RefTerm.t_v44 := by
  simp only [ops_part0]
  after_results_simp
  rfl
set_option maxRecDepth 8192 in
set_option maxHeartbeats 2000000 in
theorem part0_v45 (V : Valuation τ sig (Elt F))   :
    after ops_part0 V (no_index (Proc.devRef .tc main_v45)) = RefTerm.t_v45 (V (Proc.devRef .tc main_arg7)) (V (Proc.devRef .tc main_arg8)) := by
  simp only [ops_part0]
  rw [cat_v36_eq]
  after_results_simp
  rfl

end Cert.ReferenceIdeal.RefRun

end
-- ==== Proof.RefRunW1.lean ====
/- The reference program's run, window 1: what the next 62 operations leave in the five buffers the last window reads, given what the first window
   left in the four buffers they read. -/
import proofs.«112600_j80238579024429_2_alg».proof.Proof.RefOps
import proofs.«112600_j80238579024429_2_alg».proof.Proof.RefTerm

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers that the operations of window 1 write. -/
abbrev ops_part1_W : List (Ref sig .tc) := [main_v46, main_v47, main_v48, main_c_13, main_v49, main_v50, main_c_14, main_v51, main_v52, main_v53, main_v54, main_v55, main_c_15, main_v56, main_v57, main_c_16, main_v58, main_v59, main_v60, main_v61, main_v62, main_c_17, main_v63, main_v64, main_c_18, main_v65, main_v66, main_v67, main_v68, main_v69, main_v70, main_v71, main_v72, main_v73, main_cst, main_call1_v0, main_call1_v1, main_v74, main_cst_19, main_v75, main_v76, main_v77, main_cst_20, main_v78, main_v79, main_v80, main_v81, main_v82, main_c_21, main_v83, main_v84, main_c_22, main_v85, main_v86, main_v87, main_v88, main_v89, main_v90, main_v91, main_v92, main_v93, main_cst_23]
set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 1 does not write keeps its contents through it. -/
theorem part1_keep (V : Valuation τ sig (Elt F)) (r : Ref sig .tc) (h : r ∉ ops_part1_W) :
    after ops_part1 V (Proc.devRef .tc r) = V (Proc.devRef .tc r) :=
  after_of_writes_sub ops_part1 _ ops_part1_writes h

/-- Two index columns side by side, as a function of the two columns. The operation's own function packs its operands into a
    list of dependent pairs, inside which a rewrite cannot reach; under this name the operands are plain arguments. -/
def cat_v47 (a b : (⟨S128x300x7x1, .i32⟩ : BufTy).Contents (Elt F)) : (⟨S128x300x7x2, .i32⟩ : BufTy).Contents (Elt F) :=
  concatenate S128x300x7x2 3 [⟨S128x300x7x1, a⟩, ⟨S128x300x7x1, b⟩] concatenates_S128x300x7x1_S128x300x7x1_S128x300x7x2_d3
theorem cat_v47_eq : ((fun a b => concatenate S128x300x7x2 3 [⟨S128x300x7x1, a⟩, ⟨S128x300x7x1, b⟩] concatenates_S128x300x7x1_S128x300x7x1_S128x300x7x2_d3) : (⟨S128x300x7x1, .i32⟩ : BufTy).Contents (Elt F) → (⟨S128x300x7x1, .i32⟩ : BufTy).Contents (Elt F) → (⟨S128x300x7x2, .i32⟩ : BufTy).Contents (Elt F)) = cat_v47 (F := F) := rfl

set_option maxRecDepth 8192 in
set_option maxHeartbeats 2000000 in
theorem part1_v62 (V : Valuation τ sig (Elt F))   :
    after ops_part1 V (no_index (Proc.devRef .tc main_v62)) = RefTerm.t_v62 (V (Proc.devRef .tc main_arg1)) (V (Proc.devRef .tc main_arg7)) := by
  simp only [ops_part1]
  after_results_simp
  rfl
set_option maxRecDepth 8192 in
set_option maxHeartbeats 2000000 in
theorem part1_cst_23 (V : Valuation τ sig (Elt F))   :
    after ops_part1 V (no_index (Proc.devRef .tc main_cst_23)) = RefTerm.s2_cst_23 := by
  simp only [ops_part1]
  after_results_simp
  rfl
set_option maxRecDepth 8192 in
set_option maxHeartbeats 2000000 in
theorem part1_v90 (V : Valuation τ sig (Elt F))  (h13 : V (no_index (Proc.devRef .tc main_v13)) = RefTerm.t_v13) :
    after ops_part1 V (no_index (Proc.devRef .tc main_v90)) = RefTerm.s2_v90 := by
  simp only [ops_part1]
  after_results_simp
  simp only [h13]
  rfl
set_option maxRecDepth 8192 in
set_option maxHeartbeats 2000000 in
theorem part1_v82 (V : Valuation τ sig (Elt F))  (h13 : V (no_index (Proc.devRef .tc main_v13)) = RefTerm.t_v13) (h14 : V (no_index (Proc.devRef .tc main_v14)) = RefTerm.t_v14) (h44 : V (no_index (Proc.devRef .tc main_v44)) = RefTerm.t_v44) (h45 : V (no_index (Proc.devRef .tc main_v45)) = RefTerm.t_v45 (V (Proc.devRef .tc main_arg7)) (V (Proc.devRef .tc main_arg8))) :
    after ops_part1 V (no_index (Proc.devRef .tc main_v82)) = RefTerm.s1_v82 (RefTerm.t_v62 (V (Proc.devRef .tc main_arg1)) (V (Proc.devRef .tc main_arg7))) (RefTerm.t_v55 (V (Proc.devRef .tc main_arg0)) (V (Proc.devRef .tc main_arg7))) (RefTerm.t_v48 (V (Proc.devRef .tc main_arg2)) (V (Proc.devRef .tc main_arg7)) (V (Proc.devRef .tc main_arg8))) := by
  simp only [ops_part1]
  rw [cat_v47_eq]
  after_results_simp
  simp only [h13, h14, h44, h45]
  rfl
set_option maxRecDepth 8192 in
set_option maxHeartbeats 2000000 in
theorem part1_v93 (V : Valuation τ sig (Elt F))  (h13 : V (no_index (Proc.devRef .tc main_v13)) = RefTerm.t_v13) (h14 : V (no_index (Proc.devRef .tc main_v14)) = RefTerm.t_v14) (h44 : V (no_index (Proc.devRef .tc main_v44)) = RefTerm.t_v44) (h45 : V (no_index (Proc.devRef .tc main_v45)) = RefTerm.t_v45 (V (Proc.devRef .tc main_arg7)) (V (Proc.devRef .tc main_arg8))) :
    after ops_part1 V (no_index (Proc.devRef .tc main_v93)) = RefTerm.s2_v93 (RefTerm.s1_v82 (RefTerm.t_v62 (V (Proc.devRef .tc main_arg1)) (V (Proc.devRef .tc main_arg7))) (RefTerm.t_v55 (V (Proc.devRef .tc main_arg0)) (V (Proc.devRef .tc main_arg7))) (RefTerm.t_v48 (V (Proc.devRef .tc main_arg2)) (V (Proc.devRef .tc main_arg7)) (V (Proc.devRef .tc main_arg8)))) (RefTerm.t_v48 (V (Proc.devRef .tc main_arg2)) (V (Proc.devRef .tc main_arg7)) (V (Proc.devRef .tc main_arg8))) := by
  simp only [ops_part1]
  rw [cat_v47_eq]
  after_results_simp
  simp only [h13, h14, h44, h45]
  rfl

end Cert.ReferenceIdeal.RefRun

end
-- ==== Proof.RefRunW2.lean ====
/- The reference program's run, window 2: what the last 74 operations leave in the result buffer, given the arrays E, H, W that the five buffers they
   read from the earlier windows are terms of. -/
import proofs.«112600_j80238579024429_2_alg».proof.Proof.RefOps
import proofs.«112600_j80238579024429_2_alg».proof.Proof.RefTerm

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers that the operations of window 2 write. -/
abbrev ops_part2_W : List (Ref sig .tc) := [main_call2_v0, main_call2_v1, main_v94, main_cst_24, main_v95, main_v96, main_v97, main_cst_25, main_v98, main_v99, main_v100, main_v101, main_v102, main_cst_26, main_v103, main_call3_cst, main_call3_v0, main_v104, main_cst_27, main_v105, main_cst_28, main_v106, main_v107, main_c_29, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v108, main_v109, main_v110, main_v111, main_cst_30, main_v112, main_v113, main_v114, main_v115, main_v116, main_v117, main_v118, main_v119, main_v120, main_v121, main_v122, main_v123, main_v124, main_v125, main_v126, main_v127, main_v128, main_v129, main_cst_31, main_v130, main_v131, main_cst_32, main_v132, main_v133]
set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 2 does not write keeps its contents through it. -/
theorem part2_keep (V : Valuation τ sig (Elt F)) (r : Ref sig .tc) (h : r ∉ ops_part2_W) :
    after ops_part2 V (Proc.devRef .tc r) = V (Proc.devRef .tc r) :=
  after_of_writes_sub ops_part2 _ ops_part2_writes h

set_option maxRecDepth 8192 in
set_option maxHeartbeats 2000000 in
theorem part2_v133 (V : Valuation τ sig (Elt F)) (E : (⟨S128x300x1, .f32⟩ : BufTy).Contents (Elt F)) (H : (⟨S128x300x300, .f32⟩ : BufTy).Contents (Elt F)) (W : (⟨S128x300x7, .f32⟩ : BufTy).Contents (Elt F)) (h62 : V (no_index (Proc.devRef .tc main_v62)) = E) (h82 : V (no_index (Proc.devRef .tc main_v82)) = H) (h90 : V (no_index (Proc.devRef .tc main_v90)) = RefTerm.s2_v90) (h93 : V (no_index (Proc.devRef .tc main_v93)) = RefTerm.s2_v93 H W) (hc23 : V (no_index (Proc.devRef .tc main_cst_23)) = RefTerm.s2_cst_23) :
    after ops_part2 V (no_index (Proc.devRef .tc main_v133)) = RefTerm.tl_v133 (RefTerm.p_v103 (RefTerm.s2_v102 E H W)) (V (Proc.devRef .tc main_arg3)) (V (Proc.devRef .tc main_arg4)) (V (Proc.devRef .tc main_arg5)) (V (Proc.devRef .tc main_arg6)) := by
  simp only [ops_part2]
  after_results_simp
  simp only [h62, h82, h90, h93, hc23]
  rfl

end Cert.ReferenceIdeal.RefRun

end
-- ==== Proof.RefRun.lean ====
/- The reference program's run: @main is the sequence of its host operations (the outlined functions' operations in
   place, over each call's buffers), so every weakly fair execution terminates with the result buffer at the
   operations' composed term of the argument arrays' launch contents, and the argument arrays unchanged. -/
import proofs.«112600_j80238579024429_2_alg».proof.Proof.RefRunEq
import proofs.«112600_j80238579024429_2_alg».proof.Proof.RefRunW0
import proofs.«112600_j80238579024429_2_alg».proof.Proof.RefRunW1
import proofs.«112600_j80238579024429_2_alg».proof.Proof.RefRunW2
import Idealize.ShloMosaic.Lib.Pipeline.Frame

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The fold over all the operations is the three windows' folds in turn. -/
theorem after_ops (V : Valuation τ sig (Elt F)) :
    after ops V = after ops_part2 (after ops_part1 (after ops_part0 V)) := by
  simp only [ops, after_append]

/-- A buffer that no window writes keeps its contents through the whole program. -/
theorem keep_all (V : Valuation τ sig (Elt F)) (r : Ref sig .tc) (h0 : r ∉ ops_part0_W) (h1 : r ∉ ops_part1_W) (h2 : r ∉ ops_part2_W) :
    after ops V (Proc.devRef .tc r) = V (Proc.devRef .tc r) := by
  rw [after_ops, part2_keep _ r h2, part1_keep _ r h1, part0_keep _ r h0]

/-- The result buffer after the whole program: the composed term of the nine argument arrays. Window by window: the
    first window's four buffers feed the second's hypotheses, the second's five the third's; an argument array read in a
    later window is still the launch's. -/
theorem out_eq (V : Valuation τ sig (Elt F)) :
    after ops V (Proc.devRef .tc main_v133)
      = RefTerm.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  have k0 : ∀ r : Ref sig .tc, r ∉ ops_part0_W → after ops_part0 V (Proc.devRef .tc r) = V (Proc.devRef .tc r) := part0_keep V
  have k1 : ∀ r : Ref sig .tc, r ∉ ops_part0_W → r ∉ ops_part1_W →
      after ops_part1 (after ops_part0 V) (Proc.devRef .tc r) = V (Proc.devRef .tc r) :=
    fun r h0 h1 => (part1_keep _ r h1).trans (k0 r h0)
  have h13 := part0_v13 V
  have h14 := part0_v14 V
  have h44 := part0_v44 V
  have h45 : after ops_part0 V (Proc.devRef .tc main_v45)
      = RefTerm.t_v45 (after ops_part0 V (Proc.devRef .tc main_arg7)) (after ops_part0 V (Proc.devRef .tc main_arg8)) := by
    rw [k0 main_arg7 (by decide), k0 main_arg8 (by decide)]; exact part0_v45 V
  rw [after_ops,
    part2_v133 (after ops_part1 (after ops_part0 V)) _ _ _ (part1_v62 _) (part1_v82 _ h13 h14 h44 h45) (part1_v90 _ h13)
      (part1_v93 _ h13 h14 h44 h45) (part1_cst_23 _),
    k1 main_arg3 (by decide) (by decide), k1 main_arg4 (by decide) (by decide), k1 main_arg5 (by decide) (by decide),
    k1 main_arg6 (by decide) (by decide),
    k0 main_arg0 (by decide), k0 main_arg1 (by decide), k0 main_arg2 (by decide), k0 main_arg7 (by decide), k0 main_arg8 (by decide)]
  rfl

/-- On every device, for any float values, from any memory with zero counters: every weakly fair execution of @main
    terminates with the result buffer at the composed term of the argument arrays' launch contents, and the argument
    arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v133)
          = RefTerm.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8) :=
  (θ_run defs _ _).mono (fun _ h c => ⟨(h c main_v133).trans (out_eq (launchContents m c)),
      (h c main_arg0).trans (keep_all (launchContents m c) main_arg0 (by decide) (by decide) (by decide)),
      (h c main_arg1).trans (keep_all (launchContents m c) main_arg1 (by decide) (by decide) (by decide)),
      (h c main_arg2).trans (keep_all (launchContents m c) main_arg2 (by decide) (by decide) (by decide)),
      (h c main_arg3).trans (keep_all (launchContents m c) main_arg3 (by decide) (by decide) (by decide)),
      (h c main_arg4).trans (keep_all (launchContents m c) main_arg4 (by decide) (by decide) (by decide)),
      (h c main_arg5).trans (keep_all (launchContents m c) main_arg5 (by decide) (by decide) (by decide)),
      (h c main_arg6).trans (keep_all (launchContents m c) main_arg6 (by decide) (by decide) (by decide)),
      (h c main_arg7).trans (keep_all (launchContents m c) main_arg7 (by decide) (by decide) (by decide)),
      (h c main_arg8).trans (keep_all (launchContents m c) main_arg8 (by decide) (by decide) (by decide))⟩)
    (run_seq scopedRefs_eq scopedSems_eq defs main (fun _ => ops) main_eq (fun _ => ops_sub) m ρ)

end Cert.ReferenceIdeal.RefRun

end
-- ==== Proof.RefRead.lean ====
/-
  The reference's message-passing step, read at an index on the extended reals.
  The window tables are integer arrays over (position l, neighbour k): the neighbour's position l + k - 3 as a 32-bit word, the
  bit "0 ≤ l + k - 3 < 300", the position clipped into 0 … 299, and the clipped position once more normalised as an index
  (negative + 300, which never applies). A step gathers, for every (document, l, k), the feature row at the normalised clipped
  position — the gather clamps its start index into 0 … 299 —, multiplies it by the edge weight, replaces the product by the
  most negative finite number where the bit is off, takes the maximum over k from -∞, and mixes it with the features by the gate.
  Where the bit is on the row read is row l + k - 3 itself, so at (document b, position l, feature d) the step is
  `MsgPass.stepC` of the document's gates, weights and features; the readout is 0 plus the sum over the positions.
-/
import proofs.«112600_j80238579024429_2_alg».proof.Proof.RefTerm
import proofs.«112600_j80238579024429_2_alg».proof.Proof.Spec
import Idealize.ShloMosaic.Lib.Pipeline.Value
import Idealize.ShloMosaic.Lib.ValueIdx
import Idealize.ShloMosaic.Lib.IdealHost
import Idealize.ShloMosaic.PureOps.Ideal.Laws
import Idealize.ShloMosaic.PureOps.Reduce

noncomputable section

namespace Cert.ReferenceIdeal.RefRead

open Cert.ReferenceIdeal Cert.ReferenceIdeal.Gen Cert.ReferenceIdeal.RefTerm Idealize.ShloMosaic Idealize.ShloMosaic.ValueIdx Idealize.SL.Sem

/-! ## The window tables as words -/

/-- Neighbour `k` of position `l` as a word: l + (-3 + k). -/
def bNbr (l k : ℕ) : BitVec 32 := IntOp.addi (BitVec.ofNat 32 l) (IntOp.addi 4294967293#32 (BitVec.ofNat 32 k))
/-- The bit "the neighbour's position is at least 0 and less than 300". -/
def bValid (l k : ℕ) : BitVec 1 := IntOp.andi (IntOp.cmpi .sge (bNbr l k) 0#32) (IntOp.cmpi .slt (bNbr l k) 300#32)
/-- The position clipped into 0 … 299. -/
def bClip (l k : ℕ) : BitVec 32 := IntOp.minsi 299#32 (IntOp.maxsi 0#32 (bNbr l k))
/-- The clipped position normalised as an index: plus 300 if negative. -/
def bSel (l k : ℕ) : BitVec 32 :=
  Scalar.select (IntOp.cmpi .slt (bClip l k) 0#32) (IntOp.addi (bClip l k) 300#32) (bClip l k)

theorem v13_apply (l : Fin 300) (k : Fin 7) : t_v13 (F := Ideal) (ix2 l k) = bValid l.val k.val := rfl
theorem v14_apply (l : Fin 300) (k : Fin 7) : t_v14 (F := Ideal) (ix2 l k) = bClip l.val k.val := rfl
theorem s1_v68_apply (l : Fin 300) (k : Fin 7) : s1_v68 (F := Ideal) (ix3 l k 0) = bSel l.val k.val := rfl

/-- The bit is on exactly where the neighbour exists. -/
theorem valid_bits : ∀ (l : Fin 300) (k : Fin 7),
    bValid l.val k.val = if 3 ≤ l.val + k.val ∧ l.val + k.val < 303 then 1#1 else 0#1 := by decide +kernel

/-- Where it exists, the normalised clipped position, read signed and clamped into 0 … 299, is l + k - 3. -/
theorem sel_valid : ∀ (l : Fin 300) (k : Fin 7), 3 ≤ l.val + k.val ∧ l.val + k.val < 303 →
    min (bSel l.val k.val).toInt.toNat 299 = l.val + k.val - 3 := by decide +kernel

/-! ## Reading the array operations at an index -/

/-- The gather of feature rows at (b, l, k, d): the operand at the row its start index names, read signed and clamped into
    0 … 299; the document and the feature are the result's own. -/
theorem gather_rows (x : S128x300x300.Idx → EReal) (idx : IVec S300x7x1 32) (b : Fin 128) (l : Fin 300) (k : Fin 7) (d : Fin 300) :
    Host.gather gather_S128x300x300_S300x7x1_S128x300x7x300_03_1_n_n_1_2_1281300 x idx (ix4 b l k d)
      = x (ix3 b ⟨min (idx (ix3 l k 0)).toInt.toNat 299, by omega⟩ d) := by
  unfold Host.gather
  refine congrArg x (funext fun a => Fin.ext ?_)
  match a with
  | ⟨0, _⟩ =>
    show gather_S128x300x300_S300x7x1_S128x300x7x300_03_1_n_n_1_2_1281300.start (ix4 b l k d) idx 0
        + gather_S128x300x300_S300x7x1_S128x300x7x300_03_1_n_n_1_2_1281300.batchCoord (ix4 b l k d) 0
        + gather_S128x300x300_S300x7x1_S128x300x7x300_03_1_n_n_1_2_1281300.offCoord (ix4 b l k d) 0 = b.val
    have h1 : gather_S128x300x300_S300x7x1_S128x300x7x300_03_1_n_n_1_2_1281300.start (ix4 b l k d) idx 0 = 0 := rfl
    have h2 : gather_S128x300x300_S300x7x1_S128x300x7x300_03_1_n_n_1_2_1281300.batchCoord (ix4 b l k d) 0 = 0 := rfl
    have h3 : gather_S128x300x300_S300x7x1_S128x300x7x300_03_1_n_n_1_2_1281300.offCoord (ix4 b l k d) 0 = b.val := rfl
    rw [h1, h2, h3]
    omega
  | ⟨1, _⟩ =>
    have hsi : ∀ c : Fin gather_S128x300x300_S300x7x1_S128x300x7x300_03_1_n_n_1_2_1281300.startIndexMap.length,
        gather_S128x300x300_S300x7x1_S128x300x7x300_03_1_n_n_1_2_1281300.siIdx (ix4 b l k d) c = ix3 l k 0 := by
      intro c; funext q; refine Fin.ext ?_
      have hc : c.val = 0 := by
        have := c.isLt
        have hl : gather_S128x300x300_S300x7x1_S128x300x7x300_03_1_n_n_1_2_1281300.startIndexMap.length = 1 := rfl
        omega
      match q with
      | ⟨0, _⟩ => rfl
      | ⟨1, _⟩ => rfl
      | ⟨2, _⟩ => exact hc
    show gather_S128x300x300_S300x7x1_S128x300x7x300_03_1_n_n_1_2_1281300.start (ix4 b l k d) idx 1
        + gather_S128x300x300_S300x7x1_S128x300x7x300_03_1_n_n_1_2_1281300.batchCoord (ix4 b l k d) 1
        + gather_S128x300x300_S300x7x1_S128x300x7x300_03_1_n_n_1_2_1281300.offCoord (ix4 b l k d) 1 = _
    unfold GatherDims.start
    rw [dif_pos (by decide : (1 : Fin 3) ∈ gather_S128x300x300_S300x7x1_S128x300x7x300_03_1_n_n_1_2_1281300.startIndexMap), hsi]
    rfl
  | ⟨2, _⟩ =>
    show gather_S128x300x300_S300x7x1_S128x300x7x300_03_1_n_n_1_2_1281300.start (ix4 b l k d) idx 2
        + gather_S128x300x300_S300x7x1_S128x300x7x300_03_1_n_n_1_2_1281300.batchCoord (ix4 b l k d) 2
        + gather_S128x300x300_S300x7x1_S128x300x7x300_03_1_n_n_1_2_1281300.offCoord (ix4 b l k d) 2 = d.val
    have h1 : gather_S128x300x300_S300x7x1_S128x300x7x300_03_1_n_n_1_2_1281300.start (ix4 b l k d) idx 2 = 0 := rfl
    have h2 : gather_S128x300x300_S300x7x1_S128x300x7x300_03_1_n_n_1_2_1281300.batchCoord (ix4 b l k d) 2 = 0 := rfl
    have h3 : gather_S128x300x300_S300x7x1_S128x300x7x300_03_1_n_n_1_2_1281300.offCoord (ix4 b l k d) 2 = d.val := rfl
    rw [h1, h2, h3]
    omega

/-- A weight spread along the features: at (b, l, k, d) the weight at (b, l, k). -/
theorem spread_w {α : Type} (W : S128x300x7.Idx → α) (h1 h2) (b : Fin 128) (l : Fin 300) (k : Fin 7) (d : Fin 300) :
    broadcastInDim S128x300x7x300 ![0, 1, 2, 3] h2 (broadcastInDim S128x300x7x1 ![0, 1, 2] h1 W) (ix4 b l k d) = W (ix3 b l k) := by
  refine (broadcastInDim_apply _ h2 _ _ (ix4 b l k 0) fun a => ?_).trans (broadcastInDim_apply _ h1 W _ _ fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

/-- A gate column spread along the features: at (b, l, d) the gate at (b, l, 0). -/
theorem spread_e {α : Type} (E : S128x300x1.Idx → α) (h) (b : Fin 128) (l d : Fin 300) :
    broadcastInDim S128x300x300 ![0, 1, 2] h E (ix3 b l d) = E (ix3 b l 0) :=
  broadcastInDim_apply _ h E _ _ fun a => by
    match a with
    | ⟨0, _⟩ => rfl
    | ⟨1, _⟩ => rfl
    | ⟨2, _⟩ => rfl

instance : Std.Commutative (FloatOps.maximumf (F := Ideal) (φ := .f32)) := ⟨fun a b => max_comm a b⟩
instance : Std.Associative (FloatOps.maximumf (F := Ideal) (φ := .f32)) := ⟨fun a b c => max_assoc a b c⟩

/-- The maximum over the neighbour axis at (b, l, d): the fold of max from the initial value over the seven neighbours. -/
theorem reduce_max_apply (x : S128x300x7x300.Idx → EReal) (init : S_.Idx → EReal)
    (h' : S128x300x7x300.ReducesTo [2] S128x300x300) (hu : 0 < S_.numel) (b : Fin 128) (l d : Fin 300) :
    Host.reduce (FloatOps.maximumf (F := Ideal) (φ := .f32)) x init h' hu (ix3 b l d)
      = (Finset.univ : Finset (Fin 7)).fold max (init ix0) (fun k => x (ix4 b l k d)) := by
  have h : S128x300x7x300.Reduces [2] S128x300x300 := by decide
  refine (Host.reduce_eq_fold_single _ x init h' h hu (ix3 b l d)).trans ?_
  have e1 : init (Shape.Idx.first hu) = init ix0 := congrArg init (funext fun a => a.elim0)
  have e2 : (x ∘ h.lift (ix3 b l d)) = fun k : Fin 7 => x (ix4 b l k d) := by
    funext k
    refine congrArg x (funext fun a => ?_)
    match a with
    | ⟨0, _⟩ => rfl
    | ⟨1, _⟩ => rfl
    | ⟨2, _⟩ => rfl
    | ⟨3, _⟩ => rfl
  rw [e1, e2]
  rfl

/-- The sum over the positions at (b, d): the initial value plus the sum. -/
theorem reduce_add_apply (x : S128x300x300.Idx → EReal) (init : S_.Idx → EReal)
    (h' : S128x300x300.ReducesTo [1] S128x300) (hu : 0 < S_.numel) (b : Fin 128) (d : Fin 300) :
    Host.reduceAdd (F := Ideal) (φ := .f32) x init h' hu (ix2 b d) = init ix0 + ∑ l : Fin 300, x (ix3 b l d) := by
  have h : S128x300x300.Reduces [1] S128x300 := by decide
  unfold Host.reduceAdd
  rw [Ideal.hostReduceAdd_def]
  refine (Ideal.hostReduceAdd_single h' h x _ (ix2 b d)).trans ?_
  have e1 : init (Shape.Idx.first hu) = init ix0 := congrArg init (funext fun a => a.elim0)
  rw [e1]
  refine congrArg (fun s => init ix0 + s) (Finset.sum_congr rfl fun l _ => congrArg x (funext fun a => ?_))
  match a with
  | ⟨0, _⟩ => rfl
  | ⟨1, _⟩ => rfl
  | ⟨2, _⟩ => rfl

/-! ## The two steps and the readout -/

/-! ### The first step -/

theorem s1_valid_apply (b : Fin 128) (l : Fin 300) (k : Fin 7) (d : Fin 300) :
    s1_call1_v0 (F := Ideal) (ix4 b l k d) = bValid l.val k.val := rfl

theorem s1_low_apply (i : S128x300x7x300.Idx) : s1_call1_v1 (F := Ideal) i = MsgPass.low := rfl

theorem s1_one_apply (i : S128x300x1.Idx) : s1_v78 (F := Ideal) i = Ideal.ofBits .f32 0x3F800000#32 := rfl

theorem s1_bot_apply (i : S_.Idx) : s1_cst_19 (F := Ideal) i = Ideal.ofBits .f32 0xFF800000#32 := rfl

/-- A candidate of the reference: the weighted neighbour where it exists, the most negative finite number where not. -/
theorem s1_cand_apply (H : S128x300x300.Idx → EReal) (W : S128x300x7.Idx → EReal) (b : Fin 128) (l : Fin 300) (k : Fin 7)
    (d : Fin 300) :
    s1_v74 (F := Ideal) H W (ix4 b l k d)
      = MsgPass.candC (fun l k => W (ix3 b l k)) (fun l d => H (ix3 b l d)) l k d := by
  show Scalar.select (s1_call1_v0 (F := Ideal) (ix4 b l k d))
      (s1_v72 (F := Ideal) W (ix4 b l k d) * s1_v69 (F := Ideal) H (ix4 b l k d)) (s1_call1_v1 (F := Ideal) (ix4 b l k d)) = _
  rw [s1_valid_apply, s1_low_apply, valid_bits]
  unfold MsgPass.candC
  by_cases hv : MsgPass.Valid l k
  · have hv' : 3 ≤ l.val + k.val ∧ l.val + k.val < 303 := hv
    rw [if_pos hv', dif_pos hv, select_one]
    have hw : s1_v72 (F := Ideal) W (ix4 b l k d) = W (ix3 b l k) := spread_w W _ _ b l k d
    have hg : s1_v69 (F := Ideal) H (ix4 b l k d) = H (ix3 b ⟨l.val + k.val - 3, by omega⟩ d) := by
      show Host.gather _ H (s1_v68 (F := Ideal)) (ix4 b l k d) = _
      rw [gather_rows]
      refine congrArg H ?_
      funext a
      match a with
      | ⟨0, _⟩ => rfl
      | ⟨1, _⟩ => exact Fin.ext (by show min (s1_v68 (F := Ideal) (ix3 l k 0)).toInt.toNat 299 = _; rw [s1_v68_apply]; exact sel_valid l k hv')
      | ⟨2, _⟩ => rfl
    rw [hw, hg]
  · have hv' : ¬ (3 ≤ l.val + k.val ∧ l.val + k.val < 303) := hv
    rw [if_neg hv', dif_neg hv, select_zero]

/-- THE STEP of the reference at (document b, position l, feature d). -/
theorem s1_step_apply (E : S128x300x1.Idx → EReal) (H : S128x300x300.Idx → EReal) (W : S128x300x7.Idx → EReal)
    (b : Fin 128) (l d : Fin 300) :
    s1_v82 (F := Ideal) E H W (ix3 b l d)
      = MsgPass.stepC (fun l => E (ix3 b l 0)) (fun l k => W (ix3 b l k)) (fun l d => H (ix3 b l d)) l d := by
  show s1_v76 (F := Ideal) E (ix3 b l d) * H (ix3 b l d)
      + s1_v80 (F := Ideal) E (ix3 b l d) * s1_v75 (F := Ideal) H W (ix3 b l d) = _
  have h76 : s1_v76 (F := Ideal) E (ix3 b l d) = E (ix3 b l 0) := spread_e E _ b l d
  have h80 : s1_v80 (F := Ideal) E (ix3 b l d) = 1 - E (ix3 b l 0) := by
    refine (spread_e (s1_v79 (F := Ideal) E) _ b l d).trans ?_
    show s1_v78 (F := Ideal) (ix3 b l 0) - E (ix3 b l 0) = _
    rw [s1_one_apply, Ideal.ofBits_one_f32]
  have h75 : s1_v75 (F := Ideal) H W (ix3 b l d)
      = MsgPass.msgC (fun l k => W (ix3 b l k)) (fun l d => H (ix3 b l d)) l d := by
    unfold s1_v75
    dsimp only
    rw [reduce_max_apply, s1_bot_apply]
    unfold MsgPass.msgC
    have hbot : Ideal.ofBits .f32 0xFF800000#32 = (⊥ : EReal) := by simp [Ideal.ofBits, Ideal.ieee]
    rw [hbot]
    refine congrArg (fun f => (Finset.univ : Finset (Fin 7)).fold max ⊥ f) ?_
    funext k
    exact s1_cand_apply H W b l k d
  rw [h76, h80, h75]
  rfl

/-! ### The second step

The second step applies the same operations again, to the first step's result. -/

/-- The second step is the first step's function. -/
theorem s2_eq_s1 (E : S128x300x1.Idx → EReal) (H : S128x300x300.Idx → EReal) (W : S128x300x7.Idx → EReal) :
    s2_v102 (F := Ideal) E H W = s1_v82 (F := Ideal) E H W := rfl

/-- THE READOUT of the reference at (document b, feature d): two steps by cases and the sum over the positions. -/
theorem readout_apply (E : S128x300x1.Idx → EReal) (H : S128x300x300.Idx → EReal) (W : S128x300x7.Idx → EReal)
    (b : Fin 128) (d : Fin 300) :
    p_v103 (F := Ideal) (s2_v102 (F := Ideal) E (s1_v82 (F := Ideal) E H W) W) (ix2 b d)
      = MsgPass.pooledC (fun l => E (ix3 b l 0)) (fun l k => W (ix3 b l k)) (fun l d => H (ix3 b l d)) d := by
  show Host.reduceAdd (F := Ideal) (φ := .f32) (s2_v102 (F := Ideal) E (s1_v82 (F := Ideal) E H W) W) (p_cst_26 (F := Ideal)) _ _ (ix2 b d) = _
  rw [reduce_add_apply]
  have hz : p_cst_26 (F := Ideal) ix0 = 0 := Ideal.ofBits_zero_f32
  rw [hz, zero_add]
  unfold MsgPass.pooledC
  refine Finset.sum_congr rfl fun l _ => ?_
  rw [s2_eq_s1, s1_step_apply]
  refine congrArg (fun h => MsgPass.stepC (fun l => E (ix3 b l 0)) (fun l k => W (ix3 b l k)) h l d) ?_
  funext l' d'
  exact s1_step_apply E H W b l' d'

end Cert.ReferenceIdeal.RefRead

end
-- ==== Proof.Bridge.lean ====
/-
  The two programs' host operations, compared. Before the message passing both programs compute the same window tables and
  make the same gathers: the edge weights, the node features and the gates are the same functions of the argument arrays in
  both, operation for operation; after the readout both apply the same operations (relu, batch statistics, normalisation,
  the linear layer, the sigmoid) to the readout. The one difference before the launch: the kernel's program replaces the
  weight by 1 where the neighbour does not exist — `MsgPass.weff` of the weights.
-/
import proofs.«112600_j80238579024429_2_alg».proof.Proof.KerTerm
import proofs.«112600_j80238579024429_2_alg».proof.Proof.RefTerm
import proofs.«112600_j80238579024429_2_alg».proof.Proof.RefRead

noncomputable section

namespace Cert.Bridge

open Idealize.ShloMosaic Idealize.ShloMosaic.ValueIdx Idealize.SL.Sem

/-- The kernel's program's validity bit, spread over the documents, at (b, l, k): the bit of (l, k). -/
theorem ker_valid_apply (b : Fin 128) (l : Fin 300) (k : Fin 7) :
    Cert.KernelIdeal.KerTerm.t_call1_v1 (F := Ideal) (ix3 b l k) = Cert.ReferenceIdeal.RefRead.bValid l.val k.val := rfl

theorem ker_one_apply (i : Cert.KernelIdeal.S128x300x7.Idx) :
    Cert.KernelIdeal.KerTerm.t_call1_v2 (F := Ideal) i = Ideal.ofBits .f32 0x3F800000#32 := rfl

/-- The weights the launch reads are the gathered weights with 1 where the neighbour does not exist. -/
theorem weff_apply (a2 : (⟨Cert.KernelIdeal.S2000000x1, .f32⟩ : BufTy).Contents (Elt Ideal))
    (a7 : (⟨Cert.KernelIdeal.S128x300, .i32⟩ : BufTy).Contents (Elt Ideal))
    (a8 : (⟨Cert.KernelIdeal.S8000x8000, .i32⟩ : BufTy).Contents (Elt Ideal)) (b : Fin 128) (l : Fin 300) (k : Fin 7) :
    Cert.KernelIdeal.KerTerm.t_v50 (F := Ideal) a2 a7 a8 (ix3 b l k)
      = MsgPass.weff (fun l k => Cert.KernelIdeal.KerTerm.t_v48 (F := Ideal) a2 a7 a8 (ix3 b l k)) l k := by
  show Scalar.select (Cert.KernelIdeal.KerTerm.t_call1_v1 (F := Ideal) (ix3 b l k))
      (Cert.KernelIdeal.KerTerm.t_v48 (F := Ideal) a2 a7 a8 (ix3 b l k)) (Cert.KernelIdeal.KerTerm.t_call1_v2 (F := Ideal) (ix3 b l k)) = _
  rw [ker_valid_apply, ker_one_apply, Cert.ReferenceIdeal.RefRead.valid_bits, Ideal.ofBits_one_f32]
  unfold MsgPass.weff
  by_cases hv : MsgPass.Valid l k
  · have hv' : 3 ≤ l.val + k.val ∧ l.val + k.val < 303 := hv
    rw [if_pos hv', if_pos hv, select_one]
  · have hv' : ¬ (3 ≤ l.val + k.val ∧ l.val + k.val < 303) := hv
    rw [if_neg hv', if_neg hv, select_zero]

variable {F : FTy → Type} [FloatOps F]

/-- The gathered edge weights are one function of the argument arrays in both programs. -/
theorem w_eq (a2 : (⟨Cert.KernelIdeal.S2000000x1, .f32⟩ : BufTy).Contents (Elt F))
    (a7 : (⟨Cert.KernelIdeal.S128x300, .i32⟩ : BufTy).Contents (Elt F))
    (a8 : (⟨Cert.KernelIdeal.S8000x8000, .i32⟩ : BufTy).Contents (Elt F)) :
    Cert.KernelIdeal.KerTerm.t_v48 (F := F) a2 a7 a8 = Cert.ReferenceIdeal.RefTerm.t_v48 (F := F) a2 a7 a8 := rfl

/-- So are the gathered node features, -/
theorem h_eq (a0 : (⟨Cert.KernelIdeal.S8000x300, .f32⟩ : BufTy).Contents (Elt F))
    (a7 : (⟨Cert.KernelIdeal.S128x300, .i32⟩ : BufTy).Contents (Elt F)) :
    Cert.KernelIdeal.KerTerm.t_v57 (F := F) a0 a7 = Cert.ReferenceIdeal.RefTerm.t_v55 (F := F) a0 a7 := rfl

/-- and the gathered gates. -/
theorem e_eq (a1 : (⟨Cert.KernelIdeal.S8000x1, .f32⟩ : BufTy).Contents (Elt F))
    (a7 : (⟨Cert.KernelIdeal.S128x300, .i32⟩ : BufTy).Contents (Elt F)) :
    Cert.KernelIdeal.KerTerm.t_v64 (F := F) a1 a7 = Cert.ReferenceIdeal.RefTerm.t_v62 (F := F) a1 a7 := rfl

/-- What follows the readout is one function of the readout and the argument arrays in both programs. -/
theorem tail_eq (P : (⟨Cert.KernelIdeal.S128x300, .f32⟩ : BufTy).Contents (Elt F))
    (a3 : (⟨Cert.KernelIdeal.S300, .f32⟩ : BufTy).Contents (Elt F)) (a4 : (⟨Cert.KernelIdeal.S300, .f32⟩ : BufTy).Contents (Elt F))
    (a5 : (⟨Cert.KernelIdeal.S300x54, .f32⟩ : BufTy).Contents (Elt F)) (a6 : (⟨Cert.KernelIdeal.S54, .f32⟩ : BufTy).Contents (Elt F)) :
    Cert.KernelIdeal.KerTerm.tl_v95 (F := F) P a3 a4 a5 a6 = Cert.ReferenceIdeal.RefTerm.tl_v133 (F := F) P a3 a4 a5 a6 := rfl

end Cert.Bridge

end
-- ==== Proof.lean ====
/-
  Two message-passing steps over sliding-window document graphs, a sum readout, batch normalisation, a linear layer and a
  sigmoid: the kernel's program against the reference, on the extended reals.

  Both programs gather, from the argument arrays, each document's node features h (300 positions × 300 features), gates eta
  and edge weights w (position l, neighbour k = 0 … 6, the neighbour being position l + k - 3). A step replaces h by
      eta l · h l d + (1 - eta l) · max over k of c l k d,
  and the readout sums the result of two steps over the positions; what follows the readout is the same chain of operations
  in both programs, applied to the readout, and is never opened here.

  The reference takes c l k d = w l k · h (l + k - 3) d where the neighbour exists and the most negative finite number where
  it does not (a select on the validity bit, after a gather at the clipped position), and the maximum from -∞.
  The kernel's program first sets the weight to 1 where the neighbour does not exist, and its kernel, for eight documents per
  grid point, keeps h in the middle rows of a scratch buffer with three rows of the most negative finite number before and
  after them: c l k d = w' l k · padded (l + k) d, the seven candidates combined by nested maxima.
  The two candidates agree everywhere (1 · x = x; the padded row is the feature row where the neighbour exists), the fold of
  max from -∞ is the nested maximum, so the steps, the readouts and the results agree: `result_eq`. No step uses that an
  input is finite.

-/
import proofs.«112600_j80238579024429_2_alg».proof.Defs
import proofs.«112600_j80238579024429_2_alg».proof.Proof.Gen.Kernel
import proofs.«112600_j80238579024429_2_alg».proof.Proof.Gen.Kernel.Skeleton
import proofs.«112600_j80238579024429_2_alg».proof.Proof.Gen.Kernel.Launch
import proofs.«112600_j80238579024429_2_alg».proof.Proof.Gen.Kernel.Points
import proofs.«112600_j80238579024429_2_alg».proof.Proof.Gen.Kernel.Frame
import proofs.«112600_j80238579024429_2_alg».proof.Proof.Gen.KernelIdeal
import proofs.«112600_j80238579024429_2_alg».proof.Proof.Gen.KernelIdeal.Skeleton
import proofs.«112600_j80238579024429_2_alg».proof.Proof.Gen.KernelIdeal.Launch
import proofs.«112600_j80238579024429_2_alg».proof.Proof.Gen.KernelIdeal.Points
import proofs.«112600_j80238579024429_2_alg».proof.Proof.Gen.KernelIdeal.Frame
import proofs.«112600_j80238579024429_2_alg».proof.Proof.Gen.ReferenceIdeal
import proofs.«112600_j80238579024429_2_alg».proof.Proof.Gen.Pre_finite_inputs
import proofs.«112600_j80238579024429_2_alg».proof.Proof.KerRun
import proofs.«112600_j80238579024429_2_alg».proof.Proof.RefRun
import proofs.«112600_j80238579024429_2_alg».proof.Proof.RefRead
import proofs.«112600_j80238579024429_2_alg».proof.Proof.Bridge
import Idealize.ShloMosaic.Adequacy
import Idealize.ShloMosaic.Init

noncomputable section

namespace Cert.Proof

open Idealize.ShloMosaic Idealize.ShloMosaic.ValueIdx Idealize.SL.Sem

/-- THE TWO RESULTS ARE ONE FUNCTION of the nine argument arrays. -/
theorem result_eq (a0 : (⟨Cert.KernelIdeal.S8000x300, .f32⟩ : BufTy).Contents (Elt Ideal))
    (a1 : (⟨Cert.KernelIdeal.S8000x1, .f32⟩ : BufTy).Contents (Elt Ideal))
    (a2 : (⟨Cert.KernelIdeal.S2000000x1, .f32⟩ : BufTy).Contents (Elt Ideal))
    (a3 : (⟨Cert.KernelIdeal.S300, .f32⟩ : BufTy).Contents (Elt Ideal))
    (a4 : (⟨Cert.KernelIdeal.S300, .f32⟩ : BufTy).Contents (Elt Ideal))
    (a5 : (⟨Cert.KernelIdeal.S300x54, .f32⟩ : BufTy).Contents (Elt Ideal))
    (a6 : (⟨Cert.KernelIdeal.S54, .f32⟩ : BufTy).Contents (Elt Ideal))
    (a7 : (⟨Cert.KernelIdeal.S128x300, .i32⟩ : BufTy).Contents (Elt Ideal))
    (a8 : (⟨Cert.KernelIdeal.S8000x8000, .i32⟩ : BufTy).Contents (Elt Ideal)) :
    Cert.KernelIdeal.KerTerm.tl_v95 (F := Ideal)
        (Cert.KernelIdeal.Blocks.G (Cert.KernelIdeal.KerTerm.t_v57 (F := Ideal) a0 a7) (Cert.KernelIdeal.KerTerm.t_v64 (F := Ideal) a1 a7)
          (Cert.KernelIdeal.KerTerm.t_v50 (F := Ideal) a2 a7 a8)) a3 a4 a5 a6
      = Cert.ReferenceIdeal.RefTerm.out (F := Ideal) a0 a1 a2 a3 a4 a5 a6 a7 a8 := by
  unfold Cert.ReferenceIdeal.RefTerm.out
  rw [Cert.Bridge.tail_eq]
  refine congrArg (fun P => Cert.ReferenceIdeal.RefTerm.tl_v133 (F := Ideal) P a3 a4 a5 a6) ?_
  funext i
  obtain ⟨b, d, rfl⟩ : ∃ (b : Fin 128) (d : Fin 300), i = ix2 b d := ⟨i 0, i 1, eq_ix2 i⟩
  rw [Cert.ReferenceIdeal.RefRead.readout_apply]
  show MsgPass.pooledP (fun l => Cert.KernelIdeal.KerTerm.t_v64 (F := Ideal) a1 a7 (ix3 b l 0))
      (fun l k => Cert.KernelIdeal.KerTerm.t_v50 (F := Ideal) a2 a7 a8 (ix3 b l k))
      (fun l d' => Cert.KernelIdeal.KerTerm.t_v57 (F := Ideal) a0 a7 (ix3 b l d')) d = _
  have hw : (fun l k => Cert.KernelIdeal.KerTerm.t_v50 (F := Ideal) a2 a7 a8 (ix3 b l k))
      = MsgPass.weff (fun l k => Cert.ReferenceIdeal.RefTerm.t_v48 (F := Ideal) a2 a7 a8 (ix3 b l k)) := by
    funext l k
    rw [Cert.Bridge.weff_apply, Cert.Bridge.w_eq]
  rw [hw, MsgPass.pooledP_weff, Cert.Bridge.e_eq, Cert.Bridge.h_eq]

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- At the extended reals the two programs, run from memories that agree on the arguments, end with the same result. -/
theorem algebraic : Cert.algebraic_KernelIdeal_ReferenceIdeal := by
  intro m ρ m' ρ' _ hagree
  refine ⟨fun c => Cert.KernelIdeal.KerTerm.tl_v95 (F := Ideal)
      (Cert.KernelIdeal.Blocks.G (Cert.KernelIdeal.KerTerm.t_v57 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg7)))
        (Cert.KernelIdeal.KerTerm.t_v64 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg7)))
        (Cert.KernelIdeal.KerTerm.t_v50 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Blocks.run m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7, e8⟩ := hagree c
  rw [e0, e1, e2, e3, e4, e5, e6, e7, e8]
  exact (result_eq _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
